-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v94) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128 : Shape := ⟨1, ![128]⟩
abbrev S128x128 : Shape := ⟨2, ![128, 128]⟩
abbrev S384x128 : Shape := ⟨2, ![384, 128]⟩
abbrev S256x64 : Shape := ⟨2, ![256, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S64 .f32) (main_v48 : IVec S_ 1) (main_v49 : FVec F S256x64 .f32) (main_v50 : FVec F S256x64 .f32) : IVec S_ 1 :=
  let main_v51 : IVec S256x64 1 := cmpf .olt main_v49 main_v50
  let main_c_19 : IVec S_ 1 := constantI S_ 1 1#1
  let main_v52 : IVec S_ 1 := (fun x v => Host.reduce IntOp.andi x v reducesTo_S256x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  main_v58

def fn_part2 {F : FTy → Type} [FloatOps F] (main_arg8 : FVec F S128 .f32) (main_arg9 : FVec F S256x64 .f32) (main_arg10 : FVec F S64 .f32) (main_arg11 : FVec F S256x64 .f32) (main_arg12 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S256x64 .f32 := Host.absf main_arg9
  let main_cst_14 : FVec F S_ .f32 := constant S_ .f32 0x7F800000#32
  let main_v40 : FVec F S256x64 .f32 := broadcastInDim S256x64 ![] bcast_S_S256x64 main_cst_14
  let main_v41 : IVec S256x64 1 := cmpf .olt main_v39 main_v40
  let main_c_15 : IVec S_ 1 := constantI S_ 1 1#1
  let main_v42 : IVec S_ 1 := (fun x v => Host.reduce IntOp.andi x v reducesTo_S256x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S256x64 .f32 := Host.absf main_arg11
  let main_cst_18 : FVec F S_ .f32 := constant S_ .f32 0x7F800000#32
  let main_v50 : FVec F S256x64 .f32 := broadcastInDim S256x64 ![] bcast_S_S256x64 main_cst_18
  fn_part3 (F := F) main_arg12 main_v48 main_v49 main_v50

def fn_part1 {F : FTy → Type} [FloatOps F] (main_arg5 : FVec F S128x128 .f32) (main_arg6 : FVec F S128 .f32) (main_arg7 : FVec F S384x128 .f32) (main_arg8 : FVec F S128 .f32) (main_arg9 : FVec F S256x64 .f32) (main_arg10 : FVec F S64 .f32) (main_arg11 : FVec F S256x64 .f32) (main_arg12 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S384x128 .f32 := Host.absf main_arg7
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x128 .f32) (main_arg1 : FVec F S100000x128 .f32) (main_arg2 : IVec S2x800000 32) (main_arg3 : FVec F S128 .f32) (main_arg4 : FVec F S128 .f32) (main_arg5 : FVec F S128x128 .f32) (main_arg6 : FVec F S128 .f32) (main_arg7 : FVec F S384x128 .f32) (main_arg8 : FVec F S128 .f32) (main_arg9 : FVec F S256x64 .f32) (main_arg10 : FVec F S64 .f32) (main_arg11 : FVec F S256x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S100000x128 : Shape := ⟨2, ![100000, 128]⟩
abbrev S2x800000 : Shape := ⟨2, ![2, 800000]⟩
abbrev S128 : Shape := ⟨1, ![128]⟩
abbrev S128x128 : Shape := ⟨2, ![128, 128]⟩
abbrev S384x128 : Shape := ⟨2, ![384, 128]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S1x128 : Shape := ⟨2, ![1, 128]⟩
abbrev S4000x128 : Shape := ⟨2, ![4000, 128]⟩
abbrev S100000x1 : Shape := ⟨2, ![100000, 1]⟩
abbrev S900000x128 : Shape := ⟨2, ![900000, 128]⟩
abbrev S256x128 : Shape := ⟨2, ![256, 128]⟩
abbrev S100000x64 : Shape := ⟨2, ![100000, 64]⟩
abbrev S1x64 : Shape := ⟨2, ![1, 64]⟩

abbrev nBuf : Space → Nat
  | .hbm => 149
  | .vmem => 32
  | .smem => 0
  | _ => 0

abbrev hbmTy0_0 (i : Nat) : BufTy := match i % 128 with
  | 0 => ⟨S100000x128, .f32⟩
  | 1 => ⟨S100000x128, .f32⟩
  | 2 => ⟨S2x800000, .i32⟩
  | 3 => ⟨S128, .f32⟩
  | 4 => ⟨S128, .f32⟩
  | 5 => ⟨S128x128, .f32⟩
  | 6 => ⟨S128, .f32⟩
  | 7 => ⟨S384x128, .f32⟩
  | 8 => ⟨S128, .f32⟩
  | 9 => ⟨S256x64, .f32⟩
  | 10 => ⟨S64, .f32⟩
  | 11 => ⟨S256x64, .f32⟩
  | 12 => ⟨S64, .f32⟩
  | 13 => ⟨S100000, .i32⟩
  | 14 => ⟨S1x800000, .i32⟩
  | 15 => ⟨S800000, .i32⟩
  | 16 => ⟨S900000, .i32⟩
  | 17 => ⟨S1x800000, .i32⟩
  | 18 => ⟨S800000, .i32⟩
  | 19 => ⟨S900000, .i32⟩
  | 20 => ⟨S_, .f32⟩
  | 21 => ⟨S900000, .f32⟩
  | 22 => ⟨S_, .f32⟩
  | 23 => ⟨S100000, .f32⟩
  | 24 => ⟨S900000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .f32⟩
  | 38 => ⟨S128, .f32⟩
  | 39 => ⟨S_, .f32⟩
  | 40 => ⟨S128, .f32⟩
  | 41 => ⟨S128, .f32⟩
  | 42 => ⟨S_, .i32⟩
  | 43 => ⟨S_, .f32⟩
  | 44 => ⟨S128, .f32⟩
  | 45 => ⟨S1x128, .f32⟩
  | 46 => ⟨S_, .f32⟩
  | 47 => ⟨S1x128, .f32⟩
  | 48 => ⟨S1x128, .f32⟩
  | 49 => ⟨S100000x128, .f32⟩
  | 50 => ⟨S100000x128, .f32⟩
  | 51 => ⟨S100000x128, .f32⟩
  | 52 => ⟨S_, .f32⟩
  | 53 => ⟨S_, .f32⟩
  | 54 => ⟨S_, .f32⟩
  | 55 => ⟨S_, .f32⟩
  | 56 => ⟨S128, .f32⟩
  | 57 => ⟨S128, .f32⟩
  | 58 => ⟨S128, .f32⟩
  | 59 => ⟨S_, .f32⟩
  | 60 => ⟨S_, .i1⟩
  | 61 => ⟨S_, .f32⟩
  | 62 => ⟨S_, .f32⟩
  | 63 => ⟨S128, .f32⟩
  | 64 => ⟨S128, .f32⟩
  | 65 => ⟨S100000x128, .f32⟩
  | 66 => ⟨S100000x128, .bf16⟩
  | 67 => ⟨S100000x128, .f32⟩
  | 68 => ⟨S100000x1, .f32⟩
  | 69 => ⟨S100000x128, .f32⟩
  | 70 => ⟨S100000x128, .f32⟩
  | 71 => ⟨S100000x128, .bf16⟩
  | 72 => ⟨S_, .i32⟩
  | 73 => ⟨S900000, .i32⟩
  | 74 => ⟨S900000, .i1⟩
  | 75 => ⟨S_, .i32⟩
  | 76 => ⟨S900000, .i32⟩
  | 77 => ⟨S900000, .i32⟩
  | 78 => ⟨S900000, .i32⟩
  | 79 => ⟨S900000x1, .i32⟩
  | 80 => ⟨S900000x128, .bf16⟩
  | 81 => ⟨S900000x128, .f32⟩
  | 82 => ⟨S100000x1, .f32⟩
  | 83 => ⟨S_, .f32⟩
  | 84 => ⟨S100000x128, .f32⟩
  | 85 => ⟨S900000x1, .i32⟩
  | 86 => ⟨S100000x128, .f32⟩
  | 87 => ⟨S100000x128, .f32⟩
  | 88 => ⟨S100000x128, .f32⟩
  | 89 => ⟨S128x128, .f32⟩
  | 90 => ⟨S128x128, .f32⟩
  | 91 => ⟨S128x128, .f32⟩
  | 92 => ⟨S100000x128, .bf16⟩
  | 93 => ⟨S100000x128, .f32⟩
  | 94 => ⟨S100000x1, .f32⟩
  | 95 => ⟨S100000x128, .f32⟩
  | 96 => ⟨S100000x128, .f32⟩
  | 97 => ⟨S100000x128, .bf16⟩
  | 98 => ⟨S_, .i32⟩
  | 99 => ⟨S900000, .i32⟩
  | 100 => ⟨S900000, .i1⟩
  | 101 => ⟨S_, .i32⟩
  | 102 => ⟨S900000, .i32⟩
  | 103 => ⟨S900000, .i32⟩
  | 104 => ⟨S900000, .i32⟩
  | 105 => ⟨S900000x1, .i32⟩
  | 106 => ⟨S900000x128, .bf16⟩
  | 107 => ⟨S900000x128, .f32⟩
  | 108 => ⟨S100000x1, .f32⟩
  | 109 => ⟨S_, .f32⟩
  | 110 => ⟨S100000x128, .f32⟩
  | 111 => ⟨S900000x1, .i32⟩
  | 112 => ⟨S100000x128, .f32⟩
  | 113 => ⟨S100000x128, .f32⟩
  | 114 => ⟨S100000x128, .f32⟩
  | 115 => ⟨S256x128, .f32⟩
  | 116 => ⟨S128x128, .f32⟩
  | 117 => ⟨S128x128, .f32⟩
  | 118 => ⟨S100000x128, .bf16⟩
  | 119 => ⟨S100000x128, .f32⟩
  | 120 => ⟨S100000x1, .f32⟩
  | 121 => ⟨S100000x128, .f32⟩
  | 122 => ⟨S100000x128, .f32⟩
  | 123 => ⟨S100000x128, .bf16⟩
  | 124 => ⟨S_, .i32⟩
  | 125 => ⟨S900000, .i32⟩
  | 126 => ⟨S900000, .i1⟩
  | 127 => ⟨S_, .i32⟩
  | _ => ⟨S100000x128, .f32⟩

abbrev hbmTy0_1 (i : Nat) : BufTy := match i % 128 with
  | 0 => ⟨S900000, .i32⟩
  | 1 => ⟨S900000, .i32⟩
  | 2 => ⟨S900000, .i32⟩
  | 3 => ⟨S900000x1, .i32⟩
  | 4 => ⟨S900000x128, .bf16⟩
  | 5 => ⟨S900000x128, .f32⟩
  | 6 => ⟨S100000x1, .f32⟩
  | 7 => ⟨S_, .f32⟩
  | 8 => ⟨S100000x128, .f32⟩
  | 9 => ⟨S900000x1, .i32⟩
  | 10 => ⟨S100000x128, .f32⟩
  | 11 => ⟨S100000x128, .f32⟩
  | 12 => ⟨S100000x128, .f32⟩
  | 13 => ⟨S100000x64, .f32⟩
  | 14 => ⟨S1x64, .f32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S4000x128, .f32⟩
  | .local _ .vmem, ⟨8, _⟩ => ⟨S4000x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S4000x128, .bf16⟩
  | .local _ .vmem, ⟨22, _⟩ => ⟨S4000x128, .bf16⟩
  | .local _ .vmem, ⟨23, _⟩ => ⟨S4000x128, .f32⟩
  | .local _ .vmem, ⟨24, _⟩ => ⟨S4000x128, .f32⟩
  | .local _ .vmem, ⟨25, _⟩ => ⟨S128, .f32⟩
  | .local _ .vmem, ⟨26, _⟩ => ⟨S4000x128, .f32⟩
  | .local _ .vmem, ⟨27, _⟩ => ⟨S4000x128, .f32⟩
  | .local _ .vmem, ⟨28, _⟩ => ⟨S128x128, .f32⟩
  | .local _ .vmem, ⟨29, _⟩ => ⟨S128x128, .f32⟩
  | .local _ .vmem, ⟨30, _⟩ => ⟨S4000x128, .bf16⟩
  | .local _ .vmem, ⟨31, _⟩ => ⟨S4000x128, .bf16⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_cst_4 : Ref sig .tc := ⟨.hbm, 37, rfl⟩
abbrev main_v17 : Ref sig .tc := ⟨.hbm, 38, rfl⟩
abbrev main_cst_5 : Ref sig .tc := ⟨.hbm, 39, rfl⟩
abbrev main_v18 : Ref sig .tc := ⟨.hbm, 40, rfl⟩
abbrev main_v19 : Ref sig .tc := ⟨.hbm, 41, rfl⟩
abbrev main_c : Ref sig .tc := ⟨.hbm, 42, rfl⟩
abbrev main_call1_cst : Ref sig .tc := ⟨.hbm, 43, rfl⟩
abbrev main_call1_v0 : Ref sig .tc := ⟨.hbm, 44, rfl⟩
abbrev main_call1_v1 : Ref sig .tc := ⟨.hbm, 45, rfl⟩
abbrev main_call1_cst_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_cst_1 : Ref sig .tc := ⟨.hbm, 53, rfl⟩
abbrev main_call1_v8 : Ref sig .tc := ⟨.hbm, 54, rfl⟩
abbrev main_call1_cst_2 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_cst_3 : Ref sig .tc := ⟨.hbm, 59, rfl⟩
abbrev main_call1_v12 : Ref sig .tc := ⟨.hbm, 60, rfl⟩
abbrev main_call1_cst_4 : Ref sig .tc := ⟨.hbm, 61, rfl⟩
abbrev main_call1_call0_v0 : Ref sig .tc := ⟨.hbm, 62, rfl⟩
abbrev main_call1_call0_v1 : Ref sig .tc := ⟨.hbm, 63, rfl⟩
abbrev main_v20 : Ref sig .tc := ⟨.hbm, 64, rfl⟩
abbrev main_v21_0 : Ref sig .tc := ⟨.hbm, 65, rfl⟩
abbrev main_v21_1 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_c_6 : Ref sig .tc := ⟨.hbm, 72, rfl⟩
abbrev main_v27 : Ref sig .tc := ⟨.hbm, 73, rfl⟩
abbrev main_v28 : Ref sig .tc := ⟨.hbm, 74, rfl⟩
abbrev main_c_7 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst_8 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_9 : Ref sig .tc := ⟨.hbm, 98, rfl⟩
abbrev main_v50 : Ref sig .tc := ⟨.hbm, 99, rfl⟩
abbrev main_v51 : Ref sig .tc := ⟨.hbm, 100, rfl⟩
abbrev main_c_10 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_11 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_c_12 : Ref sig .tc := ⟨.hbm, 124, rfl⟩
abbrev main_v73 : Ref sig .tc := ⟨.hbm, 125, rfl⟩
abbrev main_v74 : Ref sig .tc := ⟨.hbm, 126, rfl⟩
abbrev main_c_13 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_cst_14 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  inb_S4000x128_S4000x128_0_0 : ∀ a, (![0, 0] : Fin 2 → Nat) a + S4000x128.size a ≤ S4000x128.size a
  h_S4000x128 : 0 < S4000x128.numel
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S4000x128_S4000x128_0_0 : (Rect.unit (s := S4000x128) ![0, 0] S4000x128.size inb_S4000x128_S4000x128_0_0).PackedRows (EltTy.packing .bf16)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S4000x128_S4000x128 : S4000x128.ShapeCasts S4000x128
  shapeCasts_S128x128_S128x128 : S128x128.ShapeCasts S128x128
  concatenates_S256x64_S256x64_S256x128_d1 : Shape.Concatenates [S256x64, S256x64] S256x128 1
  slices_S256x128_S128x128_0_0 : S256x128.Slices ![0, 0] S128x128
  slices_S256x128_S128x128_128_0 : S256x128.Slices ![128, 0] S128x128
  slices_S100000x128_S100000x64_0_0 : S100000x128.Slices ![0, 0] S100000x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S100000x128_S100000x64_0_64 : S100000x128.Slices ![0, 64] S100000x64
  scatter_S100000_S900000x1_S900000_n_0_0_1_wf : ScatterDims.WF S100000 S900000x1 S900000 [] [0] [0] 1
  dot_S4000x128_S128x128_S4000x128_1_0_0_1_n_n_wf : DotDims.WF S4000x128 S128x128 S4000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128.size a ≤ S128.size a
  hwx0_1 : ∀ i : grid0.Coords, EltTy.bits .f32 = 32 ∨ (Rect.block (s := S128) S128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S100000x128.size a
  hwx0_7 : ∀ i : grid0.Coords, EltTy.bits .bf16 = 32 ∨ (Rect.block (s := S100000x128) S4000x128.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .bf16 = 32 ∨ (Rect.block (s := S100000x128) S4000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x128.size a ≤ S100000x128.size a
  hwx2_2 : ∀ i : grid2.Coords, EltTy.bits .f32 = 32 ∨ (Rect.block (s := S100000x128) S4000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .bf16 = 32 ∨ (Rect.block (s := S100000x128) S4000x128.size (cc2_transform_5 i) (hinb2_5 i)).WholeWords (EltTy.packing .bf16)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_1) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21_0) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S4000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v63) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21_0) S4000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v65) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128 : Shape := ⟨1, ![128]⟩
abbrev S128x128 : Shape := ⟨2, ![128, 128]⟩
abbrev S384x128 : Shape := ⟨2, ![384, 128]⟩
abbrev S256x64 : Shape := ⟨2, ![256, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S1x128 : Shape := ⟨2, ![1, 128]⟩
abbrev S900000x128 : Shape := ⟨2, ![900000, 128]⟩
abbrev S100000x384 : Shape := ⟨2, ![100000, 384]⟩
abbrev S100000x256 : Shape := ⟨2, ![100000, 256]⟩
abbrev S100000x64 : Shape := ⟨2, ![100000, 64]⟩
abbrev S900000x64 : Shape := ⟨2, ![900000, 64]⟩
abbrev S1x64 : Shape := ⟨2, ![1, 64]⟩

abbrev nBuf : Space → Nat
  | .hbm => 188
  | .vmem => 0
  | .smem => 0
  | _ => 0

abbrev hbmTy0_0 (i : Nat) : BufTy := match i % 128 with
  | 0 => ⟨S100000x128, .f32⟩
  | 1 => ⟨S100000x128, .f32⟩
  | 2 => ⟨S2x800000, .i32⟩
  | 3 => ⟨S128, .f32⟩
  | 4 => ⟨S128, .f32⟩
  | 5 => ⟨S128x128, .f32⟩
  | 6 => ⟨S128, .f32⟩
  | 7 => ⟨S384x128, .f32⟩
  | 8 => ⟨S128, .f32⟩
  | 9 => ⟨S256x64, .f32⟩
  | 10 => ⟨S64, .f32⟩
  | 11 => ⟨S256x64, .f32⟩
  | 12 => ⟨S64, .f32⟩
  | 13 => ⟨S100000, .i32⟩
  | 14 => ⟨S1x800000, .i32⟩
  | 15 => ⟨S800000, .i32⟩
  | 16 => ⟨S900000, .i32⟩
  | 17 => ⟨S1x800000, .i32⟩
  | 18 => ⟨S800000, .i32⟩
  | 19 => ⟨S900000, .i32⟩
  | 20 => ⟨S_, .f32⟩
  | 21 => ⟨S900000, .f32⟩
  | 22 => ⟨S_, .f32⟩
  | 23 => ⟨S100000, .f32⟩
  | 24 => ⟨S900000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S900000, .i32⟩
  | 39 => ⟨S900000, .i1⟩
  | 40 => ⟨S_, .i32⟩
  | 41 => ⟨S900000, .i32⟩
  | 42 => ⟨S900000, .i32⟩
  | 43 => ⟨S900000, .i32⟩
  | 44 => ⟨S900000x1, .i32⟩
  | 45 => ⟨S900000, .f32⟩
  | 46 => ⟨S_, .i32⟩
  | 47 => ⟨S900000, .i32⟩
  | 48 => ⟨S900000, .i1⟩
  | 49 => ⟨S_, .i32⟩
  | 50 => ⟨S900000, .i32⟩
  | 51 => ⟨S900000, .i32⟩
  | 52 => ⟨S900000, .i32⟩
  | 53 => ⟨S900000x1, .i32⟩
  | 54 => ⟨S900000, .f32⟩
  | 55 => ⟨S900000, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S100000x128, .f32⟩
  | 69 => ⟨S100000x128, .f32⟩
  | 70 => ⟨S100000x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S100000x128, .f32⟩
  | 101 => ⟨S_, .i32⟩
  | 102 => ⟨S900000, .i32⟩
  | 103 => ⟨S900000, .i1⟩
  | 104 => ⟨S_, .i32⟩
  | 105 => ⟨S900000, .i32⟩
  | 106 => ⟨S900000, .i32⟩
  | 107 => ⟨S900000, .i32⟩
  | 108 => ⟨S900000x1, .i32⟩
  | 109 => ⟨S900000x128, .f32⟩
  | 110 => ⟨S900000x1, .f32⟩
  | 111 => ⟨S900000x128, .f32⟩
  | 112 => ⟨S900000x128, .f32⟩
  | 113 => ⟨S_, .f32⟩
  | 114 => ⟨S100000x128, .f32⟩
  | 115 => ⟨S900000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x384, .f32⟩
  | 124 => ⟨S100000x128, .f32⟩
  | 125 => ⟨S_, .i32⟩
  | 126 => ⟨S900000, .i32⟩
  | 127 => ⟨S900000, .i1⟩
  | _ => ⟨S100000x128, .f32⟩

abbrev hbmTy0_1 (i : Nat) : BufTy := match i % 128 with
  | 0 => ⟨S_, .i32⟩
  | 1 => ⟨S900000, .i32⟩
  | 2 => ⟨S900000, .i32⟩
  | 3 => ⟨S900000, .i32⟩
  | 4 => ⟨S900000x1, .i32⟩
  | 5 => ⟨S900000x128, .f32⟩
  | 6 => ⟨S900000x1, .f32⟩
  | 7 => ⟨S900000x128, .f32⟩
  | 8 => ⟨S900000x128, .f32⟩
  | 9 => ⟨S_, .f32⟩
  | 10 => ⟨S100000x128, .f32⟩
  | 11 => ⟨S900000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x256, .f32⟩
  | 20 => ⟨S100000x64, .f32⟩
  | 21 => ⟨S_, .i32⟩
  | 22 => ⟨S900000, .i32⟩
  | 23 => ⟨S900000, .i1⟩
  | 24 => ⟨S_, .i32⟩
  | 25 => ⟨S900000, .i32⟩
  | 26 => ⟨S900000, .i32⟩
  | 27 => ⟨S900000, .i32⟩
  | 28 => ⟨S900000x1, .i32⟩
  | 29 => ⟨S900000x64, .f32⟩
  | 30 => ⟨S900000x1, .f32⟩
  | 31 => ⟨S900000x64, .f32⟩
  | 32 => ⟨S900000x64, .f32⟩
  | 33 => ⟨S_, .f32⟩
  | 34 => ⟨S100000x64, .f32⟩
  | 35 => ⟨S900000x1, .i32⟩
  | 36 => ⟨S100000x64, .f32⟩
  | 37 => ⟨S1x64, .f32⟩
  | 38 => ⟨S100000x64, .f32⟩
  | 39 => ⟨S100000x64, .f32⟩
  | 40 => ⟨S100000x64, .f32⟩
  | 41 => ⟨S_, .i32⟩
  | 42 => ⟨S900000, .i32⟩
  | 43 => ⟨S900000, .i1⟩
  | 44 => ⟨S_, .i32⟩
  | 45 => ⟨S900000, .i32⟩
  | 46 => ⟨S900000, .i32⟩
  | 47 => ⟨S900000, .i32⟩
  | 48 => ⟨S900000x1, .i32⟩
  | 49 => ⟨S900000x64, .f32⟩
  | 50 => ⟨S900000x1, .f32⟩
  | 51 => ⟨S900000x64, .f32⟩
  | 52 => ⟨S900000x64, .f32⟩
  | 53 => ⟨S_, .f32⟩
  | 54 => ⟨S100000x64, .f32⟩
  | 55 => ⟨S900000x1, .i32⟩
  | 56 => ⟨S100000x64, .f32⟩
  | 57 => ⟨S1x64, .f32⟩
  | 58 => ⟨S100000x64, .f32⟩
  | 59 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_cst_8 : Ref sig .tc := ⟨.hbm, 58, rfl⟩
abbrev main_v33 : Ref sig .tc := ⟨.hbm, 59, rfl⟩
abbrev main_v34 : Ref sig .tc := ⟨.hbm, 60, rfl⟩
abbrev main_c_9 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_cst_3 : Ref sig .tc := ⟨.hbm, 78, rfl⟩
abbrev main_call1_v12 : Ref sig .tc := ⟨.hbm, 79, rfl⟩
abbrev main_call1_cst_4 : Ref sig .tc := ⟨.hbm, 80, rfl⟩
abbrev main_call1_call0_v0 : Ref sig .tc := ⟨.hbm, 81, rfl⟩
abbrev main_call1_call0_v1 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_10 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_c_11 : Ref sig .tc := ⟨.hbm, 101, rfl⟩
abbrev main_v52 : Ref sig .tc := ⟨.hbm, 102, rfl⟩
abbrev main_v53 : Ref sig .tc := ⟨.hbm, 103, rfl⟩
abbrev main_c_12 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_13 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_call2_cst : Ref sig .tc := ⟨.hbm, 120, rfl⟩
abbrev main_call2_v0 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_14 : Ref sig .tc := ⟨.hbm, 125, rfl⟩
abbrev main_v71 : Ref sig .tc := ⟨.hbm, 126, rfl⟩
abbrev main_v72 : Ref sig .tc := ⟨.hbm, 127, rfl⟩
abbrev main_c_15 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_16 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_call3_cst : Ref sig .tc := ⟨.hbm, 144, rfl⟩
abbrev main_call3_v0 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_c_17 : Ref sig .tc := ⟨.hbm, 149, rfl⟩
abbrev main_v90 : Ref sig .tc := ⟨.hbm, 150, rfl⟩
abbrev main_v91 : Ref sig .tc := ⟨.hbm, 151, rfl⟩
abbrev main_c_18 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_cst_19 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_c_20 : Ref sig .tc := ⟨.hbm, 169, rfl⟩
abbrev main_v107 : Ref sig .tc := ⟨.hbm, 170, rfl⟩
abbrev main_v108 : Ref sig .tc := ⟨.hbm, 171, rfl⟩
abbrev main_c_21 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_cst_22 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  concatenates_S100000x128_S100000x128_S100000x256_d1 : Shape.Concatenates [S100000x128, S100000x128] S100000x256 1
  bcast_S900000x1_S900000x64_0_1 : S900000x1.BroadcastsInDim S900000x64 (![0, 1] : Fin 2 → Fin S900000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x384_S384x128_S100000x128_1_0_0_1_n_n_wf : DotDims.WF S100000x384 S384x128 S100000x128 [1] [0] [0] [1] [] []
  dot_S100000x256_S256x64_S100000x64_1_0_0_1_n_n_wf : DotDims.WF S100000x256 S256x64 S100000x64 [1] [0] [0] [1] [] []
  gather_S100000x64_S900000x1_S900000x64_1_0_n_n_0_1_164_wf : GatherDims.WF S100000x64 S900000x1 S900000x64 [1] [0] [] [0] [] 1 ![1, 64]
  scatter_S100000x64_S900000x1_S900000x64_1_0_0_1_wf : ScatterDims.WF S100000x64 S900000x1 S900000x64 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S900000x1_S900000x64_1_0_n_n_0_1_164 : GatherDims S100000x64 S900000x1 S900000x64 where
  offsetDims := [1]
  collapsedSliceDims := [0]
  operandBatchingDims := []
  startIndicesBatchingDims := []
  startIndexMap := [0]
  indexVectorDim := 1
  sliceSizes := ![1, 64]
  wf := gather_S100000x64_S900000x1_S900000x64_1_0_n_n_0_1_164_wf
def scatter_S100000x64_S900000x1_S900000x64_1_0_0_1 : ScatterDims S100000x64 S900000x1 S900000x64 where
  updateWindowDims := [1]
  insertedWindowDims := [0]
  scatterDimsToOperandDims := [0]
  indexVectorDim := 1
  wf := scatter_S100000x64_S900000x1_S900000x64_1_0_0_1_wf

class Facts : Prop extends Facts₀ where

variable [Facts]
-- ==== Proof.KRun.lean ====
/-
  The idealized kernel program's run with its two results named: every weakly fair execution from the launch state
  terminates without a fault, and in the final state the two result buffers hold the last boundary's contents
  `W10 m ρ c` (the fold of the host stretches and the three regions' write-backs over the launch memory), while
  the thirteen argument arrays hold what they were launched with. The argument is the launch theorem over the run's
  segments; the final read of the unscoped buffers is kept at the two result buffers as well as at the arguments.
-/
import proofs.«177732_j68255620268441_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main on the TensorCores from any memory with zero counters: it terminates, nothing faults, the two
    results end at the last boundary's contents and every argument array as launched. -/
theorem run : θ_run defs (onTc (τ := τ) (main (F := F))) ⟨m, fun _ => 0, ρ⟩ (fun r => ∀ c : Dev nD,
      r.2.mem ((c.tc : Thread nD τ).loc main_v90) = W10 m ρ c (Proc.devRef .tc main_v90)
      ∧ r.2.mem ((c.tc : Thread nD τ).loc main_v94) = W10 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v90 (by decide)),
       h c _ (mem_uc main_v94 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.KRun

end
-- ==== Proof.KAfterSplit.lean ====
/-
  A straight line of host operations in single-assignment form, read at one operation.

  When operation `i` of a line writes exactly the reference `W[i]`, the contents after the whole line at a reference
  that no later operation writes are what operation `i` leaves there, computed from the contents after the first `i`
  operations; and a reference that operations `i, i+1, …` do not write holds after the whole line what it held after
  the first `i`. Together: the result of operation `i` is its function applied to its operands' contents, all read
  after the WHOLE line — one equation per operation, with the fold over the line never opened.
-/
import Idealize.ShloMosaic.Lib.StableHlo.Run

namespace Cert.KAfterSplit

open Idealize.ShloMosaic Idealize.ShloMosaic.StableHlo

variable {τ : Topo} {sig : RefSig} {Val : EltTy → Type}

/-- Two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `i` of the line writes exactly the reference `W[i]`. -/
def WritesAt (ops : List (HloOp τ sig Val)) (W : List (Ref sig .tc)) : Prop :=
  List.Forall₂ (fun op y => op.writes = {Proc.devRef (τ := τ) .tc y}) ops W

/-- A reference outside the written ones is written by no operation of the line. -/
theorem not_written {ops : List (HloOp τ sig Val)} {W : List (Ref sig .tc)} (hW : WritesAt ops W) {r : Ref sig .tc}
    (hr : r ∉ W) : ∀ op ∈ ops, (Proc.devRef (τ := τ) .tc r) ∉ op.writes := by
  induction hW with
  | nil => intro op h; cases h
  | @cons op0 y0 ops' W' h0 _ ih =>
    intro op hop
    rcases List.mem_cons.mp hop with rfl | hop
    · rw [h0, Finset.mem_singleton]
      exact devRef_ne_of_ne fun e => hr (e ▸ List.mem_cons_self)
    · exact ih (fun h => hr (List.mem_cons_of_mem _ h)) op hop

/-- A reference outside the written ones keeps its contents through the line. -/
theorem after_of_not_written {ops : List (HloOp τ sig Val)} {W : List (Ref sig .tc)} (hW : WritesAt ops W)
    (V : Valuation τ sig Val) {r : Ref sig .tc} (hr : r ∉ W) :
    after ops V (Proc.devRef .tc r) = V (Proc.devRef .tc r) :=
  after_of_forall_not_mem ops V (not_written hW hr)

/-- The contents after the line at a reference no operation past `i` writes: what operation `i` leaves there. -/
theorem after_at {ops : List (HloOp τ sig Val)} {W : List (Ref sig .tc)} (hW : WritesAt ops W) :
    ∀ (i : ℕ) {op : HloOp τ sig Val} (_ : ops[i]? = some op) (V : Valuation τ sig Val) {r : Ref sig .tc}
      (_ : r ∉ W.drop (i + 1)),
      after ops V (Proc.devRef .tc r) = op.result (after (ops.take i) V) (Proc.devRef .tc r) := by
  induction hW with
  | nil => intro i op hop; simp at hop
  | @cons op0 y0 ops' W' h0 ht ih =>
    intro i op hop V r hr
    cases i with
    | zero =>
      simp only [List.getElem?_cons_zero, Option.some.injEq] at hop
      subst hop
      simp only [List.take_zero, after_nil, after_cons]
      exact after_of_not_written ht _ (by simpa using hr)
    | succ i =>
      simp only [List.getElem?_cons_succ] at hop
      simp only [List.take_succ_cons, after_cons]
      exact ih i hop _ (by simpa using hr)

/-- A reference that operations `i, i+1, …` do not write: after the line it holds what it held after the first `i`. -/
theorem after_keep {ops : List (HloOp τ sig Val)} {W : List (Ref sig .tc)} (hW : WritesAt ops W) :
    ∀ (i : ℕ) (V : Valuation τ sig Val) {r : Ref sig .tc} (_ : r ∉ W.drop i),
      after ops V (Proc.devRef .tc r) = after (ops.take i) V (Proc.devRef .tc r) := by
  induction hW with
  | nil => intro i V r _; simp
  | @cons op0 y0 ops' W' h0 ht ih =>
    intro i V r hr
    cases i with
    | zero =>
      simp only [List.take_zero, after_nil]
      exact after_of_not_written (List.Forall₂.cons h0 ht) V (by simpa using hr)
    | succ i =>
      simp only [List.take_succ_cons, after_cons]
      exact ih i _ (by simpa using hr)

/-! ## One equation per operation, by its builder -/

section Kinds

variable {ops : List (HloOp τ sig Val)} {W : List (Ref sig .tc)}

/-- `%y = ‹constant›`. -/
theorem eq_nullary (hW : WritesAt ops W) (i : ℕ) (V : Valuation τ sig Val) {y : Ref sig .tc} {v : y.ty.Contents Val} {hy}
    (hop : ops[i]? = some (nullary (τ := τ) y v hy)) (hy1 : y ∉ W.drop (i + 1)) :
    after ops V (Proc.devRef .tc y) = v := by
  rw [after_at hW i hop V hy1, nullary_result]

/-- `%y = f %x`. -/
theorem eq_unary (hW : WritesAt ops W) (i : ℕ) (V : Valuation τ sig Val) {x y : Ref sig .tc} {f : x.ty.Contents Val → y.ty.Contents Val} {hx hy}
    (hop : ops[i]? = some (unary (τ := τ) x y f hx hy)) (hy1 : y ∉ W.drop (i + 1)) (hx1 : x ∉ W.drop i) :
    after ops V (Proc.devRef .tc y) = f (after ops V (Proc.devRef .tc x)) := by
  rw [after_at hW i hop V hy1, unary_result, after_keep hW i V hx1]

/-- `%y = f %a, %b`. -/
theorem eq_binary (hW : WritesAt ops W) (i : ℕ) (V : Valuation τ sig Val) {a b y : Ref sig .tc} {f : a.ty.Contents Val → b.ty.Contents Val → y.ty.Contents Val} {ha hb hy}
    (hop : ops[i]? = some (binary (τ := τ) a b y f ha hb hy)) (hy1 : y ∉ W.drop (i + 1))
    (ha1 : a ∉ W.drop i) (hb1 : b ∉ W.drop i) :
    after ops V (Proc.devRef .tc y) = f (after ops V (Proc.devRef .tc a)) (after ops V (Proc.devRef .tc b)) := by
  rw [after_at hW i hop V hy1, binary_result, after_keep hW i V ha1, after_keep hW i V hb1]

/-- `%y = f %c, %a, %b`. -/
theorem eq_ternary (hW : WritesAt ops W) (i : ℕ) (V : Valuation τ sig Val) {c a b y : Ref sig .tc}
    {f : c.ty.Contents Val → a.ty.Contents Val → b.ty.Contents Val → y.ty.Contents Val} {hc ha hb hy}
    (hop : ops[i]? = some (ternary (τ := τ) c a b y f hc ha hb hy)) (hy1 : y ∉ W.drop (i + 1))
    (hc1 : c ∉ W.drop i) (ha1 : a ∉ W.drop i) (hb1 : b ∉ W.drop i) :
    after ops V (Proc.devRef .tc y)
      = f (after ops V (Proc.devRef .tc c)) (after ops V (Proc.devRef .tc a)) (after ops V (Proc.devRef .tc b)) := by
  rw [after_at hW i hop V hy1, ternary_result, after_keep hW i V hc1, after_keep hW i V ha1, after_keep hW i V hb1]

/-- `%y = reshape %x`. -/
theorem eq_reshape (hW : WritesAt ops W) (i : ℕ) (V : Valuation τ sig Val) {x y : Ref sig .tc} {he hn hx hy}
    (hop : ops[i]? = some (reshape (τ := τ) (Val := Val) x y he hn hx hy)) (hy1 : y ∉ W.drop (i + 1))
    (hx1 : x ∉ W.drop i) :
    after ops V (Proc.devRef .tc y)
      = fun j => he ▸ shapeCast y.ty.shape (after ops V (Proc.devRef .tc x)) hn j := by
  rw [after_at hW i hop V hy1, reshape_result, after_keep hW i V hx1]

end Kinds

end Cert.KAfterSplit
-- ==== Proof.KBase.lean ====
/-
  The host stretches of the idealized kernel program in single-assignment form: for each stretch the list of the
  references its operations write, in order (operation `i` writes exactly entry `i`), and from it the buffers that
  pass a stretch or a region unchanged. A region changes only its output arrays: an input array is read back through
  its window as entered, any other buffer is untouched. Composed: a buffer written before a boundary of the run and
  by nothing after it holds at the end of the run what it held at that boundary.
-/
import proofs.«177732_j68255620268441_2_alg».proof.Proof.Gen.KernelIdeal.Frame
import proofs.«177732_j68255620268441_2_alg».proof.Proof.KAfterSplit

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

/-- The references `hostOps0` writes, in order. -/
def wr0 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3]
theorem hW0 : WritesAt (hostOps0 : List (HloOp τ sig (Elt F))) wr0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

/-- The references `hostOps0_1` writes, in order. -/
def wr0_1 : List (Ref sig .tc) :=
  [main_call0_v0, main_call0_v1, main_v16]
theorem hW0_1 : WritesAt (hostOps0_1 : List (HloOp τ sig (Elt F))) wr0_1 :=
  .cons rfl (.cons rfl (.cons rfl (.nil)))

/-- The references `hostOps0_2` writes, in order. -/
def wr0_2 : List (Ref sig .tc) :=
  [main_cst_4, main_v17, main_cst_5, main_v18, main_v19, main_c]
theorem hW0_2 : WritesAt (hostOps0_2 : List (HloOp τ sig (Elt F))) wr0_2 :=
  .cons rfl (.cons rfl (.cons rfl (.cons rfl (.cons rfl (.cons rfl (.nil))))))

/-- The references `hostOps0_3` writes, in order. -/
def wr0_3 : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v20]
theorem hW0_3 : WritesAt (hostOps0_3 : List (HloOp τ sig (Elt F))) wr0_3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))

/-- The references `hostOps1` writes, in order. -/
def wr1 : List (Ref sig .tc) :=
  [main_v22, main_v23, main_v24, main_v25, main_v26, main_c_6, main_v27, main_v28, main_c_7, main_v29, main_v30, main_v31, main_v32, main_v33, main_v34, main_v35, main_cst_8, main_v36, main_v37, main_v38, main_v39, main_v40, main_v41, main_v42, main_v43]
theorem hW1 : WritesAt (hostOps1 : List (HloOp τ sig (Elt F))) wr1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

/-- The references `hostOps2` writes, in order. -/
def wr2 : List (Ref sig .tc) :=
  [main_v45, main_v46, main_v47, main_v48, main_v49, main_c_9, main_v50, main_v51, main_c_10, main_v52, main_v53, main_v54, main_v55, main_v56, main_v57, main_v58, main_cst_11, main_v59, main_v60, main_v61, main_v62, main_v63, main_v64, main_v65, main_v66]
theorem hW2 : WritesAt (hostOps2 : List (HloOp τ sig (Elt F))) wr2 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))

/-- The references `hostOps3` writes, in order. -/
def wr3 : List (Ref sig .tc) :=
  [main_v68, main_v69, main_v70, main_v71, main_v72, main_c_12, main_v73, main_v74, main_c_13, main_v75, main_v76, main_v77, main_v78, main_v79, main_v80, main_v81, main_cst_14, main_v82, main_v83, main_v84, main_v85, main_v86, main_v87, main_v88, main_v89, main_v90, main_v91, main_v92, main_v93, main_v94]
theorem hW3 : WritesAt (hostOps3 : List (HloOp τ sig (Elt F))) wr3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))

variable (m : (ℓ : Loc nD τ sig) → Buf (Elt F) ℓ) (ρ : Dev nD → PrngReg) (c : Dev nD)

/-! ## One step of the run at a buffer it does not write -/

theorem s0 {r : Ref sig .tc} (h : r ∉ wr0) : W1 m ρ c (Proc.devRef .tc r) = W0 m ρ c (Proc.devRef .tc r) :=
  after_of_not_written hW0 _ h
theorem s0_1 {r : Ref sig .tc} (h : r ∉ wr0_1) : W2 m ρ c (Proc.devRef .tc r) = W1 m ρ c (Proc.devRef .tc r) :=
  after_of_not_written hW0_1 _ h
theorem s0_2 {r : Ref sig .tc} (h : r ∉ wr0_2) : W3 m ρ c (Proc.devRef .tc r) = W2 m ρ c (Proc.devRef .tc r) :=
  after_of_not_written hW0_2 _ h
theorem s0_3 {r : Ref sig .tc} (h : r ∉ wr0_3) : W4 m ρ c (Proc.devRef .tc r) = W3 m ρ c (Proc.devRef .tc r) :=
  after_of_not_written hW0_3 _ h
theorem s1 {r : Ref sig .tc} (h : r ∉ wr1) : W6 m ρ c (Proc.devRef .tc r) = W5 m ρ c (Proc.devRef .tc r) :=
  after_of_not_written hW1 _ h
theorem s2 {r : Ref sig .tc} (h : r ∉ wr2) : W8 m ρ c (Proc.devRef .tc r) = W7 m ρ c (Proc.devRef .tc r) :=
  after_of_not_written hW2 _ h
theorem s3 {r : Ref sig .tc} (h : r ∉ wr3) : W10 m ρ c (Proc.devRef .tc r) = W9 m ρ c (Proc.devRef .tc r) :=
  after_of_not_written hW3 _ h

/-- The output arrays of each region. -/
def out0 : List (Ref sig .tc) := [main_v21_0, main_v21_1]
def out1 : List (Ref sig .tc) := [main_v44]
def out2 : List (Ref sig .tc) := [main_v67]

/-- Region 0 changes its two output arrays only. -/
theorem g0 {r : Ref sig .tc} (h : r ∉ out0) : W5 m ρ c (Proc.devRef .tc r) = W4 m ρ c (Proc.devRef .tc r) := by
  by_cases hb : ∃ w, Pipeline.arrRef spec0 w = r
  · obtain ⟨w, rfl⟩ := hb
    have hin : (cfg0.win w).isOut = false := by
      revert h; revert w; decide
    exact (W5_arr m ρ c w).trans (((dat0 (V4 m ρ) c).arrAt_in w hin _).trans (A_eq0 (V4 m ρ) c w))
  · exact W5_of_ne m ρ c r fun w e => hb ⟨w, e⟩
/-- Region 1 changes its output array only. -/
theorem g1 {r : Ref sig .tc} (h : r ∉ out1) : W7 m ρ c (Proc.devRef .tc r) = W6 m ρ c (Proc.devRef .tc r) := by
  by_cases hb : ∃ w, Pipeline.arrRef spec1 w = r
  · obtain ⟨w, rfl⟩ := hb
    have hin : (cfg1.win w).isOut = false := by
      revert h; revert w; decide
    exact (W7_arr m ρ c w).trans (((dat1 (V6 m ρ) c).arrAt_in w hin _).trans (A_eq1 (V6 m ρ) c w))
  · exact W7_of_ne m ρ c r fun w e => hb ⟨w, e⟩
/-- Region 2 changes its output array only. -/
theorem g2 {r : Ref sig .tc} (h : r ∉ out2) : W9 m ρ c (Proc.devRef .tc r) = W8 m ρ c (Proc.devRef .tc r) := by
  by_cases hb : ∃ w, Pipeline.arrRef spec2 w = r
  · obtain ⟨w, rfl⟩ := hb
    have hin : (cfg2.win w).isOut = false := by
      revert h; revert w; decide
    exact (W9_arr m ρ c w).trans (((dat2 (V8 m ρ) c).arrAt_in w hin _).trans (A_eq2 (V8 m ρ) c w))
  · exact W9_of_ne m ρ c r fun w e => hb ⟨w, e⟩

/-! ## From a boundary to the end of the run -/

/-- What the run writes after each boundary. -/
def later9 : List (Ref sig .tc) := wr3
def later8 : List (Ref sig .tc) := out2 ++ later9
def later7 : List (Ref sig .tc) := wr2 ++ later8
def later6 : List (Ref sig .tc) := out1 ++ later7
def later5 : List (Ref sig .tc) := wr1 ++ later6
def later4 : List (Ref sig .tc) := out0 ++ later5
def later3 : List (Ref sig .tc) := wr0_3 ++ later4
def later2 : List (Ref sig .tc) := wr0_2 ++ later3
def later1 : List (Ref sig .tc) := wr0_1 ++ later2
def later0 : List (Ref sig .tc) := wr0 ++ later1

theorem up9 {r : Ref sig .tc} (h : r ∉ later9) : W10 m ρ c (Proc.devRef .tc r) = W9 m ρ c (Proc.devRef .tc r) :=
  s3 m ρ c h
theorem up8 {r : Ref sig .tc} (h : r ∉ later8) : W10 m ρ c (Proc.devRef .tc r) = W8 m ρ c (Proc.devRef .tc r) :=
  (up9 m ρ c fun k => h (List.mem_append_right _ k)).trans (g2 m ρ c fun k => h (List.mem_append_left _ k))
theorem up7 {r : Ref sig .tc} (h : r ∉ later7) : W10 m ρ c (Proc.devRef .tc r) = W7 m ρ c (Proc.devRef .tc r) :=
  (up8 m ρ c fun k => h (List.mem_append_right _ k)).trans (s2 m ρ c fun k => h (List.mem_append_left _ k))
theorem up6 {r : Ref sig .tc} (h : r ∉ later6) : W10 m ρ c (Proc.devRef .tc r) = W6 m ρ c (Proc.devRef .tc r) :=
  (up7 m ρ c fun k => h (List.mem_append_right _ k)).trans (g1 m ρ c fun k => h (List.mem_append_left _ k))
theorem up5 {r : Ref sig .tc} (h : r ∉ later5) : W10 m ρ c (Proc.devRef .tc r) = W5 m ρ c (Proc.devRef .tc r) :=
  (up6 m ρ c fun k => h (List.mem_append_right _ k)).trans (s1 m ρ c fun k => h (List.mem_append_left _ k))
theorem up4 {r : Ref sig .tc} (h : r ∉ later4) : W10 m ρ c (Proc.devRef .tc r) = W4 m ρ c (Proc.devRef .tc r) :=
  (up5 m ρ c fun k => h (List.mem_append_right _ k)).trans (g0 m ρ c fun k => h (List.mem_append_left _ k))
theorem up3 {r : Ref sig .tc} (h : r ∉ later3) : W10 m ρ c (Proc.devRef .tc r) = W3 m ρ c (Proc.devRef .tc r) :=
  (up4 m ρ c fun k => h (List.mem_append_right _ k)).trans (s0_3 m ρ c fun k => h (List.mem_append_left _ k))
theorem up2 {r : Ref sig .tc} (h : r ∉ later2) : W10 m ρ c (Proc.devRef .tc r) = W2 m ρ c (Proc.devRef .tc r) :=
  (up3 m ρ c fun k => h (List.mem_append_right _ k)).trans (s0_2 m ρ c fun k => h (List.mem_append_left _ k))
theorem up1 {r : Ref sig .tc} (h : r ∉ later1) : W10 m ρ c (Proc.devRef .tc r) = W1 m ρ c (Proc.devRef .tc r) :=
  (up2 m ρ c fun k => h (List.mem_append_right _ k)).trans (s0_1 m ρ c fun k => h (List.mem_append_left _ k))

end Cert.KernelIdeal.KEq

end
-- ==== Proof.KEq0.lean ====
/-
  The buffers at the end of the idealized kernel program's run, one equation per host operation of the three stretches before the batch-norm statistics' variance (the degree factor and the column mean): the
  operation's result buffer holds its function applied to its operands' buffers, every buffer read at the END of the
  run (`W10 m ρ c`). Each buffer is written once, so what an operation read is what its operand holds at the end.
  The equations are a table of cases over the printed operations, each closed by the single-assignment lemmas.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## `hostOps0` -/

theorem X_main_v0 : W10 m ρ c (Proc.devRef .tc main_v0) = (iotaInDim S100000 32 0) := by
  rw [up1 m ρ c (r := main_v0) (by decide)]
  exact eq_nullary hW0 0 (W0 m ρ c) rfl (by decide)
theorem X_main_v1 : W10 m ρ c (Proc.devRef .tc main_v1) = ((extractStridedSlice S1x800000 ![0, 0] · slices_S2x800000_S1x800000_0_0) : (⟨S2x800000, .i32⟩ : BufTy).Contents (Elt F) → (⟨S1x800000, .i32⟩ : BufTy).Contents (Elt F)) (W10 m ρ c (Proc.devRef .tc main_arg2)) := by
  rw [up1 m ρ c (r := main_v1) (by decide), up1 m ρ c (r := main_arg2) (by decide)]
  exact eq_unary hW0 1 (W0 m ρ c) rfl (by decide) (by decide)
theorem X_main_v2 : W10 m ρ c (Proc.devRef .tc main_v2) = fun j => shapeCast _ (W10 m ρ c (Proc.devRef .tc main_v1)) shapeCasts_S1x800000_S800000 j := by
  rw [up1 m ρ c (r := main_v2) (by decide), up1 m ρ c (r := main_v1) (by decide)]
  exact eq_reshape hW0 2 (W0 m ρ c) rfl (by decide) (by decide)
theorem X_main_v3 : W10 m ρ c (Proc.devRef .tc main_v3) = ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) (W10 m ρ c (Proc.devRef .tc main_v2)) (W10 m ρ c (Proc.devRef .tc main_v0)) := by
  rw [up1 m ρ c (r := main_v3) (by decide), up1 m ρ c (r := main_v2) (by decide), up1 m ρ c (r := main_v0) (by decide)]
  exact eq_binary hW0 3 (W0 m ρ c) rfl (by decide) (by decide) (by decide)
theorem X_main_v4 : W10 m ρ c (Proc.devRef .tc main_v4) = ((extractStridedSlice S1x800000 ![1, 0] · slices_S2x800000_S1x800000_1_0) : (⟨S2x800000, .i32⟩ : BufTy).Contents (Elt F) → (⟨S1x800000, .i32⟩ : BufTy).Contents (Elt F)) (W10 m ρ c (Proc.devRef .tc main_arg2)) := by
  rw [up1 m ρ c (r := main_v4) (by decide), up1 m ρ c (r := main_arg2) (by decide)]
  exact eq_unary hW0 4 (W0 m ρ c) rfl (by decide) (by decide)
theorem X_main_v5 : W10 m ρ c (Proc.devRef .tc main_v5) = fun j => shapeCast _ (W10 m ρ c (Proc.devRef .tc main_v4)) shapeCasts_S1x800000_S800000 j := by
  rw [up1 m ρ c (r := main_v5) (by decide), up1 m ρ c (r := main_v4) (by decide)]
  exact eq_reshape hW0 5 (W0 m ρ c) rfl (by decide) (by decide)
theorem X_main_v6 : W10 m ρ c (Proc.devRef .tc main_v6) = ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) (W10 m ρ c (Proc.devRef .tc main_v5)) (W10 m ρ c (Proc.devRef .tc main_v0)) := by
  rw [up1 m ρ c (r := main_v6) (by decide), up1 m ρ c (r := main_v5) (by decide), up1 m ρ c (r := main_v0) (by decide)]
  exact eq_binary hW0 6 (W0 m ρ c) rfl (by decide) (by decide) (by decide)
theorem X_main_cst : W10 m ρ c (Proc.devRef .tc main_cst) = (constant S_ .f32 0x3F800000#32) := by
  rw [up1 m ρ c (r := main_cst) (by decide)]
  exact eq_nullary hW0 7 (W0 m ρ c) rfl (by decide)
theorem X_main_v7 : W10 m ρ c (Proc.devRef .tc main_v7) = (broadcastInDim S900000 ![] bcast_S_S900000 : (⟨S_, .f32⟩ : BufTy).Contents (Elt F) → (⟨S900000, .f32⟩ : BufTy).Contents (Elt F)) (W10 m ρ c (Proc.devRef .tc main_cst)) := by
  rw [up1 m ρ c (r := main_v7) (by decide), up1 m ρ c (r := main_cst) (by decide)]
  exact eq_unary hW0 8 (W0 m ρ c) rfl (by decide) (by decide)
theorem X_main_cst_0 : W10 m ρ c (Proc.devRef .tc main_cst_0) = (constant S_ .f32 0x00000000#32) := by
  rw [up1 m ρ c (r := main_cst_0) (by decide)]
  exact eq_nullary hW0 9 (W0 m ρ c) rfl (by decide)
theorem X_main_v8 : W10 m ρ c (Proc.devRef .tc main_v8) = (broadcastInDim S100000 ![] bcast_S_S100000 : (⟨S_, .f32⟩ : BufTy).Contents (Elt F) → (⟨S100000, .f32⟩ : BufTy).Contents (Elt F)) (W10 m ρ c (Proc.devRef .tc main_cst_0)) := by
  rw [up1 m ρ c (r := main_v8) (by decide), up1 m ρ c (r := main_cst_0) (by decide)]
  exact eq_unary hW0 10 (W0 m ρ c) rfl (by decide) (by decide)
theorem X_main_v9 : W10 m ρ c (Proc.devRef .tc main_v9) = (broadcastInDim S900000x1 ![0] bcast_S900000_S900000x1_0 : (⟨S900000, .i32⟩ : BufTy).Contents (Elt F) → (⟨S900000x1, .i32⟩ : BufTy).Contents (Elt F)) (W10 m ρ c (Proc.devRef .tc main_v6)) := by
  rw [up1 m ρ c (r := main_v9) (by decide), up1 m ρ c (r := main_v6) (by decide)]
  exact eq_unary hW0 11 (W0 m ρ c) rfl (by decide) (by decide)
theorem X_main_v10 : W10 m ρ c (Proc.devRef .tc main_v10) = ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)) (W10 m ρ c (Proc.devRef .tc main_v8)) (W10 m ρ c (Proc.devRef .tc main_v9)) (W10 m ρ c (Proc.devRef .tc main_v7)) := by
  rw [up1 m ρ c (r := main_v10) (by decide), up1 m ρ c (r := main_v8) (by decide), up1 m ρ c (r := main_v9) (by decide), up1 m ρ c (r := main_v7) (by decide)]
  exact eq_ternary hW0 12 (W0 m ρ c) rfl (by decide) (by decide) (by decide) (by decide)
theorem X_main_cst_1 : W10 m ρ c (Proc.devRef .tc main_cst_1) = (constant S_ .f32 0x00000000#32) := by
  rw [up1 m ρ c (r := main_cst_1) (by decide)]
  exact eq_nullary hW0 13 (W0 m ρ c) rfl (by decide)
theorem X_main_v11 : W10 m ρ c (Proc.devRef .tc main_v11) = (broadcastInDim S100000 ![] bcast_S_S100000 : (⟨S_, .f32⟩ : BufTy).Contents (Elt F) → (⟨S100000, .f32⟩ : BufTy).Contents (Elt F)) (W10 m ρ c (Proc.devRef .tc main_cst_1)) := by
  rw [up1 m ρ c (r := main_v11) (by decide), up1 m ρ c (r := main_cst_1) (by decide)]
  exact eq_unary hW0 14 (W0 m ρ c) rfl (by decide) (by decide)
theorem X_main_v12 : W10 m ρ c (Proc.devRef .tc main_v12) = (cmpf .ogt : (⟨S100000, .f32⟩ : BufTy).Contents (Elt F) → (⟨S100000, .f32⟩ : BufTy).Contents (Elt F) → (⟨S100000, .i1⟩ : BufTy).Contents (Elt F)) (W10 m ρ c (Proc.devRef .tc main_v10)) (W10 m ρ c (Proc.devRef .tc main_v11)) := by
  rw [up1 m ρ c (r := main_v12) (by decide), up1 m ρ c (r := main_v10) (by decide), up1 m ρ c (r := main_v11) (by decide)]
  exact eq_binary hW0 15 (W0 m ρ c) rfl (by decide) (by decide) (by decide)
theorem X_main_cst_2 : W10 m ρ c (Proc.devRef .tc main_cst_2) = (constant S_ .f32 0x2B8CBCCC#32) := by
  rw [up1 m ρ c (r := main_cst_2) (by decide)]
  exact eq_nullary hW0 16 (W0 m ρ c) rfl (by decide)
theorem X_main_v13 : W10 m ρ c (Proc.devRef .tc main_v13) = (broadcastInDim S100000 ![] bcast_S_S100000 : (⟨S_, .f32⟩ : BufTy).Contents (Elt F) → (⟨S100000, .f32⟩ : BufTy).Contents (Elt F)) (W10 m ρ c (Proc.devRef .tc main_cst_2)) := by
  rw [up1 m ρ c (r := main_v13) (by decide), up1 m ρ c (r := main_cst_2) (by decide)]
  exact eq_unary hW0 17 (W0 m ρ c) rfl (by decide) (by decide)
theorem X_main_v14 : W10 m ρ c (Proc.devRef .tc main_v14) = (maximumf : (⟨S100000, .f32⟩ : BufTy).Contents (Elt F) → (⟨S100000, .f32⟩ : BufTy).Contents (Elt F) → (⟨S100000, .f32⟩ : BufTy).Contents (Elt F)) (W10 m ρ c (Proc.devRef .tc main_v10)) (W10 m ρ c (Proc.devRef .tc main_v13)) := by
  rw [up1 m ρ c (r := main_v14) (by decide), up1 m ρ c (r := main_v10) (by decide), up1 m ρ c (r := main_v13) (by decide)]
  exact eq_binary hW0 18 (W0 m ρ c) rfl (by decide) (by decide) (by decide)
theorem X_main_v15 : W10 m ρ c (Proc.devRef .tc main_v15) = (Host.rsqrt : (⟨S100000, .f32⟩ : BufTy).Contents (Elt F) → (⟨S100000, .f32⟩ : BufTy).Contents (Elt F)) (W10 m ρ c (Proc.devRef .tc main_v14)) := by
  rw [up1 m ρ c (r := main_v15) (by decide), up1 m ρ c (r := main_v14) (by decide)]
  exact eq_unary hW0 19 (W0 m ρ c) rfl (by decide) (by decide)
theorem X_main_cst_3 : W10 m ρ c (Proc.devRef .tc main_cst_3) = (constant S_ .f32 0x00000000#32) := by
  rw [up1 m ρ c (r := main_cst_3) (by decide)]
  exact eq_nullary hW0 20 (W0 m ρ c) rfl (by decide)

/-! ## `hostOps0_1` -/

theorem X_main_call0_v0 : W10 m ρ c (Proc.devRef .tc main_call0_v0) = (id : (⟨S_, .f32⟩ : BufTy).Contents (Elt F) → (⟨S_, .f32⟩ : BufTy).Contents (Elt F)) (W10 m ρ c (Proc.devRef .tc main_cst_3)) := by
  rw [up2 m ρ c (r := main_call0_v0) (by decide), up2 m ρ c (r := main_cst_3) (by decide)]
  exact eq_unary hW0_1 0 (W1 m ρ c) rfl (by decide) (by decide)
theorem X_main_call0_v1 : W10 m ρ c (Proc.devRef .tc main_call0_v1) = ((broadcastInDim S100000 ![] bcast_S_S100000) : (⟨S_, .f32⟩ : BufTy).Contents (Elt F) → (⟨S100000, .f32⟩ : BufTy).Contents (Elt F)) (W10 m ρ c (Proc.devRef .tc main_call0_v0)) := by
  rw [up2 m ρ c (r := main_call0_v1) (by decide), up2 m ρ c (r := main_call0_v0) (by decide)]
  exact eq_unary hW0_1 1 (W1 m ρ c) rfl (by decide) (by decide)
theorem X_main_v16 : W10 m ρ c (Proc.devRef .tc main_v16) = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (W10 m ρ c (Proc.devRef .tc main_v12)) (W10 m ρ c (Proc.devRef .tc main_v15)) (W10 m ρ c (Proc.devRef .tc main_call0_v1)) := by
  rw [up2 m ρ c (r := main_v16) (by decide), up2 m ρ c (r := main_v12) (by decide), up2 m ρ c (r := main_v15) (by decide), up2 m ρ c (r := main_call0_v1) (by decide)]
  exact eq_ternary hW0_1 2 (W1 m ρ c) rfl (by decide) (by decide) (by decide) (by decide)

/-! ## `hostOps0_2` -/

theorem X_main_cst_4 : W10 m ρ c (Proc.devRef .tc main_cst_4) = (constant S_ .f32 0x00000000#32) := by
  rw [up3 m ρ c (r := main_cst_4) (by decide)]
  exact eq_nullary hW0_2 0 (W2 m ρ c) rfl (by decide)
theorem X_main_v17 : W10 m ρ c (Proc.devRef .tc main_v17) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W10 m ρ c (Proc.devRef .tc main_arg0)) (W10 m ρ c (Proc.devRef .tc main_cst_4)) := by
  rw [up3 m ρ c (r := main_v17) (by decide), up3 m ρ c (r := main_arg0) (by decide), up3 m ρ c (r := main_cst_4) (by decide)]
  exact eq_binary hW0_2 1 (W2 m ρ c) rfl (by decide) (by decide) (by decide)
theorem X_main_cst_5 : W10 m ρ c (Proc.devRef .tc main_cst_5) = (constant S_ .f32 0x47C35000#32) := by
  rw [up3 m ρ c (r := main_cst_5) (by decide)]
  exact eq_nullary hW0_2 2 (W2 m ρ c) rfl (by decide)
theorem X_main_v18 : W10 m ρ c (Proc.devRef .tc main_v18) = (broadcastInDim S128 ![] bcast_S_S128 : (⟨S_, .f32⟩ : BufTy).Contents (Elt F) → (⟨S128, .f32⟩ : BufTy).Contents (Elt F)) (W10 m ρ c (Proc.devRef .tc main_cst_5)) := by
  rw [up3 m ρ c (r := main_v18) (by decide), up3 m ρ c (r := main_cst_5) (by decide)]
  exact eq_unary hW0_2 3 (W2 m ρ c) rfl (by decide) (by decide)
theorem X_main_v19 : W10 m ρ c (Proc.devRef .tc main_v19) = (Host.divf : (⟨S128, .f32⟩ : BufTy).Contents (Elt F) → (⟨S128, .f32⟩ : BufTy).Contents (Elt F) → (⟨S128, .f32⟩ : BufTy).Contents (Elt F)) (W10 m ρ c (Proc.devRef .tc main_v17)) (W10 m ρ c (Proc.devRef .tc main_v18)) := by
  rw [up3 m ρ c (r := main_v19) (by decide), up3 m ρ c (r := main_v17) (by decide), up3 m ρ c (r := main_v18) (by decide)]
  exact eq_binary hW0_2 4 (W2 m ρ c) rfl (by decide) (by decide) (by decide)
theorem X_main_c : W10 m ρ c (Proc.devRef .tc main_c) = (constantI S_ 32 0#32) := by
  rw [up3 m ρ c (r := main_c) (by decide)]
  exact eq_nullary hW0_2 5 (W2 m ρ c) rfl (by decide)

end Cert.KernelIdeal.KEq

end
-- ==== Proof.KEq0c.lean ====
/-
  The buffers at the end of the idealized kernel program's run, one equation per host operation of the variance stretch before the first region: the
  operation's result buffer holds its function applied to its operands' buffers, every buffer read at the END of the
  run (`W10 m ρ c`). Each buffer is written once, so what an operation read is what its operand holds at the end.
  The equations are a table of cases over the printed operations, each closed by the single-assignment lemmas.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## `hostOps0_3` -/

theorem X_main_call1_cst : W10 m ρ c (Proc.devRef .tc main_call1_cst) = ((constant S_ .f32 0x00000000#32) : (⟨S_, .f32⟩ : BufTy).Contents (Elt F)) := by
  rw [up4 m ρ c (r := main_call1_cst) (by decide)]
  exact eq_nullary hW0_3 0 (W3 m ρ c) rfl (by decide)
theorem X_main_call1_v0 : W10 m ρ c (Proc.devRef .tc main_call1_v0) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W10 m ρ c (Proc.devRef .tc main_arg0)) (W10 m ρ c (Proc.devRef .tc main_call1_cst)) := by
  rw [up4 m ρ c (r := main_call1_v0) (by decide), up4 m ρ c (r := main_arg0) (by decide), up4 m ρ c (r := main_call1_cst) (by decide)]
  exact eq_binary hW0_3 1 (W3 m ρ c) rfl (by decide) (by decide) (by decide)
theorem X_main_call1_v1 : W10 m ρ c (Proc.devRef .tc main_call1_v1) = ((broadcastInDim S1x128 ![1] bcast_S128_S1x128_1) : (⟨S128, .f32⟩ : BufTy).Contents (Elt F) → (⟨S1x128, .f32⟩ : BufTy).Contents (Elt F)) (W10 m ρ c (Proc.devRef .tc main_call1_v0)) := by
  rw [up4 m ρ c (r := main_call1_v1) (by decide), up4 m ρ c (r := main_call1_v0) (by decide)]
  exact eq_unary hW0_3 2 (W3 m ρ c) rfl (by decide) (by decide)
theorem X_main_call1_cst_0 : W10 m ρ c (Proc.devRef .tc main_call1_cst_0) = ((constant S_ .f32 0x47C35000#32) : (⟨S_, .f32⟩ : BufTy).Contents (Elt F)) := by
  rw [up4 m ρ c (r := main_call1_cst_0) (by decide)]
  exact eq_nullary hW0_3 3 (W3 m ρ c) rfl (by decide)
theorem X_main_call1_v2 : W10 m ρ c (Proc.devRef .tc main_call1_v2) = ((broadcastInDim S1x128 ![] bcast_S_S1x128) : (⟨S_, .f32⟩ : BufTy).Contents (Elt F) → (⟨S1x128, .f32⟩ : BufTy).Contents (Elt F)) (W10 m ρ c (Proc.devRef .tc main_call1_cst_0)) := by
  rw [up4 m ρ c (r := main_call1_v2) (by decide), up4 m ρ c (r := main_call1_cst_0) (by decide)]
  exact eq_unary hW0_3 4 (W3 m ρ c) rfl (by decide) (by decide)
theorem X_main_call1_v3 : W10 m ρ c (Proc.devRef .tc main_call1_v3) = (Host.divf : (⟨S1x128, .f32⟩ : BufTy).Contents (Elt F) → (⟨S1x128, .f32⟩ : BufTy).Contents (Elt F) → (⟨S1x128, .f32⟩ : BufTy).Contents (Elt F)) (W10 m ρ c (Proc.devRef .tc main_call1_v1)) (W10 m ρ c (Proc.devRef .tc main_call1_v2)) := by
  rw [up4 m ρ c (r := main_call1_v3) (by decide), up4 m ρ c (r := main_call1_v1) (by decide), up4 m ρ c (r := main_call1_v2) (by decide)]
  exact eq_binary hW0_3 5 (W3 m ρ c) rfl (by decide) (by decide) (by decide)
theorem X_main_call1_v4 : W10 m ρ c (Proc.devRef .tc main_call1_v4) = ((broadcastInDim S100000x128 ![0, 1] bcast_S1x128_S100000x128_0_1) : (⟨S1x128, .f32⟩ : BufTy).Contents (Elt F) → (⟨S100000x128, .f32⟩ : BufTy).Contents (Elt F)) (W10 m ρ c (Proc.devRef .tc main_call1_v3)) := by
  rw [up4 m ρ c (r := main_call1_v4) (by decide), up4 m ρ c (r := main_call1_v3) (by decide)]
  exact eq_unary hW0_3 6 (W3 m ρ c) rfl (by decide) (by decide)
theorem X_main_call1_v5 : W10 m ρ c (Proc.devRef .tc main_call1_v5) = (subf : (⟨S100000x128, .f32⟩ : BufTy).Contents (Elt F) → (⟨S100000x128, .f32⟩ : BufTy).Contents (Elt F) → (⟨S100000x128, .f32⟩ : BufTy).Contents (Elt F)) (W10 m ρ c (Proc.devRef .tc main_arg0)) (W10 m ρ c (Proc.devRef .tc main_call1_v4)) := by
  rw [up4 m ρ c (r := main_call1_v5) (by decide), up4 m ρ c (r := main_arg0) (by decide), up4 m ρ c (r := main_call1_v4) (by decide)]
  exact eq_binary hW0_3 7 (W3 m ρ c) rfl (by decide) (by decide) (by decide)
theorem X_main_call1_v6 : W10 m ρ c (Proc.devRef .tc main_call1_v6) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_call1_v5)) (W10 m ρ c (Proc.devRef .tc main_call1_v5)) := by
  rw [up4 m ρ c (r := main_call1_v6) (by decide), up4 m ρ c (r := main_call1_v5) (by decide)]
  exact eq_binary hW0_3 8 (W3 m ρ c) rfl (by decide) (by decide) (by decide)
theorem X_main_call1_v7 : W10 m ρ c (Proc.devRef .tc main_call1_v7) = ((sitofp .f32) : (⟨S_, .i32⟩ : BufTy).Contents (Elt F) → (⟨S_, .f32⟩ : BufTy).Contents (Elt F)) (W10 m ρ c (Proc.devRef .tc main_c)) := by
  rw [up4 m ρ c (r := main_call1_v7) (by decide), up4 m ρ c (r := main_c) (by decide)]
  exact eq_unary hW0_3 9 (W3 m ρ c) rfl (by decide) (by decide)
theorem X_main_call1_cst_1 : W10 m ρ c (Proc.devRef .tc main_call1_cst_1) = ((constant S_ .f32 0x47C35000#32) : (⟨S_, .f32⟩ : BufTy).Contents (Elt F)) := by
  rw [up4 m ρ c (r := main_call1_cst_1) (by decide)]
  exact eq_nullary hW0_3 10 (W3 m ρ c) rfl (by decide)
theorem X_main_call1_v8 : W10 m ρ c (Proc.devRef .tc main_call1_v8) = (subf : (⟨S_, .f32⟩ : BufTy).Contents (Elt F) → (⟨S_, .f32⟩ : BufTy).Contents (Elt F) → (⟨S_, .f32⟩ : BufTy).Contents (Elt F)) (W10 m ρ c (Proc.devRef .tc main_call1_cst_1)) (W10 m ρ c (Proc.devRef .tc main_call1_v7)) := by
  rw [up4 m ρ c (r := main_call1_v8) (by decide), up4 m ρ c (r := main_call1_cst_1) (by decide), up4 m ρ c (r := main_call1_v7) (by decide)]
  exact eq_binary hW0_3 11 (W3 m ρ c) rfl (by decide) (by decide) (by decide)
theorem X_main_call1_cst_2 : W10 m ρ c (Proc.devRef .tc main_call1_cst_2) = ((constant S_ .f32 0x00000000#32) : (⟨S_, .f32⟩ : BufTy).Contents (Elt F)) := by
  rw [up4 m ρ c (r := main_call1_cst_2) (by decide)]
  exact eq_nullary hW0_3 12 (W3 m ρ c) rfl (by decide)
theorem X_main_call1_v9 : W10 m ρ c (Proc.devRef .tc main_call1_v9) = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W10 m ρ c (Proc.devRef .tc main_call1_v6)) (W10 m ρ c (Proc.devRef .tc main_call1_cst_2)) := by
  rw [up4 m ρ c (r := main_call1_v9) (by decide), up4 m ρ c (r := main_call1_v6) (by decide), up4 m ρ c (r := main_call1_cst_2) (by decide)]
  exact eq_binary hW0_3 13 (W3 m ρ c) rfl (by decide) (by decide) (by decide)
theorem X_main_call1_v10 : W10 m ρ c (Proc.devRef .tc main_call1_v10) = ((broadcastInDim S128 ![] bcast_S_S128) : (⟨S_, .f32⟩ : BufTy).Contents (Elt F) → (⟨S128, .f32⟩ : BufTy).Contents (Elt F)) (W10 m ρ c (Proc.devRef .tc main_call1_v8)) := by
  rw [up4 m ρ c (r := main_call1_v10) (by decide), up4 m ρ c (r := main_call1_v8) (by decide)]
  exact eq_unary hW0_3 14 (W3 m ρ c) rfl (by decide) (by decide)
theorem X_main_call1_v11 : W10 m ρ c (Proc.devRef .tc main_call1_v11) = (Host.divf : (⟨S128, .f32⟩ : BufTy).Contents (Elt F) → (⟨S128, .f32⟩ : BufTy).Contents (Elt F) → (⟨S128, .f32⟩ : BufTy).Contents (Elt F)) (W10 m ρ c (Proc.devRef .tc main_call1_v9)) (W10 m ρ c (Proc.devRef .tc main_call1_v10)) := by
  rw [up4 m ρ c (r := main_call1_v11) (by decide), up4 m ρ c (r := main_call1_v9) (by decide), up4 m ρ c (r := main_call1_v10) (by decide)]
  exact eq_binary hW0_3 15 (W3 m ρ c) rfl (by decide) (by decide) (by decide)
theorem X_main_call1_cst_3 : W10 m ρ c (Proc.devRef .tc main_call1_cst_3) = ((constant S_ .f32 0x00000000#32) : (⟨S_, .f32⟩ : BufTy).Contents (Elt F)) := by
  rw [up4 m ρ c (r := main_call1_cst_3) (by decide)]
  exact eq_nullary hW0_3 16 (W3 m ρ c) rfl (by decide)
theorem X_main_call1_v12 : W10 m ρ c (Proc.devRef .tc main_call1_v12) = ((cmpf .ogt) : (⟨S_, .f32⟩ : BufTy).Contents (Elt F) → (⟨S_, .f32⟩ : BufTy).Contents (Elt F) → (⟨S_, .i1⟩ : BufTy).Contents (Elt F)) (W10 m ρ c (Proc.devRef .tc main_call1_v8)) (W10 m ρ c (Proc.devRef .tc main_call1_cst_3)) := by
  rw [up4 m ρ c (r := main_call1_v12) (by decide), up4 m ρ c (r := main_call1_v8) (by decide), up4 m ρ c (r := main_call1_cst_3) (by decide)]
  exact eq_binary hW0_3 17 (W3 m ρ c) rfl (by decide) (by decide) (by decide)
theorem X_main_call1_cst_4 : W10 m ρ c (Proc.devRef .tc main_call1_cst_4) = ((constant S_ .f32 0x7FC00000#32) : (⟨S_, .f32⟩ : BufTy).Contents (Elt F)) := by
  rw [up4 m ρ c (r := main_call1_cst_4) (by decide)]
  exact eq_nullary hW0_3 18 (W3 m ρ c) rfl (by decide)
theorem X_main_call1_call0_v0 : W10 m ρ c (Proc.devRef .tc main_call1_call0_v0) = (id : (⟨S_, .f32⟩ : BufTy).Contents (Elt F) → (⟨S_, .f32⟩ : BufTy).Contents (Elt F)) (W10 m ρ c (Proc.devRef .tc main_call1_cst_4)) := by
  rw [up4 m ρ c (r := main_call1_call0_v0) (by decide), up4 m ρ c (r := main_call1_cst_4) (by decide)]
  exact eq_unary hW0_3 19 (W3 m ρ c) rfl (by decide) (by decide)
theorem X_main_call1_call0_v1 : W10 m ρ c (Proc.devRef .tc main_call1_call0_v1) = ((broadcastInDim S128 ![] bcast_S_S128) : (⟨S_, .f32⟩ : BufTy).Contents (Elt F) → (⟨S128, .f32⟩ : BufTy).Contents (Elt F)) (W10 m ρ c (Proc.devRef .tc main_call1_call0_v0)) := by
  rw [up4 m ρ c (r := main_call1_call0_v1) (by decide), up4 m ρ c (r := main_call1_call0_v0) (by decide)]
  exact eq_unary hW0_3 20 (W3 m ρ c) rfl (by decide) (by decide)
theorem X_main_v20 : W10 m ρ c (Proc.devRef .tc main_v20) = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (W10 m ρ c (Proc.devRef .tc main_call1_v12)) (W10 m ρ c (Proc.devRef .tc main_call1_v11)) (W10 m ρ c (Proc.devRef .tc main_call1_call0_v1)) := by
  rw [up4 m ρ c (r := main_v20) (by decide), up4 m ρ c (r := main_call1_v12) (by decide), up4 m ρ c (r := main_call1_v11) (by decide), up4 m ρ c (r := main_call1_call0_v1) (by decide)]
  exact eq_ternary hW0_3 21 (W3 m ρ c) rfl (by decide) (by decide) (by decide) (by decide)

end Cert.KernelIdeal.KEq

end
-- ==== Proof.KEq1.lean ====
/-
  The buffers at the end of the idealized kernel program's run, one equation per host operation of the stretch between the first and the second region: the
  operation's result buffer holds its function applied to its operands' buffers, every buffer read at the END of the
  run (`W10 m ρ c`). Each buffer is written once, so what an operation read is what its operand holds at the end.
  The equations are a table of cases over the printed operations, each closed by the single-assignment lemmas.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## `hostOps1` -/

theorem X_main_v22 : W10 m ρ c (Proc.devRef .tc main_v22) = ((extf .f32 · bitsLt_bf16_f32) : (⟨S100000x128, .bf16⟩ : BufTy).Contents (Elt F) → (⟨S100000x128, .f32⟩ : BufTy).Contents (Elt F)) (W10 m ρ c (Proc.devRef .tc main_v21_1)) := by
  rw [up6 m ρ c (r := main_v22) (by decide), up6 m ρ c (r := main_v21_1) (by decide)]
  exact eq_unary hW1 0 (W5 m ρ c) rfl (by decide) (by decide)
theorem X_main_v23 : W10 m ρ c (Proc.devRef .tc main_v23) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  rw [up6 m ρ c (r := main_v23) (by decide), up6 m ρ c (r := main_v16) (by decide)]
  exact eq_unary hW1 1 (W5 m ρ c) rfl (by decide) (by decide)
theorem X_main_v24 : W10 m ρ c (Proc.devRef .tc main_v24) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v23)) := by
  rw [up6 m ρ c (r := main_v24) (by decide), up6 m ρ c (r := main_v23) (by decide)]
  exact eq_unary hW1 2 (W5 m ρ c) rfl (by decide) (by decide)
theorem X_main_v25 : W10 m ρ c (Proc.devRef .tc main_v25) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v22)) (W10 m ρ c (Proc.devRef .tc main_v24)) := by
  rw [up6 m ρ c (r := main_v25) (by decide), up6 m ρ c (r := main_v22) (by decide), up6 m ρ c (r := main_v24) (by decide)]
  exact eq_binary hW1 3 (W5 m ρ c) rfl (by decide) (by decide) (by decide)
theorem X_main_v26 : W10 m ρ c (Proc.devRef .tc main_v26) = ((truncf .bf16 · bitsLt_bf16_f32) : (⟨S100000x128, .f32⟩ : BufTy).Contents (Elt F) → (⟨S100000x128, .bf16⟩ : BufTy).Contents (Elt F)) (W10 m ρ c (Proc.devRef .tc main_v25)) := by
  rw [up6 m ρ c (r := main_v26) (by decide), up6 m ρ c (r := main_v25) (by decide)]
  exact eq_unary hW1 4 (W5 m ρ c) rfl (by decide) (by decide)
theorem X_main_c_6 : W10 m ρ c (Proc.devRef .tc main_c_6) = (constantI S_ 32 0#32) := by
  rw [up6 m ρ c (r := main_c_6) (by decide)]
  exact eq_nullary hW1 5 (W5 m ρ c) rfl (by decide)
theorem X_main_v27 : W10 m ρ c (Proc.devRef .tc main_v27) = (broadcastInDim S900000 ![] bcast_S_S900000 : (⟨S_, .i32⟩ : BufTy).Contents (Elt F) → (⟨S900000, .i32⟩ : BufTy).Contents (Elt F)) (W10 m ρ c (Proc.devRef .tc main_c_6)) := by
  rw [up6 m ρ c (r := main_v27) (by decide), up6 m ρ c (r := main_c_6) (by decide)]
  exact eq_unary hW1 6 (W5 m ρ c) rfl (by decide) (by decide)
theorem X_main_v28 : W10 m ρ c (Proc.devRef .tc main_v28) = (cmpi .slt : (⟨S900000, .i32⟩ : BufTy).Contents (Elt F) → (⟨S900000, .i32⟩ : BufTy).Contents (Elt F) → (⟨S900000, .i1⟩ : BufTy).Contents (Elt F)) (W10 m ρ c (Proc.devRef .tc main_v3)) (W10 m ρ c (Proc.devRef .tc main_v27)) := by
  rw [up6 m ρ c (r := main_v28) (by decide), up6 m ρ c (r := main_v3) (by decide), up6 m ρ c (r := main_v27) (by decide)]
  exact eq_binary hW1 7 (W5 m ρ c) rfl (by decide) (by decide) (by decide)
theorem X_main_c_7 : W10 m ρ c (Proc.devRef .tc main_c_7) = (constantI S_ 32 100000#32) := by
  rw [up6 m ρ c (r := main_c_7) (by decide)]
  exact eq_nullary hW1 8 (W5 m ρ c) rfl (by decide)
theorem X_main_v29 : W10 m ρ c (Proc.devRef .tc main_v29) = (broadcastInDim S900000 ![] bcast_S_S900000 : (⟨S_, .i32⟩ : BufTy).Contents (Elt F) → (⟨S900000, .i32⟩ : BufTy).Contents (Elt F)) (W10 m ρ c (Proc.devRef .tc main_c_7)) := by
  rw [up6 m ρ c (r := main_v29) (by decide), up6 m ρ c (r := main_c_7) (by decide)]
  exact eq_unary hW1 9 (W5 m ρ c) rfl (by decide) (by decide)
theorem X_main_v30 : W10 m ρ c (Proc.devRef .tc main_v30) = (addi : (⟨S900000, .i32⟩ : BufTy).Contents (Elt F) → (⟨S900000, .i32⟩ : BufTy).Contents (Elt F) → (⟨S900000, .i32⟩ : BufTy).Contents (Elt F)) (W10 m ρ c (Proc.devRef .tc main_v3)) (W10 m ρ c (Proc.devRef .tc main_v29)) := by
  rw [up6 m ρ c (r := main_v30) (by decide), up6 m ρ c (r := main_v3) (by decide), up6 m ρ c (r := main_v29) (by decide)]
  exact eq_binary hW1 10 (W5 m ρ c) rfl (by decide) (by decide) (by decide)
theorem X_main_v31 : W10 m ρ c (Proc.devRef .tc main_v31) = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W10 m ρ c (Proc.devRef .tc main_v28)) (W10 m ρ c (Proc.devRef .tc main_v30)) (W10 m ρ c (Proc.devRef .tc main_v3)) := by
  rw [up6 m ρ c (r := main_v31) (by decide), up6 m ρ c (r := main_v28) (by decide), up6 m ρ c (r := main_v30) (by decide), up6 m ρ c (r := main_v3) (by decide)]
  exact eq_ternary hW1 11 (W5 m ρ c) rfl (by decide) (by decide) (by decide) (by decide)
theorem X_main_v32 : W10 m ρ c (Proc.devRef .tc main_v32) = (broadcastInDim S900000x1 ![0] bcast_S900000_S900000x1_0 : (⟨S900000, .i32⟩ : BufTy).Contents (Elt F) → (⟨S900000x1, .i32⟩ : BufTy).Contents (Elt F)) (W10 m ρ c (Proc.devRef .tc main_v31)) := by
  rw [up6 m ρ c (r := main_v32) (by decide), up6 m ρ c (r := main_v31) (by decide)]
  exact eq_unary hW1 12 (W5 m ρ c) rfl (by decide) (by decide)
theorem X_main_v33 : W10 m ρ c (Proc.devRef .tc main_v33) = ((fun x i => Host.gather gather_S100000x128_S900000x1_S900000x128_1_0_n_n_0_1_1128 x i) : (⟨S100000x128, .bf16⟩ : BufTy).Contents (Elt F) → (⟨S900000x1, .i32⟩ : BufTy).Contents (Elt F) → (⟨S900000x128, .bf16⟩ : BufTy).Contents (Elt F)) (W10 m ρ c (Proc.devRef .tc main_v26)) (W10 m ρ c (Proc.devRef .tc main_v32)) := by
  rw [up6 m ρ c (r := main_v33) (by decide), up6 m ρ c (r := main_v26) (by decide), up6 m ρ c (r := main_v32) (by decide)]
  exact eq_binary hW1 13 (W5 m ρ c) rfl (by decide) (by decide) (by decide)
theorem X_main_v34 : W10 m ρ c (Proc.devRef .tc main_v34) = ((extf .f32 · bitsLt_bf16_f32) : (⟨S900000x128, .bf16⟩ : BufTy).Contents (Elt F) → (⟨S900000x128, .f32⟩ : BufTy).Contents (Elt F)) (W10 m ρ c (Proc.devRef .tc main_v33)) := by
  rw [up6 m ρ c (r := main_v34) (by decide), up6 m ρ c (r := main_v33) (by decide)]
  exact eq_unary hW1 14 (W5 m ρ c) rfl (by decide) (by decide)
theorem X_main_v35 : W10 m ρ c (Proc.devRef .tc main_v35) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  rw [up6 m ρ c (r := main_v35) (by decide), up6 m ρ c (r := main_v16) (by decide)]
  exact eq_unary hW1 15 (W5 m ρ c) rfl (by decide) (by decide)
theorem X_main_cst_8 : W10 m ρ c (Proc.devRef .tc main_cst_8) = (constant S_ .f32 0x00000000#32) := by
  rw [up6 m ρ c (r := main_cst_8) (by decide)]
  exact eq_nullary hW1 16 (W5 m ρ c) rfl (by decide)
theorem X_main_v36 : W10 m ρ c (Proc.devRef .tc main_v36) = (broadcastInDim S100000x128 ![] bcast_S_S100000x128 : (⟨S_, .f32⟩ : BufTy).Contents (Elt F) → (⟨S100000x128, .f32⟩ : BufTy).Contents (Elt F)) (W10 m ρ c (Proc.devRef .tc main_cst_8)) := by
  rw [up6 m ρ c (r := main_v36) (by decide), up6 m ρ c (r := main_cst_8) (by decide)]
  exact eq_unary hW1 17 (W5 m ρ c) rfl (by decide) (by decide)
theorem X_main_v37 : W10 m ρ c (Proc.devRef .tc main_v37) = (broadcastInDim S900000x1 ![0] bcast_S900000_S900000x1_0 : (⟨S900000, .i32⟩ : BufTy).Contents (Elt F) → (⟨S900000x1, .i32⟩ : BufTy).Contents (Elt F)) (W10 m ρ c (Proc.devRef .tc main_v6)) := by
  rw [up6 m ρ c (r := main_v37) (by decide), up6 m ρ c (r := main_v6) (by decide)]
  exact eq_unary hW1 18 (W5 m ρ c) rfl (by decide) (by decide)
theorem X_main_v38 : W10 m ρ c (Proc.devRef .tc main_v38) = ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) (W10 m ρ c (Proc.devRef .tc main_v36)) (W10 m ρ c (Proc.devRef .tc main_v37)) (W10 m ρ c (Proc.devRef .tc main_v34)) := by
  rw [up6 m ρ c (r := main_v38) (by decide), up6 m ρ c (r := main_v36) (by decide), up6 m ρ c (r := main_v37) (by decide), up6 m ρ c (r := main_v34) (by decide)]
  exact eq_ternary hW1 19 (W5 m ρ c) rfl (by decide) (by decide) (by decide) (by decide)
theorem X_main_v39 : W10 m ρ c (Proc.devRef .tc main_v39) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v35)) := by
  rw [up6 m ρ c (r := main_v39) (by decide), up6 m ρ c (r := main_v35) (by decide)]
  exact eq_unary hW1 20 (W5 m ρ c) rfl (by decide) (by decide)
theorem X_main_v40 : W10 m ρ c (Proc.devRef .tc main_v40) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v39)) (W10 m ρ c (Proc.devRef .tc main_v38)) := by
  rw [up6 m ρ c (r := main_v40) (by decide), up6 m ρ c (r := main_v39) (by decide), up6 m ρ c (r := main_v38) (by decide)]
  exact eq_binary hW1 21 (W5 m ρ c) rfl (by decide) (by decide) (by decide)
theorem X_main_v41 : W10 m ρ c (Proc.devRef .tc main_v41) = ((extractStridedSlice S128x128 ![0, 0] · slices_S384x128_S128x128_0_0) : (⟨S384x128, .f32⟩ : BufTy).Contents (Elt F) → (⟨S128x128, .f32⟩ : BufTy).Contents (Elt F)) (W10 m ρ c (Proc.devRef .tc main_arg7)) := by
  rw [up6 m ρ c (r := main_v41) (by decide), up6 m ρ c (r := main_arg7) (by decide)]
  exact eq_unary hW1 22 (W5 m ρ c) rfl (by decide) (by decide)
theorem X_main_v42 : W10 m ρ c (Proc.devRef .tc main_v42) = ((extractStridedSlice S128x128 ![128, 0] · slices_S384x128_S128x128_128_0) : (⟨S384x128, .f32⟩ : BufTy).Contents (Elt F) → (⟨S128x128, .f32⟩ : BufTy).Contents (Elt F)) (W10 m ρ c (Proc.devRef .tc main_arg7)) := by
  rw [up6 m ρ c (r := main_v42) (by decide), up6 m ρ c (r := main_arg7) (by decide)]
  exact eq_unary hW1 23 (W5 m ρ c) rfl (by decide) (by decide)
theorem X_main_v43 : W10 m ρ c (Proc.devRef .tc main_v43) = ((extractStridedSlice S128x128 ![256, 0] · slices_S384x128_S128x128_256_0) : (⟨S384x128, .f32⟩ : BufTy).Contents (Elt F) → (⟨S128x128, .f32⟩ : BufTy).Contents (Elt F)) (W10 m ρ c (Proc.devRef .tc main_arg7)) := by
  rw [up6 m ρ c (r := main_v43) (by decide), up6 m ρ c (r := main_arg7) (by decide)]
  exact eq_unary hW1 24 (W5 m ρ c) rfl (by decide) (by decide)

end Cert.KernelIdeal.KEq

end
-- ==== Proof.KEq2.lean ====
/-
  The buffers at the end of the idealized kernel program's run, one equation per host operation of the stretch between the second and the third region: the
  operation's result buffer holds its function applied to its operands' buffers, every buffer read at the END of the
  run (`W10 m ρ c`). Each buffer is written once, so what an operation read is what its operand holds at the end.
  The equations are a table of cases over the printed operations, each closed by the single-assignment lemmas.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## `hostOps2` -/

theorem X_main_v45 : W10 m ρ c (Proc.devRef .tc main_v45) = ((extf .f32 · bitsLt_bf16_f32) : (⟨S100000x128, .bf16⟩ : BufTy).Contents (Elt F) → (⟨S100000x128, .f32⟩ : BufTy).Contents (Elt F)) (W10 m ρ c (Proc.devRef .tc main_v44)) := by
  rw [up8 m ρ c (r := main_v45) (by decide), up8 m ρ c (r := main_v44) (by decide)]
  exact eq_unary hW2 0 (W7 m ρ c) rfl (by decide) (by decide)
theorem X_main_v46 : W10 m ρ c (Proc.devRef .tc main_v46) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  rw [up8 m ρ c (r := main_v46) (by decide), up8 m ρ c (r := main_v16) (by decide)]
  exact eq_unary hW2 1 (W7 m ρ c) rfl (by decide) (by decide)
theorem X_main_v47 : W10 m ρ c (Proc.devRef .tc main_v47) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v46)) := by
  rw [up8 m ρ c (r := main_v47) (by decide), up8 m ρ c (r := main_v46) (by decide)]
  exact eq_unary hW2 2 (W7 m ρ c) rfl (by decide) (by decide)
theorem X_main_v48 : W10 m ρ c (Proc.devRef .tc main_v48) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v45)) (W10 m ρ c (Proc.devRef .tc main_v47)) := by
  rw [up8 m ρ c (r := main_v48) (by decide), up8 m ρ c (r := main_v45) (by decide), up8 m ρ c (r := main_v47) (by decide)]
  exact eq_binary hW2 3 (W7 m ρ c) rfl (by decide) (by decide) (by decide)
theorem X_main_v49 : W10 m ρ c (Proc.devRef .tc main_v49) = ((truncf .bf16 · bitsLt_bf16_f32) : (⟨S100000x128, .f32⟩ : BufTy).Contents (Elt F) → (⟨S100000x128, .bf16⟩ : BufTy).Contents (Elt F)) (W10 m ρ c (Proc.devRef .tc main_v48)) := by
  rw [up8 m ρ c (r := main_v49) (by decide), up8 m ρ c (r := main_v48) (by decide)]
  exact eq_unary hW2 4 (W7 m ρ c) rfl (by decide) (by decide)
theorem X_main_c_9 : W10 m ρ c (Proc.devRef .tc main_c_9) = (constantI S_ 32 0#32) := by
  rw [up8 m ρ c (r := main_c_9) (by decide)]
  exact eq_nullary hW2 5 (W7 m ρ c) rfl (by decide)
theorem X_main_v50 : W10 m ρ c (Proc.devRef .tc main_v50) = (broadcastInDim S900000 ![] bcast_S_S900000 : (⟨S_, .i32⟩ : BufTy).Contents (Elt F) → (⟨S900000, .i32⟩ : BufTy).Contents (Elt F)) (W10 m ρ c (Proc.devRef .tc main_c_9)) := by
  rw [up8 m ρ c (r := main_v50) (by decide), up8 m ρ c (r := main_c_9) (by decide)]
  exact eq_unary hW2 6 (W7 m ρ c) rfl (by decide) (by decide)
theorem X_main_v51 : W10 m ρ c (Proc.devRef .tc main_v51) = (cmpi .slt : (⟨S900000, .i32⟩ : BufTy).Contents (Elt F) → (⟨S900000, .i32⟩ : BufTy).Contents (Elt F) → (⟨S900000, .i1⟩ : BufTy).Contents (Elt F)) (W10 m ρ c (Proc.devRef .tc main_v3)) (W10 m ρ c (Proc.devRef .tc main_v50)) := by
  rw [up8 m ρ c (r := main_v51) (by decide), up8 m ρ c (r := main_v3) (by decide), up8 m ρ c (r := main_v50) (by decide)]
  exact eq_binary hW2 7 (W7 m ρ c) rfl (by decide) (by decide) (by decide)
theorem X_main_c_10 : W10 m ρ c (Proc.devRef .tc main_c_10) = (constantI S_ 32 100000#32) := by
  rw [up8 m ρ c (r := main_c_10) (by decide)]
  exact eq_nullary hW2 8 (W7 m ρ c) rfl (by decide)
theorem X_main_v52 : W10 m ρ c (Proc.devRef .tc main_v52) = (broadcastInDim S900000 ![] bcast_S_S900000 : (⟨S_, .i32⟩ : BufTy).Contents (Elt F) → (⟨S900000, .i32⟩ : BufTy).Contents (Elt F)) (W10 m ρ c (Proc.devRef .tc main_c_10)) := by
  rw [up8 m ρ c (r := main_v52) (by decide), up8 m ρ c (r := main_c_10) (by decide)]
  exact eq_unary hW2 9 (W7 m ρ c) rfl (by decide) (by decide)
theorem X_main_v53 : W10 m ρ c (Proc.devRef .tc main_v53) = (addi : (⟨S900000, .i32⟩ : BufTy).Contents (Elt F) → (⟨S900000, .i32⟩ : BufTy).Contents (Elt F) → (⟨S900000, .i32⟩ : BufTy).Contents (Elt F)) (W10 m ρ c (Proc.devRef .tc main_v3)) (W10 m ρ c (Proc.devRef .tc main_v52)) := by
  rw [up8 m ρ c (r := main_v53) (by decide), up8 m ρ c (r := main_v3) (by decide), up8 m ρ c (r := main_v52) (by decide)]
  exact eq_binary hW2 10 (W7 m ρ c) rfl (by decide) (by decide) (by decide)
theorem X_main_v54 : W10 m ρ c (Proc.devRef .tc main_v54) = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W10 m ρ c (Proc.devRef .tc main_v51)) (W10 m ρ c (Proc.devRef .tc main_v53)) (W10 m ρ c (Proc.devRef .tc main_v3)) := by
  rw [up8 m ρ c (r := main_v54) (by decide), up8 m ρ c (r := main_v51) (by decide), up8 m ρ c (r := main_v53) (by decide), up8 m ρ c (r := main_v3) (by decide)]
  exact eq_ternary hW2 11 (W7 m ρ c) rfl (by decide) (by decide) (by decide) (by decide)
theorem X_main_v55 : W10 m ρ c (Proc.devRef .tc main_v55) = (broadcastInDim S900000x1 ![0] bcast_S900000_S900000x1_0 : (⟨S900000, .i32⟩ : BufTy).Contents (Elt F) → (⟨S900000x1, .i32⟩ : BufTy).Contents (Elt F)) (W10 m ρ c (Proc.devRef .tc main_v54)) := by
  rw [up8 m ρ c (r := main_v55) (by decide), up8 m ρ c (r := main_v54) (by decide)]
  exact eq_unary hW2 12 (W7 m ρ c) rfl (by decide) (by decide)
theorem X_main_v56 : W10 m ρ c (Proc.devRef .tc main_v56) = ((fun x i => Host.gather gather_S100000x128_S900000x1_S900000x128_1_0_n_n_0_1_1128 x i) : (⟨S100000x128, .bf16⟩ : BufTy).Contents (Elt F) → (⟨S900000x1, .i32⟩ : BufTy).Contents (Elt F) → (⟨S900000x128, .bf16⟩ : BufTy).Contents (Elt F)) (W10 m ρ c (Proc.devRef .tc main_v49)) (W10 m ρ c (Proc.devRef .tc main_v55)) := by
  rw [up8 m ρ c (r := main_v56) (by decide), up8 m ρ c (r := main_v49) (by decide), up8 m ρ c (r := main_v55) (by decide)]
  exact eq_binary hW2 13 (W7 m ρ c) rfl (by decide) (by decide) (by decide)
theorem X_main_v57 : W10 m ρ c (Proc.devRef .tc main_v57) = ((extf .f32 · bitsLt_bf16_f32) : (⟨S900000x128, .bf16⟩ : BufTy).Contents (Elt F) → (⟨S900000x128, .f32⟩ : BufTy).Contents (Elt F)) (W10 m ρ c (Proc.devRef .tc main_v56)) := by
  rw [up8 m ρ c (r := main_v57) (by decide), up8 m ρ c (r := main_v56) (by decide)]
  exact eq_unary hW2 14 (W7 m ρ c) rfl (by decide) (by decide)
theorem X_main_v58 : W10 m ρ c (Proc.devRef .tc main_v58) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  rw [up8 m ρ c (r := main_v58) (by decide), up8 m ρ c (r := main_v16) (by decide)]
  exact eq_unary hW2 15 (W7 m ρ c) rfl (by decide) (by decide)
theorem X_main_cst_11 : W10 m ρ c (Proc.devRef .tc main_cst_11) = (constant S_ .f32 0x00000000#32) := by
  rw [up8 m ρ c (r := main_cst_11) (by decide)]
  exact eq_nullary hW2 16 (W7 m ρ c) rfl (by decide)
theorem X_main_v59 : W10 m ρ c (Proc.devRef .tc main_v59) = (broadcastInDim S100000x128 ![] bcast_S_S100000x128 : (⟨S_, .f32⟩ : BufTy).Contents (Elt F) → (⟨S100000x128, .f32⟩ : BufTy).Contents (Elt F)) (W10 m ρ c (Proc.devRef .tc main_cst_11)) := by
  rw [up8 m ρ c (r := main_v59) (by decide), up8 m ρ c (r := main_cst_11) (by decide)]
  exact eq_unary hW2 17 (W7 m ρ c) rfl (by decide) (by decide)
theorem X_main_v60 : W10 m ρ c (Proc.devRef .tc main_v60) = (broadcastInDim S900000x1 ![0] bcast_S900000_S900000x1_0 : (⟨S900000, .i32⟩ : BufTy).Contents (Elt F) → (⟨S900000x1, .i32⟩ : BufTy).Contents (Elt F)) (W10 m ρ c (Proc.devRef .tc main_v6)) := by
  rw [up8 m ρ c (r := main_v60) (by decide), up8 m ρ c (r := main_v6) (by decide)]
  exact eq_unary hW2 18 (W7 m ρ c) rfl (by decide) (by decide)
theorem X_main_v61 : W10 m ρ c (Proc.devRef .tc main_v61) = ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) (W10 m ρ c (Proc.devRef .tc main_v59)) (W10 m ρ c (Proc.devRef .tc main_v60)) (W10 m ρ c (Proc.devRef .tc main_v57)) := by
  rw [up8 m ρ c (r := main_v61) (by decide), up8 m ρ c (r := main_v59) (by decide), up8 m ρ c (r := main_v60) (by decide), up8 m ρ c (r := main_v57) (by decide)]
  exact eq_ternary hW2 19 (W7 m ρ c) rfl (by decide) (by decide) (by decide) (by decide)
theorem X_main_v62 : W10 m ρ c (Proc.devRef .tc main_v62) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v58)) := by
  rw [up8 m ρ c (r := main_v62) (by decide), up8 m ρ c (r := main_v58) (by decide)]
  exact eq_unary hW2 20 (W7 m ρ c) rfl (by decide) (by decide)
theorem X_main_v63 : W10 m ρ c (Proc.devRef .tc main_v63) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v62)) (W10 m ρ c (Proc.devRef .tc main_v61)) := by
  rw [up8 m ρ c (r := main_v63) (by decide), up8 m ρ c (r := main_v62) (by decide), up8 m ρ c (r := main_v61) (by decide)]
  exact eq_binary hW2 21 (W7 m ρ c) rfl (by decide) (by decide) (by decide)
theorem X_main_v64 : W10 m ρ c (Proc.devRef .tc main_v64) = ((fun a b => concatenate S256x128 1 [⟨S256x64, a⟩, ⟨S256x64, b⟩] concatenates_S256x64_S256x64_S256x128_d1) : (⟨S256x64, .f32⟩ : BufTy).Contents (Elt F) → (⟨S256x64, .f32⟩ : BufTy).Contents (Elt F) → (⟨S256x128, .f32⟩ : BufTy).Contents (Elt F)) (W10 m ρ c (Proc.devRef .tc main_arg9)) (W10 m ρ c (Proc.devRef .tc main_arg11)) := by
  rw [up8 m ρ c (r := main_v64) (by decide), up8 m ρ c (r := main_arg9) (by decide), up8 m ρ c (r := main_arg11) (by decide)]
  exact eq_binary hW2 22 (W7 m ρ c) rfl (by decide) (by decide) (by decide)
theorem X_main_v65 : W10 m ρ c (Proc.devRef .tc main_v65) = ((extractStridedSlice S128x128 ![0, 0] · slices_S256x128_S128x128_0_0) : (⟨S256x128, .f32⟩ : BufTy).Contents (Elt F) → (⟨S128x128, .f32⟩ : BufTy).Contents (Elt F)) (W10 m ρ c (Proc.devRef .tc main_v64)) := by
  rw [up8 m ρ c (r := main_v65) (by decide), up8 m ρ c (r := main_v64) (by decide)]
  exact eq_unary hW2 23 (W7 m ρ c) rfl (by decide) (by decide)
theorem X_main_v66 : W10 m ρ c (Proc.devRef .tc main_v66) = ((extractStridedSlice S128x128 ![128, 0] · slices_S256x128_S128x128_128_0) : (⟨S256x128, .f32⟩ : BufTy).Contents (Elt F) → (⟨S128x128, .f32⟩ : BufTy).Contents (Elt F)) (W10 m ρ c (Proc.devRef .tc main_v64)) := by
  rw [up8 m ρ c (r := main_v66) (by decide), up8 m ρ c (r := main_v64) (by decide)]
  exact eq_unary hW2 24 (W7 m ρ c) rfl (by decide) (by decide)

end Cert.KernelIdeal.KEq

end
-- ==== Proof.KEq3.lean ====
/-
  The buffers at the end of the idealized kernel program's run, one equation per host operation of the stretch after the third region: the
  operation's result buffer holds its function applied to its operands' buffers, every buffer read at the END of the
  run (`W10 m ρ c`). Each buffer is written once, so what an operation read is what its operand holds at the end.
  The equations are a table of cases over the printed operations, each closed by the single-assignment lemmas.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## `hostOps3` -/

theorem X_main_v68 : W10 m ρ c (Proc.devRef .tc main_v68) = ((extf .f32 · bitsLt_bf16_f32) : (⟨S100000x128, .bf16⟩ : BufTy).Contents (Elt F) → (⟨S100000x128, .f32⟩ : BufTy).Contents (Elt F)) (W10 m ρ c (Proc.devRef .tc main_v67)) := by
  exact eq_unary hW3 0 (W9 m ρ c) rfl (by decide) (by decide)
theorem X_main_v69 : W10 m ρ c (Proc.devRef .tc main_v69) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  exact eq_unary hW3 1 (W9 m ρ c) rfl (by decide) (by decide)
theorem X_main_v70 : W10 m ρ c (Proc.devRef .tc main_v70) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v69)) := by
  exact eq_unary hW3 2 (W9 m ρ c) rfl (by decide) (by decide)
theorem X_main_v71 : W10 m ρ c (Proc.devRef .tc main_v71) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v68)) (W10 m ρ c (Proc.devRef .tc main_v70)) := by
  exact eq_binary hW3 3 (W9 m ρ c) rfl (by decide) (by decide) (by decide)
theorem X_main_v72 : W10 m ρ c (Proc.devRef .tc main_v72) = ((truncf .bf16 · bitsLt_bf16_f32) : (⟨S100000x128, .f32⟩ : BufTy).Contents (Elt F) → (⟨S100000x128, .bf16⟩ : BufTy).Contents (Elt F)) (W10 m ρ c (Proc.devRef .tc main_v71)) := by
  exact eq_unary hW3 4 (W9 m ρ c) rfl (by decide) (by decide)
theorem X_main_c_12 : W10 m ρ c (Proc.devRef .tc main_c_12) = (constantI S_ 32 0#32) := by
  exact eq_nullary hW3 5 (W9 m ρ c) rfl (by decide)
theorem X_main_v73 : W10 m ρ c (Proc.devRef .tc main_v73) = (broadcastInDim S900000 ![] bcast_S_S900000 : (⟨S_, .i32⟩ : BufTy).Contents (Elt F) → (⟨S900000, .i32⟩ : BufTy).Contents (Elt F)) (W10 m ρ c (Proc.devRef .tc main_c_12)) := by
  exact eq_unary hW3 6 (W9 m ρ c) rfl (by decide) (by decide)
theorem X_main_v74 : W10 m ρ c (Proc.devRef .tc main_v74) = (cmpi .slt : (⟨S900000, .i32⟩ : BufTy).Contents (Elt F) → (⟨S900000, .i32⟩ : BufTy).Contents (Elt F) → (⟨S900000, .i1⟩ : BufTy).Contents (Elt F)) (W10 m ρ c (Proc.devRef .tc main_v3)) (W10 m ρ c (Proc.devRef .tc main_v73)) := by
  exact eq_binary hW3 7 (W9 m ρ c) rfl (by decide) (by decide) (by decide)
theorem X_main_c_13 : W10 m ρ c (Proc.devRef .tc main_c_13) = (constantI S_ 32 100000#32) := by
  exact eq_nullary hW3 8 (W9 m ρ c) rfl (by decide)
theorem X_main_v75 : W10 m ρ c (Proc.devRef .tc main_v75) = (broadcastInDim S900000 ![] bcast_S_S900000 : (⟨S_, .i32⟩ : BufTy).Contents (Elt F) → (⟨S900000, .i32⟩ : BufTy).Contents (Elt F)) (W10 m ρ c (Proc.devRef .tc main_c_13)) := by
  exact eq_unary hW3 9 (W9 m ρ c) rfl (by decide) (by decide)
theorem X_main_v76 : W10 m ρ c (Proc.devRef .tc main_v76) = (addi : (⟨S900000, .i32⟩ : BufTy).Contents (Elt F) → (⟨S900000, .i32⟩ : BufTy).Contents (Elt F) → (⟨S900000, .i32⟩ : BufTy).Contents (Elt F)) (W10 m ρ c (Proc.devRef .tc main_v3)) (W10 m ρ c (Proc.devRef .tc main_v75)) := by
  exact eq_binary hW3 10 (W9 m ρ c) rfl (by decide) (by decide) (by decide)
theorem X_main_v77 : W10 m ρ c (Proc.devRef .tc main_v77) = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W10 m ρ c (Proc.devRef .tc main_v74)) (W10 m ρ c (Proc.devRef .tc main_v76)) (W10 m ρ c (Proc.devRef .tc main_v3)) := by
  exact eq_ternary hW3 11 (W9 m ρ c) rfl (by decide) (by decide) (by decide) (by decide)
theorem X_main_v78 : W10 m ρ c (Proc.devRef .tc main_v78) = (broadcastInDim S900000x1 ![0] bcast_S900000_S900000x1_0 : (⟨S900000, .i32⟩ : BufTy).Contents (Elt F) → (⟨S900000x1, .i32⟩ : BufTy).Contents (Elt F)) (W10 m ρ c (Proc.devRef .tc main_v77)) := by
  exact eq_unary hW3 12 (W9 m ρ c) rfl (by decide) (by decide)
theorem X_main_v79 : W10 m ρ c (Proc.devRef .tc main_v79) = ((fun x i => Host.gather gather_S100000x128_S900000x1_S900000x128_1_0_n_n_0_1_1128 x i) : (⟨S100000x128, .bf16⟩ : BufTy).Contents (Elt F) → (⟨S900000x1, .i32⟩ : BufTy).Contents (Elt F) → (⟨S900000x128, .bf16⟩ : BufTy).Contents (Elt F)) (W10 m ρ c (Proc.devRef .tc main_v72)) (W10 m ρ c (Proc.devRef .tc main_v78)) := by
  exact eq_binary hW3 13 (W9 m ρ c) rfl (by decide) (by decide) (by decide)
theorem X_main_v80 : W10 m ρ c (Proc.devRef .tc main_v80) = ((extf .f32 · bitsLt_bf16_f32) : (⟨S900000x128, .bf16⟩ : BufTy).Contents (Elt F) → (⟨S900000x128, .f32⟩ : BufTy).Contents (Elt F)) (W10 m ρ c (Proc.devRef .tc main_v79)) := by
  exact eq_unary hW3 14 (W9 m ρ c) rfl (by decide) (by decide)
theorem X_main_v81 : W10 m ρ c (Proc.devRef .tc main_v81) = (broadcastInDim S100000x1 ![0] bcast_S100000_S100000x1_0 : (⟨S100000, .f32⟩ : BufTy).Contents (Elt F) → (⟨S100000x1, .f32⟩ : BufTy).Contents (Elt F)) (W10 m ρ c (Proc.devRef .tc main_v16)) := by
  exact eq_unary hW3 15 (W9 m ρ c) rfl (by decide) (by decide)
theorem X_main_cst_14 : W10 m ρ c (Proc.devRef .tc main_cst_14) = (constant S_ .f32 0x00000000#32) := by
  exact eq_nullary hW3 16 (W9 m ρ c) rfl (by decide)
theorem X_main_v82 : W10 m ρ c (Proc.devRef .tc main_v82) = (broadcastInDim S100000x128 ![] bcast_S_S100000x128 : (⟨S_, .f32⟩ : BufTy).Contents (Elt F) → (⟨S100000x128, .f32⟩ : BufTy).Contents (Elt F)) (W10 m ρ c (Proc.devRef .tc main_cst_14)) := by
  exact eq_unary hW3 17 (W9 m ρ c) rfl (by decide) (by decide)
theorem X_main_v83 : W10 m ρ c (Proc.devRef .tc main_v83) = (broadcastInDim S900000x1 ![0] bcast_S900000_S900000x1_0 : (⟨S900000, .i32⟩ : BufTy).Contents (Elt F) → (⟨S900000x1, .i32⟩ : BufTy).Contents (Elt F)) (W10 m ρ c (Proc.devRef .tc main_v6)) := by
  exact eq_unary hW3 18 (W9 m ρ c) rfl (by decide) (by decide)
theorem X_main_v84 : W10 m ρ c (Proc.devRef .tc main_v84) = ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) (W10 m ρ c (Proc.devRef .tc main_v82)) (W10 m ρ c (Proc.devRef .tc main_v83)) (W10 m ρ c (Proc.devRef .tc main_v80)) := by
  exact eq_ternary hW3 19 (W9 m ρ c) rfl (by decide) (by decide) (by decide) (by decide)
theorem X_main_v85 : W10 m ρ c (Proc.devRef .tc main_v85) = (broadcastInDim S100000x128 ![0, 1] bcast_S100000x1_S100000x128_0_1 : (⟨S100000x1, .f32⟩ : BufTy).Contents (Elt F) → (⟨S100000x128, .f32⟩ : BufTy).Contents (Elt F)) (W10 m ρ c (Proc.devRef .tc main_v81)) := by
  exact eq_unary hW3 20 (W9 m ρ c) rfl (by decide) (by decide)
theorem X_main_v86 : W10 m ρ c (Proc.devRef .tc main_v86) = (mulf : (⟨S100000x128, .f32⟩ : BufTy).Contents (Elt F) → (⟨S100000x128, .f32⟩ : BufTy).Contents (Elt F) → (⟨S100000x128, .f32⟩ : BufTy).Contents (Elt F)) (W10 m ρ c (Proc.devRef .tc main_v85)) (W10 m ρ c (Proc.devRef .tc main_v84)) := by
  exact eq_binary hW3 21 (W9 m ρ c) rfl (by decide) (by decide) (by decide)
theorem X_main_v87 : W10 m ρ c (Proc.devRef .tc main_v87) = ((extractStridedSlice S100000x64 ![0, 0] · slices_S100000x128_S100000x64_0_0) : (⟨S100000x128, .f32⟩ : BufTy).Contents (Elt F) → (⟨S100000x64, .f32⟩ : BufTy).Contents (Elt F)) (W10 m ρ c (Proc.devRef .tc main_v86)) := by
  exact eq_unary hW3 22 (W9 m ρ c) rfl (by decide) (by decide)
theorem X_main_v88 : W10 m ρ c (Proc.devRef .tc main_v88) = (broadcastInDim S1x64 ![1] bcast_S64_S1x64_1 : (⟨S64, .f32⟩ : BufTy).Contents (Elt F) → (⟨S1x64, .f32⟩ : BufTy).Contents (Elt F)) (W10 m ρ c (Proc.devRef .tc main_arg10)) := by
  exact eq_unary hW3 23 (W9 m ρ c) rfl (by decide) (by decide)
theorem X_main_v89 : W10 m ρ c (Proc.devRef .tc main_v89) = (broadcastInDim S100000x64 ![0, 1] bcast_S1x64_S100000x64_0_1 : (⟨S1x64, .f32⟩ : BufTy).Contents (Elt F) → (⟨S100000x64, .f32⟩ : BufTy).Contents (Elt F)) (W10 m ρ c (Proc.devRef .tc main_v88)) := by
  exact eq_unary hW3 24 (W9 m ρ c) rfl (by decide) (by decide)
theorem X_main_v90 : W10 m ρ c (Proc.devRef .tc main_v90) = (addf : (⟨S100000x64, .f32⟩ : BufTy).Contents (Elt F) → (⟨S100000x64, .f32⟩ : BufTy).Contents (Elt F) → (⟨S100000x64, .f32⟩ : BufTy).Contents (Elt F)) (W10 m ρ c (Proc.devRef .tc main_v87)) (W10 m ρ c (Proc.devRef .tc main_v89)) := by
  exact eq_binary hW3 25 (W9 m ρ c) rfl (by decide) (by decide) (by decide)
theorem X_main_v91 : W10 m ρ c (Proc.devRef .tc main_v91) = ((extractStridedSlice S100000x64 ![0, 64] · slices_S100000x128_S100000x64_0_64) : (⟨S100000x128, .f32⟩ : BufTy).Contents (Elt F) → (⟨S100000x64, .f32⟩ : BufTy).Contents (Elt F)) (W10 m ρ c (Proc.devRef .tc main_v86)) := by
  exact eq_unary hW3 26 (W9 m ρ c) rfl (by decide) (by decide)
theorem X_main_v92 : W10 m ρ c (Proc.devRef .tc main_v92) = (broadcastInDim S1x64 ![1] bcast_S64_S1x64_1 : (⟨S64, .f32⟩ : BufTy).Contents (Elt F) → (⟨S1x64, .f32⟩ : BufTy).Contents (Elt F)) (W10 m ρ c (Proc.devRef .tc main_arg12)) := by
  exact eq_unary hW3 27 (W9 m ρ c) rfl (by decide) (by decide)
theorem X_main_v93 : W10 m ρ c (Proc.devRef .tc main_v93) = (broadcastInDim S100000x64 ![0, 1] bcast_S1x64_S100000x64_0_1 : (⟨S1x64, .f32⟩ : BufTy).Contents (Elt F) → (⟨S100000x64, .f32⟩ : BufTy).Contents (Elt F)) (W10 m ρ c (Proc.devRef .tc main_v92)) := by
  exact eq_unary hW3 28 (W9 m ρ c) rfl (by decide) (by decide)
theorem X_main_v94 : W10 m ρ c (Proc.devRef .tc main_v94) = (addf : (⟨S100000x64, .f32⟩ : BufTy).Contents (Elt F) → (⟨S100000x64, .f32⟩ : BufTy).Contents (Elt F) → (⟨S100000x64, .f32⟩ : BufTy).Contents (Elt F)) (W10 m ρ c (Proc.devRef .tc main_v91)) (W10 m ρ c (Proc.devRef .tc main_v93)) := by
  exact eq_binary hW3 29 (W9 m ρ c) rfl (by decide) (by decide) (by decide)

end Cert.KernelIdeal.KEq

end
-- ==== Proof.KEqRegions.lean ====
/-
  The three regions' arrays at the end of the idealized kernel program's run: each region's output array holds at the
  end what the region's write-backs leave (nothing after the region writes it), and each input array held at the
  region's entry what it holds at the end (it was written before the region and by nothing after). The thirteen
  argument arrays hold at the end what they were launched with.
-/
import proofs.«177732_j68255620268441_2_alg».proof.Proof.KBase

set_option maxRecDepth 16384

noncomputable section

namespace Cert.KernelIdeal.KEq

open Cert.KernelIdeal Cert.KernelIdeal.Gen Cert.KAfterSplit
open Idealize.ShloMosaic Idealize.ShloMosaic.TcCoe Idealize.ShloMosaic.StableHlo
open Idealize.ShloMosaic.Pipeline (Dat Cfg Window)

variable {F : FTy → Type} [FloatOps F]

variable (m : (ℓ : Loc nD τ sig) → Buf (Elt F) ℓ) (ρ : Dev nD → PrngReg) (c : Dev nD)

/-! ## The region outputs -/

theorem X_main_v21_0 : W10 m ρ c (Proc.devRef .tc main_v21_0) = (dat0 (V4 m ρ) c).arrAt 6 cfg0.N :=
  (up5 m ρ c (r := main_v21_0) (by decide)).trans (W5_arr m ρ c 6)
theorem X_main_v21_1 : W10 m ρ c (Proc.devRef .tc main_v21_1) = (dat0 (V4 m ρ) c).arrAt 7 cfg0.N :=
  (up5 m ρ c (r := main_v21_1) (by decide)).trans (W5_arr m ρ c 7)
theorem X_main_v44 : W10 m ρ c (Proc.devRef .tc main_v44) = (dat1 (V6 m ρ) c).arrAt 7 cfg1.N :=
  (up7 m ρ c (r := main_v44) (by decide)).trans (W7_arr m ρ c 7)
theorem X_main_v67 : W10 m ρ c (Proc.devRef .tc main_v67) = (dat2 (V8 m ρ) c).arrAt 5 cfg2.N :=
  (up9 m ρ c (r := main_v67) (by decide)).trans (W9_arr m ρ c 5)

/-! ## The region inputs, as entered -/

theorem V4_main_arg0 : V4 m ρ c main_arg0 = W10 m ρ c (Proc.devRef .tc main_arg0) :=
  (up4 m ρ c (r := main_arg0) (by decide)).symm
theorem V4_main_v19 : V4 m ρ c main_v19 = W10 m ρ c (Proc.devRef .tc main_v19) :=
  (up4 m ρ c (r := main_v19) (by decide)).symm
theorem V4_main_v20 : V4 m ρ c main_v20 = W10 m ρ c (Proc.devRef .tc main_v20) :=
  (up4 m ρ c (r := main_v20) (by decide)).symm
theorem V4_main_arg3 : V4 m ρ c main_arg3 = W10 m ρ c (Proc.devRef .tc main_arg3) :=
  (up4 m ρ c (r := main_arg3) (by decide)).symm
theorem V4_main_arg4 : V4 m ρ c main_arg4 = W10 m ρ c (Proc.devRef .tc main_arg4) :=
  (up4 m ρ c (r := main_arg4) (by decide)).symm
theorem V4_main_arg5 : V4 m ρ c main_arg5 = W10 m ρ c (Proc.devRef .tc main_arg5) :=
  (up4 m ρ c (r := main_arg5) (by decide)).symm
theorem V6_main_v40 : V6 m ρ c main_v40 = W10 m ρ c (Proc.devRef .tc main_v40) :=
  (up6 m ρ c (r := main_v40) (by decide)).symm
theorem V6_main_arg6 : V6 m ρ c main_arg6 = W10 m ρ c (Proc.devRef .tc main_arg6) :=
  (up6 m ρ c (r := main_arg6) (by decide)).symm
theorem V6_main_v21_0 : V6 m ρ c main_v21_0 = W10 m ρ c (Proc.devRef .tc main_v21_0) :=
  (up6 m ρ c (r := main_v21_0) (by decide)).symm
theorem V6_main_arg1 : V6 m ρ c main_arg1 = W10 m ρ c (Proc.devRef .tc main_arg1) :=
  (up6 m ρ c (r := main_arg1) (by decide)).symm
theorem V6_main_v41 : V6 m ρ c main_v41 = W10 m ρ c (Proc.devRef .tc main_v41) :=
  (up6 m ρ c (r := main_v41) (by decide)).symm
theorem V6_main_v42 : V6 m ρ c main_v42 = W10 m ρ c (Proc.devRef .tc main_v42) :=
  (up6 m ρ c (r := main_v42) (by decide)).symm
theorem V6_main_v43 : V6 m ρ c main_v43 = W10 m ρ c (Proc.devRef .tc main_v43) :=
  (up6 m ρ c (r := main_v43) (by decide)).symm
theorem V8_main_v63 : V8 m ρ c main_v63 = W10 m ρ c (Proc.devRef .tc main_v63) :=
  (up8 m ρ c (r := main_v63) (by decide)).symm
theorem V8_main_arg8 : V8 m ρ c main_arg8 = W10 m ρ c (Proc.devRef .tc main_arg8) :=
  (up8 m ρ c (r := main_arg8) (by decide)).symm
theorem V8_main_v21_0 : V8 m ρ c main_v21_0 = W10 m ρ c (Proc.devRef .tc main_v21_0) :=
  (up8 m ρ c (r := main_v21_0) (by decide)).symm
theorem V8_main_v65 : V8 m ρ c main_v65 = W10 m ρ c (Proc.devRef .tc main_v65) :=
  (up8 m ρ c (r := main_v65) (by decide)).symm
theorem V8_main_v66 : V8 m ρ c main_v66 = W10 m ρ c (Proc.devRef .tc main_v66) :=
  (up8 m ρ c (r := main_v66) (by decide)).symm

/-! ## The arguments -/

theorem X_main_arg0 : W10 m ρ c (Proc.devRef .tc main_arg0) = m ((c : Thread nD τ).loc main_arg0) := W10_main_arg0 m ρ c
theorem X_main_arg1 : W10 m ρ c (Proc.devRef .tc main_arg1) = m ((c : Thread nD τ).loc main_arg1) := W10_main_arg1 m ρ c
theorem X_main_arg2 : W10 m ρ c (Proc.devRef .tc main_arg2) = m ((c : Thread nD τ).loc main_arg2) := W10_main_arg2 m ρ c
theorem X_main_arg3 : W10 m ρ c (Proc.devRef .tc main_arg3) = m ((c : Thread nD τ).loc main_arg3) := W10_main_arg3 m ρ c
theorem X_main_arg4 : W10 m ρ c (Proc.devRef .tc main_arg4) = m ((c : Thread nD τ).loc main_arg4) := W10_main_arg4 m ρ c
theorem X_main_arg5 : W10 m ρ c (Proc.devRef .tc main_arg5) = m ((c : Thread nD τ).loc main_arg5) := W10_main_arg5 m ρ c
theorem X_main_arg6 : W10 m ρ c (Proc.devRef .tc main_arg6) = m ((c : Thread nD τ).loc main_arg6) := W10_main_arg6 m ρ c
theorem X_main_arg7 : W10 m ρ c (Proc.devRef .tc main_arg7) = m ((c : Thread nD τ).loc main_arg7) := W10_main_arg7 m ρ c
theorem X_main_arg8 : W10 m ρ c (Proc.devRef .tc main_arg8) = m ((c : Thread nD τ).loc main_arg8) := W10_main_arg8 m ρ c
theorem X_main_arg9 : W10 m ρ c (Proc.devRef .tc main_arg9) = m ((c : Thread nD τ).loc main_arg9) := W10_main_arg9 m ρ c
theorem X_main_arg10 : W10 m ρ c (Proc.devRef .tc main_arg10) = m ((c : Thread nD τ).loc main_arg10) := W10_main_arg10 m ρ c
theorem X_main_arg11 : W10 m ρ c (Proc.devRef .tc main_arg11) = m ((c : Thread nD τ).loc main_arg11) := W10_main_arg11 m ρ c
theorem X_main_arg12 : W10 m ρ c (Proc.devRef .tc main_arg12) = m ((c : Thread nD τ).loc main_arg12) := W10_main_arg12 m ρ c

end Cert.KernelIdeal.KEq

end
-- ==== Proof.Spec.lean ====
/-
  The mathematics both programs compute, written once over plain coordinates.

  A graph on 100000 nodes is given by 900000 updates (800000 edges and one self loop per node). Update `e` reads row
  `srow e` of a node table and lands on node `n` when `land e n` holds; `dinv n` is the node's degree factor
  (the inverse square root of its degree). One normalized aggregation of a node table `h` is

      agg h n k = Σ_{e lands on n} h (srow e) k · (dinv (srow e) · dinv n).

  The network: a batch normalization of `x` with given per-column mean `mu` and variance `var`; a first layer
  `relu (agg (xb · W1) + b1)`; a second layer on the columns `[xb | noise | h1]` against the 384 rows of `W2`, spelt as
  three 128-row products; and two output heads on `[xb | h2]` against the 256 rows of `Wm` and of `Ws`.
-/
import Idealize.ShloMosaic.PureOps.Ideal
import Mathlib.Algebra.BigOperators.Fin

open scoped BigOperators

noncomputable section

namespace Cert.Gcn

open Idealize.ShloMosaic

/-- The graph as both programs read it off the index arrays. -/
structure Graph where
  /-- the table row update `e` gathers -/
  srow : Fin 900000 → Fin 100000
  /-- update `e` lands on node `n` -/
  land : Fin 900000 → Fin 100000 → Prop
  dec : ∀ e n, Decidable (land e n)
  /-- a node's degree factor -/
  dinv : Fin 100000 → EReal

attribute [instance] Graph.dec

/-- The arrays of the network, by coordinates. -/
structure Params where
  x : Fin 100000 → Fin 128 → EReal
  noise : Fin 100000 → Fin 128 → EReal
  mu : Fin 128 → EReal
  var : Fin 128 → EReal
  gamma : Fin 128 → EReal
  beta : Fin 128 → EReal
  W1 : Fin 128 → Fin 128 → EReal
  b1 : Fin 128 → EReal
  W2 : Fin 384 → Fin 128 → EReal
  b2 : Fin 128 → EReal
  Wm : Fin 256 → Fin 64 → EReal
  bm : Fin 64 → EReal
  Ws : Fin 256 → Fin 64 → EReal
  bs : Fin 64 → EReal

/-- Row `o + k` of a 384-row matrix, for a 128-row band starting at `o`. -/
def at384 (o : ℕ) (ho : o + 128 ≤ 384) (k : Fin 128) : Fin 384 := ⟨o + k.val, by omega⟩
/-- Row `o + k` of a 256-row matrix, for a 128-row band starting at `o`. -/
def at256 (o : ℕ) (ho : o + 128 ≤ 256) (k : Fin 128) : Fin 256 := ⟨o + k.val, by omega⟩

/-- The variance's stabilizer, the f32 nearest 1e-5, as the exact binary value both programs carry. -/
def eps : EReal := Ideal.ofBits .f32 0x3727C5AC#32

variable (G : Graph) (P : Params)

/-- One normalized aggregation of a node table. -/
def agg {D : ℕ} (h : Fin 100000 → Fin D → EReal) (n : Fin 100000) (k : Fin D) : EReal :=
  ∑ e : Fin 900000, if G.land e n then h (G.srow e) k * (G.dinv (G.srow e) * G.dinv n) else 0

/-- The batch-normalized input. -/
def xb (r : Fin 100000) (k : Fin 128) : EReal :=
  (P.x r k - P.mu k) * Ideal.rsqrt (P.var k + eps) * P.gamma k + P.beta k

/-- First layer before aggregation. -/
def h1pre (r : Fin 100000) (g : Fin 128) : EReal := ∑ k : Fin 128, xb P r k * P.W1 k g

/-- First layer. -/
def h1 (r : Fin 100000) (g : Fin 128) : EReal := max (agg G (h1pre P) r g + P.b1 g) 0

/-- Second layer before aggregation: the three 128-row bands of `W2` against `xb`, `noise` and `h1`. -/
def h2pre (r : Fin 100000) (g : Fin 128) : EReal :=
  (∑ k : Fin 128, xb P r k * P.W2 (at384 0 (by omega) k) g + ∑ k : Fin 128, P.noise r k * P.W2 (at384 128 (by omega) k) g)
    + ∑ k : Fin 128, h1 G P r k * P.W2 (at384 256 (by omega) k) g

/-- Second layer. -/
def h2 (r : Fin 100000) (g : Fin 128) : EReal := max (agg G (h2pre G P) r g + P.b2 g) 0

/-- An output head before aggregation: the two 128-row bands of a 256-row matrix against `xb` and `h2`. -/
def zpre (W : Fin 256 → Fin 64 → EReal) (r : Fin 100000) (j : Fin 64) : EReal :=
  ∑ k : Fin 128, xb P r k * W (at256 0 (by omega) k) j + ∑ k : Fin 128, h2 G P r k * W (at256 128 (by omega) k) j

/-- The mean head. -/
def zmean (n : Fin 100000) (j : Fin 64) : EReal := agg G (zpre G P P.Wm) n j + P.bm j

/-- The log-deviation head. -/
def zlogstd (n : Fin 100000) (j : Fin 64) : EReal := agg G (zpre G P P.Ws) n j + P.bs j

end Cert.Gcn

end
-- ==== Proof.Algebra.lean ====
/-
  The algebra that joins the two programs' spellings of one aggregation, on the extended reals.

  Only one law here is not plain commutativity and associativity: a NONNEGATIVE REAL factor moves across a finite sum
  (`c · Σ f = Σ c · f`), which holds on the extended reals because multiplication by such a factor preserves every sum,
  infinite terms included. The degree factor is such a number whatever the degree is: it is `0` where the degree is
  not positive and `1/√(max degree tiny)` where it is, and the inverse square root of a positive extended real is a
  nonnegative real (`0` at `+∞`).
-/
import proofs.«177732_j68255620268441_2_alg».proof.Proof.Spec
import Idealize.ShloMosaic.PureOps.Ideal.Laws
import Mathlib.Data.EReal.Operations

open scoped BigOperators

noncomputable section

namespace Cert.Gcn

open Idealize.ShloMosaic

/-- A nonnegative finite factor moves inside a finite sum of extended reals. -/
theorem nonneg_mul_sum {ι : Type} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top hc hc', ih]

/-- The kernel's spelling — scale the table by the degree factor at the source, sum the landing rows, scale by the
    degree factor at the node — is the aggregation, the node's factor being a nonnegative real. -/
theorem agg_of_kernel_form (G : Graph) {D : ℕ} (h : Fin 100000 → Fin D → EReal) (n : Fin 100000) (k : Fin D)
    (hd : ∃ r : ℝ, 0 ≤ r ∧ G.dinv n = (r : EReal)) :
    G.dinv n * (0 + ∑ e : Fin 900000, if G.land e n then h (G.srow e) k * G.dinv (G.srow e) else 0) = agg G h n k := by
  obtain ⟨r, hr, hrd⟩ := hd
  have hc : (0 : EReal) ≤ G.dinv n := by rw [hrd]; exact_mod_cast hr
  have hc' : G.dinv n ≠ ⊤ := by rw [hrd]; exact EReal.coe_ne_top r
  rw [zero_add, nonneg_mul_sum _ _ hc hc']
  unfold agg
  refine Finset.sum_congr rfl fun e _ => ?_
  split_ifs
  · rw [mul_comm (G.dinv n), mul_assoc]
  · rw [mul_zero]

/-- The reference's spelling — weigh every update by the product of the two degree factors, the second read at the
    update's own destination row — is the aggregation: an update that lands on `n` has destination row `n`. -/
theorem agg_of_reference_form (G : Graph) {D : ℕ} (h : Fin 100000 → Fin D → EReal) (drow : Fin 900000 → Fin 100000)
    (hdrow : ∀ e n, G.land e n → drow e = n) (n : Fin 100000) (k : Fin D) :
    (0 + ∑ e : Fin 900000, if G.land e n then h (G.srow e) k * (G.dinv (G.srow e) * G.dinv (drow e)) else 0) = agg G h n k := by
  rw [zero_add]
  unfold agg
  refine Finset.sum_congr rfl fun e _ => ?_
  split_ifs with hl
  · rw [hdrow e n hl]
  · rfl

/-- The inverse square root of a positive extended real is a nonnegative real. -/
theorem rsqrt_pos_nonneg_real (x : EReal) (hx : 0 < x) : ∃ r : ℝ, 0 ≤ r ∧ Ideal.rsqrt x = (r : EReal) := by
  induction x using EReal.rec with
  | bot => exact absurd hx (by simp)
  | top => exact ⟨0, le_rfl, by simp⟩
  | coe r =>
    have hr : 0 < r := by exact_mod_cast hx
    refine ⟨(Real.sqrt r)⁻¹, by positivity, ?_⟩
    rw [Ideal.rsqrt_coe, if_neg (not_lt.mpr hr.le), if_neg hr.ne']

/-- The degree factor `where (deg > 0) (rsqrt (max deg tiny)) 0` is a nonnegative real, whatever `deg` and `tiny` are. -/
theorem dinv_nonneg_real (deg t z0 z1 : EReal) (h0 : z0 = 0) (h1 : z1 = 0) :
    ∃ r : ℝ, 0 ≤ r ∧ Scalar.select (Ideal.cmp .ogt deg z0) (Ideal.rsqrt (max deg t)) z1 = (r : EReal) := by
  subst h0 h1
  by_cases h : (0 : EReal) < deg
  · have hc : Ideal.cmp .ogt deg 0 = 1 := by simp [Ideal.cmp, h]
    unfold Scalar.select
    rw [if_pos hc]
    exact rsqrt_pos_nonneg_real _ (lt_max_of_lt_left h)
  · have hc : Ideal.cmp .ogt deg 0 ≠ 1 := by simp [Ideal.cmp, h]
    unfold Scalar.select
    rw [if_neg hc]
    exact ⟨0, le_rfl, by simp⟩

/-- A sum over 384 rows is the sum of its three 128-row bands. -/
theorem sum384_split (f : Fin 384 → EReal) :
    ∑ k : Fin 384, f k
      = (∑ k : Fin 128, f (at384 0 (by omega) k) + ∑ k : Fin 128, f (at384 128 (by omega) k))
        + ∑ k : Fin 128, f (at384 256 (by omega) k) := by
  have h1 : (∑ k : Fin 384, f k) = ∑ k : Fin (256 + 128), f k := rfl
  rw [h1, Fin.sum_univ_add]
  have h2 : (∑ i : Fin 256, f (Fin.castAdd 128 i)) = ∑ i : Fin (128 + 128), f (Fin.castAdd 128 i) := rfl
  rw [h2, Fin.sum_univ_add]
  refine congrArg₂ (· + ·) (congrArg₂ (· + ·) ?_ ?_) ?_ <;>
    exact Finset.sum_congr rfl fun k _ => congrArg f (Fin.ext (by simp [at384]; try omega))

/-- A sum over 256 rows is the sum of its two 128-row bands. -/
theorem sum256_split (f : Fin 256 → EReal) :
    ∑ k : Fin 256, f k = ∑ k : Fin 128, f (at256 0 (by omega) k) + ∑ k : Fin 128, f (at256 128 (by omega) k) := by
  have h1 : (∑ k : Fin 256, f k) = ∑ k : Fin (128 + 128), f k := rfl
  rw [h1, Fin.sum_univ_add]
  refine congrArg₂ (· + ·) ?_ ?_ <;>
    exact Finset.sum_congr rfl fun k _ => congrArg f (Fin.ext (by simp [at256]; try omega))

end Cert.Gcn

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.Pieces.lean ====
/-
  Small facts about the host's layout operations, read at an entry, and the batch normalization as the host spells it.

  A vector of per-column numbers reaches a matrix through two broadcasts (into a one-row matrix, then down the rows): at
  `(r, k)` the result is the vector at `k`. A scalar broadcast to any shape is that scalar everywhere. With these the
  host's chain `((x − mu) · rsqrt (var + ε)) · γ + β` reads, entry by entry, as the specification's `xb`.
-/
import proofs.«177732_j68255620268441_2_alg».proof.Proof.Spec
import proofs.«177732_j68255620268441_2_alg».proof.Proof.LibHostRows
import Idealize.ShloMosaic.Lib.ValueIdx
import Idealize.ShloMosaic.Lib.Pipeline.Value
import Idealize.ShloMosaic.PureOps.Ideal.Laws

open scoped BigOperators

noncomputable section

namespace Cert.Gcn.Piece

open Idealize.ShloMosaic Idealize.ShloMosaic.ValueIdx

variable {α : Type}

/-- A `[b]` vector broadcast into a row and then down `a` rows reads, at `(r, k)`, the vector at `k`. -/
theorem row_bcast_at {a b : ℕ} (d1 : Fin (⟨1, ![b]⟩ : Shape).rank → Fin (⟨2, ![1, b]⟩ : Shape).rank) (hd1 : d1 0 = 1)
    (h1 : (⟨1, ![b]⟩ : Shape).BroadcastsInDim ⟨2, ![1, b]⟩ d1)
    (d2 : Fin (⟨2, ![1, b]⟩ : Shape).rank → Fin (⟨2, ![a, b]⟩ : Shape).rank) (hd20 : d2 0 = 0) (hd21 : d2 1 = 1)
    (h2 : (⟨2, ![1, b]⟩ : Shape).BroadcastsInDim ⟨2, ![a, b]⟩ d2) (x : (⟨1, ![b]⟩ : Shape).Idx → α) (r : Fin a) (k : Fin b) :
    broadcastInDim ⟨2, ![a, b]⟩ d2 h2 (broadcastInDim ⟨2, ![1, b]⟩ d1 h1 x) (ix2 r k) = x (ix1 k) := by
  rw [Cert.LibHostRows.bcast_1b_ab_at d2 hd20 hd21 h2, Cert.LibHostRows.bcast_b_1b_at d1 hd1 h1]

/-- An `[a]` vector broadcast into a column and then along `b` columns reads, at `(r, k)`, the vector at `r`. -/
theorem col_bcast_at {a b : ℕ} (d1 : Fin (⟨1, ![a]⟩ : Shape).rank → Fin (⟨2, ![a, 1]⟩ : Shape).rank) (hd1 : d1 0 = 0)
    (h1 : (⟨1, ![a]⟩ : Shape).BroadcastsInDim ⟨2, ![a, 1]⟩ d1)
    (d2 : Fin (⟨2, ![a, 1]⟩ : Shape).rank → Fin (⟨2, ![a, b]⟩ : Shape).rank) (hd20 : d2 0 = 0) (hd21 : d2 1 = 1)
    (h2 : (⟨2, ![a, 1]⟩ : Shape).BroadcastsInDim ⟨2, ![a, b]⟩ d2) (x : (⟨1, ![a]⟩ : Shape).Idx → α) (r : Fin a) (k : Fin b) :
    broadcastInDim ⟨2, ![a, b]⟩ d2 h2 (broadcastInDim ⟨2, ![a, 1]⟩ d1 h1 x) (ix2 r k) = x (ix1 r) := by
  rw [Cert.LibHostRows.bcast_a1_ab_at d2 hd20 hd21 h2, Cert.LibHostRows.bcast_a_a1_at d1 hd1 h1]

/-- A scalar broadcast to any shape is that scalar at every index. -/
theorem scalar_bcast_at {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A float constant broadcast to any shape is the constant's value at every index. -/
theorem const_bcast_at {t : Shape} (dims : Fin (⟨0, ![]⟩ : Shape).rank → Fin t.rank)
    (h : (⟨0, ![]⟩ : Shape).BroadcastsInDim t dims) (w : BitVec 32) (j : t.Idx) :
    broadcastInDim t dims h (constant (F := Ideal) ⟨0, ![]⟩ .f32 w) j = Ideal.ofBits .f32 w := by
  rw [scalar_bcast_at, constant_apply]

/-- The host's rectifier — the maximum against the zero constant broadcast to the whole array — at an entry. -/
theorem relu_at {t : Shape} (dims : Fin (⟨0, ![]⟩ : Shape).rank → Fin t.rank)
    (h : (⟨0, ![]⟩ : Shape).BroadcastsInDim t dims) (x : FVec Ideal t .f32) (j : t.Idx) :
    maximumf x (broadcastInDim t dims h (constant (F := Ideal) ⟨0, ![]⟩ .f32 0x00000000#32)) j = max (x j) 0 := by
  rw [maximumf_apply, const_bcast_at, Ideal.ofBits_zero_f32]

/-- The host's batch normalization at an entry: `((x − mu) · rsqrt (var + ε)) · γ + β`, the four per-column vectors each
    through a row broadcast, the stabilizer a broadcast constant. -/
theorem host_xb_at {a b : ℕ}
    (d1 : Fin (⟨1, ![b]⟩ : Shape).rank → Fin (⟨2, ![1, b]⟩ : Shape).rank) (hd1 : d1 0 = 1)
    (h1 : (⟨1, ![b]⟩ : Shape).BroadcastsInDim ⟨2, ![1, b]⟩ d1)
    (d2 : Fin (⟨2, ![1, b]⟩ : Shape).rank → Fin (⟨2, ![a, b]⟩ : Shape).rank) (hd20 : d2 0 = 0) (hd21 : d2 1 = 1)
    (h2 : (⟨2, ![1, b]⟩ : Shape).BroadcastsInDim ⟨2, ![a, b]⟩ d2)
    (d0 : Fin (⟨0, ![]⟩ : Shape).rank → Fin (⟨1, ![b]⟩ : Shape).rank) (h0 : (⟨0, ![]⟩ : Shape).BroadcastsInDim ⟨1, ![b]⟩ d0)
    (x : FVec Ideal ⟨2, ![a, b]⟩ .f32) (mu var gamma beta : FVec Ideal ⟨1, ![b]⟩ .f32) (r : Fin a) (k : Fin b) :
    addf (mulf (mulf (subf x (broadcastInDim ⟨2, ![a, b]⟩ d2 h2 (broadcastInDim ⟨2, ![1, b]⟩ d1 h1 mu)))
          (broadcastInDim ⟨2, ![a, b]⟩ d2 h2 (broadcastInDim ⟨2, ![1, b]⟩ d1 h1
            (Host.rsqrt (addf var (broadcastInDim ⟨1, ![b]⟩ d0 h0 (constant (F := Ideal) ⟨0, ![]⟩ .f32 0x3727C5AC#32)))))))
        (broadcastInDim ⟨2, ![a, b]⟩ d2 h2 (broadcastInDim ⟨2, ![1, b]⟩ d1 h1 gamma)))
      (broadcastInDim ⟨2, ![a, b]⟩ d2 h2 (broadcastInDim ⟨2, ![1, b]⟩ d1 h1 beta)) (ix2 r k)
      = (x (ix2 r k) - mu (ix1 k)) * Ideal.rsqrt (var (ix1 k) + Cert.Gcn.eps) * gamma (ix1 k) + beta (ix1 k) := by
  rw [addf_apply, mulf_apply, mulf_apply, subf_apply, row_bcast_at d1 hd1 h1 d2 hd20 hd21 h2,
    row_bcast_at d1 hd1 h1 d2 hd20 hd21 h2, row_bcast_at d1 hd1 h1 d2 hd20 hd21 h2, row_bcast_at d1 hd1 h1 d2 hd20 hd21 h2]
  show _ * FloatOps.hostUnary .rsqrt (addf var _ (ix1 k)) * _ + _ = _
  rw [addf_apply, const_bcast_at, Ideal.hostUnary_rsqrt_def]
  rfl

end Cert.Gcn.Piece

end
-- ==== Proof.LibGatherFlatRows.lean ====
/-
  A `stablehlo.gather` that takes whole rows of an `[N, D]` table at a column `[E, 1]` of start indices — what
  `table[idx]` lowers to for a flat index array: offset_dims `[1]`, collapsed_slice_dims `[0]`, start_index_map
  `[0]`, index_vector_dim `1`, slice_sizes `[1, D]`. Result entry `(e, d)` is column `d` of the row named by start
  index `e`, read as a signed integer and clamped into `[0, N − 1]`. General over the extents and the element type.
-/
import Idealize.ShloMosaic.Lib.ValueIdx

noncomputable section

namespace Cert.LibGatherFlatRows

open Idealize.ShloMosaic Idealize.ShloMosaic.ValueIdx

variable {α : Type}

/-- Those dimension numbers for a table `[N, D]`, start indices `[E, 1]` and result `[E, D]`; their conditions `wf` are
    decided on a program's literal shapes. -/
abbrev rowDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row a start index names: the index word read signed, clamped into `[0, N − 1]`. -/
def rowOf {w : Nat} (N : Nat) (hN : 0 < N) (b : BitVec w) : Fin N := ⟨min b.toInt.toNat (N - 1), by omega⟩

/-- An axis of a rank-2 shape is its first or its second. -/
private theorem axis_cases (a : Fin 2) : a = 0 ∨ a = 1 := by fin_cases a <;> simp

/-- THE GATHER READ AT `(e, d)`: column `d` of the row the start index `idx[e, 0]` names. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowDims N D E wf) x idx (ix2 e d) = x (ix2 (rowOf N hN (idx (ix2 e (0 : Fin 1)))) d) := by
  unfold Host.gather
  congr 1
  funext a
  refine Fin.ext ?_
  show (rowDims N D E wf).start (ix2 e d) idx a + (rowDims N D E wf).batchCoord (ix2 e d) a
      + (rowDims N D E wf).offCoord (ix2 e d) a = _
  rw [GatherDims.batchCoord_eq_zero _ _ _ List.not_mem_nil]
  rcases axis_cases a with rfl | rfl
  ·
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D E wf).startIndexMap from List.mem_singleton.mpr rfl)]
    have hsi : (rowDims N D E wf).siIdx (ix2 e d) ⟨List.idxOf (0 : Fin 2) (rowDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  ·
    unfold GatherDims.start
    rw [dif_neg (show (1 : Fin 2) ∉ (rowDims N D E wf).startIndexMap from
      fun h => absurd (congrArg Fin.val (List.mem_singleton.mp h)) Nat.one_ne_zero)]
    simp only [Nat.zero_add]
    have hk : (1 : Fin 2) ∈ (rowDims N D E wf).sKept :=
      ((rowDims N D E wf).mem_sKept 1).mpr
        ⟨fun h => absurd (congrArg Fin.val (List.mem_singleton.mp h)) Nat.one_ne_zero, List.not_mem_nil⟩
    unfold GatherDims.offCoord
    rw [dif_pos hk]
    rfl

/-- The row does not depend on the column read: two such gathers at one column of start indices, of tables with the
    same number of rows, read the same row. -/
theorem gather_rows_row {N D D' E w : Nat} (hN : 0 < N)
    (wf : GatherDims.WF ⟨2, ![N, D]⟩ ⟨2, ![E, 1]⟩ ⟨2, ![E, D]⟩ [1] [0] [] [0] [] 1 ![1, D])
    (wf' : GatherDims.WF ⟨2, ![N, D']⟩ ⟨2, ![E, 1]⟩ ⟨2, ![E, D']⟩ [1] [0] [] [0] [] 1 ![1, D'])
    (x : (⟨2, ![N, D]⟩ : Shape).Idx → α) (x' : (⟨2, ![N, D']⟩ : Shape).Idx → α) (idx : IVec ⟨2, ![E, 1]⟩ w)
    (e : Fin E) (d : Fin D) (d' : Fin D') :
    ∃ r : Fin N, Host.gather (rowDims N D E wf) x idx (ix2 e d) = x (ix2 r d)
      ∧ Host.gather (rowDims N D' E wf') x' idx (ix2 e d') = x' (ix2 r d') :=
  ⟨rowOf N hN (idx (ix2 e (0 : Fin 1))), gather_rows_apply hN wf x idx e d, gather_rows_apply hN wf' x' idx e d'⟩

end Cert.LibGatherFlatRows

end
-- ==== Proof.LibSegSum.lean ====
/-
  Three host operations on rows and flat index arrays, read at an entry; general over the extents.

  * A `stablehlo.scatter` with an adding body of float rows into an `[N, D]` operand at a column `[E, 1]` of
    destination indices (update_window_dims `[1]`, inserted_window_dims `[0]`, scatter_dims_to_operand_dims `[0]`,
    index_vector_dim `1`; what a segment sum lowers to), on the extended reals: entry `(n, k)` is the operand's entry
    plus the sum over the updates `e` whose index word read signed is `n` of the update's entry `(e, k)`.
  * A `stablehlo.gather` of single elements of a flat array `[M]` at a column `[E, 1]` of start indices
    (collapsed_slice_dims `[0]`, start_index_map `[0]`, index_vector_dim `1`, slice_sizes `[1]`; what `a[idx]` lowers
    to for flat arrays): entry `e` is the element the index word names, read signed and clamped into `[0, M − 1]`.
  * The second result of a stable sort of a key array carrying the iota of positions (an argsort): a bijection of the
    positions, as words.
-/
import Idealize.ShloMosaic.Lib.ValueIdx
import Idealize.ShloMosaic.Lib.SortFacts
import Idealize.ShloMosaic.PureOps.Ideal.Laws
import proofs.«177732_j68255620268441_2_alg».proof.Proof.LibGatherFlatRows

noncomputable section

namespace Cert.LibSegSum

open Idealize.ShloMosaic Idealize.ShloMosaic.ValueIdx

/-- The scatter's dimension numbers for an operand `[N, D]`, indices `[E, 1]` and updates `[E, D]`. -/
abbrev rowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An axis of a rank-2 shape is its first or its second. -/
private theorem axis_cases (a : Fin 2) : a = 0 ∨ a = 1 := by fin_cases a <;> simp

/-- A 32-bit word of a number below `2 ^ 31` reads that number, signed. -/
private theorem toInt_ofNat_lt {v : Nat} (hv : v < 2 ^ 31) : (BitVec.ofNat 32 v).toInt = (v : Int) := by
  rw [BitVec.toInt_eq_toNat_cond, BitVec.toNat_ofNat]
  have hm : v % 2 ^ 32 = v := Nat.mod_eq_of_lt (by omega)
  rw [hm]
  split <;> omega

section Rows
variable {N D E w : Nat} (wf : ScatterDims.WF ⟨2, ![N, D]⟩ ⟨2, ![E, 1]⟩ ⟨2, ![E, D]⟩ [1] [0] [0] 1)
  (idx : IVec ⟨2, ![E, 1]⟩ w) (e : Fin E) (k' : Fin D)

/-- The window of update `(e, k')` starts, on the row axis, at the index word `idx[e, 0]` read signed … -/
private theorem start_row :
    (rowsDims N D E wf).start (ix2 e k') idx (0 : Fin 2) = (idx (ix2 e (0 : Fin 1))).toInt := by
  unfold ScatterDims.start
  rw [dif_pos (show (0 : Fin 2) ∈ (rowsDims N D E wf).scatterDimsToOperandDims from List.mem_singleton.mpr rfl)]
  have hsi : (rowsDims N D E wf).siIdx (ix2 e k') ⟨List.idxOf (0 : Fin 2) (rowsDims N D E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and, on the column axis, at `0`. -/
private theorem start_col : (rowsDims N D E wf).start (ix2 e k') idx (1 : Fin 2) = 0 := by
  unfold ScatterDims.start
  rw [dif_neg (show (1 : Fin 2) ∉ (rowsDims N D E wf).scatterDimsToOperandDims from
    fun h => absurd (congrArg Fin.val (List.mem_singleton.mp h)) Nat.one_ne_zero)]

/-- Its window coordinate is `0` on the row axis, an inserted one … -/
private theorem window_row : (rowsDims N D E wf).window (ix2 e k') (0 : Fin 2) = 0 := by
  unfold ScatterDims.window
  rw [dif_neg (show (0 : Fin 2) ∉ (rowsDims N D E wf).sKept from by
    simp [ScatterDims.sKept, Shape.kept])]

/-- … and the update's column on the column axis. -/
private theorem window_col : (rowsDims N D E wf).window (ix2 e k') (1 : Fin 2) = k'.val := by
  have hk : (1 : Fin 2) ∈ (rowsDims N D E wf).sKept := by
    simp [ScatterDims.sKept, Shape.kept]
  unfold ScatterDims.window
  rw [dif_pos hk]
  rfl

/-- Update `(e, k')` lands at `(n, k)` exactly when its index word read signed is `n` and `k' = k`. -/
private theorem resultIdx_rows (n : Fin N) (k : Fin D) :
    (rowsDims N D E wf).resultIdx? (ix2 e k') idx = some (ix2 n k)
      ↔ (idx (ix2 e (0 : Fin 1))).toInt = (n.val : Int) ∧ k' = k := by
  have hs0 := start_row wf idx e k'
  have hs1 := start_col wf idx e k'
  have hw0 := window_row wf e k'
  have hw1 := window_col wf e k'
  unfold ScatterDims.resultIdx?
  split
  · rename_i h
    rw [Option.some.injEq]
    constructor
    · intro hEq
      have h0 := congrArg Fin.val (congrFun hEq (0 : Fin 2))
      have h1 := congrArg Fin.val (congrFun hEq (1 : Fin 2))
      have hb := (h (0 : Fin 2)).1
      simp only [hs0, hw0] at h0 hb
      simp only [hs1, hw1] at h1
      refine ⟨?_, Fin.ext ?_⟩
      · have : ((idx (ix2 e (0 : Fin 1))).toInt + ((0 : Nat) : Int)).toNat = n.val := h0
        omega
      · have : ((0 : Int) + (k'.val : Int)).toNat = k.val := h1
        omega
    · rintro ⟨hn, rfl⟩
      funext a
      refine Fin.ext ?_
      rcases axis_cases a with rfl | rfl
      · show ((rowsDims N D E wf).start (ix2 e k') idx (0 : Fin 2) + ((rowsDims N D E wf).window (ix2 e k') (0 : Fin 2) : Int)).toNat = n.val
        rw [hs0, hw0, hn]; omega
      · show ((rowsDims N D E wf).start (ix2 e k') idx (1 : Fin 2) + ((rowsDims N D E wf).window (ix2 e k') (1 : Fin 2) : Int)).toNat = k'.val
        rw [hs1, hw1]; omega
  · rename_i h
    constructor
    · intro hEq; exact absurd hEq (by simp)
    · rintro ⟨hn, rfl⟩
      refine absurd (fun a => ?_) h
      rcases axis_cases a with rfl | rfl
      · rw [hs0, hw0, hn]
        have := n.isLt
        show (0 : Int) ≤ (n.val : Int) + ((0 : Nat) : Int) ∧ (n.val : Int) + ((0 : Nat) : Int) < ((N : Nat) : Int)
        omega
      · rw [hs1, hw1]
        have := k'.isLt
        show (0 : Int) ≤ (0 : Int) + (k'.val : Int) ∧ (0 : Int) + (k'.val : Int) < ((D : Nat) : Int)
        omega

end Rows

/-- THE ADDING SCATTER OF ROWS AT `(n, k)`, on the extended reals. -/
theorem scatterAdd_rows_apply {N D E w : Nat}
    (wf : ScatterDims.WF ⟨2, ![N, D]⟩ ⟨2, ![E, 1]⟩ ⟨2, ![E, D]⟩ [1] [0] [0] 1)
    (x : FVec Ideal ⟨2, ![N, D]⟩ .f32) (idx : IVec ⟨2, ![E, 1]⟩ w) (upd : FVec Ideal ⟨2, ![E, D]⟩ .f32)
    (n : Fin N) (k : Fin D) :
    Host.scatterAdd (rowsDims N D E wf) x idx upd (ix2 n k)
      = x (ix2 n k) + ∑ e : Fin E, if (idx (ix2 e (0 : Fin 1))).toInt = (n.val : Int) then upd (ix2 e k) else 0 := by
  show x (ix2 n k) + ∑ j ∈ Finset.univ.filter (fun j => (rowsDims N D E wf).resultIdx? j idx = some (ix2 n k)), upd j = _
  congr 1
  rw [Finset.sum_filter, sum_idx2]
  refine Finset.sum_congr rfl fun e _ => ?_
  by_cases hn : (idx (ix2 e (0 : Fin 1))).toInt = (n.val : Int)
  · rw [if_pos hn, Finset.sum_eq_single k]
    · exact if_pos ((resultIdx_rows wf idx e k n k).mpr ⟨hn, rfl⟩)
    · intro k' _ hk
      exact if_neg fun h => hk ((resultIdx_rows wf idx e k' n k).mp h).2
    · intro h; exact absurd (Finset.mem_univ k) h
  · rw [if_neg hn]
    exact Finset.sum_eq_zero fun k' _ => if_neg fun h => hn ((resultIdx_rows wf idx e k' n k).mp h).1

/-- The gather's dimension numbers for a flat array `[M]`, indices `[E, 1]` and result `[E]`. -/
abbrev flatDims (M E : Nat) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER AT `e`: the element the start index `idx[e, 0]` names. -/
theorem gather_flat_apply {α : Type} {M E w : Nat} (hM : 0 < M)
    (wf : GatherDims.WF ⟨1, ![M]⟩ ⟨2, ![E, 1]⟩ ⟨1, ![E]⟩ [] [0] [] [0] [] 1 ![1])
    (x : (⟨1, ![M]⟩ : Shape).Idx → α) (idx : IVec ⟨2, ![E, 1]⟩ w) (e : Fin E) :
    Host.gather (flatDims M E wf) x idx (ix1 e)
      = x (ix1 (Cert.LibGatherFlatRows.rowOf M hM (idx (ix2 e (0 : Fin 1))))) := by
  unfold Host.gather
  congr 1
  funext a
  obtain rfl : a = 0 := Subsingleton.elim _ _
  refine Fin.ext ?_
  show (flatDims M E wf).start (ix1 e) idx 0 + (flatDims M E wf).batchCoord (ix1 e) 0
      + (flatDims M E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M E wf).startIndexMap from List.mem_singleton.mpr rfl)]
  have hsi : (flatDims M E wf).siIdx (ix1 e) ⟨List.idxOf (0 : Fin 1) (flatDims M E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On a rank-1 shape the second result of a two-operand stable sort along the one axis reads its operand through
    ONE self-map of the positions: the stable sorting permutation of the comparator on the pairs of words. -/
private theorem sort2_snd_rank1 {α β : Type} {E : Nat} (cmp : α × β → α × β → BitVec 1)
    (x : (⟨1, ![E]⟩ : Shape).Idx → α) (y : (⟨1, ![E]⟩ : Shape).Idx → β) (j : (⟨1, ![E]⟩ : Shape).Idx) :
    (Host.sort2 ⟨1, ![E]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- AN ARGSORT IS A BIJECTION OF THE POSITIONS: the second result of the stable sort, along its one axis, of any key
    array `x` paired with the iota of positions is `e ↦ the word of σ e` for a bijection `σ` of `Fin E`. -/
theorem sort2_iota_bijective {α : Type} {E : Nat} (cmp : α × BitVec 32 → α × BitVec 32 → BitVec 1)
    (x : (⟨1, ![E]⟩ : Shape).Idx → α) :
    ∃ σ : Fin E → Fin E, Function.Bijective σ ∧
      ∀ e : Fin E, (Host.sort2 ⟨1, ![E]⟩ 0 cmp x (iotaInDim ⟨1, ![E]⟩ 32 (0 : Fin 1))).2 (ix1 e)
        = BitVec.ofNat 32 (σ e).val := by
  refine ⟨sortedFrom (fun k k' => cmp (x (Shape.Idx.ofFin k), iotaInDim ⟨1, ![E]⟩ 32 (0 : Fin 1) (Shape.Idx.ofFin k))
      (x (Shape.Idx.ofFin k'), iotaInDim ⟨1, ![E]⟩ 32 (0 : Fin 1) (Shape.Idx.ofFin k')) == 1#1),
    ⟨sortedFrom_injective _, sortedFrom_surjective _⟩, fun e => ?_⟩
  rw [sort2_snd_rank1]
  rfl

/-- The word of a position below `2 ^ 31` is not negative read signed … -/
theorem not_slt_zero_ofNat {v : Nat} (hv : v < 2 ^ 31) : IntOp.cmpi .slt (BitVec.ofNat 32 v) 0#32 = 0#1 := by
  have h : (BitVec.ofNat 32 v).slt 0#32 = false := by
    rw [Bool.eq_false_iff, ne_eq, BitVec.slt_iff_toInt_lt, toInt_ofNat_lt hv]
    simp
  show BitVec.ofBool ((BitVec.ofNat 32 v).slt 0#32) = 0#1
  rw [h]
  rfl

/-- … and names that position: read signed and clamped into `[0, M − 1]` it is `v` when `v < M`. -/
theorem rowOf_ofNat {M v : Nat} (hM : 0 < M) (hv : v < M) (hM31 : M ≤ 2 ^ 31) :
    Cert.LibGatherFlatRows.rowOf M hM (BitVec.ofNat 32 v) = ⟨v, hv⟩ := by
  refine Fin.ext ?_
  show min (BitVec.ofNat 32 v).toInt.toNat (M - 1) = v
  rw [toInt_ofNat_lt (lt_of_lt_of_le hv hM31), Int.toNat_natCast]
  omega

end Cert.LibSegSum

end
-- ==== Proof.Aggregate.lean ====
/-
  One normalized aggregation of a node table over the 900000 updates of a graph on 100000 nodes, in the two spellings
  the programs use, as pure functions of arrays on the extended reals.

  Both spellings gather rows of a table at a column of source indices and add them, by a scatter with an adding body,
  into a table of zeros at a column of destination indices. One spelling scales the table's rows by the node's degree
  factor before the gather (through a narrower float format and back, which is the identity on the extended reals)
  and the result's rows by it after the scatter; the other scales every gathered row by an edge weight. Read at an
  entry `(n, k)`, each is a sum over the updates that land on `n`.
-/
import Idealize.ShloMosaic.Lib.ValueIdx
import Idealize.ShloMosaic.PureOps.Ideal.Laws
import proofs.«177732_j68255620268441_2_alg».proof.Proof.LibSegSum
import proofs.«177732_j68255620268441_2_alg».proof.Proof.LibGatherFlatRows
import proofs.«177732_j68255620268441_2_alg».proof.Proof.LibHostRows
import proofs.«177732_j68255620268441_2_alg».proof.Proof.Spec

open scoped BigOperators

noncomputable section

namespace Cert.Gcn.Stage

open Idealize.ShloMosaic Idealize.ShloMosaic.ValueIdx

/-- The graph read off a column of source indices (each read signed and clamped into the table's rows), a column of
    destination indices (an update lands on the node its word names, read signed) and the vector of degree factors. -/
def graphOf (srcNcol dstcol : IVec ⟨2, ![900000, 1]⟩ 32) (dinv : FVec Ideal ⟨1, ![100000]⟩ .f32) : Cert.Gcn.Graph :=
  { srow := fun e => Cert.LibGatherFlatRows.rowOf 100000 (by decide) (srcNcol (ix2 e (0 : Fin 1))),
    land := fun e n => (dstcol (ix2 e (0 : Fin 1))).toInt = (n.val : Int),
    dec := fun _ _ => inferInstance,
    dinv := fun n => dinv (ix1 n) }

section
variable {D : ℕ}
  (gd : GatherDims ⟨2, ![100000, D]⟩ ⟨2, ![900000, 1]⟩ ⟨2, ![900000, D]⟩)
  (wfG : GatherDims.WF ⟨2, ![100000, D]⟩ ⟨2, ![900000, 1]⟩ ⟨2, ![900000, D]⟩ [1] [0] [] [0] [] 1 ![1, D])
  (hgd : gd = Cert.LibGatherFlatRows.rowDims 100000 D 900000 wfG)
  (sd : ScatterDims ⟨2, ![100000, D]⟩ ⟨2, ![900000, 1]⟩ ⟨2, ![900000, D]⟩)
  (wfS : ScatterDims.WF ⟨2, ![100000, D]⟩ ⟨2, ![900000, 1]⟩ ⟨2, ![900000, D]⟩ [1] [0] [0] 1)
  (hsd : sd = Cert.LibSegSum.rowsDims 100000 D 900000 wfS)
  (hb0 : (⟨0, ![]⟩ : Shape).BroadcastsInDim ⟨2, ![100000, D]⟩ ![])
  (srcNcol dstcol : IVec ⟨2, ![900000, 1]⟩ 32) (dinv : FVec Ideal ⟨1, ![100000]⟩ .f32)

include hgd hsd

/-- THE EDGE-WEIGHT SPELLING AT `(n, k)`: rows gathered at the source column, each scaled by its update's weight, added
    into zeros at the destination column. -/
theorem reference_aggregate
    (hb1 : (⟨1, ![900000]⟩ : Shape).BroadcastsInDim ⟨2, ![900000, 1]⟩ ![0])
    (hb2 : (⟨2, ![900000, 1]⟩ : Shape).BroadcastsInDim ⟨2, ![900000, D]⟩ ![0, 1])
    (h : FVec Ideal ⟨2, ![100000, D]⟩ .f32) (normv : FVec Ideal ⟨1, ![900000]⟩ .f32) (n : Fin 100000) (k : Fin D) :
    Host.scatterAdd sd
        (broadcastInDim ⟨2, ![100000, D]⟩ ![] hb0 (constant (F := Ideal) ⟨0, ![]⟩ .f32 0x00000000#32))
        dstcol
        (mulf (Host.gather gd h srcNcol)
          (broadcastInDim ⟨2, ![900000, D]⟩ ![0, 1] hb2 (broadcastInDim ⟨2, ![900000, 1]⟩ ![0] hb1 normv)))
        (ix2 n k)
      = 0 + ∑ e : Fin 900000, if (graphOf srcNcol dstcol dinv).land e n
          then h (ix2 ((graphOf srcNcol dstcol dinv).srow e) k) * normv (ix1 e) else 0 := by
  subst hgd hsd
  rw [Cert.LibSegSum.scatterAdd_rows_apply]
  refine congrArg₂ (· + ·) ?_ (Finset.sum_congr rfl fun e _ => ?_)
  · show Ideal.ofBits .f32 0x00000000#32 = 0
    exact Ideal.ofBits_zero_f32
  · by_cases hl : (dstcol (ix2 e (0 : Fin 1))).toInt = (n.val : Int)
    · rw [if_pos hl, if_pos (show (graphOf srcNcol dstcol dinv).land e n from hl), mulf_apply,
        Cert.LibGatherFlatRows.gather_rows_apply (by decide),
        Cert.LibHostRows.bcast_a1_ab_at _ rfl rfl, Cert.LibHostRows.bcast_a_a1_at _ rfl]
      rfl
    · rw [if_neg hl, if_neg (show ¬ (graphOf srcNcol dstcol dinv).land e n from hl)]

/-- THE DEGREE-FACTOR SPELLING AT `(n, k)`: the table's rows scaled by the degree factor (through the narrower float
    format and back), gathered at the source column, added into zeros at the destination column, and the result's
    rows scaled by the degree factor. -/
theorem kernel_aggregate
    (hc1 : (⟨1, ![100000]⟩ : Shape).BroadcastsInDim ⟨2, ![100000, 1]⟩ ![0])
    (hc2 : (⟨2, ![100000, 1]⟩ : Shape).BroadcastsInDim ⟨2, ![100000, D]⟩ ![0, 1])
    (hlt : FTy.bf16.bits < FTy.f32.bits)
    (h : FVec Ideal ⟨2, ![100000, D]⟩ .bf16) (n : Fin 100000) (k : Fin D) :
    mulf (broadcastInDim ⟨2, ![100000, D]⟩ ![0, 1] hc2 (broadcastInDim ⟨2, ![100000, 1]⟩ ![0] hc1 dinv))
        (Host.scatterAdd sd
          (broadcastInDim ⟨2, ![100000, D]⟩ ![] hb0 (constant (F := Ideal) ⟨0, ![]⟩ .f32 0x00000000#32))
          dstcol
          (extf .f32 (Host.gather gd
            (truncf .bf16 (mulf (extf .f32 h hlt)
              (broadcastInDim ⟨2, ![100000, D]⟩ ![0, 1] hc2 (broadcastInDim ⟨2, ![100000, 1]⟩ ![0] hc1 dinv))) hlt)
            srcNcol) hlt))
        (ix2 n k)
      = (graphOf srcNcol dstcol dinv).dinv n * (0 + ∑ e : Fin 900000, if (graphOf srcNcol dstcol dinv).land e n
          then h (ix2 ((graphOf srcNcol dstcol dinv).srow e) k)
            * (graphOf srcNcol dstcol dinv).dinv ((graphOf srcNcol dstcol dinv).srow e) else 0) := by
  subst hgd hsd
  rw [mulf_apply, Cert.LibHostRows.bcast_a1_ab_at _ rfl rfl, Cert.LibHostRows.bcast_a_a1_at _ rfl,
    Cert.LibSegSum.scatterAdd_rows_apply]
  refine congrArg₂ (· * ·) rfl (congrArg₂ (· + ·) ?_ (Finset.sum_congr rfl fun e _ => ?_))
  · show Ideal.ofBits .f32 0x00000000#32 = 0
    exact Ideal.ofBits_zero_f32
  · by_cases hl : (dstcol (ix2 e (0 : Fin 1))).toInt = (n.val : Int)
    · rw [if_pos hl, if_pos (show (graphOf srcNcol dstcol dinv).land e n from hl), extf_apply,
        Cert.LibGatherFlatRows.gather_rows_apply (by decide), truncf_apply, mulf_apply, extf_apply,
        Cert.LibHostRows.bcast_a1_ab_at _ rfl rfl, Cert.LibHostRows.bcast_a_a1_at _ rfl]
      rfl
    · rw [if_neg hl, if_neg (show ¬ (graphOf srcNcol dstcol dinv).land e n from hl)]

end

/-- THE EDGE WEIGHTS AT `e`: the product of the degree factors gathered, one element each, at the normalized source and
    destination columns. -/
theorem reference_norm
    (fd : GatherDims ⟨1, ![100000]⟩ ⟨2, ![900000, 1]⟩ ⟨1, ![900000]⟩)
    (wfF : GatherDims.WF ⟨1, ![100000]⟩ ⟨2, ![900000, 1]⟩ ⟨1, ![900000]⟩ [] [0] [] [0] [] 1 ![1])
    (hfd : fd = Cert.LibSegSum.flatDims 100000 900000 wfF)
    (srcNcol dstNcol : IVec ⟨2, ![900000, 1]⟩ 32) (dinv : FVec Ideal ⟨1, ![100000]⟩ .f32) (e : Fin 900000) :
    mulf (Host.gather fd dinv srcNcol) (Host.gather fd dinv dstNcol) (ix1 e)
      = dinv (ix1 (Cert.LibGatherFlatRows.rowOf 100000 (by decide) (srcNcol (ix2 e (0 : Fin 1)))))
        * dinv (ix1 (Cert.LibGatherFlatRows.rowOf 100000 (by decide) (dstNcol (ix2 e (0 : Fin 1))))) := by
  subst hfd
  rw [mulf_apply, Cert.LibSegSum.gather_flat_apply (by decide), Cert.LibSegSum.gather_flat_apply (by decide)]

end Cert.Gcn.Stage

end
-- ==== Proof.RegionsDefs.lean ====
/-
  What the three kernel bodies compute at one entry of their outputs, as functions of whole arrays indexed by
  coordinates: a batch normalization, its product with a matrix, and the two sums of 128-row products that feed the
  second layer and the output heads.
-/
import proofs.«177732_j68255620268441_2_alg».proof.Proof.Spec
import Idealize.ShloMosaic.Lib.ValueIdx

set_option maxRecDepth 16384

noncomputable section

open scoped BigOperators

namespace Cert.KernelIdeal.Regions

open Idealize.ShloMosaic Idealize.ShloMosaic.ValueIdx

/-- A [100000,128] array of extended reals. -/
abbrev Big := (⟨2, ![100000, 128]⟩ : Shape).Idx → EReal
/-- A [128] array. -/
abbrev Col := (⟨1, ![128]⟩ : Shape).Idx → EReal
/-- A [128,128] array. -/
abbrev Mat := (⟨2, ![128, 128]⟩ : Shape).Idx → EReal

/-- The batch normalization of `x` at `(r, k)`: the entry minus the column's mean, times the inverse square root of the
    column's variance plus the stabilizer, times the column's scale, plus the column's shift. -/
def bnAt (x : Big) (mu var ga be : Col) (r : Fin 100000) (k : Fin 128) : EReal :=
  (x (ix2 r k) - mu (ix1 k)) * Ideal.rsqrt (var (ix1 k) + Cert.Gcn.eps) * ga (ix1 k) + be (ix1 k)

/-- Row `r` of the normalized input against column `g` of `W`. -/
def bnMulAt (x : Big) (mu var ga be : Col) (W : Mat) (r : Fin 100000) (g : Fin 128) : EReal :=
  ∑ k : Fin 128, bnAt x mu var ga be r k * W (ix2 k g)

/-- The second layer before aggregation at `(r, g)`: rows of `xb` and `nz` against `Wa` and `Wb`, and the rectified
    row of `h` shifted by `b` against `Wc`. -/
def mix3At (h : Big) (b : Col) (xb nz : Big) (Wa Wb Wc : Mat) (r : Fin 100000) (g : Fin 128) : EReal :=
  (∑ k : Fin 128, xb (ix2 r k) * Wa (ix2 k g) + ∑ k : Fin 128, nz (ix2 r k) * Wb (ix2 k g))
    + ∑ k : Fin 128, max (h (ix2 r k) + b (ix1 k)) 0 * Wc (ix2 k g)

/-- An output head before aggregation at `(r, g)`: the row of `xb` against `Wa` and the rectified row of `h` shifted
    by `b` against `Wb`. -/
def mix2At (h : Big) (b : Col) (xb : Big) (Wa Wb : Mat) (r : Fin 100000) (g : Fin 128) : EReal :=
  ∑ k : Fin 128, xb (ix2 r k) * Wa (ix2 k g) + ∑ k : Fin 128, max (h (ix2 r k) + b (ix1 k)) 0 * Wb (ix2 k g)

end Cert.KernelIdeal.Regions

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibRowNorm.lean ====
/-
  Row normalization h / (Σ_d h(r, d) + ε) of an [a, b] matrix over the extended reals, read at an entry in the two spellings a
  program may print it in: a lane sum cast to a column, shifted by a splat constant, broadcast along the columns and divided
  into the matrix (a kernel body's); and the host's reduce-add broadcast into a column, shifted by a broadcast scalar,
  broadcast along the columns and divided into the matrix. Both are one function of the matrix and of ε.
  Also: six pieces of one shape [a, K] laid side by side along axis 1, read at an entry.
-/
import Idealize.ShloMosaic.Lib.Pipeline.Value
import Idealize.ShloMosaic.Lib.ValueIdx
import Idealize.ShloMosaic.Lib.IdealHost
import Idealize.ShloMosaic.PureOps.Ideal.Laws
import proofs.«177732_j68255620268441_2_alg».proof.Proof.LibKeepdims
import proofs.«177732_j68255620268441_2_alg».proof.Proof.LibHostRows

noncomputable section

open scoped BigOperators

namespace Cert.LibRowNorm

open Idealize.ShloMosaic Idealize.ShloMosaic.ValueIdx

/-- Entry (r, c) of the row-normalized matrix: the entry over its row's sum shifted by `e`. -/
def rowNorm {a b : ℕ} (x : (⟨2, ![a, b]⟩ : Shape).Idx → EReal) (e : EReal) : (⟨2, ![a, b]⟩ : Shape).Idx → EReal :=
  fun i => Ideal.div (x i) ((∑ d : Fin b, x (ix2 (i 0) d)) + e)

theorem rowNorm_apply {a b : ℕ} (x : (⟨2, ![a, b]⟩ : Shape).Idx → EReal) (e : EReal) (r : Fin a) (c : Fin b) :
    rowNorm x e (ix2 r c) = Ideal.div (x (ix2 r c)) ((∑ d : Fin b, x (ix2 r d)) + e) := rfl

/-- The kernel body's spelling. -/
theorem kernel_rowNorm {a b : ℕ} (h : FVec Ideal ⟨2, ![a, b]⟩ .f32) (acc : BitVec (FTy.bits .f32))
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (e : Ideal .f32) (r : Fin a) (c : Fin b) :
    divf h (broadcastTo ⟨2, ![a, b]⟩ (addf (shapeCast ⟨2, ![a, 1]⟩ (multiReduction .add [1] ⟨1, ![a]⟩ h acc hr hφ hacc) hc)
      (broadcast ⟨2, ![a, 1]⟩ e)) hb) (ix2 r c) = rowNorm h e (ix2 r c) := by
  rw [divf_apply, Cert.LibKeepdims.broadcastTo_a1_ab_apply, addf_apply, Cert.LibKeepdims.shapeCast_a_a1_apply,
    Cert.LibKeepdims.multiReduction_add_rows, broadcast_apply]
  rfl

/-- The host's spelling: the reduce-add starts from the zero word, which is the real zero. -/
theorem host_rowNorm {a b : ℕ} (x : FVec Ideal ⟨2, ![a, b]⟩ .f32) (ew : BitVec 32)
    (dims2 : Fin (⟨2, ![a, 1]⟩ : Shape).rank → Fin (⟨2, ![a, b]⟩ : Shape).rank) (hd20 : dims2 0 = 0) (hd21 : dims2 1 = 1)
    (h2 : (⟨2, ![a, 1]⟩ : Shape).BroadcastsInDim ⟨2, ![a, b]⟩ dims2)
    (dims1 : Fin (⟨1, ![a]⟩ : Shape).rank → Fin (⟨2, ![a, 1]⟩ : Shape).rank) (hd1 : dims1 0 = 0)
    (h1 : (⟨1, ![a]⟩ : Shape).BroadcastsInDim ⟨2, ![a, 1]⟩ dims1)
    (dims0 : Fin (⟨0, ![]⟩ : Shape).rank → Fin (⟨2, ![a, 1]⟩ : Shape).rank)
    (h0 : (⟨0, ![]⟩ : Shape).BroadcastsInDim ⟨2, ![a, 1]⟩ dims0)
    (h' : (⟨2, ![a, b]⟩ : Shape).ReducesTo [1] ⟨1, ![a]⟩) (hu : 0 < (⟨0, ![]⟩ : Shape).numel) (r : Fin a) (c : Fin b) :
    Host.divf x (broadcastInDim ⟨2, ![a, b]⟩ dims2 h2 (addf (broadcastInDim ⟨2, ![a, 1]⟩ dims1 h1
        (Host.reduceAdd x (constant (F := Ideal) ⟨0, ![]⟩ .f32 0x00000000#32) h' hu))
      (broadcastInDim ⟨2, ![a, 1]⟩ dims0 h0 (constant (F := Ideal) ⟨0, ![]⟩ .f32 ew)))) (ix2 r c)
      = rowNorm x (Ideal.ofBits .f32 ew) (ix2 r c) := by
  have hR : (⟨2, ![a, b]⟩ : Shape).Reduces [1] ⟨1, ![a]⟩ := by
    obtain ⟨g1, g2⟩ := h'; exact ⟨g1, Nat.one_pos, g2⟩
  have hc : broadcastInDim ⟨2, ![a, 1]⟩ dims0 h0 (constant (F := Ideal) ⟨0, ![]⟩ .f32 ew) (ix2 r (0 : Fin 1))
      = Ideal.ofBits .f32 ew :=
    broadcastInDim_apply dims0 h0 _ (ix2 r (0 : Fin 1)) ix0 (fun ax => ax.elim0)
  show Ideal.div (x (ix2 r c)) _ = _
  rw [Cert.LibHostRows.bcast_a1_ab_at dims2 hd20 hd21 h2, addf_apply, Cert.LibHostRows.bcast_a_a1_at dims1 hd1 h1,
    Cert.LibHostRows.hostReduceAdd_rows x _ h' hR hu, hc, constant_apply, Ideal.ofBits_zero_f32, zero_add]
  rfl

/-- Six pieces of one shape laid along axis `a`: entry `j` is piece `(j a) / K` at the index whose axis coordinate is
    `(j a) % K` and whose other coordinates are `j`'s, `K` the pieces' common extent on the axis. -/
theorem concat6_apply {α : Type} {t s₁ : Shape} (a : Fin t.rank) (x0 x1 x2 x3 x4 x5 : s₁.Idx → α)
    (h : Shape.Concatenates (([⟨s₁, x0⟩, ⟨s₁, x1⟩, ⟨s₁, x2⟩, ⟨s₁, x3⟩, ⟨s₁, x4⟩, ⟨s₁, x5⟩] :
      List ((s : Shape) × (s.Idx → α))).map (·.1)) t a)
    (hr : s₁.rank = t.rank) (K : Nat) (hK : s₁.size (a.cast hr.symm) = K) (j : t.Idx) (n : Fin 6)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩] h j
      = (![x0, x1, x2, x3, x4, x5] : Fin 6 → s₁.Idx → α) n i :=
  concatenate_ofFn_apply a (![x0, x1, x2, x3, x4, x5] : Fin 6 → s₁.Idx → α) h hr K hK j n hn i hia hi

/-- Two pieces of one shape laid along axis `a`, the same way. -/
theorem concat2_apply {α : Type} {t s₁ : Shape} (a : Fin t.rank) (x0 x1 : s₁.Idx → α)
    (h : Shape.Concatenates (([⟨s₁, x0⟩, ⟨s₁, x1⟩] : List ((s : Shape) × (s.Idx → α))).map (·.1)) t a)
    (hr : s₁.rank = t.rank) (K : Nat) (hK : s₁.size (a.cast hr.symm) = K) (j : t.Idx) (n : Fin 2)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩] h j = (![x0, x1] : Fin 2 → s₁.Idx → α) n i :=
  concatenate_ofFn_apply a (![x0, x1] : Fin 2 → s₁.Idx → α) h hr K hK j n hn i hia hi

/-- A propagated feature matrix with its self-return term removed: entry (r, c) is h(r, c) - l(r, c) · re(r, k), `re` holding one
    return weight per row in its column `k`. -/
def corr {a b n : ℕ} (h l : (⟨2, ![a, b]⟩ : Shape).Idx → EReal) (re : (⟨2, ![a, n]⟩ : Shape).Idx → EReal) (k : Fin n) :
    (⟨2, ![a, b]⟩ : Shape).Idx → EReal :=
  fun i => h i - l i * re (ix2 (i 0) k)

/-- Six `[a, 32]` matrices side by side: entry (r, q) is matrix `q / 32` at (r, q % 32). -/
def cat6 {a : ℕ} (p0 p1 p2 p3 p4 p5 : (⟨2, ![a, 32]⟩ : Shape).Idx → EReal) : (⟨2, ![a, 192]⟩ : Shape).Idx → EReal :=
  fun j => (![p0, p1, p2, p3, p4, p5] : Fin 6 → (⟨2, ![a, 32]⟩ : Shape).Idx → EReal)
    ⟨(j 1).val / 32, by have : (j 1).val < 192 := idx2_lt1 j; omega⟩ (ix2 (j 0) ⟨(j 1).val % 32, Nat.mod_lt _ (by decide)⟩)

end Cert.LibRowNorm

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«177732_j68255620268441_2_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.Pieces2.lean ====
/-
  A matrix product against a matrix assembled from column bands is the sum of the bands' products.

  The column-wise concatenation of three (or two) 128-column matrices, read at column `o + k` of band `o ∈ {0, 128, 256}`, is
  the band's matrix at column `k`; so the host's product of that concatenation with a 384-row (256-row) matrix is, entry
  by entry, the sum over the bands of the band's 128-term product against the matching 128 rows.
-/
import proofs.«177732_j68255620268441_2_alg».proof.Proof.Algebra
import proofs.«177732_j68255620268441_2_alg».proof.Proof.LibConcatSame
import proofs.«177732_j68255620268441_2_alg».proof.Proof.LibRowNorm
import proofs.«177732_j68255620268441_2_alg».proof.Proof.LibPlainDot
import Idealize.ShloMosaic.Lib.ValueIdx

open scoped BigOperators

noncomputable section

namespace Cert.Gcn.Piece

open Idealize.ShloMosaic Idealize.ShloMosaic.ValueIdx

variable {α : Type}

/-- Three 128-column matrices side by side, read at column `o + k` of band `n` (`o = 128 · n`). -/
theorem concat3_cols_at {a : ℕ} (x0 x1 x2 : (⟨2, ![a, 128]⟩ : Shape).Idx → α)
    (h : Shape.Concatenates (([⟨⟨2, ![a, 128]⟩, x0⟩, ⟨⟨2, ![a, 128]⟩, x1⟩, ⟨⟨2, ![a, 128]⟩, x2⟩] : List ((s : Shape) × (s.Idx → α))).map (·.1))
      ⟨2, ![a, 384]⟩ (1 : Fin 2))
    (n : Fin 3) (o : ℕ) (ho : o + 128 ≤ 384) (hon : o = 128 * n.val) (r : Fin a) (k : Fin 128) :
    concatenate ⟨2, ![a, 384]⟩ (1 : Fin 2) [⟨⟨2, ![a, 128]⟩, x0⟩, ⟨⟨2, ![a, 128]⟩, x1⟩, ⟨⟨2, ![a, 128]⟩, x2⟩] h (ix2 r (at384 o ho k))
      = (![x0, x1, x2] : Fin 3 → (⟨2, ![a, 128]⟩ : Shape).Idx → α) n (ix2 r k) := by
  refine Cert.LibConcatSame.concat3_apply (t := ⟨2, ![a, 384]⟩) (s₁ := ⟨2, ![a, 128]⟩) (1 : Fin 2) x0 x1 x2 h rfl 128 rfl (ix2 r (at384 o ho k)) n ?_ (ix2 r k) ?_ ?_
  · show (o + k.val) / 128 = n.val
    have := k.isLt; omega
  · show k.val = (o + k.val) % 128
    have := k.isLt; omega
  · intro b hb
    match b, hb with
    | ⟨0, _⟩, _ => rfl
    | ⟨1, _⟩, hb => exact absurd rfl hb

/-- Two 128-column matrices side by side, read at column `o + k` of band `n` (`o = 128 · n`). -/
theorem concat2_cols_at {a : ℕ} (x0 x1 : (⟨2, ![a, 128]⟩ : Shape).Idx → α)
    (h : Shape.Concatenates (([⟨⟨2, ![a, 128]⟩, x0⟩, ⟨⟨2, ![a, 128]⟩, x1⟩] : List ((s : Shape) × (s.Idx → α))).map (·.1))
      ⟨2, ![a, 256]⟩ (1 : Fin 2))
    (n : Fin 2) (o : ℕ) (ho : o + 128 ≤ 256) (hon : o = 128 * n.val) (r : Fin a) (k : Fin 128) :
    concatenate ⟨2, ![a, 256]⟩ (1 : Fin 2) [⟨⟨2, ![a, 128]⟩, x0⟩, ⟨⟨2, ![a, 128]⟩, x1⟩] h (ix2 r (at256 o ho k))
      = (![x0, x1] : Fin 2 → (⟨2, ![a, 128]⟩ : Shape).Idx → α) n (ix2 r k) := by
  refine Cert.LibRowNorm.concat2_apply (t := ⟨2, ![a, 256]⟩) (s₁ := ⟨2, ![a, 128]⟩) (1 : Fin 2) x0 x1 h rfl 128 rfl (ix2 r (at256 o ho k)) n ?_ (ix2 r k) ?_ ?_
  · show (o + k.val) / 128 = n.val
    have := k.isLt; omega
  · show k.val = (o + k.val) % 128
    have := k.isLt; omega
  · intro b hb
    match b, hb with
    | ⟨0, _⟩, _ => rfl
    | ⟨1, _⟩, hb => exact absurd rfl hb

/-- The host's product of three side-by-side 128-column matrices with a 384-row matrix, at an entry. -/
theorem dot_concat3_at {a b : ℕ} (x0 x1 x2 : FVec Ideal ⟨2, ![a, 128]⟩ .f32)
    (h : Shape.Concatenates (([⟨⟨2, ![a, 128]⟩, x0⟩, ⟨⟨2, ![a, 128]⟩, x1⟩, ⟨⟨2, ![a, 128]⟩, x2⟩] : List ((s : Shape) × (s.Idx → Ideal .f32))).map (·.1))
      ⟨2, ![a, 384]⟩ (1 : Fin 2))
    (W : FVec Ideal ⟨2, ![384, b]⟩ .f32) (prec : Option ContractPrecision) (r : Fin a) (g : Fin b) :
    Host.dotGeneral (DotDims.plain a 384 b) prec
        (concatenate ⟨2, ![a, 384]⟩ (1 : Fin 2) [⟨⟨2, ![a, 128]⟩, x0⟩, ⟨⟨2, ![a, 128]⟩, x1⟩, ⟨⟨2, ![a, 128]⟩, x2⟩] h : FVec Ideal ⟨2, ![a, 384]⟩ .f32) W (ix2 r g)
      = (∑ k : Fin 128, x0 (ix2 r k) * W (ix2 (at384 0 (by omega) k) g) + ∑ k : Fin 128, x1 (ix2 r k) * W (ix2 (at384 128 (by omega) k) g))
        + ∑ k : Fin 128, x2 (ix2 r k) * W (ix2 (at384 256 (by omega) k) g) := by
  rw [Cert.LibPlainDot.dotGeneral_apply, sum384_split]
  simp only [concat3_cols_at x0 x1 x2 h 0 0 (by omega) rfl, concat3_cols_at x0 x1 x2 h 1 128 (by omega) rfl,
    concat3_cols_at x0 x1 x2 h 2 256 (by omega) rfl]
  rfl

/-- The host's product of two side-by-side 128-column matrices with a 256-row matrix, at an entry. -/
theorem dot_concat2_at {a b : ℕ} (x0 x1 : FVec Ideal ⟨2, ![a, 128]⟩ .f32)
    (h : Shape.Concatenates (([⟨⟨2, ![a, 128]⟩, x0⟩, ⟨⟨2, ![a, 128]⟩, x1⟩] : List ((s : Shape) × (s.Idx → Ideal .f32))).map (·.1))
      ⟨2, ![a, 256]⟩ (1 : Fin 2))
    (W : FVec Ideal ⟨2, ![256, b]⟩ .f32) (prec : Option ContractPrecision) (r : Fin a) (g : Fin b) :
    Host.dotGeneral (DotDims.plain a 256 b) prec
        (concatenate ⟨2, ![a, 256]⟩ (1 : Fin 2) [⟨⟨2, ![a, 128]⟩, x0⟩, ⟨⟨2, ![a, 128]⟩, x1⟩] h : FVec Ideal ⟨2, ![a, 256]⟩ .f32) W (ix2 r g)
      = ∑ k : Fin 128, x0 (ix2 r k) * W (ix2 (at256 0 (by omega) k) g) + ∑ k : Fin 128, x1 (ix2 r k) * W (ix2 (at256 128 (by omega) k) g) := by
  rw [Cert.LibPlainDot.dotGeneral_apply, sum256_split]
  simp only [concat2_cols_at x0 x1 h 0 0 (by omega) rfl, concat2_cols_at x0 x1 h 1 128 (by omega) rfl]
  rfl

end Cert.Gcn.Piece

end
-- ==== Proof.RefWalk.lean ====
/-
  The reference's network, stage by stage, as a statement about arrays.

  Every hypothesis below is one stage of the host program as it is printed — the batch normalization, a matrix product,
  the weighting of the edges, a gather–weigh–scatter aggregation, a bias and a rectifier, a product against a matrix
  assembled from column bands — and the conclusion reads the two results, entry by entry, as the specification's heads.
  The aggregation stage is where the graph enters: the scatter sums, for node `n`, the gathered rows of the updates that land
  on `n`, each weighted by the product of the degree factors at its source row and at its own destination row; an update
  that lands on `n` has destination row `n` (`hland`), which turns the weight into the specification's.
-/
import proofs.«177732_j68255620268441_2_alg».proof.Proof.Algebra
import proofs.«177732_j68255620268441_2_alg».proof.Proof.Pieces
import proofs.«177732_j68255620268441_2_alg».proof.Proof.Pieces2
import proofs.«177732_j68255620268441_2_alg».proof.Proof.Aggregate
import proofs.«177732_j68255620268441_2_alg».proof.Proof.LibPlainDot

open scoped BigOperators

noncomputable section

namespace Cert.Gcn.RefWalk

open Idealize.ShloMosaic Idealize.ShloMosaic.ValueIdx Cert.Gcn.Stage Cert.Gcn.Piece

/-- One aggregation as the reference spells it, at `(n, k)`: gather the rows, weigh each update by the product of the degree
    factors gathered at its (normalized) source and destination indices, scatter-add into zeros. -/
theorem ref_agg_at {D : ℕ}
    (gd : GatherDims ⟨2, ![100000, D]⟩ ⟨2, ![900000, 1]⟩ ⟨2, ![900000, D]⟩)
    (wfG : GatherDims.WF ⟨2, ![100000, D]⟩ ⟨2, ![900000, 1]⟩ ⟨2, ![900000, D]⟩ [1] [0] [] [0] [] 1 ![1, D])
    (hgd : gd = Cert.LibGatherFlatRows.rowDims 100000 D 900000 wfG)
    (sd : ScatterDims ⟨2, ![100000, D]⟩ ⟨2, ![900000, 1]⟩ ⟨2, ![900000, D]⟩)
    (wfS : ScatterDims.WF ⟨2, ![100000, D]⟩ ⟨2, ![900000, 1]⟩ ⟨2, ![900000, D]⟩ [1] [0] [0] 1)
    (hsd : sd = Cert.LibSegSum.rowsDims 100000 D 900000 wfS)
    (hb0 : (⟨0, ![]⟩ : Shape).BroadcastsInDim ⟨2, ![100000, D]⟩ ![])
    (fd : GatherDims ⟨1, ![100000]⟩ ⟨2, ![900000, 1]⟩ ⟨1, ![900000]⟩)
    (wfF : GatherDims.WF ⟨1, ![100000]⟩ ⟨2, ![900000, 1]⟩ ⟨1, ![900000]⟩ [] [0] [] [0] [] 1 ![1])
    (hfd : fd = Cert.LibSegSum.flatDims 100000 900000 wfF)
    (srcNcol dstNcol dstcol : IVec ⟨2, ![900000, 1]⟩ 32) (dinv : FVec Ideal ⟨1, ![100000]⟩ .f32)
    (hb1 : (⟨1, ![900000]⟩ : Shape).BroadcastsInDim ⟨2, ![900000, 1]⟩ ![0])
    (hb2 : (⟨2, ![900000, 1]⟩ : Shape).BroadcastsInDim ⟨2, ![900000, D]⟩ ![0, 1])
    (hland : ∀ (e : Fin 900000) (n : Fin 100000), (graphOf srcNcol dstcol dinv).land e n →
      Cert.LibGatherFlatRows.rowOf 100000 (by decide) (dstNcol (ix2 e (0 : Fin 1))) = n)
    (h : FVec Ideal ⟨2, ![100000, D]⟩ .f32) (n : Fin 100000) (k : Fin D) :
    Host.scatterAdd sd (broadcastInDim ⟨2, ![100000, D]⟩ ![] hb0 (constant (F := Ideal) ⟨0, ![]⟩ .f32 0x00000000#32)) dstcol
        (mulf (Host.gather gd h srcNcol)
          (broadcastInDim ⟨2, ![900000, D]⟩ ![0, 1] hb2 (broadcastInDim ⟨2, ![900000, 1]⟩ ![0] hb1
            (mulf (Host.gather fd dinv srcNcol) (Host.gather fd dinv dstNcol))))) (ix2 n k)
      = agg (graphOf srcNcol dstcol dinv) (fun r k => h (ix2 r k)) n k := by
  rw [reference_aggregate gd wfG hgd sd wfS hsd hb0 srcNcol dstcol dinv hb1 hb2 h _ n k]
  simp only [reference_norm fd wfF hfd srcNcol dstNcol dinv]
  exact agg_of_reference_form (graphOf srcNcol dstcol dinv) (fun r k => h (ix2 r k))
    (fun e => Cert.LibGatherFlatRows.rowOf 100000 (by decide) (dstNcol (ix2 e (0 : Fin 1)))) hland n k

/-- A bias row added and the rectifier applied, at an entry. -/
theorem relu_bias_at {a b : ℕ}
    (h1 : (⟨1, ![b]⟩ : Shape).BroadcastsInDim ⟨2, ![1, b]⟩ ![1])
    (h2 : (⟨2, ![1, b]⟩ : Shape).BroadcastsInDim ⟨2, ![a, b]⟩ ![0, 1])
    (h0 : (⟨0, ![]⟩ : Shape).BroadcastsInDim ⟨2, ![a, b]⟩ ![])
    (y : FVec Ideal ⟨2, ![a, b]⟩ .f32) (bias : FVec Ideal ⟨1, ![b]⟩ .f32) (r : Fin a) (g : Fin b) :
    maximumf (addf y (broadcastInDim ⟨2, ![a, b]⟩ ![0, 1] h2 (broadcastInDim ⟨2, ![1, b]⟩ ![1] h1 bias)))
        (broadcastInDim ⟨2, ![a, b]⟩ ![] h0 (constant (F := Ideal) ⟨0, ![]⟩ .f32 0x00000000#32)) (ix2 r g)
      = max (y (ix2 r g) + bias (ix1 g)) 0 := by
  rw [relu_at, addf_apply, row_bcast_at ![1] rfl h1 ![0, 1] rfl rfl h2]

/-- A bias row added, at an entry. -/
theorem bias_at {a b : ℕ}
    (h1 : (⟨1, ![b]⟩ : Shape).BroadcastsInDim ⟨2, ![1, b]⟩ ![1])
    (h2 : (⟨2, ![1, b]⟩ : Shape).BroadcastsInDim ⟨2, ![a, b]⟩ ![0, 1])
    (y : FVec Ideal ⟨2, ![a, b]⟩ .f32) (bias : FVec Ideal ⟨1, ![b]⟩ .f32) (r : Fin a) (g : Fin b) :
    addf y (broadcastInDim ⟨2, ![a, b]⟩ ![0, 1] h2 (broadcastInDim ⟨2, ![1, b]⟩ ![1] h1 bias)) (ix2 r g)
      = y (ix2 r g) + bias (ix1 g) := by
  rw [addf_apply, row_bcast_at ![1] rfl h1 ![0, 1] rfl rfl h2]

/-- The network's arrays by coordinates. -/
def paramsOf (a0 a1 : FVec Ideal ⟨2, ![100000, 128]⟩ .f32) (mu var a3 a4 : FVec Ideal ⟨1, ![128]⟩ .f32)
    (a5 : FVec Ideal ⟨2, ![128, 128]⟩ .f32) (a6 : FVec Ideal ⟨1, ![128]⟩ .f32) (a7 : FVec Ideal ⟨2, ![384, 128]⟩ .f32)
    (a8 : FVec Ideal ⟨1, ![128]⟩ .f32) (a9 : FVec Ideal ⟨2, ![256, 64]⟩ .f32) (a10 : FVec Ideal ⟨1, ![64]⟩ .f32)
    (a11 : FVec Ideal ⟨2, ![256, 64]⟩ .f32) (a12 : FVec Ideal ⟨1, ![64]⟩ .f32) : Params where
  x := fun r k => a0 (ix2 r k)
  noise := fun r k => a1 (ix2 r k)
  mu := fun k => mu (ix1 k)
  var := fun k => var (ix1 k)
  gamma := fun k => a3 (ix1 k)
  beta := fun k => a4 (ix1 k)
  W1 := fun k g => a5 (ix2 k g)
  b1 := fun k => a6 (ix1 k)
  W2 := fun k g => a7 (ix2 k g)
  b2 := fun k => a8 (ix1 k)
  Wm := fun k j => a9 (ix2 k j)
  bm := fun j => a10 (ix1 j)
  Ws := fun k j => a11 (ix2 k j)
  bs := fun j => a12 (ix1 j)

/-- The reference's two results at an entry are the specification's two heads. -/
theorem ref_heads_at
    (gd : GatherDims ⟨2, ![100000, 128]⟩ ⟨2, ![900000, 1]⟩ ⟨2, ![900000, 128]⟩)
    (wfG : GatherDims.WF ⟨2, ![100000, 128]⟩ ⟨2, ![900000, 1]⟩ ⟨2, ![900000, 128]⟩ [1] [0] [] [0] [] 1 ![1, 128])
    (hgd : gd = Cert.LibGatherFlatRows.rowDims 100000 128 900000 wfG)
    (sd : ScatterDims ⟨2, ![100000, 128]⟩ ⟨2, ![900000, 1]⟩ ⟨2, ![900000, 128]⟩)
    (wfS : ScatterDims.WF ⟨2, ![100000, 128]⟩ ⟨2, ![900000, 1]⟩ ⟨2, ![900000, 128]⟩ [1] [0] [0] 1)
    (hsd : sd = Cert.LibSegSum.rowsDims 100000 128 900000 wfS)
    (hb0 : (⟨0, ![]⟩ : Shape).BroadcastsInDim ⟨2, ![100000, 128]⟩ ![])
    (gd' : GatherDims ⟨2, ![100000, 64]⟩ ⟨2, ![900000, 1]⟩ ⟨2, ![900000, 64]⟩)
    (wfG' : GatherDims.WF ⟨2, ![100000, 64]⟩ ⟨2, ![900000, 1]⟩ ⟨2, ![900000, 64]⟩ [1] [0] [] [0] [] 1 ![1, 64])
    (hgd' : gd' = Cert.LibGatherFlatRows.rowDims 100000 64 900000 wfG')
    (sd' : ScatterDims ⟨2, ![100000, 64]⟩ ⟨2, ![900000, 1]⟩ ⟨2, ![900000, 64]⟩)
    (wfS' : ScatterDims.WF ⟨2, ![100000, 64]⟩ ⟨2, ![900000, 1]⟩ ⟨2, ![900000, 64]⟩ [1] [0] [0] 1)
    (hsd' : sd' = Cert.LibSegSum.rowsDims 100000 64 900000 wfS')
    (hb0' : (⟨0, ![]⟩ : Shape).BroadcastsInDim ⟨2, ![100000, 64]⟩ ![])
    (fd : GatherDims ⟨1, ![100000]⟩ ⟨2, ![900000, 1]⟩ ⟨1, ![900000]⟩)
    (wfF : GatherDims.WF ⟨1, ![100000]⟩ ⟨2, ![900000, 1]⟩ ⟨1, ![900000]⟩ [] [0] [] [0] [] 1 ![1])
    (hfd : fd = Cert.LibSegSum.flatDims 100000 900000 wfF)
    (srcNcol dstNcol dstcol : IVec ⟨2, ![900000, 1]⟩ 32) (dinv : FVec Ideal ⟨1, ![100000]⟩ .f32)
    (hb1 : (⟨1, ![900000]⟩ : Shape).BroadcastsInDim ⟨2, ![900000, 1]⟩ ![0])
    (hb2 : (⟨2, ![900000, 1]⟩ : Shape).BroadcastsInDim ⟨2, ![900000, 128]⟩ ![0, 1])
    (hb2' : (⟨2, ![900000, 1]⟩ : Shape).BroadcastsInDim ⟨2, ![900000, 64]⟩ ![0, 1])
    (hland : ∀ (e : Fin 900000) (n : Fin 100000), (graphOf srcNcol dstcol dinv).land e n →
      Cert.LibGatherFlatRows.rowOf 100000 (by decide) (dstNcol (ix2 e (0 : Fin 1))) = n)
    (d1 : DotDims ⟨2, ![100000, 128]⟩ ⟨2, ![128, 128]⟩ ⟨2, ![100000, 128]⟩) (hd1 : d1 = DotDims.plain 100000 128 128)
    (d2 : DotDims ⟨2, ![100000, 384]⟩ ⟨2, ![384, 128]⟩ ⟨2, ![100000, 128]⟩) (hd2 : d2 = DotDims.plain 100000 384 128)
    (d3 : DotDims ⟨2, ![100000, 256]⟩ ⟨2, ![256, 64]⟩ ⟨2, ![100000, 64]⟩) (hd3 : d3 = DotDims.plain 100000 256 64)
    (r1 : (⟨1, ![128]⟩ : Shape).BroadcastsInDim ⟨2, ![1, 128]⟩ ![1])
    (r2 : (⟨2, ![1, 128]⟩ : Shape).BroadcastsInDim ⟨2, ![100000, 128]⟩ ![0, 1])
    (r0 : (⟨0, ![]⟩ : Shape).BroadcastsInDim ⟨1, ![128]⟩ ![])
    (r1' : (⟨1, ![64]⟩ : Shape).BroadcastsInDim ⟨2, ![1, 64]⟩ ![1])
    (r2' : (⟨2, ![1, 64]⟩ : Shape).BroadcastsInDim ⟨2, ![100000, 64]⟩ ![0, 1])
    (a0 a1 : FVec Ideal ⟨2, ![100000, 128]⟩ .f32) (mu var a3 a4 : FVec Ideal ⟨1, ![128]⟩ .f32)
    (a5 : FVec Ideal ⟨2, ![128, 128]⟩ .f32) (a6 : FVec Ideal ⟨1, ![128]⟩ .f32) (a7 : FVec Ideal ⟨2, ![384, 128]⟩ .f32)
    (a8 : FVec Ideal ⟨1, ![128]⟩ .f32) (a9 : FVec Ideal ⟨2, ![256, 64]⟩ .f32) (a10 : FVec Ideal ⟨1, ![64]⟩ .f32)
    (a11 : FVec Ideal ⟨2, ![256, 64]⟩ .f32) (a12 : FVec Ideal ⟨1, ![64]⟩ .f32)
    (v31 : FVec Ideal ⟨1, ![900000]⟩ .f32)
    (v50 v51 v64 v68 v70 v83 v87 : FVec Ideal ⟨2, ![100000, 128]⟩ .f32)
    (v89 v102 v105 v106 v119 v122 : FVec Ideal ⟨2, ![100000, 64]⟩ .f32)
    (hc3 : Shape.Concatenates (([⟨⟨2, ![100000, 128]⟩, v50⟩, ⟨⟨2, ![100000, 128]⟩, a1⟩, ⟨⟨2, ![100000, 128]⟩, v68⟩] : List ((s : Shape) × (s.Idx → Ideal .f32))).map (·.1)) ⟨2, ![100000, 384]⟩ (1 : Fin 2))
    (hc2 : Shape.Concatenates (([⟨⟨2, ![100000, 128]⟩, v50⟩, ⟨⟨2, ![100000, 128]⟩, v87⟩] : List ((s : Shape) × (s.Idx → Ideal .f32))).map (·.1)) ⟨2, ![100000, 256]⟩ (1 : Fin 2))
    (e31 : v31 = mulf (Host.gather fd dinv srcNcol) (Host.gather fd dinv dstNcol))
    (e50 : v50 = addf (mulf (mulf (subf a0 (broadcastInDim ⟨2, ![100000, 128]⟩ ![0, 1] r2 (broadcastInDim ⟨2, ![1, 128]⟩ ![1] r1 mu)))
          (broadcastInDim ⟨2, ![100000, 128]⟩ ![0, 1] r2 (broadcastInDim ⟨2, ![1, 128]⟩ ![1] r1
            (Host.rsqrt (addf var (broadcastInDim ⟨1, ![128]⟩ ![] r0 (constant (F := Ideal) ⟨0, ![]⟩ .f32 0x3727C5AC#32)))))))
        (broadcastInDim ⟨2, ![100000, 128]⟩ ![0, 1] r2 (broadcastInDim ⟨2, ![1, 128]⟩ ![1] r1 a3)))
      (broadcastInDim ⟨2, ![100000, 128]⟩ ![0, 1] r2 (broadcastInDim ⟨2, ![1, 128]⟩ ![1] r1 a4)))
    (e51 : v51 = Host.dotGeneral d1 none v50 a5)
    (e64 : v64 = Host.scatterAdd sd (broadcastInDim ⟨2, ![100000, 128]⟩ ![] hb0 (constant (F := Ideal) ⟨0, ![]⟩ .f32 0x00000000#32)) dstcol
        (mulf (Host.gather gd v51 srcNcol) (broadcastInDim ⟨2, ![900000, 128]⟩ ![0, 1] hb2 (broadcastInDim ⟨2, ![900000, 1]⟩ ![0] hb1 v31))))
    (e68 : v68 = maximumf (addf v64 (broadcastInDim ⟨2, ![100000, 128]⟩ ![0, 1] r2 (broadcastInDim ⟨2, ![1, 128]⟩ ![1] r1 a6)))
        (broadcastInDim ⟨2, ![100000, 128]⟩ ![] hb0 (constant (F := Ideal) ⟨0, ![]⟩ .f32 0x00000000#32)))
    (e70 : v70 = Host.dotGeneral d2 none
        (concatenate ⟨2, ![100000, 384]⟩ (1 : Fin 2) [⟨⟨2, ![100000, 128]⟩, v50⟩, ⟨⟨2, ![100000, 128]⟩, a1⟩, ⟨⟨2, ![100000, 128]⟩, v68⟩] hc3 : FVec Ideal ⟨2, ![100000, 384]⟩ .f32) a7)
    (e83 : v83 = Host.scatterAdd sd (broadcastInDim ⟨2, ![100000, 128]⟩ ![] hb0 (constant (F := Ideal) ⟨0, ![]⟩ .f32 0x00000000#32)) dstcol
        (mulf (Host.gather gd v70 srcNcol) (broadcastInDim ⟨2, ![900000, 128]⟩ ![0, 1] hb2 (broadcastInDim ⟨2, ![900000, 1]⟩ ![0] hb1 v31))))
    (e87 : v87 = maximumf (addf v83 (broadcastInDim ⟨2, ![100000, 128]⟩ ![0, 1] r2 (broadcastInDim ⟨2, ![1, 128]⟩ ![1] r1 a8)))
        (broadcastInDim ⟨2, ![100000, 128]⟩ ![] hb0 (constant (F := Ideal) ⟨0, ![]⟩ .f32 0x00000000#32)))
    (e89 : v89 = Host.dotGeneral d3 none
        (concatenate ⟨2, ![100000, 256]⟩ (1 : Fin 2) [⟨⟨2, ![100000, 128]⟩, v50⟩, ⟨⟨2, ![100000, 128]⟩, v87⟩] hc2 : FVec Ideal ⟨2, ![100000, 256]⟩ .f32) a9)
    (e102 : v102 = Host.scatterAdd sd' (broadcastInDim ⟨2, ![100000, 64]⟩ ![] hb0' (constant (F := Ideal) ⟨0, ![]⟩ .f32 0x00000000#32)) dstcol
        (mulf (Host.gather gd' v89 srcNcol) (broadcastInDim ⟨2, ![900000, 64]⟩ ![0, 1] hb2' (broadcastInDim ⟨2, ![900000, 1]⟩ ![0] hb1 v31))))
    (e105 : v105 = addf v102 (broadcastInDim ⟨2, ![100000, 64]⟩ ![0, 1] r2' (broadcastInDim ⟨2, ![1, 64]⟩ ![1] r1' a10)))
    (e106 : v106 = Host.dotGeneral d3 none
        (concatenate ⟨2, ![100000, 256]⟩ (1 : Fin 2) [⟨⟨2, ![100000, 128]⟩, v50⟩, ⟨⟨2, ![100000, 128]⟩, v87⟩] hc2 : FVec Ideal ⟨2, ![100000, 256]⟩ .f32) a11)
    (e119 : v119 = Host.scatterAdd sd' (broadcastInDim ⟨2, ![100000, 64]⟩ ![] hb0' (constant (F := Ideal) ⟨0, ![]⟩ .f32 0x00000000#32)) dstcol
        (mulf (Host.gather gd' v106 srcNcol) (broadcastInDim ⟨2, ![900000, 64]⟩ ![0, 1] hb2' (broadcastInDim ⟨2, ![900000, 1]⟩ ![0] hb1 v31))))
    (e122 : v122 = addf v119 (broadcastInDim ⟨2, ![100000, 64]⟩ ![0, 1] r2' (broadcastInDim ⟨2, ![1, 64]⟩ ![1] r1' a12)))
    (n : Fin 100000) (j : Fin 64) :
    v105 (ix2 n j) = zmean (graphOf srcNcol dstcol dinv) (paramsOf a0 a1 mu var a3 a4 a5 a6 a7 a8 a9 a10 a11 a12) n j
    ∧ v122 (ix2 n j) = zlogstd (graphOf srcNcol dstcol dinv) (paramsOf a0 a1 mu var a3 a4 a5 a6 a7 a8 a9 a10 a11 a12) n j := by
  set G := graphOf srcNcol dstcol dinv with hG
  set P := paramsOf a0 a1 mu var a3 a4 a5 a6 a7 a8 a9 a10 a11 a12 with hP
  have hxb : ∀ r k, v50 (ix2 r k) = xb P r k := fun r k => by
    rw [e50]; exact host_xb_at ![1] rfl r1 ![0, 1] rfl rfl r2 ![] r0 a0 mu var a3 a4 r k
  have h51 : ∀ r g, v51 (ix2 r g) = h1pre P r g := fun r g => by
    rw [e51, hd1, Cert.LibPlainDot.dotGeneral_apply]
    exact Finset.sum_congr rfl fun k _ => by rw [hxb]; rfl
  have h64 : ∀ r g, v64 (ix2 r g) = agg G (h1pre P) r g := fun r g => by
    rw [e64, e31, ref_agg_at gd wfG hgd sd wfS hsd hb0 fd wfF hfd srcNcol dstNcol dstcol dinv hb1 hb2 hland v51 r g]
    exact congrArg (fun h => agg G h r g) (funext fun r => funext fun k => h51 r k)
  have h68 : ∀ r g, v68 (ix2 r g) = h1 G P r g := fun r g => by
    rw [e68, relu_bias_at r1 r2 hb0 v64 a6 r g, h64]; rfl
  have h70 : ∀ r g, v70 (ix2 r g) = h2pre G P r g := fun r g => by
    rw [e70, hd2, dot_concat3_at v50 a1 v68 hc3 a7 none r g]
    simp only [hxb, h68]; rfl
  have h83 : ∀ r g, v83 (ix2 r g) = agg G (h2pre G P) r g := fun r g => by
    rw [e83, e31, ref_agg_at gd wfG hgd sd wfS hsd hb0 fd wfF hfd srcNcol dstNcol dstcol dinv hb1 hb2 hland v70 r g]
    exact congrArg (fun h => agg G h r g) (funext fun r => funext fun k => h70 r k)
  have h87 : ∀ r g, v87 (ix2 r g) = h2 G P r g := fun r g => by
    rw [e87, relu_bias_at r1 r2 hb0 v83 a8 r g, h83]; rfl
  have h89 : ∀ r g, v89 (ix2 r g) = zpre G P P.Wm r g := fun r g => by
    rw [e89, hd3, dot_concat2_at v50 v87 hc2 a9 none r g]
    simp only [hxb, h87]; rfl
  have h106 : ∀ r g, v106 (ix2 r g) = zpre G P P.Ws r g := fun r g => by
    rw [e106, hd3, dot_concat2_at v50 v87 hc2 a11 none r g]
    simp only [hxb, h87]; rfl
  constructor
  · rw [e105, bias_at r1' r2' v102 a10 n j, e102, e31,
      ref_agg_at gd' wfG' hgd' sd' wfS' hsd' hb0' fd wfF hfd srcNcol dstNcol dstcol dinv hb1 hb2' hland v89 n j]
    exact congrArg (fun h => agg G h n j + a10 (ix1 j)) (funext fun r => funext fun k => h89 r k)
  · rw [e122, bias_at r1' r2' v119 a12 n j, e119, e31,
      ref_agg_at gd' wfG' hgd' sd' wfS' hsd' hb0' fd wfF hfd srcNcol dstNcol dstcol dinv hb1 hb2' hland v106 n j]
    exact congrArg (fun h => agg G h n j + a12 (ix1 j)) (funext fun r => funext fun k => h106 r k)

end Cert.Gcn.RefWalk

end
-- ==== Proof.KWalk.lean ====
/-
  The kernel program's network, stage by stage, as a statement about arrays.

  The three kernel regions leave the batch-normalized input and three matrix products (the hypotheses `e21_0 … e67`, in the
  form the regions' blocks assemble to); between them the host aggregates: it scales the table by the degree factor at the
  source, sums the landing rows, and scales by the degree factor at the node (`e40`, `e63`, `e86`). Because a node's degree
  factor is a nonnegative real (`hdinv`), the last scaling moves inside the sum and each aggregation is the specification's.
  The second layer reads the three 128-row bands of `W2` as three separate matrices; the output heads read one 128-column
  matrix holding `Wm` in its first 64 columns and `Ws` in its last 64, and the two results are the two column halves of one
  aggregation: an aggregation acts column by column, so a column half of it is the aggregation of that half.
-/
import proofs.«177732_j68255620268441_2_alg».proof.Proof.Algebra
import proofs.«177732_j68255620268441_2_alg».proof.Proof.Pieces
import proofs.«177732_j68255620268441_2_alg».proof.Proof.Aggregate
import proofs.«177732_j68255620268441_2_alg».proof.Proof.RegionsDefs
import proofs.«177732_j68255620268441_2_alg».proof.Proof.RefWalk

open scoped BigOperators

noncomputable section

namespace Cert.Gcn.KWalk

open Idealize.ShloMosaic Idealize.ShloMosaic.ValueIdx Cert.Gcn.Stage Cert.Gcn.Piece Cert.KernelIdeal.Regions Cert.Gcn.RefWalk

/-- Column `j` of the first 64 of 128 columns. -/
def lo (j : Fin 64) : Fin 128 := ⟨j.val, by omega⟩
/-- Column `j` of the last 64 of 128 columns. -/
def hi (j : Fin 64) : Fin 128 := ⟨64 + j.val, by omega⟩

/-- The kernel program's two results at an entry are the specification's two heads. -/
theorem kernel_heads_at
    (gd : GatherDims ⟨2, ![100000, 128]⟩ ⟨2, ![900000, 1]⟩ ⟨2, ![900000, 128]⟩)
    (wfG : GatherDims.WF ⟨2, ![100000, 128]⟩ ⟨2, ![900000, 1]⟩ ⟨2, ![900000, 128]⟩ [1] [0] [] [0] [] 1 ![1, 128])
    (hgd : gd = Cert.LibGatherFlatRows.rowDims 100000 128 900000 wfG)
    (sd : ScatterDims ⟨2, ![100000, 128]⟩ ⟨2, ![900000, 1]⟩ ⟨2, ![900000, 128]⟩)
    (wfS : ScatterDims.WF ⟨2, ![100000, 128]⟩ ⟨2, ![900000, 1]⟩ ⟨2, ![900000, 128]⟩ [1] [0] [0] 1)
    (hsd : sd = Cert.LibSegSum.rowsDims 100000 128 900000 wfS)
    (hb0 : (⟨0, ![]⟩ : Shape).BroadcastsInDim ⟨2, ![100000, 128]⟩ ![])
    (srcNcol dstcol : IVec ⟨2, ![900000, 1]⟩ 32) (dinv : FVec Ideal ⟨1, ![100000]⟩ .f32)
    (hc1 : (⟨1, ![100000]⟩ : Shape).BroadcastsInDim ⟨2, ![100000, 1]⟩ ![0])
    (hc2 : (⟨2, ![100000, 1]⟩ : Shape).BroadcastsInDim ⟨2, ![100000, 128]⟩ ![0, 1])
    (hlt : FTy.bf16.bits < FTy.f32.bits)
    (hdinv : ∀ n : Fin 100000, ∃ r : ℝ, 0 ≤ r ∧ dinv (ix1 n) = (r : EReal))
    (r1' : (⟨1, ![64]⟩ : Shape).BroadcastsInDim ⟨2, ![1, 64]⟩ ![1])
    (r2' : (⟨2, ![1, 64]⟩ : Shape).BroadcastsInDim ⟨2, ![100000, 64]⟩ ![0, 1])
    (a0 a1 : FVec Ideal ⟨2, ![100000, 128]⟩ .f32) (mu var a3 a4 : FVec Ideal ⟨1, ![128]⟩ .f32)
    (a5 : FVec Ideal ⟨2, ![128, 128]⟩ .f32) (a6 : FVec Ideal ⟨1, ![128]⟩ .f32) (a7 : FVec Ideal ⟨2, ![384, 128]⟩ .f32)
    (a8 : FVec Ideal ⟨1, ![128]⟩ .f32) (a9 : FVec Ideal ⟨2, ![256, 64]⟩ .f32) (a10 : FVec Ideal ⟨1, ![64]⟩ .f32)
    (a11 : FVec Ideal ⟨2, ![256, 64]⟩ .f32) (a12 : FVec Ideal ⟨1, ![64]⟩ .f32)
    (v21_0 : FVec Ideal ⟨2, ![100000, 128]⟩ .f32) (v21_1 v44 v67 : FVec Ideal ⟨2, ![100000, 128]⟩ .bf16)
    (v40 v63 v86 : FVec Ideal ⟨2, ![100000, 128]⟩ .f32)
    (v41 v42 v43 v65 v66 : FVec Ideal ⟨2, ![128, 128]⟩ .f32)
    (v87 v90 v91 v94 : FVec Ideal ⟨2, ![100000, 64]⟩ .f32)
    (e21_0 : ∀ r k, v21_0 (ix2 r k) = bnAt a0 mu var a3 a4 r k)
    (e21_1 : ∀ r g, v21_1 (ix2 r g) = bnMulAt a0 mu var a3 a4 a5 r g)
    (e40 : v40 = mulf (broadcastInDim ⟨2, ![100000, 128]⟩ ![0, 1] hc2 (broadcastInDim ⟨2, ![100000, 1]⟩ ![0] hc1 dinv))
        (Host.scatterAdd sd (broadcastInDim ⟨2, ![100000, 128]⟩ ![] hb0 (constant (F := Ideal) ⟨0, ![]⟩ .f32 0x00000000#32)) dstcol
          (extf .f32 (Host.gather gd (truncf .bf16 (mulf (extf .f32 v21_1 hlt) (broadcastInDim ⟨2, ![100000, 128]⟩ ![0, 1] hc2 (broadcastInDim ⟨2, ![100000, 1]⟩ ![0] hc1 dinv))) hlt) srcNcol) hlt)))
    (hs41 : ∀ (k g : Fin 128), v41 (ix2 k g) = a7 (ix2 (at384 0 (by omega) k) g))
    (hs42 : ∀ (k g : Fin 128), v42 (ix2 k g) = a7 (ix2 (at384 128 (by omega) k) g))
    (hs43 : ∀ (k g : Fin 128), v43 (ix2 k g) = a7 (ix2 (at384 256 (by omega) k) g))
    (e44 : ∀ r g, v44 (ix2 r g) = mix3At v40 a6 v21_0 a1 v41 v42 v43 r g)
    (e63 : v63 = mulf (broadcastInDim ⟨2, ![100000, 128]⟩ ![0, 1] hc2 (broadcastInDim ⟨2, ![100000, 1]⟩ ![0] hc1 dinv))
        (Host.scatterAdd sd (broadcastInDim ⟨2, ![100000, 128]⟩ ![] hb0 (constant (F := Ideal) ⟨0, ![]⟩ .f32 0x00000000#32)) dstcol
          (extf .f32 (Host.gather gd (truncf .bf16 (mulf (extf .f32 v44 hlt) (broadcastInDim ⟨2, ![100000, 128]⟩ ![0, 1] hc2 (broadcastInDim ⟨2, ![100000, 1]⟩ ![0] hc1 dinv))) hlt) srcNcol) hlt)))
    (hs65lo : ∀ (k : Fin 128) (j : Fin 64), v65 (ix2 k (lo j)) = a9 (ix2 (at256 0 (by omega) k) j))
    (hs65hi : ∀ (k : Fin 128) (j : Fin 64), v65 (ix2 k (hi j)) = a11 (ix2 (at256 0 (by omega) k) j))
    (hs66lo : ∀ (k : Fin 128) (j : Fin 64), v66 (ix2 k (lo j)) = a9 (ix2 (at256 128 (by omega) k) j))
    (hs66hi : ∀ (k : Fin 128) (j : Fin 64), v66 (ix2 k (hi j)) = a11 (ix2 (at256 128 (by omega) k) j))
    (e67 : ∀ r g, v67 (ix2 r g) = mix2At v63 a8 v21_0 v65 v66 r g)
    (e86 : v86 = mulf (broadcastInDim ⟨2, ![100000, 128]⟩ ![0, 1] hc2 (broadcastInDim ⟨2, ![100000, 1]⟩ ![0] hc1 dinv))
        (Host.scatterAdd sd (broadcastInDim ⟨2, ![100000, 128]⟩ ![] hb0 (constant (F := Ideal) ⟨0, ![]⟩ .f32 0x00000000#32)) dstcol
          (extf .f32 (Host.gather gd (truncf .bf16 (mulf (extf .f32 v67 hlt) (broadcastInDim ⟨2, ![100000, 128]⟩ ![0, 1] hc2 (broadcastInDim ⟨2, ![100000, 1]⟩ ![0] hc1 dinv))) hlt) srcNcol) hlt)))
    (hs87 : ∀ (n : Fin 100000) (j : Fin 64), v87 (ix2 n j) = v86 (ix2 n (lo j)))
    (hs91 : ∀ (n : Fin 100000) (j : Fin 64), v91 (ix2 n j) = v86 (ix2 n (hi j)))
    (e90 : v90 = addf v87 (broadcastInDim ⟨2, ![100000, 64]⟩ ![0, 1] r2' (broadcastInDim ⟨2, ![1, 64]⟩ ![1] r1' a10)))
    (e94 : v94 = addf v91 (broadcastInDim ⟨2, ![100000, 64]⟩ ![0, 1] r2' (broadcastInDim ⟨2, ![1, 64]⟩ ![1] r1' a12)))
    (n : Fin 100000) (j : Fin 64) :
    v90 (ix2 n j) = zmean (graphOf srcNcol dstcol dinv) (paramsOf a0 a1 mu var a3 a4 a5 a6 a7 a8 a9 a10 a11 a12) n j
    ∧ v94 (ix2 n j) = zlogstd (graphOf srcNcol dstcol dinv) (paramsOf a0 a1 mu var a3 a4 a5 a6 a7 a8 a9 a10 a11 a12) n j := by
  set G := graphOf srcNcol dstcol dinv with hG
  set P := paramsOf a0 a1 mu var a3 a4 a5 a6 a7 a8 a9 a10 a11 a12 with hP
  have hd : ∀ n : Fin 100000, ∃ r : ℝ, 0 ≤ r ∧ G.dinv n = (r : EReal) := hdinv
  -- one aggregation in the kernel's spelling is the specification's
  have hagg : ∀ (h : FVec Ideal ⟨2, ![100000, 128]⟩ .bf16) (r : Fin 100000) (g : Fin 128),
      (mulf (broadcastInDim ⟨2, ![100000, 128]⟩ ![0, 1] hc2 (broadcastInDim ⟨2, ![100000, 1]⟩ ![0] hc1 dinv))
        (Host.scatterAdd sd (broadcastInDim ⟨2, ![100000, 128]⟩ ![] hb0 (constant (F := Ideal) ⟨0, ![]⟩ .f32 0x00000000#32)) dstcol
          (extf .f32 (Host.gather gd (truncf .bf16 (mulf (extf .f32 h hlt) (broadcastInDim ⟨2, ![100000, 128]⟩ ![0, 1] hc2 (broadcastInDim ⟨2, ![100000, 1]⟩ ![0] hc1 dinv))) hlt) srcNcol) hlt))) (ix2 r g) = agg G (fun r k => h (ix2 r k)) r g := fun h r g => by
    rw [kernel_aggregate gd wfG hgd sd wfS hsd hb0 srcNcol dstcol dinv hc1 hc2 hlt h r g]
    exact agg_of_kernel_form G (fun r k => h (ix2 r k)) r g (hd r)
  have hxb : ∀ r k, v21_0 (ix2 r k) = xb P r k := fun r k => by rw [e21_0]; rfl
  have h1p : ∀ r g, v21_1 (ix2 r g) = h1pre P r g := fun r g => by rw [e21_1]; rfl
  have h40 : ∀ r g, v40 (ix2 r g) = agg G (h1pre P) r g := fun r g => by
    rw [e40, hagg v21_1 r g]
    exact congrArg (fun h => agg G h r g) (funext fun r => funext fun k => h1p r k)
  have h44 : ∀ r g, v44 (ix2 r g) = h2pre G P r g := fun r g => by
    rw [e44]; unfold mix3At
    simp only [hxb, h40, hs41, hs42, hs43]; rfl
  have h63 : ∀ r g, v63 (ix2 r g) = agg G (h2pre G P) r g := fun r g => by
    rw [e63, hagg v44 r g]
    exact congrArg (fun h => agg G h r g) (funext fun r => funext fun k => h44 r k)
  have h67lo : ∀ r (j : Fin 64), v67 (ix2 r (lo j)) = zpre G P P.Wm r j := fun r j => by
    rw [e67]; unfold mix2At
    simp only [hxb, h63, hs65lo, hs66lo]; rfl
  have h67hi : ∀ r (j : Fin 64), v67 (ix2 r (hi j)) = zpre G P P.Ws r j := fun r j => by
    rw [e67]; unfold mix2At
    simp only [hxb, h63, hs65hi, hs66hi]; rfl
  constructor
  · rw [e90, bias_at r1' r2' v87 a10 n j, hs87, e86, hagg v67 n (lo j)]
    refine congrArg (· + a10 (ix1 j)) ?_
    unfold agg
    exact Finset.sum_congr rfl fun e _ => by dsimp only; rw [h67lo]
  · rw [e94, bias_at r1' r2' v91 a12 n j, hs91, e86, hagg v67 n (hi j)]
    refine congrArg (· + a12 (ix1 j)) ?_
    unfold agg
    exact Finset.sum_congr rfl fun e _ => by dsimp only; rw [h67hi]

end Cert.Gcn.KWalk

end
-- ==== Proof.KValueDefs.lean ====
/-
  The graph and the parameters the idealized kernel program computes with, read off its buffers at the end of its run:
  the graph from the normalized source column, the raw destination column and the degree factor the program builds;
  the parameters from the argument arrays and the column mean and variance of the input.
-/
import proofs.«177732_j68255620268441_2_alg».proof.Proof.Gen.KernelIdeal.Frame
import proofs.«177732_j68255620268441_2_alg».proof.Proof.KWalk

set_option maxRecDepth 16384

open scoped BigOperators

noncomputable section

namespace Cert.KernelIdeal.KValue

open Cert.KernelIdeal Cert.KernelIdeal.Gen
open Idealize.ShloMosaic Idealize.ShloMosaic.TcCoe Idealize.ShloMosaic.ValueIdx
open Cert.Gcn Cert.Gcn.Stage Cert.Gcn.KWalk Cert.Gcn.RefWalk

variable (m : (ℓ : Loc nD τ sig) → Buf (Elt Ideal) ℓ) (ρ : Dev nD → PrngReg) (c : Dev nD)

/-- The graph the program reads: the normalized source column, the raw destination column, the degree factor. -/
def graph : Cert.Gcn.Graph :=
  graphOf (W10 m ρ c (Proc.devRef .tc main_v32)) (W10 m ρ c (Proc.devRef .tc main_v37)) (W10 m ρ c (Proc.devRef .tc main_v16))

/-- The network's arrays: the arguments, and the input's column mean and variance. -/
def params : Cert.Gcn.Params :=
  paramsOf (W10 m ρ c (Proc.devRef .tc main_arg0)) (W10 m ρ c (Proc.devRef .tc main_arg1)) (W10 m ρ c (Proc.devRef .tc main_v19)) (W10 m ρ c (Proc.devRef .tc main_v20))
    (W10 m ρ c (Proc.devRef .tc main_arg3)) (W10 m ρ c (Proc.devRef .tc main_arg4)) (W10 m ρ c (Proc.devRef .tc main_arg5)) (W10 m ρ c (Proc.devRef .tc main_arg6))
    (W10 m ρ c (Proc.devRef .tc main_arg7)) (W10 m ρ c (Proc.devRef .tc main_arg8)) (W10 m ρ c (Proc.devRef .tc main_arg9)) (W10 m ρ c (Proc.devRef .tc main_arg10))
    (W10 m ρ c (Proc.devRef .tc main_arg11)) (W10 m ρ c (Proc.devRef .tc main_arg12))

end Cert.KernelIdeal.KValue

end
-- ==== Proof.RegionsGeom.lean ====
/-
  The geometry the three regions share: a [100000,128] array cut into 25 blocks of 4000 rows, every smaller operand
  whole at every grid point.
-/
import proofs.«177732_j68255620268441_2_alg».proof.Proof.Gen.KernelIdeal.Frame
import Idealize.ShloMosaic.Lib.Pipeline.Value
import Idealize.ShloMosaic.Lib.ValueIdx

set_option maxRecDepth 16384

noncomputable section

open scoped BigOperators

namespace Cert.KernelIdeal.Regions

open Idealize.ShloMosaic

/-- The zero offsets of a rank-2 load or store, spelt as a constant function. -/
theorem hz2 : (![0, 0] : Fin 2 → Nat) = fun _ => 0 := funext fun a => by fin_cases a <;> rfl
/-- The zero offset of a rank-1 load, spelt as a constant function. -/
theorem hz1 : (![0] : Fin 1 → Nat) = fun _ => 0 := funext fun a => by fin_cases a <;> rfl

/-- Row `p` of the 4000-row block `t` of a 100000-row array. -/
def rowAt (t : Fin 25) (p : Fin 4000) : Fin 100000 := ⟨t.val * 4000 + p.val, by omega⟩

theorem rowAt_val (t : Fin 25) (p : Fin 4000) : (rowAt t p).val = t.val * 4000 + p.val := rfl

/-- Every row is row `r % 4000` of block `r / 4000`. -/
theorem rowAt_div_mod (r : Fin 100000) : rowAt ⟨r.val / 4000, by omega⟩ ⟨r.val % 4000, by omega⟩ = r :=
  Fin.ext (by show r.val / 4000 * 4000 + r.val % 4000 = r.val; omega)

end Cert.KernelIdeal.Regions

end
-- ==== Proof.RegionsBlocks0.lean ====
/-
  Region 0's windows read by coordinates: each input block at a grid point as entries of the array the region is
  entered with, and where each output block lands.
-/
import proofs.«177732_j68255620268441_2_alg».proof.Proof.RegionsGeom

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The printed index maps over the 25 grid points: a row-blocked window sits at block `t` of the rows and block 0 of the
    columns, every whole operand at block 0. -/
theorem idx_facts0 : ∀ t : Fin cfg0.N, win0_0.index t (0 : Fin 2) = t.val
    ∧ win0_0.index t (1 : Fin 2) = 0
    ∧ win0_1.index t (0 : Fin 1) = 0
    ∧ win0_2.index t (0 : Fin 1) = 0
    ∧ win0_3.index t (0 : Fin 1) = 0
    ∧ win0_4.index t (0 : Fin 1) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-- Window 0's block at point `t` holds rows `4000 t … 4000 t + 3999` of its array. -/
theorem read0_0 (t : Fin cfg0.N) (p : Fin 4000) (k : Fin 128) :
    iblk0 V c 0 t (ix2 p k) = V c main_arg0 (ix2 (rowAt t p) k) := by
  obtain ⟨e0, e1, -⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 4000 + 1 * p.val = t.val * 4000 + p.val; rw [e0]; omega
  | ⟨1, _⟩ => show win0_0.index t (1 : Fin 2) * 128 + 1 * k.val = k.val; rw [e1]; omega

/-- Window 1's block at every point is its whole [128] array. -/
theorem read0_1 (t : Fin cfg0.N) (k : Fin 128) :
    iblk0 V c 1 t (ix1 k) = V c main_v19 (ix1 k) := by
  obtain ⟨-, -, e0, -⟩ := idx_facts0 t
  show V c main_v19 (((cfg0.win 1).blk t).view.emb (ix1 k)) = _
  refine congrArg (V c main_v19) (funext fun a => Fin.ext ?_)
  match a with
  | ⟨0, _⟩ => show win0_1.index t (0 : Fin 1) * 128 + 1 * k.val = k.val; rw [e0]; omega

/-- Window 2's block at every point is its whole [128] array. -/
theorem read0_2 (t : Fin cfg0.N) (k : Fin 128) :
    iblk0 V c 2 t (ix1 k) = V c main_v20 (ix1 k) := by
  obtain ⟨-, -, -, e0, -⟩ := idx_facts0 t
  show V c main_v20 (((cfg0.win 2).blk t).view.emb (ix1 k)) = _
  refine congrArg (V c main_v20) (funext fun a => Fin.ext ?_)
  match a with
  | ⟨0, _⟩ => show win0_2.index t (0 : Fin 1) * 128 + 1 * k.val = k.val; rw [e0]; omega

/-- Window 3's block at every point is its whole [128] array. -/
theorem read0_3 (t : Fin cfg0.N) (k : Fin 128) :
    iblk0 V c 3 t (ix1 k) = V c main_arg3 (ix1 k) := by
  obtain ⟨-, -, -, -, e0, -⟩ := idx_facts0 t
  show V c main_arg3 (((cfg0.win 3).blk t).view.emb (ix1 k)) = _
  refine congrArg (V c main_arg3) (funext fun a => Fin.ext ?_)
  match a with
  | ⟨0, _⟩ => show win0_3.index t (0 : Fin 1) * 128 + 1 * k.val = k.val; rw [e0]; omega

/-- Window 4's block at every point is its whole [128] array. -/
theorem read0_4 (t : Fin cfg0.N) (k : Fin 128) :
    iblk0 V c 4 t (ix1 k) = V c main_arg4 (ix1 k) := by
  obtain ⟨-, -, -, -, -, e0, -⟩ := idx_facts0 t
  show V c main_arg4 (((cfg0.win 4).blk t).view.emb (ix1 k)) = _
  refine congrArg (V c main_arg4) (funext fun a => Fin.ext ?_)
  match a with
  | ⟨0, _⟩ => show win0_4.index t (0 : Fin 1) * 128 + 1 * k.val = k.val; rw [e0]; omega

/-- Window 5's block at every point is its whole [128,128] array. -/
theorem read0_5 (t : Fin cfg0.N) (k g : Fin 128) :
    iblk0 V c 5 t (ix2 k g) = V c main_arg5 (ix2 k g) := by
  obtain ⟨-, -, -, -, -, -, e0, e1, -⟩ := idx_facts0 t
  show V c main_arg5 (((cfg0.win 5).blk t).view.emb (ix2 k g)) = _
  refine congrArg (V c main_arg5) (funext fun a => Fin.ext ?_)
  match a with
  | ⟨0, _⟩ => show win0_5.index t (0 : Fin 2) * 128 + 1 * k.val = k.val; rw [e0]; omega
  | ⟨1, _⟩ => show win0_5.index t (1 : Fin 2) * 128 + 1 * g.val = g.val; rw [e1]; omega

/-- Output window 6's block at point `t` lands on rows `4000 t … 4000 t + 3999` of its array. -/
theorem emb0_6 (t : Fin cfg0.N) (p : Fin 4000) (k : Fin 128) :
    ((cfg0.win 6).blk t).view.emb (ix2 p k) = ix2 (rowAt t p) k := by
  obtain ⟨-, -, -, -, -, -, -, -, e0, e1, -⟩ := idx_facts0 t
  refine funext fun a => Fin.ext ?_
  match a with
  | ⟨0, _⟩ => show win0_6.index t (0 : Fin 2) * 4000 + 1 * p.val = t.val * 4000 + p.val; rw [e0]; omega
  | ⟨1, _⟩ => show win0_6.index t (1 : Fin 2) * 128 + 1 * k.val = k.val; rw [e1]; omega

/-- An entry of the array is in point `t`'s block of output window 6 iff each coordinate is in the block's range. -/
theorem mem_blk0_6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v21_0).slice (win0_6.rect t)).set ↔ _
  rw [View.set_slice_whole, Rect.mem_set_unit]
  exact Iff.rfl

/-- Output window 6's 25 blocks cover its array: row `r` is in block `r / 4000`. -/
theorem covers0_6 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, e0, e1, -⟩ := idx_facts0 t
  refine ⟨t, flush0_6 t, ?_⟩
  rw [mem_blk0_6]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- Output window 7's block at point `t` lands on rows `4000 t … 4000 t + 3999` of its array. -/
theorem emb0_7 (t : Fin cfg0.N) (p : Fin 4000) (k : Fin 128) :
    ((cfg0.win 7).blk t).view.emb (ix2 p k) = ix2 (rowAt t p) k := by
  obtain ⟨-, -, -, -, -, -, -, -, -, -, e0, e1⟩ := idx_facts0 t
  refine funext fun a => Fin.ext ?_
  match a with
  | ⟨0, _⟩ => show win0_7.index t (0 : Fin 2) * 4000 + 1 * p.val = t.val * 4000 + p.val; rw [e0]; omega
  | ⟨1, _⟩ => show win0_7.index t (1 : Fin 2) * 128 + 1 * k.val = k.val; rw [e1]; omega

/-- An entry of the array is in point `t`'s block of output window 7 iff each coordinate is in the block's range. -/
theorem mem_blk0_7 (t : Fin cfg0.N) (i : S100000x128.Idx) :
    i ∈ ((cfg0.win 7).blk t).view.set ↔ ∀ a : Fin 2, win0_7.index t a * S4000x128.size a ≤ (i a).val ∧ (i a).val < win0_7.index t a * S4000x128.size a + S4000x128.size a := by
  show i ∈ ((View.whole main_v21_1).slice (win0_7.rect t)).set ↔ _
  rw [View.set_slice_whole, Rect.mem_set_unit]
  exact Iff.rfl

/-- Output window 7's 25 blocks cover its array: row `r` is in block `r / 4000`. -/
theorem covers0_7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, e0, e1⟩ := idx_facts0 t
  refine ⟨t, flush0_7 t, ?_⟩
  rw [mem_blk0_7]
  intro a
  match a with
  | ⟨0, _⟩ => show win0_7.index t (0 : Fin 2) * 4000 ≤ (i 0).val ∧ (i 0).val < win0_7.index t (0 : Fin 2) * 4000 + 4000; rw [e0, ht]; omega
  | ⟨1, _⟩ => show win0_7.index t (1 : Fin 2) * 128 ≤ (i 1).val ∧ (i 1).val < win0_7.index t (1 : Fin 2) * 128 + 128; rw [e1]; omega

end Cert.KernelIdeal.Regions

end
-- ==== Proof.RegionsPayBase.lean ====
/-
  The pieces every body of the three kernels shares, read at an entry: a [128] vector laid over the 4000 rows of a
  block reads its own entry at the column, and the bodies' matrix products are plain [4000,128] x [128,128] products.
-/
import proofs.«177732_j68255620268441_2_alg».proof.Proof.Gen.KernelIdeal.Skeleton
import proofs.«177732_j68255620268441_2_alg».proof.Proof.Spec
import proofs.«177732_j68255620268441_2_alg».proof.Proof.LibPlainMatmul
import Idealize.ShloMosaic.Lib.ValueLayout

set_option maxRecDepth 16384

noncomputable section

open scoped BigOperators

namespace Cert.KernelIdeal.Regions

open Cert.KernelIdeal Cert.KernelIdeal.Gen Idealize.ShloMosaic Idealize.ShloMosaic.ValueIdx

/-- A [128] vector viewed as one row and repeated over 4000 rows reads, at `(p, k)`, its entry `k`. -/
theorem rowOver_apply (x : FVec Ideal S128 .f32) (p : Fin 4000) (k : Fin 128) :
    broadcastTo S4000x128 (shapeCast S1x128 x shapeCasts_S128_S1x128) broadcasts_S1x128_S4000x128 (ix2 p k) = x (ix1 k) := by
  rw [broadcastTo_1b_ab_apply, shapeCast_a_1a_apply]

/-- The bodies' contraction: the left operand's columns against the right operand's rows, no batch axis. -/
theorem dot_eq_plain : dot_S4000x128_S128x128_S4000x128_1_0_0_1_n_n = DotDims.plain 4000 128 128 := rfl

/-- A body's product of a [4000,128] block with a [128,128] matrix into the zero accumulator, at `(p, g)`. -/
theorem blockMatmul_apply {φ₁ φ₂ : FTy} (A : FVec Ideal S4000x128 φ₁) (B : FVec Ideal S128x128 φ₂) (p : Fin 4000) (g : Fin 128) :
    matmul dot_S4000x128_S128x128_S4000x128_1_0_0_1_n_n none A B (constant S4000x128 .f32 0x00000000#32) (ix2 p g)
      = ∑ k : Fin 128, A (ix2 p k) * B (ix2 k g) := by
  rw [dot_eq_plain]
  exact Cert.LibPlainMatmul.matmul_zero_apply none A B p g

end Cert.KernelIdeal.Regions

end
-- ==== Proof.RegionsPay0.lean ====
/-
  Region 0's two stored values at an entry of the block: the batch normalization of the input block, and that
  normalized block times the first layer's matrix.
-/
import proofs.«177732_j68255620268441_2_alg».proof.Proof.RegionsPayBase

set_option maxRecDepth 16384

noncomputable section

open scoped BigOperators

namespace Cert.KernelIdeal.Regions

open Cert.KernelIdeal Cert.KernelIdeal.Gen Idealize.ShloMosaic Idealize.ShloMosaic.ValueIdx

/-- The first stored value at `(p, k)`: the input entry minus the column's mean, times the inverse square root of the
    column's variance plus the stabilizer, times the column's scale, plus the column's shift. -/
theorem pay0_xb (x0 : Vec Ideal S4000x128 .f32) (x1 x2 x3 x4 : Vec Ideal S128 .f32) (p : Fin 4000) (k : Fin 128) :
    k0_pay1 x0 x1 x2 x3 x4 (ix2 p k)
      = (x0 (ix2 p k) - x1 (ix1 k)) * Ideal.rsqrt (x2 (ix1 k) + Cert.Gcn.eps) * x3 (ix1 k) + x4 (ix1 k) := by
  unfold k0_pay1
  simp only [addf_apply, mulf_apply, subf_apply, rowOver_apply, shapeCast_self]
  rfl

/-- The second stored value at `(p, g)`: row `p` of the first stored value against column `g` of the matrix. -/
theorem pay0_hpre (x0 : Vec Ideal S4000x128 .f32) (x1 x2 x3 x4 : Vec Ideal S128 .f32) (x5 : Vec Ideal S128x128 .f32)
    (p : Fin 4000) (g : Fin 128) :
    k0_pay2 x0 x1 x2 x3 x4 x5 (ix2 p g) = ∑ k : Fin 128, k0_pay1 x0 x1 x2 x3 x4 (ix2 p k) * x5 (ix2 k g) := by
  unfold k0_pay2
  simp only [truncf_apply, blockMatmul_apply]

end Cert.KernelIdeal.Regions

end
-- ==== Proof.Region0.lean ====
/-
  Region 0's two output arrays as whole-array functions of the arrays the region is entered with: the batch
  normalization of the input, and its product with the first layer's matrix.
-/
import proofs.«177732_j68255620268441_2_alg».proof.Proof.RegionsBlocks0
import proofs.«177732_j68255620268441_2_alg».proof.Proof.RegionsPay0
import proofs.«177732_j68255620268441_2_alg».proof.Proof.RegionsDefs

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The array the first output ends holding. -/
def G0xb : S100000x128.Idx → EReal := fun i => bnAt (V c main_arg0) (V c main_v19) (V c main_v20) (V c main_arg3) (V c main_arg4) (i 0) (i 1)

/-- The array the second output ends holding. -/
def G0h : S100000x128.Idx → EReal := fun i => bnMulAt (V c main_arg0) (V c main_v19) (V c main_v20) (V c main_arg3) (V c main_arg4) (V c main_arg5) (i 0) (i 1)

/-- The first stored value at entry `(p, k)` of point `t`'s block, on the arrays. -/
theorem pay0_xb_at (t : Fin cfg0.N) (p : Fin 4000) (k : Fin 128) :
    k0_pay1 (iblk0 V c 0 t) (iblk0 V c 1 t) (iblk0 V c 2 t) (iblk0 V c 3 t) (iblk0 V c 4 t) (ix2 p k) = bnAt (V c main_arg0) (V c main_v19) (V c main_v20) (V c main_arg3) (V c main_arg4) (rowAt t p) k := by
  refine (pay0_xb _ _ _ _ _ p k).trans ?_
  rw [read0_0, read0_1, read0_2, read0_3, read0_4]
  rfl

/-- The second stored value at entry `(p, g)` of point `t`'s block, on the arrays. -/
theorem pay0_hpre_at (t : Fin cfg0.N) (p : Fin 4000) (g : Fin 128) :
    k0_pay2 (iblk0 V c 0 t) (iblk0 V c 1 t) (iblk0 V c 2 t) (iblk0 V c 3 t) (iblk0 V c 4 t) (iblk0 V c 5 t) (ix2 p g) = bnMulAt (V c main_arg0) (V c main_v19) (V c main_v20) (V c main_arg3) (V c main_arg4) (V c main_arg5) (rowAt t p) g := by
  refine (pay0_hpre _ _ _ _ _ _ p g).trans ?_
  unfold bnMulAt
  refine Finset.sum_congr rfl fun k _ => ?_
  rw [pay0_xb_at, read0_5]

/-- What point `t` writes back to output window 6 is block `t` of `G0xb`. -/
theorem flushed0_6_eq (t : Fin cfg0.N) :
    (dat0 V c).flushed 6 t = ((cfg0.win 6).blk t).view.read (Elt Ideal) (G0xb V c) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S128) hz1, View.ld_unit_zero (S := S128x128) hz2]
  funext j
  obtain ⟨p, k, rfl⟩ : ∃ (p : Fin 4000) (k : Fin 128), j = ix2 p k := ⟨j 0, j 1, @eq_ix2 4000 128 j⟩
  show k0_pay1 (iblk0 V c 0 t) (iblk0 V c 1 t) (iblk0 V c 2 t) (iblk0 V c 3 t) (iblk0 V c 4 t) (ix2 p k) = G0xb V c (((cfg0.win 6).blk t).view.emb (ix2 p k))
  rw [emb0_6]
  exact pay0_xb_at V c t p k

/-- So the array ends holding `G0xb`: the 25 blocks cover it. -/
theorem final0_6 : (dat0 V c).arrAt 6 cfg0.N = G0xb V c :=
  (dat0 V c).arrAt_eq_of_cover 6 (G0xb V c) (fun t _ => flushed0_6_eq V c t) covers0_6

/-- What point `t` writes back to output window 7 is block `t` of `G0h`. -/
theorem flushed0_7_eq (t : Fin cfg0.N) :
    (dat0 V c).flushed 7 t = ((cfg0.win 7).blk t).view.read (Elt Ideal) (G0h V c) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S128) hz1, View.ld_unit_zero (S := S128x128) hz2]
  funext j
  obtain ⟨p, k, rfl⟩ : ∃ (p : Fin 4000) (k : Fin 128), j = ix2 p k := ⟨j 0, j 1, @eq_ix2 4000 128 j⟩
  show k0_pay2 (iblk0 V c 0 t) (iblk0 V c 1 t) (iblk0 V c 2 t) (iblk0 V c 3 t) (iblk0 V c 4 t) (iblk0 V c 5 t) (ix2 p k) = G0h V c (((cfg0.win 7).blk t).view.emb (ix2 p k))
  rw [emb0_7]
  exact pay0_hpre_at V c t p k

/-- So the array ends holding `G0h`: the 25 blocks cover it. -/
theorem final0_7 : (dat0 V c).arrAt 7 cfg0.N = G0h V c :=
  (dat0 V c).arrAt_eq_of_cover 7 (G0h V c) (fun t _ => flushed0_7_eq V c t) covers0_7

/-- Region 0's first output: the batch-normalized input, entry by entry. -/
theorem region0_xb (r : Fin 100000) (k : Fin 128) :
    (dat0 V c).arrAt 6 cfg0.N (ix2 r k)
      = bnAt (V c main_arg0) (V c main_v19) (V c main_v20) (V c main_arg3) (V c main_arg4) r k := by
  rw [final0_6]; rfl

/-- Region 0's second output: the normalized input times the first layer's matrix. -/
theorem region0_hpre (r : Fin 100000) (g : Fin 128) :
    (dat0 V c).arrAt 7 cfg0.N (ix2 r g)
      = bnMulAt (V c main_arg0) (V c main_v19) (V c main_v20) (V c main_arg3) (V c main_arg4) (V c main_arg5) r g := by
  rw [final0_7]; rfl

end Cert.KernelIdeal.Regions

end
-- ==== Proof.RegionsBlocks1.lean ====
/-
  Region 1's windows read by coordinates: each input block at a grid point as entries of the array the region is
  entered with, and where each output block lands.
-/
import proofs.«177732_j68255620268441_2_alg».proof.Proof.RegionsGeom

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The printed index maps over the 25 grid points: a row-blocked window sits at block `t` of the rows and block 0 of the
    columns, every whole operand at block 0. -/
theorem idx_facts1 : ∀ t : Fin cfg1.N, win1_0.index t (0 : Fin 2) = t.val
    ∧ win1_0.index t (1 : Fin 2) = 0
    ∧ win1_1.index t (0 : Fin 1) = 0
    ∧ win1_2.index t (0 : Fin 2) = t.val
    ∧ win1_2.index t (1 : Fin 2) = 0
    ∧ win1_3.index t (0 : Fin 2) = t.val
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- Window 0's block at point `t` holds rows `4000 t … 4000 t + 3999` of its array. -/
theorem read1_0 (t : Fin cfg1.N) (p : Fin 4000) (k : Fin 128) :
    iblk1 V c 0 t (ix2 p k) = V c main_v40 (ix2 (rowAt t p) k) := by
  obtain ⟨e0, e1, -⟩ := idx_facts1 t
  show V c main_v40 (((cfg1.win 0).blk t).view.emb (ix2 p k)) = _
  refine congrArg (V c main_v40) (funext fun a => Fin.ext ?_)
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

/-- Window 1's block at every point is its whole [128] array. -/
theorem read1_1 (t : Fin cfg1.N) (k : Fin 128) :
    iblk1 V c 1 t (ix1 k) = V c main_arg6 (ix1 k) := by
  obtain ⟨-, -, e0, -⟩ := idx_facts1 t
  show V c main_arg6 (((cfg1.win 1).blk t).view.emb (ix1 k)) = _
  refine congrArg (V c main_arg6) (funext fun a => Fin.ext ?_)
  match a with
  | ⟨0, _⟩ => show win1_1.index t (0 : Fin 1) * 128 + 1 * k.val = k.val; rw [e0]; omega

/-- Window 2's block at point `t` holds rows `4000 t … 4000 t + 3999` of its array. -/
theorem read1_2 (t : Fin cfg1.N) (p : Fin 4000) (k : Fin 128) :
    iblk1 V c 2 t (ix2 p k) = V c main_v21_0 (ix2 (rowAt t p) k) := by
  obtain ⟨-, -, -, e0, e1, -⟩ := idx_facts1 t
  show V c main_v21_0 (((cfg1.win 2).blk t).view.emb (ix2 p k)) = _
  refine congrArg (V c main_v21_0) (funext fun a => Fin.ext ?_)
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

/-- Window 3's block at point `t` holds rows `4000 t … 4000 t + 3999` of its array. -/
theorem read1_3 (t : Fin cfg1.N) (p : Fin 4000) (k : Fin 128) :
    iblk1 V c 3 t (ix2 p k) = V c main_arg1 (ix2 (rowAt t p) k) := by
  obtain ⟨-, -, -, -, -, e0, e1, -⟩ := idx_facts1 t
  show V c main_arg1 (((cfg1.win 3).blk t).view.emb (ix2 p k)) = _
  refine congrArg (V c main_arg1) (funext fun a => Fin.ext ?_)
  match a with
  | ⟨0, _⟩ => show win1_3.index t (0 : Fin 2) * 4000 + 1 * p.val = t.val * 4000 + p.val; rw [e0]; omega
  | ⟨1, _⟩ => show win1_3.index t (1 : Fin 2) * 128 + 1 * k.val = k.val; rw [e1]; omega

/-- Window 4's block at every point is its whole [128,128] array. -/
theorem read1_4 (t : Fin cfg1.N) (k g : Fin 128) :
    iblk1 V c 4 t (ix2 k g) = V c main_v41 (ix2 k g) := by
  obtain ⟨-, -, -, -, -, -, -, e0, e1, -⟩ := idx_facts1 t
  show V c main_v41 (((cfg1.win 4).blk t).view.emb (ix2 k g)) = _
  refine congrArg (V c main_v41) (funext fun a => Fin.ext ?_)
  match a with
  | ⟨0, _⟩ => show win1_4.index t (0 : Fin 2) * 128 + 1 * k.val = k.val; rw [e0]; omega
  | ⟨1, _⟩ => show win1_4.index t (1 : Fin 2) * 128 + 1 * g.val = g.val; rw [e1]; omega

/-- Window 5's block at every point is its whole [128,128] array. -/
theorem read1_5 (t : Fin cfg1.N) (k g : Fin 128) :
    iblk1 V c 5 t (ix2 k g) = V c main_v42 (ix2 k g) := by
  obtain ⟨-, -, -, -, -, -, -, -, -, e0, e1, -⟩ := idx_facts1 t
  show V c main_v42 (((cfg1.win 5).blk t).view.emb (ix2 k g)) = _
  refine congrArg (V c main_v42) (funext fun a => Fin.ext ?_)
  match a with
  | ⟨0, _⟩ => show win1_5.index t (0 : Fin 2) * 128 + 1 * k.val = k.val; rw [e0]; omega
  | ⟨1, _⟩ => show win1_5.index t (1 : Fin 2) * 128 + 1 * g.val = g.val; rw [e1]; omega

/-- Window 6's block at every point is its whole [128,128] array. -/
theorem read1_6 (t : Fin cfg1.N) (k g : Fin 128) :
    iblk1 V c 6 t (ix2 k g) = V c main_v43 (ix2 k g) := by
  obtain ⟨-, -, -, -, -, -, -, -, -, -, -, e0, e1, -⟩ := idx_facts1 t
  show V c main_v43 (((cfg1.win 6).blk t).view.emb (ix2 k g)) = _
  refine congrArg (V c main_v43) (funext fun a => Fin.ext ?_)
  match a with
  | ⟨0, _⟩ => show win1_6.index t (0 : Fin 2) * 128 + 1 * k.val = k.val; rw [e0]; omega
  | ⟨1, _⟩ => show win1_6.index t (1 : Fin 2) * 128 + 1 * g.val = g.val; rw [e1]; omega

/-- Output window 7's block at point `t` lands on rows `4000 t … 4000 t + 3999` of its array. -/
theorem emb1_7 (t : Fin cfg1.N) (p : Fin 4000) (k : Fin 128) :
    ((cfg1.win 7).blk t).view.emb (ix2 p k) = ix2 (rowAt t p) k := by
  obtain ⟨-, -, -, -, -, -, -, -, -, -, -, -, -, e0, e1⟩ := idx_facts1 t
  refine funext fun a => Fin.ext ?_
  match a with
  | ⟨0, _⟩ => show win1_7.index t (0 : Fin 2) * 4000 + 1 * p.val = t.val * 4000 + p.val; rw [e0]; omega
  | ⟨1, _⟩ => show win1_7.index t (1 : Fin 2) * 128 + 1 * k.val = k.val; rw [e1]; omega

/-- An entry of the array is in point `t`'s block of output window 7 iff each coordinate is in the block's range. -/
theorem mem_blk1_7 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v44).slice (win1_7.rect t)).set ↔ _
  rw [View.set_slice_whole, Rect.mem_set_unit]
  exact Iff.rfl

/-- Output window 7's 25 blocks cover its array: row `r` is in block `r / 4000`. -/
theorem covers1_7 (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, e0, e1⟩ := idx_facts1 t
  refine ⟨t, flush1_7 t, ?_⟩
  rw [mem_blk1_7]
  intro a
  match a with
  | ⟨0, _⟩ => show win1_7.index t (0 : Fin 2) * 4000 ≤ (i 0).val ∧ (i 0).val < win1_7.index t (0 : Fin 2) * 4000 + 4000; rw [e0, ht]; omega
  | ⟨1, _⟩ => show win1_7.index t (1 : Fin 2) * 128 ≤ (i 1).val ∧ (i 1).val < win1_7.index t (1 : Fin 2) * 128 + 128; rw [e1]; omega

end Cert.KernelIdeal.Regions

end
-- ==== Proof.RegionsPay1.lean ====
/-
  Region 1's stored value at an entry of the block: three products against 128-row matrices, the third of the
  rectified first block shifted by a [128] vector.
-/
import proofs.«177732_j68255620268441_2_alg».proof.Proof.RegionsPayBase

set_option maxRecDepth 16384

noncomputable section

open scoped BigOperators

namespace Cert.KernelIdeal.Regions

open Cert.KernelIdeal Cert.KernelIdeal.Gen Idealize.ShloMosaic Idealize.ShloMosaic.ValueIdx

/-- The stored value at `(p, g)`. -/
theorem pay1_out (x0 : Vec Ideal S4000x128 .f32) (x1 : Vec Ideal S128 .f32) (x2 x3 : Vec Ideal S4000x128 .f32)
    (x4 x5 x6 : Vec Ideal S128x128 .f32) (p : Fin 4000) (g : Fin 128) :
    k1_pay1 x0 x1 x2 x3 x4 x5 x6 (ix2 p g)
      = (∑ k : Fin 128, x2 (ix2 p k) * x4 (ix2 k g) + ∑ k : Fin 128, x3 (ix2 p k) * x5 (ix2 k g))
        + ∑ k : Fin 128, max (x0 (ix2 p k) + x1 (ix1 k)) 0 * x6 (ix2 k g) := by
  unfold k1_pay1
  simp only [truncf_apply, addf_apply, blockMatmul_apply, maximumf_apply, rowOver_apply, shapeCast_self, broadcast_apply]
  rw [show (Scalar.ofBits (F := Ideal) .f32 0x00000000#32) = 0 from Ideal.ofBits_zero_f32]

end Cert.KernelIdeal.Regions

end
-- ==== Proof.Region1.lean ====
/-
  Region 1's output array as a whole-array function of the arrays the region is entered with: the three 128-row
  products of the second layer.
-/
import proofs.«177732_j68255620268441_2_alg».proof.Proof.RegionsBlocks1
import proofs.«177732_j68255620268441_2_alg».proof.Proof.RegionsPay1
import proofs.«177732_j68255620268441_2_alg».proof.Proof.RegionsDefs

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The array the output ends holding. -/
def G1 : S100000x128.Idx → EReal := fun i => mix3At (V c main_v40) (V c main_arg6) (V c main_v21_0) (V c main_arg1) (V c main_v41) (V c main_v42) (V c main_v43) (i 0) (i 1)

/-- The stored value at entry `(p, g)` of point `t`'s block, on the arrays. -/
theorem pay1_at (t : Fin cfg1.N) (p : Fin 4000) (g : Fin 128) :
    k1_pay1 (iblk1 V c 0 t) (iblk1 V c 1 t) (iblk1 V c 2 t) (iblk1 V c 3 t) (iblk1 V c 4 t) (iblk1 V c 5 t) (iblk1 V c 6 t) (ix2 p g) = mix3At (V c main_v40) (V c main_arg6) (V c main_v21_0) (V c main_arg1) (V c main_v41) (V c main_v42) (V c main_v43) (rowAt t p) g := by
  refine (pay1_out _ _ _ _ _ _ _ p g).trans ?_
  unfold mix3At
  simp only [read1_0, read1_1, read1_2, read1_3, read1_4, read1_5, read1_6]

/-- What point `t` writes back to output window 7 is block `t` of `G1`. -/
theorem flushed1_7_eq (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2]
  simp only [View.ld_unit_zero (S := S4000x128) hz2, View.ld_unit_zero (S := S128) hz1, View.ld_unit_zero (S := S128x128) hz2]
  funext j
  obtain ⟨p, k, rfl⟩ : ∃ (p : Fin 4000) (k : Fin 128), j = ix2 p k := ⟨j 0, j 1, @eq_ix2 4000 128 j⟩
  show k1_pay1 (iblk1 V c 0 t) (iblk1 V c 1 t) (iblk1 V c 2 t) (iblk1 V c 3 t) (iblk1 V c 4 t) (iblk1 V c 5 t) (iblk1 V c 6 t) (ix2 p k) = G1 V c (((cfg1.win 7).blk t).view.emb (ix2 p k))
  rw [emb1_7]
  exact pay1_at V c t p k

/-- So the array ends holding `G1`: the 25 blocks cover it. -/
theorem final1_7 : (dat1 V c).arrAt 7 cfg1.N = G1 V c :=
  (dat1 V c).arrAt_eq_of_cover 7 (G1 V c) (fun t _ => flushed1_7_eq V c t) covers1_7

/-- Region 1's output: the three 128-row products of the second layer. -/
theorem region1_out (r : Fin 100000) (g : Fin 128) :
    (dat1 V c).arrAt 7 cfg1.N (ix2 r g)
      = mix3At (V c main_v40) (V c main_arg6) (V c main_v21_0) (V c main_arg1) (V c main_v41) (V c main_v42) (V c main_v43) r g := by
  rw [final1_7]; rfl

end Cert.KernelIdeal.Regions

end
-- ==== Proof.RegionsBlocks2.lean ====
/-
  Region 2's windows read by coordinates: each input block at a grid point as entries of the array the region is
  entered with, and where each output block lands.
-/
import proofs.«177732_j68255620268441_2_alg».proof.Proof.RegionsGeom

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The printed index maps over the 25 grid points: a row-blocked window sits at block `t` of the rows and block 0 of the
    columns, every whole operand at block 0. -/
theorem idx_facts2 : ∀ t : Fin cfg2.N, win2_0.index t (0 : Fin 2) = t.val
    ∧ win2_0.index t (1 : Fin 2) = 0
    ∧ win2_1.index t (0 : Fin 1) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Window 0's block at point `t` holds rows `4000 t … 4000 t + 3999` of its array. -/
theorem read2_0 (t : Fin cfg2.N) (p : Fin 4000) (k : Fin 128) :
    iblk2 V c 0 t (ix2 p k) = V c main_v63 (ix2 (rowAt t p) k) := by
  obtain ⟨e0, e1, -⟩ := idx_facts2 t
  show V c main_v63 (((cfg2.win 0).blk t).view.emb (ix2 p k)) = _
  refine congrArg (V c main_v63) (funext fun a => Fin.ext ?_)
  match a with
  | ⟨0, _⟩ => show win2_0.index t (0 : Fin 2) * 4000 + 1 * p.val = t.val * 4000 + p.val; rw [e0]; omega
  | ⟨1, _⟩ => show win2_0.index t (1 : Fin 2) * 128 + 1 * k.val = k.val; rw [e1]; omega

/-- Window 1's block at every point is its whole [128] array. -/
theorem read2_1 (t : Fin cfg2.N) (k : Fin 128) :
    iblk2 V c 1 t (ix1 k) = V c main_arg8 (ix1 k) := by
  obtain ⟨-, -, e0, -⟩ := idx_facts2 t
  show V c main_arg8 (((cfg2.win 1).blk t).view.emb (ix1 k)) = _
  refine congrArg (V c main_arg8) (funext fun a => Fin.ext ?_)
  match a with
  | ⟨0, _⟩ => show win2_1.index t (0 : Fin 1) * 128 + 1 * k.val = k.val; rw [e0]; omega

/-- Window 2's block at point `t` holds rows `4000 t … 4000 t + 3999` of its array. -/
theorem read2_2 (t : Fin cfg2.N) (p : Fin 4000) (k : Fin 128) :
    iblk2 V c 2 t (ix2 p k) = V c main_v21_0 (ix2 (rowAt t p) k) := by
  obtain ⟨-, -, -, e0, e1, -⟩ := idx_facts2 t
  show V c main_v21_0 (((cfg2.win 2).blk t).view.emb (ix2 p k)) = _
  refine congrArg (V c main_v21_0) (funext fun a => Fin.ext ?_)
  match a with
  | ⟨0, _⟩ => show win2_2.index t (0 : Fin 2) * 4000 + 1 * p.val = t.val * 4000 + p.val; rw [e0]; omega
  | ⟨1, _⟩ => show win2_2.index t (1 : Fin 2) * 128 + 1 * k.val = k.val; rw [e1]; omega

/-- Window 3's block at every point is its whole [128,128] array. -/
theorem read2_3 (t : Fin cfg2.N) (k g : Fin 128) :
    iblk2 V c 3 t (ix2 k g) = V c main_v65 (ix2 k g) := by
  obtain ⟨-, -, -, -, -, e0, e1, -⟩ := idx_facts2 t
  show V c main_v65 (((cfg2.win 3).blk t).view.emb (ix2 k g)) = _
  refine congrArg (V c main_v65) (funext fun a => Fin.ext ?_)
  match a with
  | ⟨0, _⟩ => show win2_3.index t (0 : Fin 2) * 128 + 1 * k.val = k.val; rw [e0]; omega
  | ⟨1, _⟩ => show win2_3.index t (1 : Fin 2) * 128 + 1 * g.val = g.val; rw [e1]; omega

/-- Window 4's block at every point is its whole [128,128] array. -/
theorem read2_4 (t : Fin cfg2.N) (k g : Fin 128) :
    iblk2 V c 4 t (ix2 k g) = V c main_v66 (ix2 k g) := by
  obtain ⟨-, -, -, -, -, -, -, e0, e1, -⟩ := idx_facts2 t
  show V c main_v66 (((cfg2.win 4).blk t).view.emb (ix2 k g)) = _
  refine congrArg (V c main_v66) (funext fun a => Fin.ext ?_)
  match a with
  | ⟨0, _⟩ => show win2_4.index t (0 : Fin 2) * 128 + 1 * k.val = k.val; rw [e0]; omega
  | ⟨1, _⟩ => show win2_4.index t (1 : Fin 2) * 128 + 1 * g.val = g.val; rw [e1]; omega

/-- Output window 5's block at point `t` lands on rows `4000 t … 4000 t + 3999` of its array. -/
theorem emb2_5 (t : Fin cfg2.N) (p : Fin 4000) (k : Fin 128) :
    ((cfg2.win 5).blk t).view.emb (ix2 p k) = ix2 (rowAt t p) k := by
  obtain ⟨-, -, -, -, -, -, -, -, -, e0, e1⟩ := idx_facts2 t
  refine funext fun a => Fin.ext ?_
  match a with
  | ⟨0, _⟩ => show win2_5.index t (0 : Fin 2) * 4000 + 1 * p.val = t.val * 4000 + p.val; rw [e0]; omega
  | ⟨1, _⟩ => show win2_5.index t (1 : Fin 2) * 128 + 1 * k.val = k.val; rw [e1]; omega

/-- An entry of the array is in point `t`'s block of output window 5 iff each coordinate is in the block's range. -/
theorem mem_blk2_5 (t : Fin cfg2.N) (i : S100000x128.Idx) :
    i ∈ ((cfg2.win 5).blk t).view.set ↔ ∀ a : Fin 2, win2_5.index t a * S4000x128.size a ≤ (i a).val ∧ (i a).val < win2_5.index t a * S4000x128.size a + S4000x128.size a := by
  show i ∈ ((View.whole main_v67).slice (win2_5.rect t)).set ↔ _
  rw [View.set_slice_whole, Rect.mem_set_unit]
  exact Iff.rfl

/-- Output window 5's 25 blocks cover its array: row `r` is in block `r / 4000`. -/
theorem covers2_5 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, -, -, -, e0, e1⟩ := idx_facts2 t
  refine ⟨t, flush2_5 t, ?_⟩
  rw [mem_blk2_5]
  intro a
  match a with
  | ⟨0, _⟩ => show win2_5.index t (0 : Fin 2) * 4000 ≤ (i 0).val ∧ (i 0).val < win2_5.index t (0 : Fin 2) * 4000 + 4000; rw [e0, ht]; omega
  | ⟨1, _⟩ => show win2_5.index t (1 : Fin 2) * 128 ≤ (i 1).val ∧ (i 1).val < win2_5.index t (1 : Fin 2) * 128 + 128; rw [e1]; omega

end Cert.KernelIdeal.Regions

end
-- ==== Proof.RegionsPay2.lean ====
/-
  Region 2's stored value at an entry of the block: two products against 128-row matrices, the second of the
  rectified first block shifted by a [128] vector.
-/
import proofs.«177732_j68255620268441_2_alg».proof.Proof.RegionsPayBase

set_option maxRecDepth 16384

noncomputable section

open scoped BigOperators

namespace Cert.KernelIdeal.Regions

open Cert.KernelIdeal Cert.KernelIdeal.Gen Idealize.ShloMosaic Idealize.ShloMosaic.ValueIdx

/-- The stored value at `(p, g)`. -/
theorem pay2_out (x0 : Vec Ideal S4000x128 .f32) (x1 : Vec Ideal S128 .f32) (x2 : Vec Ideal S4000x128 .f32)
    (x3 x4 : Vec Ideal S128x128 .f32) (p : Fin 4000) (g : Fin 128) :
    k2_pay1 x0 x1 x2 x3 x4 (ix2 p g)
      = ∑ k : Fin 128, x2 (ix2 p k) * x3 (ix2 k g)
        + ∑ k : Fin 128, max (x0 (ix2 p k) + x1 (ix1 k)) 0 * x4 (ix2 k g) := by
  unfold k2_pay1
  simp only [truncf_apply, addf_apply, blockMatmul_apply, maximumf_apply, rowOver_apply, shapeCast_self, broadcast_apply]
  rw [show (Scalar.ofBits (F := Ideal) .f32 0x00000000#32) = 0 from Ideal.ofBits_zero_f32]

end Cert.KernelIdeal.Regions

end
-- ==== Proof.Region2.lean ====
/-
  Region 2's output array as a whole-array function of the arrays the region is entered with: the two 128-row
  products of an output head.
-/
import proofs.«177732_j68255620268441_2_alg».proof.Proof.RegionsBlocks2
import proofs.«177732_j68255620268441_2_alg».proof.Proof.RegionsPay2
import proofs.«177732_j68255620268441_2_alg».proof.Proof.RegionsDefs

set_option maxRecDepth 16384

noncomputable section

open scoped BigOperators

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b)) (c : Dev nD)

/-- The array the output ends holding. -/
def G2 : S100000x128.Idx → EReal := fun i => mix2At (V c main_v63) (V c main_arg8) (V c main_v21_0) (V c main_v65) (V c main_v66) (i 0) (i 1)

/-- The stored value at entry `(p, g)` of point `t`'s block, on the arrays. -/
theorem pay2_at (t : Fin cfg2.N) (p : Fin 4000) (g : Fin 128) :
    k2_pay1 (iblk2 V c 0 t) (iblk2 V c 1 t) (iblk2 V c 2 t) (iblk2 V c 3 t) (iblk2 V c 4 t) (ix2 p g) = mix2At (V c main_v63) (V c main_arg8) (V c main_v21_0) (V c main_v65) (V c main_v66) (rowAt t p) g := by
  refine (pay2_out _ _ _ _ _ p g).trans ?_
  unfold mix2At
  simp only [read2_0, read2_1, read2_2, read2_3, read2_4]

/-- What point `t` writes back to output window 5 is block `t` of `G2`. -/
theorem flushed2_5_eq (t : Fin cfg2.N) :
    (dat2 V c).flushed 5 t = ((cfg2.win 5).blk t).view.read (Elt Ideal) (G2 V c) := by
  show (cfg2.win 5).cut (grid2.coords t) ((dat2 V c).after 5 t) = _
  rw [after2_5]
  unfold out2_5
  rw [View.canon_unit_zero hz2]
  simp only [View.ld_unit_zero (S := S4000x128) hz2, View.ld_unit_zero (S := S128) hz1, View.ld_unit_zero (S := S128x128) hz2]
  funext j
  obtain ⟨p, k, rfl⟩ : ∃ (p : Fin 4000) (k : Fin 128), j = ix2 p k := ⟨j 0, j 1, @eq_ix2 4000 128 j⟩
  show k2_pay1 (iblk2 V c 0 t) (iblk2 V c 1 t) (iblk2 V c 2 t) (iblk2 V c 3 t) (iblk2 V c 4 t) (ix2 p k) = G2 V c (((cfg2.win 5).blk t).view.emb (ix2 p k))
  rw [emb2_5]
  exact pay2_at V c t p k

/-- So the array ends holding `G2`: the 25 blocks cover it. -/
theorem final2_5 : (dat2 V c).arrAt 5 cfg2.N = G2 V c :=
  (dat2 V c).arrAt_eq_of_cover 5 (G2 V c) (fun t _ => flushed2_5_eq V c t) covers2_5

/-- Region 2's output: the two 128-row products of an output head. -/
theorem region2_out (r : Fin 100000) (g : Fin 128) :
    (dat2 V c).arrAt 5 cfg2.N (ix2 r g)
      = mix2At (V c main_v63) (V c main_arg8) (V c main_v21_0) (V c main_v65) (V c main_v66) r g := by
  rw [final2_5]; rfl

end Cert.KernelIdeal.Regions

end
-- ==== Proof.Regions.lean ====
/-
  The three regions' output arrays as whole-array functions of the arrays each region is entered with: every entry of
  an output is the body's arithmetic on the entries of the inputs in the same row (`region0_xb`, `region0_hpre`,
  `region1_out`, `region2_out`, one module per region).
-/
import proofs.«177732_j68255620268441_2_alg».proof.Proof.Region0
import proofs.«177732_j68255620268441_2_alg».proof.Proof.Region1
import proofs.«177732_j68255620268441_2_alg».proof.Proof.Region2
-- ==== Proof.HostLayout.lean ====
/-
  Small reads of the host's layout operations at an entry, over plain arrays: an index column, the normalization of a
  possibly negative index word, bands of rows and of columns of a matrix, and two matrices laid side by side.
-/
import Idealize.ShloMosaic.Lib.Pipeline.Value
import Idealize.ShloMosaic.Lib.ValueIdx
import Idealize.ShloMosaic.PureOps.Ideal.Laws
import proofs.«177732_j68255620268441_2_alg».proof.Proof.LibHostRows
import proofs.«177732_j68255620268441_2_alg».proof.Proof.LibGatherFlatRows
import proofs.«177732_j68255620268441_2_alg».proof.Proof.Spec
import proofs.«177732_j68255620268441_2_alg».proof.Proof.Aggregate

noncomputable section

namespace Cert.Gcn.Stage

open Idealize.ShloMosaic Idealize.ShloMosaic.ValueIdx

variable {α : Type}

/-! ## Index columns -/

/-- An `[E]` vector laid as the column `[E, 1]` reads, at `(e, u)`, the vector at `e`. -/
theorem column_apply {E : ℕ} (hb : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] hb x (ix2 e u) = x (ix1 e) :=
  Cert.LibHostRows.bcast_a_a1_at _ rfl hb x e u

/-- The normalization of an index vector (a negative word has the table's height added), at `e`, word by word. -/
theorem normalized_apply {E : ℕ} (hz : (⟨0, ![]⟩ : Shape).BroadcastsInDim ⟨1, ![E]⟩ ![]) (x : IVec ⟨1, ![E]⟩ 32) (e : Fin E) :
    select (cmpi .slt x (broadcastInDim ⟨1, ![E]⟩ ![] hz (constantI ⟨0, ![]⟩ 32 0#32)))
        (addi x (broadcastInDim ⟨1, ![E]⟩ ![] hz (constantI ⟨0, ![]⟩ 32 100000#32))) x (ix1 e)
      = Scalar.select (IntOp.cmpi .slt (x (ix1 e)) 0#32) (IntOp.addi (x (ix1 e)) 100000#32) (x (ix1 e)) := rfl

/-- A word that names the node `n` when read signed is not negative, so its normalization is the word itself, and the
    row it names is `n`. -/
theorem normalized_of_lands (b : BitVec 32) (n : Fin 100000) (hb : b.toInt = (n.val : Int)) :
    Cert.LibGatherFlatRows.rowOf 100000 (by decide)
      (Scalar.select (IntOp.cmpi .slt b 0#32) (IntOp.addi b 100000#32) b) = n := by
  have h : b.slt 0#32 = false := by
    rw [Bool.eq_false_iff, ne_eq, BitVec.slt_iff_toInt_lt, hb]
    simp
  have hc : IntOp.cmpi .slt b 0#32 = 0#1 := by
    show BitVec.ofBool (b.slt 0#32) = 0#1
    rw [h]
    rfl
  rw [hc, select_zero]
  refine Fin.ext ?_
  show min b.toInt.toNat (100000 - 1) = n.val
  rw [hb, Int.toNat_natCast]
  have := n.isLt
  omega

/-- The same for the graph read off a destination column: where update `e` lands on `n`, the normalized destination
    column (given word by word) names row `n`. -/
theorem drow_of_lands (srcNcol dstcol dstNcol : IVec ⟨2, ![900000, 1]⟩ 32) (dinv : FVec Ideal ⟨1, ![100000]⟩ .f32)
    (hN : ∀ e : Fin 900000, dstNcol (ix2 e (0 : Fin 1))
      = Scalar.select (IntOp.cmpi .slt (dstcol (ix2 e (0 : Fin 1))) 0#32) (IntOp.addi (dstcol (ix2 e (0 : Fin 1))) 100000#32)
          (dstcol (ix2 e (0 : Fin 1))))
    (e : Fin 900000) (n : Fin 100000) (hl : (graphOf srcNcol dstcol dinv).land e n) :
    Cert.LibGatherFlatRows.rowOf 100000 (by decide) (dstNcol (ix2 e (0 : Fin 1))) = n := by
  rw [hN e]
  exact normalized_of_lands _ n hl

/-! ## Bands of a matrix -/

/-- The band of `k` rows starting at row `o` of an `[m, c]` matrix reads, at `(r, j)`, the matrix at `(o + r, j)`. -/
theorem slice_rows_apply {m k c : ℕ} (o : ℕ) (ho : o + k ≤ m)
    (hs : (⟨2, ![m, c]⟩ : Shape).Slices ![o, 0] ⟨2, ![k, c]⟩) (x : (⟨2, ![m, c]⟩ : Shape).Idx → α)
    (r : Fin k) (j : Fin c) :
    extractStridedSlice ⟨2, ![k, c]⟩ ![o, 0] x hs (ix2 r j) = x (ix2 (⟨o + r.val, by omega⟩ : Fin m) j) := by
  refine extractStridedSlice_apply ![o, 0] x hs (ix2 r j) _ fun ax => ?_
  match ax with
  | ⟨0, _⟩ => rfl
  | ⟨1, _⟩ => exact (Nat.zero_add _).symm

/-- A 128-row band of a 384-row matrix, by the band's row map. -/
theorem slice_rows384_apply {c : ℕ} (o : ℕ) (ho : o + 128 ≤ 384)
    (hs : (⟨2, ![384, c]⟩ : Shape).Slices ![o, 0] ⟨2, ![128, c]⟩) (x : (⟨2, ![384, c]⟩ : Shape).Idx → α)
    (r : Fin 128) (j : Fin c) :
    extractStridedSlice ⟨2, ![128, c]⟩ ![o, 0] x hs (ix2 r j) = x (ix2 (Cert.Gcn.at384 o ho r) j) :=
  slice_rows_apply o ho hs x r j

/-- A 128-row band of a 256-row matrix, by the band's row map. -/
theorem slice_rows256_apply {c : ℕ} (o : ℕ) (ho : o + 128 ≤ 256)
    (hs : (⟨2, ![256, c]⟩ : Shape).Slices ![o, 0] ⟨2, ![128, c]⟩) (x : (⟨2, ![256, c]⟩ : Shape).Idx → α)
    (r : Fin 128) (j : Fin c) :
    extractStridedSlice ⟨2, ![128, c]⟩ ![o, 0] x hs (ix2 r j) = x (ix2 (Cert.Gcn.at256 o ho r) j) :=
  slice_rows_apply o ho hs x r j

/-- The band of `k` columns starting at column `o` of an `[a, m]` matrix reads, at `(r, j)`, the matrix at `(r, o + j)`. -/
theorem slice_cols_apply {a m k : ℕ} (o : ℕ) (ho : o + k ≤ m)
    (hs : (⟨2, ![a, m]⟩ : Shape).Slices ![0, o] ⟨2, ![a, k]⟩) (x : (⟨2, ![a, m]⟩ : Shape).Idx → α)
    (r : Fin a) (j : Fin k) :
    extractStridedSlice ⟨2, ![a, k]⟩ ![0, o] x hs (ix2 r j) = x (ix2 r (⟨o + j.val, by omega⟩ : Fin m)) := by
  refine extractStridedSlice_apply ![0, o] x hs (ix2 r j) _ fun ax => ?_
  match ax with
  | ⟨0, _⟩ => exact (Nat.zero_add _).symm
  | ⟨1, _⟩ => rfl

/-- The first `k` columns of an `[a, m]` matrix read, at `(r, j)`, the matrix at `(r, j)`. -/
theorem slice_cols_lo_apply {a m k : ℕ} (hk : k ≤ m)
    (hs : (⟨2, ![a, m]⟩ : Shape).Slices ![0, 0] ⟨2, ![a, k]⟩) (x : (⟨2, ![a, m]⟩ : Shape).Idx → α)
    (r : Fin a) (j : Fin k) :
    extractStridedSlice ⟨2, ![a, k]⟩ ![0, 0] x hs (ix2 r j) = x (ix2 r (⟨j.val, by omega⟩ : Fin m)) := by
  refine extractStridedSlice_apply ![0, 0] x hs (ix2 r j) _ fun ax => ?_
  match ax with
  | ⟨0, _⟩ => exact (Nat.zero_add _).symm
  | ⟨1, _⟩ => exact (Nat.zero_add _).symm

/-! ## Two matrices side by side -/

/-- Two `[a, b]` matrices laid side by side into `[a, c]` read, at a column below `b`, the first at that column … -/
theorem concat_cols_left {a b c : ℕ} (x₁ x₂ : (⟨2, ![a, b]⟩ : Shape).Idx → α)
    (h : Shape.Concatenates [(⟨2, ![a, b]⟩ : Shape), ⟨2, ![a, b]⟩] ⟨2, ![a, c]⟩ 1) (r : Fin a) (j : Fin c) (hj : j.val < b) :
    concatenate ⟨2, ![a, c]⟩ 1 [⟨⟨2, ![a, b]⟩, x₁⟩, ⟨⟨2, ![a, b]⟩, x₂⟩] h (ix2 r j) = x₁ (ix2 r (⟨j.val, hj⟩ : Fin b)) := by
  refine concatenate_pair_apply_left 1 x₁ x₂ h (ix2 r j) rfl (ix2 r (⟨j.val, hj⟩ : Fin b)) fun ax => ?_
  match ax with
  | ⟨0, _⟩ => rfl
  | ⟨1, _⟩ => rfl

/-- … and, at a column from `b` on, the second at that column less `b`. -/
theorem concat_cols_right {a b c : ℕ} (x₁ x₂ : (⟨2, ![a, b]⟩ : Shape).Idx → α)
    (h : Shape.Concatenates [(⟨2, ![a, b]⟩ : Shape), ⟨2, ![a, b]⟩] ⟨2, ![a, c]⟩ 1) (r : Fin a) (j : Fin c) (hj : b ≤ j.val)
    (hj' : j.val - b < b) :
    concatenate ⟨2, ![a, c]⟩ 1 [⟨⟨2, ![a, b]⟩, x₁⟩, ⟨⟨2, ![a, b]⟩, x₂⟩] h (ix2 r j) = x₂ (ix2 r (⟨j.val - b, hj'⟩ : Fin b)) := by
  refine concatenate_pair_apply_right 1 x₁ x₂ h (ix2 r j) rfl rfl (ix2 r (⟨j.val - b, hj'⟩ : Fin b)) (fun ax hax => ?_) ?_
  · match ax with
    | ⟨0, _⟩ => rfl
    | ⟨1, _⟩ => exact absurd rfl hax
  · show (j.val - b) + b = j.val
    omega

/-- By cases on the column: below `b` the first matrix, from `b` on the second. -/
theorem concat_cols_apply {a b c : ℕ} (x₁ x₂ : (⟨2, ![a, b]⟩ : Shape).Idx → α)
    (h : Shape.Concatenates [(⟨2, ![a, b]⟩ : Shape), ⟨2, ![a, b]⟩] ⟨2, ![a, c]⟩ 1) (hc : c = b + b) (r : Fin a) (j : Fin c) :
    concatenate ⟨2, ![a, c]⟩ 1 [⟨⟨2, ![a, b]⟩, x₁⟩, ⟨⟨2, ![a, b]⟩, x₂⟩] h (ix2 r j)
      = if hj : j.val < b then x₁ (ix2 r (⟨j.val, hj⟩ : Fin b))
        else x₂ (ix2 r (⟨j.val - b, by have := j.isLt; omega⟩ : Fin b)) := by
  by_cases hj : j.val < b
  · rw [dif_pos hj]
    exact concat_cols_left x₁ x₂ h r j hj
  · rw [dif_neg hj]
    exact concat_cols_right x₁ x₂ h r j (by omega) _

/-- Column `j` of the first matrix sits at column `j` of the pair … -/
theorem concat_cols_at_lo {a b c : ℕ} (x₁ x₂ : (⟨2, ![a, b]⟩ : Shape).Idx → α)
    (h : Shape.Concatenates [(⟨2, ![a, b]⟩ : Shape), ⟨2, ![a, b]⟩] ⟨2, ![a, c]⟩ 1) (r : Fin a) (j : Fin b)
    (hjc : j.val < c) :
    concatenate ⟨2, ![a, c]⟩ 1 [⟨⟨2, ![a, b]⟩, x₁⟩, ⟨⟨2, ![a, b]⟩, x₂⟩] h (ix2 r (⟨j.val, hjc⟩ : Fin c)) = x₁ (ix2 r j) :=
  concat_cols_left x₁ x₂ h r ⟨j.val, hjc⟩ j.isLt

/-- … and column `j` of the second at column `b + j`. -/
theorem concat_cols_at_hi {a b c : ℕ} (x₁ x₂ : (⟨2, ![a, b]⟩ : Shape).Idx → α)
    (h : Shape.Concatenates [(⟨2, ![a, b]⟩ : Shape), ⟨2, ![a, b]⟩] ⟨2, ![a, c]⟩ 1) (r : Fin a) (j : Fin b)
    (hjc : b + j.val < c) :
    concatenate ⟨2, ![a, c]⟩ 1 [⟨⟨2, ![a, b]⟩, x₁⟩, ⟨⟨2, ![a, b]⟩, x₂⟩] h (ix2 r (⟨b + j.val, hjc⟩ : Fin c)) = x₂ (ix2 r j) := by
  have hj' : (b + j.val) - b < b := by have := j.isLt; omega
  refine (concat_cols_right x₁ x₂ h r ⟨b + j.val, hjc⟩ (Nat.le_add_right _ _) hj').trans ?_
  exact congrArg x₂ (congrArg (ix2 r) (Fin.ext (Nat.add_sub_cancel_left (n := b) (m := j.val))))

end Cert.Gcn.Stage

end
-- ==== Proof.KValue.lean ====
/-
  The idealized kernel program's two results, read at the end of its run, are the two heads of the network: the graph
  is read off the normalized source column, the raw destination column and the degree factor the program builds; the
  parameters are the argument arrays and the column statistics of the input. The stage-by-stage mathematics is a
  statement about arrays; here every array of that statement is a buffer at the end of the run and every hypothesis
  is an equation of the run's single-assignment form or a region's output as a function of its input arrays.
-/
import proofs.«177732_j68255620268441_2_alg».proof.Proof.KEq0
import proofs.«177732_j68255620268441_2_alg».proof.Proof.KEq0c
import proofs.«177732_j68255620268441_2_alg».proof.Proof.KEq1
import proofs.«177732_j68255620268441_2_alg».proof.Proof.KEq2
import proofs.«177732_j68255620268441_2_alg».proof.Proof.KEq3
import proofs.«177732_j68255620268441_2_alg».proof.Proof.KEqRegions
import proofs.«177732_j68255620268441_2_alg».proof.Proof.KValueDefs
import proofs.«177732_j68255620268441_2_alg».proof.Proof.Regions
import proofs.«177732_j68255620268441_2_alg».proof.Proof.HostLayout

set_option maxRecDepth 16384

open scoped BigOperators

noncomputable section

namespace Cert.KernelIdeal.KValue

open Cert.KernelIdeal Cert.KernelIdeal.Gen Cert.KernelIdeal.KEq Cert.KernelIdeal.Regions
open Idealize.ShloMosaic Idealize.ShloMosaic.TcCoe Idealize.ShloMosaic.ValueIdx
open Cert.Gcn Cert.Gcn.Stage Cert.Gcn.KWalk Cert.Gcn.RefWalk

variable (m : (ℓ : Loc nD τ sig) → Buf (Elt Ideal) ℓ) (ρ : Dev nD → PrngReg) (c : Dev nD)

/-! ## The copies of the index columns hold one value -/

/-- The raw destination column is built three times from one vector. -/
theorem v60_eq : (W10 m ρ c (Proc.devRef .tc main_v60)) = (W10 m ρ c (Proc.devRef .tc main_v37)) := (X_main_v60 m ρ c).trans (X_main_v37 m ρ c).symm
theorem v83_eq : (W10 m ρ c (Proc.devRef .tc main_v83)) = (W10 m ρ c (Proc.devRef .tc main_v37)) := (X_main_v83 m ρ c).trans (X_main_v37 m ρ c).symm
/-- The normalized source column is built three times from one vector by the same operations on equal constants. -/
theorem v55_eq : (W10 m ρ c (Proc.devRef .tc main_v55)) = (W10 m ρ c (Proc.devRef .tc main_v32)) := by
  rw [X_main_v55 m ρ c, X_main_v54 m ρ c, X_main_v51 m ρ c, X_main_v50 m ρ c, X_main_c_9 m ρ c, X_main_v53 m ρ c, X_main_v52 m ρ c, X_main_c_10 m ρ c,
    X_main_v32 m ρ c, X_main_v31 m ρ c, X_main_v28 m ρ c, X_main_v27 m ρ c, X_main_c_6 m ρ c, X_main_v30 m ρ c, X_main_v29 m ρ c, X_main_c_7 m ρ c]
theorem v78_eq : (W10 m ρ c (Proc.devRef .tc main_v78)) = (W10 m ρ c (Proc.devRef .tc main_v32)) := by
  rw [X_main_v78 m ρ c, X_main_v77 m ρ c, X_main_v74 m ρ c, X_main_v73 m ρ c, X_main_c_12 m ρ c, X_main_v76 m ρ c, X_main_v75 m ρ c, X_main_c_13 m ρ c,
    X_main_v32 m ρ c, X_main_v31 m ρ c, X_main_v28 m ρ c, X_main_v27 m ρ c, X_main_c_6 m ρ c, X_main_v30 m ρ c, X_main_v29 m ρ c, X_main_c_7 m ρ c]

/-! ## The degree factor is a nonnegative real at every node -/

/-- The degree factor's spelling at a node, over any arrays: where the comparison's and the fallback's constants are
    zero, the selected value is a nonnegative real. -/
theorem dinv_form (d10 d11 d13 dz : FVec Ideal S100000 .f32) (n : Fin 100000)
    (h11 : d11 (ix1 n) = (0 : EReal)) (hz : dz (ix1 n) = (0 : EReal)) :
    ∃ r : ℝ, 0 ≤ r ∧ (select (cmpf (F := Ideal) (s := S100000) (φ := .f32) .ogt d10 d11)
        (Host.rsqrt (F := Ideal) (s := S100000) (φ := .f32) (maximumf (F := Ideal) (s := S100000) (φ := .f32) d10 d13))
        dz : FVec Ideal S100000 .f32) (ix1 n) = (r : EReal) :=
  Cert.Gcn.dinv_nonneg_real (d10 (ix1 n)) (d13 (ix1 n)) (d11 (ix1 n)) (dz (ix1 n)) h11 hz

theorem dinv_real (n : Fin 100000) :
    ∃ r : ℝ, 0 ≤ r ∧ (W10 m ρ c (Proc.devRef .tc main_v16) : FVec Ideal S100000 .f32) (ix1 n) = (r : EReal) := by
  have f11 : (W10 m ρ c (Proc.devRef .tc main_v11) : FVec Ideal S100000 .f32)
      = broadcastInDim S100000 ![] bcast_S_S100000 (constant (F := Ideal) S_ .f32 0x00000000#32) := by
    rw [X_main_v11 m ρ c, X_main_cst_1 m ρ c]
  have fz : (W10 m ρ c (Proc.devRef .tc main_call0_v1) : FVec Ideal S100000 .f32)
      = broadcastInDim S100000 ![] bcast_S_S100000 (constant (F := Ideal) S_ .f32 0x00000000#32) := by
    rw [X_main_call0_v1 m ρ c, X_main_call0_v0 m ρ c, X_main_cst_3 m ρ c]
    rfl
  have h11 : (W10 m ρ c (Proc.devRef .tc main_v11) : FVec Ideal S100000 .f32) (ix1 n) = (0 : EReal) := by
    rw [f11]; exact (Cert.Gcn.Piece.const_bcast_at _ _ _ _).trans Ideal.ofBits_zero_f32
  have hz : (W10 m ρ c (Proc.devRef .tc main_call0_v1) : FVec Ideal S100000 .f32) (ix1 n) = (0 : EReal) := by
    rw [fz]; exact (Cert.Gcn.Piece.const_bcast_at _ _ _ _).trans Ideal.ofBits_zero_f32
  have f16 : (W10 m ρ c (Proc.devRef .tc main_v16) : FVec Ideal S100000 .f32)
      = (select (cmpf (F := Ideal) (s := S100000) (φ := .f32) .ogt (W10 m ρ c (Proc.devRef .tc main_v10) : FVec Ideal S100000 .f32) (W10 m ρ c (Proc.devRef .tc main_v11) : FVec Ideal S100000 .f32))
          (Host.rsqrt (F := Ideal) (s := S100000) (φ := .f32) (maximumf (F := Ideal) (s := S100000) (φ := .f32) (W10 m ρ c (Proc.devRef .tc main_v10) : FVec Ideal S100000 .f32) (W10 m ρ c (Proc.devRef .tc main_v13) : FVec Ideal S100000 .f32)))
          (W10 m ρ c (Proc.devRef .tc main_call0_v1) : FVec Ideal S100000 .f32) : FVec Ideal S100000 .f32) := by
    rw [X_main_v16 m ρ c, X_main_v12 m ρ c, X_main_v15 m ρ c, X_main_v14 m ρ c]
  rw [f16]
  exact dinv_form _ _ _ _ n h11 hz

/-! ## The regions' outputs as functions of the buffers at the end of the run -/

theorem e21_0 (r : Fin 100000) (k : Fin 128) :
    (W10 m ρ c (Proc.devRef .tc main_v21_0)) (ix2 r k) = bnAt (W10 m ρ c (Proc.devRef .tc main_arg0)) (W10 m ρ c (Proc.devRef .tc main_v19)) (W10 m ρ c (Proc.devRef .tc main_v20)) (W10 m ρ c (Proc.devRef .tc main_arg3)) (W10 m ρ c (Proc.devRef .tc main_arg4)) r k := by
  rw [X_main_v21_0 m ρ c, region0_xb (V4 m ρ) c r k, V4_main_arg0 m ρ c, V4_main_v19 m ρ c, V4_main_v20 m ρ c,
    V4_main_arg3 m ρ c, V4_main_arg4 m ρ c]
theorem e21_1 (r : Fin 100000) (g : Fin 128) :
    (W10 m ρ c (Proc.devRef .tc main_v21_1)) (ix2 r g)
      = bnMulAt (W10 m ρ c (Proc.devRef .tc main_arg0)) (W10 m ρ c (Proc.devRef .tc main_v19)) (W10 m ρ c (Proc.devRef .tc main_v20)) (W10 m ρ c (Proc.devRef .tc main_arg3)) (W10 m ρ c (Proc.devRef .tc main_arg4)) (W10 m ρ c (Proc.devRef .tc main_arg5)) r g := by
  rw [X_main_v21_1 m ρ c, region0_hpre (V4 m ρ) c r g, V4_main_arg0 m ρ c, V4_main_v19 m ρ c, V4_main_v20 m ρ c,
    V4_main_arg3 m ρ c, V4_main_arg4 m ρ c, V4_main_arg5 m ρ c]
theorem e44 (r : Fin 100000) (g : Fin 128) :
    (W10 m ρ c (Proc.devRef .tc main_v44)) (ix2 r g)
      = mix3At (W10 m ρ c (Proc.devRef .tc main_v40)) (W10 m ρ c (Proc.devRef .tc main_arg6)) (W10 m ρ c (Proc.devRef .tc main_v21_0)) (W10 m ρ c (Proc.devRef .tc main_arg1)) (W10 m ρ c (Proc.devRef .tc main_v41)) (W10 m ρ c (Proc.devRef .tc main_v42)) (W10 m ρ c (Proc.devRef .tc main_v43)) r g := by
  rw [X_main_v44 m ρ c, region1_out (V6 m ρ) c r g, V6_main_v40 m ρ c, V6_main_arg6 m ρ c, V6_main_v21_0 m ρ c,
    V6_main_arg1 m ρ c, V6_main_v41 m ρ c, V6_main_v42 m ρ c, V6_main_v43 m ρ c]
theorem e67 (r : Fin 100000) (g : Fin 128) :
    (W10 m ρ c (Proc.devRef .tc main_v67)) (ix2 r g)
      = mix2At (W10 m ρ c (Proc.devRef .tc main_v63)) (W10 m ρ c (Proc.devRef .tc main_arg8)) (W10 m ρ c (Proc.devRef .tc main_v21_0)) (W10 m ρ c (Proc.devRef .tc main_v65)) (W10 m ρ c (Proc.devRef .tc main_v66)) r g := by
  rw [X_main_v67 m ρ c, region2_out (V8 m ρ) c r g, V8_main_v63 m ρ c, V8_main_arg8 m ρ c, V8_main_v21_0 m ρ c,
    V8_main_v65 m ρ c, V8_main_v66 m ρ c]

/-! ## The three aggregation stretches, composed -/

theorem e40 : (W10 m ρ c (Proc.devRef .tc main_v40) : FVec Ideal S100000x128 .f32) = mulf (broadcastInDim S100000x128 ![0, 1] bcast_S100000x1_S100000x128_0_1 (broadcastInDim S100000x1 ![0] bcast_S100000_S100000x1_0 (W10 m ρ c (Proc.devRef .tc main_v16))))
        (Host.scatterAdd scatter_S100000x128_S900000x1_S900000x128_1_0_0_1 (broadcastInDim S100000x128 ![] bcast_S_S100000x128 (constant (F := Ideal) S_ .f32 0x00000000#32)) (W10 m ρ c (Proc.devRef .tc main_v37))
          (extf .f32 (Host.gather gather_S100000x128_S900000x1_S900000x128_1_0_n_n_0_1_1128
            (truncf .bf16 (mulf (extf .f32 (W10 m ρ c (Proc.devRef .tc main_v21_1)) bitsLt_bf16_f32)
              (broadcastInDim S100000x128 ![0, 1] bcast_S100000x1_S100000x128_0_1 (broadcastInDim S100000x1 ![0] bcast_S100000_S100000x1_0 (W10 m ρ c (Proc.devRef .tc main_v16))))) bitsLt_bf16_f32)
            (W10 m ρ c (Proc.devRef .tc main_v32))) bitsLt_bf16_f32)) := by
  rw [X_main_v40 m ρ c, X_main_v39 m ρ c, X_main_v35 m ρ c, X_main_v38 m ρ c, X_main_v36 m ρ c, X_main_cst_8 m ρ c, X_main_v34 m ρ c, X_main_v33 m ρ c, X_main_v26 m ρ c, X_main_v25 m ρ c, X_main_v22 m ρ c, X_main_v24 m ρ c, X_main_v23 m ρ c]
theorem e63 : (W10 m ρ c (Proc.devRef .tc main_v63) : FVec Ideal S100000x128 .f32) = mulf (broadcastInDim S100000x128 ![0, 1] bcast_S100000x1_S100000x128_0_1 (broadcastInDim S100000x1 ![0] bcast_S100000_S100000x1_0 (W10 m ρ c (Proc.devRef .tc main_v16))))
        (Host.scatterAdd scatter_S100000x128_S900000x1_S900000x128_1_0_0_1 (broadcastInDim S100000x128 ![] bcast_S_S100000x128 (constant (F := Ideal) S_ .f32 0x00000000#32)) (W10 m ρ c (Proc.devRef .tc main_v37))
          (extf .f32 (Host.gather gather_S100000x128_S900000x1_S900000x128_1_0_n_n_0_1_1128
            (truncf .bf16 (mulf (extf .f32 (W10 m ρ c (Proc.devRef .tc main_v44)) bitsLt_bf16_f32)
              (broadcastInDim S100000x128 ![0, 1] bcast_S100000x1_S100000x128_0_1 (broadcastInDim S100000x1 ![0] bcast_S100000_S100000x1_0 (W10 m ρ c (Proc.devRef .tc main_v16))))) bitsLt_bf16_f32)
            (W10 m ρ c (Proc.devRef .tc main_v32))) bitsLt_bf16_f32)) := by
  rw [X_main_v63 m ρ c, X_main_v62 m ρ c, X_main_v58 m ρ c, X_main_v61 m ρ c, X_main_v59 m ρ c, X_main_cst_11 m ρ c, v60_eq m ρ c,
    X_main_v57 m ρ c, X_main_v56 m ρ c, X_main_v49 m ρ c, X_main_v48 m ρ c, X_main_v45 m ρ c, X_main_v47 m ρ c, X_main_v46 m ρ c, v55_eq m ρ c]
theorem e86 : (W10 m ρ c (Proc.devRef .tc main_v86) : FVec Ideal S100000x128 .f32) = mulf (broadcastInDim S100000x128 ![0, 1] bcast_S100000x1_S100000x128_0_1 (broadcastInDim S100000x1 ![0] bcast_S100000_S100000x1_0 (W10 m ρ c (Proc.devRef .tc main_v16))))
        (Host.scatterAdd scatter_S100000x128_S900000x1_S900000x128_1_0_0_1 (broadcastInDim S100000x128 ![] bcast_S_S100000x128 (constant (F := Ideal) S_ .f32 0x00000000#32)) (W10 m ρ c (Proc.devRef .tc main_v37))
          (extf .f32 (Host.gather gather_S100000x128_S900000x1_S900000x128_1_0_n_n_0_1_1128
            (truncf .bf16 (mulf (extf .f32 (W10 m ρ c (Proc.devRef .tc main_v67)) bitsLt_bf16_f32)
              (broadcastInDim S100000x128 ![0, 1] bcast_S100000x1_S100000x128_0_1 (broadcastInDim S100000x1 ![0] bcast_S100000_S100000x1_0 (W10 m ρ c (Proc.devRef .tc main_v16))))) bitsLt_bf16_f32)
            (W10 m ρ c (Proc.devRef .tc main_v32))) bitsLt_bf16_f32)) := by
  rw [X_main_v86 m ρ c, X_main_v85 m ρ c, X_main_v81 m ρ c, X_main_v84 m ρ c, X_main_v82 m ρ c, X_main_cst_14 m ρ c, v83_eq m ρ c,
    X_main_v80 m ρ c, X_main_v79 m ρ c, X_main_v72 m ρ c, X_main_v71 m ρ c, X_main_v68 m ρ c, X_main_v70 m ρ c, X_main_v69 m ρ c, v78_eq m ρ c]

/-! ## The bands of the weight matrices and the two column halves of the last aggregation -/

theorem hs41 (k g : Fin 128) : (W10 m ρ c (Proc.devRef .tc main_v41)) (ix2 k g) = (W10 m ρ c (Proc.devRef .tc main_arg7)) (ix2 (at384 0 (by omega) k) g) :=
  (congrFun (X_main_v41 m ρ c) (ix2 k g)).trans
    (slice_rows384_apply 0 (by omega) slices_S384x128_S128x128_0_0 (W10 m ρ c (Proc.devRef .tc main_arg7)) k g)
theorem hs42 (k g : Fin 128) : (W10 m ρ c (Proc.devRef .tc main_v42)) (ix2 k g) = (W10 m ρ c (Proc.devRef .tc main_arg7)) (ix2 (at384 128 (by omega) k) g) :=
  (congrFun (X_main_v42 m ρ c) (ix2 k g)).trans
    (slice_rows384_apply 128 (by omega) slices_S384x128_S128x128_128_0 (W10 m ρ c (Proc.devRef .tc main_arg7)) k g)
theorem hs43 (k g : Fin 128) : (W10 m ρ c (Proc.devRef .tc main_v43)) (ix2 k g) = (W10 m ρ c (Proc.devRef .tc main_arg7)) (ix2 (at384 256 (by omega) k) g) :=
  (congrFun (X_main_v43 m ρ c) (ix2 k g)).trans
    (slice_rows384_apply 256 (by omega) slices_S384x128_S128x128_256_0 (W10 m ρ c (Proc.devRef .tc main_arg7)) k g)

theorem hs65lo (k : Fin 128) (j : Fin 64) : (W10 m ρ c (Proc.devRef .tc main_v65)) (ix2 k (lo j)) = (W10 m ρ c (Proc.devRef .tc main_arg9)) (ix2 (at256 0 (by omega) k) j) :=
  (congrFun (X_main_v65 m ρ c) (ix2 k (lo j))).trans
    ((slice_rows256_apply 0 (by omega) slices_S256x128_S128x128_0_0 (W10 m ρ c (Proc.devRef .tc main_v64)) k (lo j)).trans
      ((congrFun (X_main_v64 m ρ c) (ix2 (at256 0 (by omega) k) (lo j))).trans
        (concat_cols_at_lo (W10 m ρ c (Proc.devRef .tc main_arg9)) (W10 m ρ c (Proc.devRef .tc main_arg11)) concatenates_S256x64_S256x64_S256x128_d1 (at256 0 (by omega) k) j (by omega))))
theorem hs65hi (k : Fin 128) (j : Fin 64) : (W10 m ρ c (Proc.devRef .tc main_v65)) (ix2 k (hi j)) = (W10 m ρ c (Proc.devRef .tc main_arg11)) (ix2 (at256 0 (by omega) k) j) :=
  (congrFun (X_main_v65 m ρ c) (ix2 k (hi j))).trans
    ((slice_rows256_apply 0 (by omega) slices_S256x128_S128x128_0_0 (W10 m ρ c (Proc.devRef .tc main_v64)) k (hi j)).trans
      ((congrFun (X_main_v64 m ρ c) (ix2 (at256 0 (by omega) k) (hi j))).trans
        (concat_cols_at_hi (W10 m ρ c (Proc.devRef .tc main_arg9)) (W10 m ρ c (Proc.devRef .tc main_arg11)) concatenates_S256x64_S256x64_S256x128_d1 (at256 0 (by omega) k) j (by omega))))
theorem hs66lo (k : Fin 128) (j : Fin 64) : (W10 m ρ c (Proc.devRef .tc main_v66)) (ix2 k (lo j)) = (W10 m ρ c (Proc.devRef .tc main_arg9)) (ix2 (at256 128 (by omega) k) j) :=
  (congrFun (X_main_v66 m ρ c) (ix2 k (lo j))).trans
    ((slice_rows256_apply 128 (by omega) slices_S256x128_S128x128_128_0 (W10 m ρ c (Proc.devRef .tc main_v64)) k (lo j)).trans
      ((congrFun (X_main_v64 m ρ c) (ix2 (at256 128 (by omega) k) (lo j))).trans
        (concat_cols_at_lo (W10 m ρ c (Proc.devRef .tc main_arg9)) (W10 m ρ c (Proc.devRef .tc main_arg11)) concatenates_S256x64_S256x64_S256x128_d1 (at256 128 (by omega) k) j (by omega))))
theorem hs66hi (k : Fin 128) (j : Fin 64) : (W10 m ρ c (Proc.devRef .tc main_v66)) (ix2 k (hi j)) = (W10 m ρ c (Proc.devRef .tc main_arg11)) (ix2 (at256 128 (by omega) k) j) :=
  (congrFun (X_main_v66 m ρ c) (ix2 k (hi j))).trans
    ((slice_rows256_apply 128 (by omega) slices_S256x128_S128x128_128_0 (W10 m ρ c (Proc.devRef .tc main_v64)) k (hi j)).trans
      ((congrFun (X_main_v64 m ρ c) (ix2 (at256 128 (by omega) k) (hi j))).trans
        (concat_cols_at_hi (W10 m ρ c (Proc.devRef .tc main_arg9)) (W10 m ρ c (Proc.devRef .tc main_arg11)) concatenates_S256x64_S256x64_S256x128_d1 (at256 128 (by omega) k) j (by omega))))

theorem hs87 (n : Fin 100000) (j : Fin 64) : (W10 m ρ c (Proc.devRef .tc main_v87)) (ix2 n j) = (W10 m ρ c (Proc.devRef .tc main_v86)) (ix2 n (lo j)) :=
  (congrFun (X_main_v87 m ρ c) (ix2 n j)).trans
    (slice_cols_lo_apply (by decide) slices_S100000x128_S100000x64_0_0 (W10 m ρ c (Proc.devRef .tc main_v86)) n j)
theorem hs91 (n : Fin 100000) (j : Fin 64) : (W10 m ρ c (Proc.devRef .tc main_v91)) (ix2 n j) = (W10 m ρ c (Proc.devRef .tc main_v86)) (ix2 n (hi j)) :=
  (congrFun (X_main_v91 m ρ c) (ix2 n j)).trans
    (slice_cols_apply 64 (by decide) slices_S100000x128_S100000x64_0_64 (W10 m ρ c (Proc.devRef .tc main_v86)) n j)

theorem e90 : (W10 m ρ c (Proc.devRef .tc main_v90) : FVec Ideal S100000x64 .f32) = (addf (W10 m ρ c (Proc.devRef .tc main_v87))
    (broadcastInDim S100000x64 ![0, 1] bcast_S1x64_S100000x64_0_1 (broadcastInDim S1x64 ![1] bcast_S64_S1x64_1 (W10 m ρ c (Proc.devRef .tc main_arg10)))) : FVec Ideal S100000x64 .f32) := by
  rw [X_main_v90 m ρ c, X_main_v89 m ρ c, X_main_v88 m ρ c]
theorem e94 : (W10 m ρ c (Proc.devRef .tc main_v94) : FVec Ideal S100000x64 .f32) = (addf (W10 m ρ c (Proc.devRef .tc main_v91))
    (broadcastInDim S100000x64 ![0, 1] bcast_S1x64_S100000x64_0_1 (broadcastInDim S1x64 ![1] bcast_S64_S1x64_1 (W10 m ρ c (Proc.devRef .tc main_arg12)))) : FVec Ideal S100000x64 .f32) := by
  rw [X_main_v94 m ρ c, X_main_v93 m ρ c, X_main_v92 m ρ c]

/-! ## The two results -/

/-- Both results at an entry. -/
theorem outs_apply (n : Fin 100000) (j : Fin 64) :
    (W10 m ρ c (Proc.devRef .tc main_v90)) (ix2 n j) = zmean (graph m ρ c) (params m ρ c) n j
    ∧ (W10 m ρ c (Proc.devRef .tc main_v94)) (ix2 n j) = zlogstd (graph m ρ c) (params m ρ c) n j :=
  kernel_heads_at gather_S100000x128_S900000x1_S900000x128_1_0_n_n_0_1_1128 Facts₀.gather_S100000x128_S900000x1_S900000x128_1_0_n_n_0_1_1128_wf rfl scatter_S100000x128_S900000x1_S900000x128_1_0_0_1 Facts₀.scatter_S100000x128_S900000x1_S900000x128_1_0_0_1_wf rfl
    bcast_S_S100000x128 (W10 m ρ c (Proc.devRef .tc main_v32)) (W10 m ρ c (Proc.devRef .tc main_v37)) (W10 m ρ c (Proc.devRef .tc main_v16))
    bcast_S100000_S100000x1_0 bcast_S100000x1_S100000x128_0_1 bitsLt_bf16_f32
    (dinv_real m ρ c)
    bcast_S64_S1x64_1 bcast_S1x64_S100000x64_0_1
    (W10 m ρ c (Proc.devRef .tc main_arg0)) (W10 m ρ c (Proc.devRef .tc main_arg1)) (W10 m ρ c (Proc.devRef .tc main_v19)) (W10 m ρ c (Proc.devRef .tc main_v20)) (W10 m ρ c (Proc.devRef .tc main_arg3)) (W10 m ρ c (Proc.devRef .tc main_arg4))
    (W10 m ρ c (Proc.devRef .tc main_arg5)) (W10 m ρ c (Proc.devRef .tc main_arg6)) (W10 m ρ c (Proc.devRef .tc main_arg7)) (W10 m ρ c (Proc.devRef .tc main_arg8)) (W10 m ρ c (Proc.devRef .tc main_arg9)) (W10 m ρ c (Proc.devRef .tc main_arg10))
    (W10 m ρ c (Proc.devRef .tc main_arg11)) (W10 m ρ c (Proc.devRef .tc main_arg12))
    (W10 m ρ c (Proc.devRef .tc main_v21_0)) (W10 m ρ c (Proc.devRef .tc main_v21_1)) (W10 m ρ c (Proc.devRef .tc main_v44)) (W10 m ρ c (Proc.devRef .tc main_v67))
    (W10 m ρ c (Proc.devRef .tc main_v40)) (W10 m ρ c (Proc.devRef .tc main_v63)) (W10 m ρ c (Proc.devRef .tc main_v86))
    (W10 m ρ c (Proc.devRef .tc main_v41)) (W10 m ρ c (Proc.devRef .tc main_v42)) (W10 m ρ c (Proc.devRef .tc main_v43)) (W10 m ρ c (Proc.devRef .tc main_v65)) (W10 m ρ c (Proc.devRef .tc main_v66))
    (W10 m ρ c (Proc.devRef .tc main_v87)) (W10 m ρ c (Proc.devRef .tc main_v90)) (W10 m ρ c (Proc.devRef .tc main_v91)) (W10 m ρ c (Proc.devRef .tc main_v94))
    (e21_0 m ρ c) (e21_1 m ρ c) (e40 m ρ c) (hs41 m ρ c) (hs42 m ρ c) (hs43 m ρ c) (e44 m ρ c) (e63 m ρ c)
    (hs65lo m ρ c) (hs65hi m ρ c) (hs66lo m ρ c) (hs66hi m ρ c) (e67 m ρ c) (e86 m ρ c) (hs87 m ρ c) (hs91 m ρ c)
    (e90 m ρ c) (e94 m ρ c) n j

/-- The first result at an entry is the mean head. -/
theorem out0_apply (n : Fin 100000) (j : Fin 64) :
    (W10 m ρ c (Proc.devRef .tc main_v90)) (ix2 n j) = zmean (graph m ρ c) (params m ρ c) n j := (outs_apply m ρ c n j).1
/-- The second result at an entry is the log-deviation head. -/
theorem out1_apply (n : Fin 100000) (j : Fin 64) :
    (W10 m ρ c (Proc.devRef .tc main_v94)) (ix2 n j) = zlogstd (graph m ρ c) (params m ρ c) n j := (outs_apply m ρ c n j).2

end Cert.KernelIdeal.KValue

end
-- ==== Proof.RefOps.lean ====
/-
  The reference program's host operations as three literal lists, one per window of its main function, every
  outlined function's operations listed at its call site over that call's buffers; the buffer each operation
  writes, in the same order; and the contents of the device's buffers after all of them.
-/
import proofs.«177732_j68255620268441_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.SL.Sem Idealize.ShloMosaic.StableHlo

variable {F : FTy → Type} [FloatOps F]

/-- The operations of window 0 of the main function (operations 1 … 83 of 175), calls inlined. -/
abbrev ops0 : List (HloOp τ sig (Elt F)) :=
  [ StableHlo.nullary main_v0 (iotaInDim S100000 32 0),
    StableHlo.unary main_arg2 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.unary main_arg2 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    StableHlo.nullary main_cst (constant S_ .f32 0x3F800000#32),
    StableHlo.unary main_cst main_v7 (broadcastInDim S900000 ![] bcast_S_S900000 : (⟨S_, .f32⟩ : BufTy).Contents (Elt F) → (⟨S900000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S900000x1 ![0] bcast_S900000_S900000x1_0 : (⟨S900000, .i32⟩ : BufTy).Contents (Elt F) → (⟨S900000x1, .i32⟩ : BufTy).Contents (Elt F)),
    StableHlo.ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v13 (broadcastInDim S100000 ![] bcast_S_S100000 : (⟨S_, .f32⟩ : BufTy).Contents (Elt F) → (⟨S100000, .f32⟩ : BufTy).Contents (Elt F)),
    StableHlo.binary main_v10 main_v13 main_v14 (maximumf : (⟨S100000, .f32⟩ : BufTy).Contents (Elt F) → (⟨S100000, .f32⟩ : BufTy).Contents (Elt F) → (⟨S100000, .f32⟩ : BufTy).Contents (Elt F)),
    StableHlo.unary main_v14 main_v15 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3) main_call0.v0 id,
    StableHlo.TRef.unary main_call0.v0 main_call0.v1 (broadcastInDim S100000 ![] bcast_S_S100000),
    StableHlo.TRef.ternary (.of main_v12) (.of main_v15) main_call0.v1 main_call0.v2 select,
    StableHlo.nullary main_c (constantI S_ 32 0#32),
    StableHlo.unary main_c main_v17 (broadcastInDim S900000 ![] bcast_S_S900000 : (⟨S_, .i32⟩ : BufTy).Contents (Elt F) → (⟨S900000, .i32⟩ : BufTy).Contents (Elt F)),
    StableHlo.binary main_v3 main_v17 main_v18 (cmpi .slt : (⟨S900000, .i32⟩ : BufTy).Contents (Elt F) → (⟨S900000, .i32⟩ : BufTy).Contents (Elt F) → (⟨S900000, .i1⟩ : BufTy).Contents (Elt F)),
    StableHlo.nullary main_c_4 (constantI S_ 32 100000#32),
    StableHlo.unary main_c_4 main_v19 (broadcastInDim S900000 ![] bcast_S_S900000 : (⟨S_, .i32⟩ : BufTy).Contents (Elt F) → (⟨S900000, .i32⟩ : BufTy).Contents (Elt F)),
    StableHlo.binary main_v3 main_v19 main_v20 (addi : (⟨S900000, .i32⟩ : BufTy).Contents (Elt F) → (⟨S900000, .i32⟩ : BufTy).Contents (Elt F) → (⟨S900000, .i32⟩ : BufTy).Contents (Elt F)),
    StableHlo.ternary main_v18 main_v20 main_v3 main_v21 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v21 main_v22 (broadcastInDim S900000x1 ![0] bcast_S900000_S900000x1_0 : (⟨S900000, .i32⟩ : BufTy).Contents (Elt F) → (⟨S900000x1, .i32⟩ : BufTy).Contents (Elt F)),
    StableHlo.binary main_v16 main_v22 main_v23 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.nullary main_c_5 (constantI S_ 32 0#32),
    StableHlo.unary main_c_5 main_v24 (broadcastInDim S900000 ![] bcast_S_S900000 : (⟨S_, .i32⟩ : BufTy).Contents (Elt F) → (⟨S900000, .i32⟩ : BufTy).Contents (Elt F)),
    StableHlo.binary main_v6 main_v24 main_v25 (cmpi .slt : (⟨S900000, .i32⟩ : BufTy).Contents (Elt F) → (⟨S900000, .i32⟩ : BufTy).Contents (Elt F) → (⟨S900000, .i1⟩ : BufTy).Contents (Elt F)),
    StableHlo.nullary main_c_6 (constantI S_ 32 100000#32),
    StableHlo.unary main_c_6 main_v26 (broadcastInDim S900000 ![] bcast_S_S900000 : (⟨S_, .i32⟩ : BufTy).Contents (Elt F) → (⟨S900000, .i32⟩ : BufTy).Contents (Elt F)),
    StableHlo.binary main_v6 main_v26 main_v27 (addi : (⟨S900000, .i32⟩ : BufTy).Contents (Elt F) → (⟨S900000, .i32⟩ : BufTy).Contents (Elt F) → (⟨S900000, .i32⟩ : BufTy).Contents (Elt F)),
    StableHlo.ternary main_v25 main_v27 main_v6 main_v28 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v28 main_v29 (broadcastInDim S900000x1 ![0] bcast_S900000_S900000x1_0 : (⟨S900000, .i32⟩ : BufTy).Contents (Elt F) → (⟨S900000x1, .i32⟩ : BufTy).Contents (Elt F)),
    StableHlo.binary main_v16 main_v29 main_v30 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    StableHlo.binary main_v23 main_v30 main_v31 (mulf : (⟨S900000, .f32⟩ : BufTy).Contents (Elt F) → (⟨S900000, .f32⟩ : BufTy).Contents (Elt F) → (⟨S900000, .f32⟩ : BufTy).Contents (Elt F)),
    StableHlo.nullary main_cst_7 (constant S_ .f32 0x00000000#32),
    StableHlo.binary main_arg0 main_cst_7 main_v32 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_8 (constant S_ .f32 0x47C35000#32),
    StableHlo.unary main_cst_8 main_v33 (broadcastInDim S128 ![] bcast_S_S128 : (⟨S_, .f32⟩ : BufTy).Contents (Elt F) → (⟨S128, .f32⟩ : BufTy).Contents (Elt F)),
    StableHlo.binary main_v32 main_v33 main_v34 (Host.divf : (⟨S128, .f32⟩ : BufTy).Contents (Elt F) → (⟨S128, .f32⟩ : BufTy).Contents (Elt F) → (⟨S128, .f32⟩ : BufTy).Contents (Elt F)),
    StableHlo.nullary main_c_9 (constantI S_ 32 0#32),
    StableHlo.TRef.nullary main_call1.cst (constant S_ .f32 0x00000000#32),
    StableHlo.TRef.binary (.of main_arg0) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_arg0) main_call1.v4 main_call1.v5 subf,
    StableHlo.TRef.binary main_call1.v5 main_call1.v5 main_call1.v6 mulf,
    StableHlo.TRef.unary (.of main_c_9) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v34 main_v36 (broadcastInDim S1x128 ![1] bcast_S128_S1x128_1 : (⟨S128, .f32⟩ : BufTy).Contents (Elt F) → (⟨S1x128, .f32⟩ : BufTy).Contents (Elt F)),
    StableHlo.unary main_v36 main_v37 (broadcastInDim S100000x128 ![0, 1] bcast_S1x128_S100000x128_0_1 : (⟨S1x128, .f32⟩ : BufTy).Contents (Elt F) → (⟨S100000x128, .f32⟩ : BufTy).Contents (Elt F)),
    StableHlo.binary main_arg0 main_v37 main_v38 (subf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3727C5AC#32),
    StableHlo.unary main_cst_10 main_v39 (broadcastInDim S128 ![] bcast_S_S128 : (⟨S_, .f32⟩ : BufTy).Contents (Elt F) → (⟨S128, .f32⟩ : BufTy).Contents (Elt F)),
    StableHlo.binary main_v35 main_v39 main_v40 (addf : (⟨S128, .f32⟩ : BufTy).Contents (Elt F) → (⟨S128, .f32⟩ : BufTy).Contents (Elt F) → (⟨S128, .f32⟩ : BufTy).Contents (Elt F)),
    StableHlo.unary main_v40 main_v41 (Host.rsqrt : (⟨S128, .f32⟩ : BufTy).Contents (Elt F) → (⟨S128, .f32⟩ : BufTy).Contents (Elt F)),
    StableHlo.unary main_v41 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v38 main_v43 main_v44 (mulf : (⟨S100000x128, .f32⟩ : BufTy).Contents (Elt F) → (⟨S100000x128, .f32⟩ : BufTy).Contents (Elt F) → (⟨S100000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S100000x128 ![0, 1] bcast_S1x128_S100000x128_0_1 : (⟨S1x128, .f32⟩ : BufTy).Contents (Elt F) → (⟨S100000x128, .f32⟩ : BufTy).Contents (Elt F)) ]

/-- The buffer each operation of window 0 writes, in order. -/
abbrev ws0 : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31, main_cst_7, main_v32, main_cst_8, main_v33, main_v34, main_c_9, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v35, main_v36, main_v37, main_v38, main_cst_10, main_v39, main_v40, main_v41, main_v42, main_v43, main_v44, main_v45, main_v46]

/-- The operations of window 1 of the main function (operations 84 … 147 of 175), calls inlined. -/
abbrev ops1 : List (HloOp τ sig (Elt F)) :=
  [ StableHlo.binary main_v44 main_v46 main_v47 (mulf : (⟨S100000x128, .f32⟩ : BufTy).Contents (Elt F) → (⟨S100000x128, .f32⟩ : BufTy).Contents (Elt F) → (⟨S100000x128, .f32⟩ : BufTy).Contents (Elt F)),
    StableHlo.unary main_arg4 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.binary main_v50 main_arg5 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_11 (constantI S_ 32 0#32),
    StableHlo.unary main_c_11 main_v52 (broadcastInDim S900000 ![] bcast_S_S900000 : (⟨S_, .i32⟩ : BufTy).Contents (Elt F) → (⟨S900000, .i32⟩ : BufTy).Contents (Elt F)),
    StableHlo.binary main_v3 main_v52 main_v53 (cmpi .slt : (⟨S900000, .i32⟩ : BufTy).Contents (Elt F) → (⟨S900000, .i32⟩ : BufTy).Contents (Elt F) → (⟨S900000, .i1⟩ : BufTy).Contents (Elt F)),
    StableHlo.nullary main_c_12 (constantI S_ 32 100000#32),
    StableHlo.unary main_c_12 main_v54 (broadcastInDim S900000 ![] bcast_S_S900000 : (⟨S_, .i32⟩ : BufTy).Contents (Elt F) → (⟨S900000, .i32⟩ : BufTy).Contents (Elt F)),
    StableHlo.binary main_v3 main_v54 main_v55 (addi : (⟨S900000, .i32⟩ : BufTy).Contents (Elt F) → (⟨S900000, .i32⟩ : BufTy).Contents (Elt F) → (⟨S900000, .i32⟩ : BufTy).Contents (Elt F)),
    StableHlo.ternary main_v53 main_v55 main_v3 main_v56 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v56 main_v57 (broadcastInDim S900000x1 ![0] bcast_S900000_S900000x1_0 : (⟨S900000, .i32⟩ : BufTy).Contents (Elt F) → (⟨S900000x1, .i32⟩ : BufTy).Contents (Elt F)),
    StableHlo.binary main_v51 main_v57 main_v58 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v31 main_v59 (broadcastInDim S900000x1 ![0] bcast_S900000_S900000x1_0 : (⟨S900000, .f32⟩ : BufTy).Contents (Elt F) → (⟨S900000x1, .f32⟩ : BufTy).Contents (Elt F)),
    StableHlo.unary main_v59 main_v60 (broadcastInDim S900000x128 ![0, 1] bcast_S900000x1_S900000x128_0_1 : (⟨S900000x1, .f32⟩ : BufTy).Contents (Elt F) → (⟨S900000x128, .f32⟩ : BufTy).Contents (Elt F)),
    StableHlo.binary main_v58 main_v60 main_v61 (mulf : (⟨S900000x128, .f32⟩ : BufTy).Contents (Elt F) → (⟨S900000x128, .f32⟩ : BufTy).Contents (Elt F) → (⟨S900000x128, .f32⟩ : BufTy).Contents (Elt F)),
    StableHlo.nullary main_cst_13 (constant S_ .f32 0x00000000#32),
    StableHlo.unary main_cst_13 main_v62 (broadcastInDim S100000x128 ![] bcast_S_S100000x128 : (⟨S_, .f32⟩ : BufTy).Contents (Elt F) → (⟨S100000x128, .f32⟩ : BufTy).Contents (Elt F)),
    StableHlo.unary main_v6 main_v63 (broadcastInDim S900000x1 ![0] bcast_S900000_S900000x1_0 : (⟨S900000, .i32⟩ : BufTy).Contents (Elt F) → (⟨S900000x1, .i32⟩ : BufTy).Contents (Elt F)),
    StableHlo.ternary main_v62 main_v63 main_v61 main_v64 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg6 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S100000x128 ![0, 1] bcast_S1x128_S100000x128_0_1 : (⟨S1x128, .f32⟩ : BufTy).Contents (Elt F) → (⟨S100000x128, .f32⟩ : BufTy).Contents (Elt F)),
    StableHlo.binary main_v64 main_v66 main_v67 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v67) main_call2.v0 main_call2.v1 maximumf,
    StableHlo.nary ![main_v50, main_arg1, main_v68] main_v69 (fun u => concatenate S100000x384 1 [⟨S100000x128, u 0⟩, ⟨S100000x128, u 1⟩, ⟨S100000x128, u 2⟩] concatenates_S100000x128_S100000x128_S100000x128_S100000x384_d1),
    StableHlo.binary main_v69 main_arg7 main_v70 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)),
    StableHlo.nullary main_c_14 (constantI S_ 32 0#32),
    StableHlo.unary main_c_14 main_v71 (broadcastInDim S900000 ![] bcast_S_S900000 : (⟨S_, .i32⟩ : BufTy).Contents (Elt F) → (⟨S900000, .i32⟩ : BufTy).Contents (Elt F)),
    StableHlo.binary main_v3 main_v71 main_v72 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 100000#32),
    StableHlo.unary main_c_15 main_v73 (broadcastInDim S900000 ![] bcast_S_S900000 : (⟨S_, .i32⟩ : BufTy).Contents (Elt F) → (⟨S900000, .i32⟩ : BufTy).Contents (Elt F)),
    StableHlo.binary main_v3 main_v73 main_v74 (addi : (⟨S900000, .i32⟩ : BufTy).Contents (Elt F) → (⟨S900000, .i32⟩ : BufTy).Contents (Elt F) → (⟨S900000, .i32⟩ : BufTy).Contents (Elt F)),
    StableHlo.ternary main_v72 main_v74 main_v3 main_v75 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v75 main_v76 (broadcastInDim S900000x1 ![0] bcast_S900000_S900000x1_0 : (⟨S900000, .i32⟩ : BufTy).Contents (Elt F) → (⟨S900000x1, .i32⟩ : BufTy).Contents (Elt F)),
    StableHlo.binary main_v70 main_v76 main_v77 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    StableHlo.unary main_v31 main_v78 (broadcastInDim S900000x1 ![0] bcast_S900000_S900000x1_0 : (⟨S900000, .f32⟩ : BufTy).Contents (Elt F) → (⟨S900000x1, .f32⟩ : BufTy).Contents (Elt F)),
    StableHlo.unary main_v78 main_v79 (broadcastInDim S900000x128 ![0, 1] bcast_S900000x1_S900000x128_0_1 : (⟨S900000x1, .f32⟩ : BufTy).Contents (Elt F) → (⟨S900000x128, .f32⟩ : BufTy).Contents (Elt F)),
    StableHlo.binary main_v77 main_v79 main_v80 (mulf : (⟨S900000x128, .f32⟩ : BufTy).Contents (Elt F) → (⟨S900000x128, .f32⟩ : BufTy).Contents (Elt F) → (⟨S900000x128, .f32⟩ : BufTy).Contents (Elt F)),
    StableHlo.nullary main_cst_16 (constant S_ .f32 0x00000000#32),
    StableHlo.unary main_cst_16 main_v81 (broadcastInDim S100000x128 ![] bcast_S_S100000x128 : (⟨S_, .f32⟩ : BufTy).Contents (Elt F) → (⟨S100000x128, .f32⟩ : BufTy).Contents (Elt F)),
    StableHlo.unary main_v6 main_v82 (broadcastInDim S900000x1 ![0] bcast_S900000_S900000x1_0 : (⟨S900000, .i32⟩ : BufTy).Contents (Elt F) → (⟨S900000x1, .i32⟩ : BufTy).Contents (Elt F)),
    StableHlo.ternary main_v81 main_v82 main_v80 main_v83 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    StableHlo.unary main_arg8 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v85 main_v86 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v86) main_call3.v0 main_call3.v1 maximumf,
    StableHlo.binary main_v50 main_v87 main_v88 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v88 main_arg9 main_v89 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c_17 (constantI S_ 32 0#32),
    StableHlo.unary main_c_17 main_v90 (broadcastInDim S900000 ![] bcast_S_S900000 : (⟨S_, .i32⟩ : BufTy).Contents (Elt F) → (⟨S900000, .i32⟩ : BufTy).Contents (Elt F)),
    StableHlo.binary main_v3 main_v90 main_v91 (cmpi .slt : (⟨S900000, .i32⟩ : BufTy).Contents (Elt F) → (⟨S900000, .i32⟩ : BufTy).Contents (Elt F) → (⟨S900000, .i1⟩ : BufTy).Contents (Elt F)),
    StableHlo.nullary main_c_18 (constantI S_ 32 100000#32),
    StableHlo.unary main_c_18 main_v92 (broadcastInDim S900000 ![] bcast_S_S900000 : (⟨S_, .i32⟩ : BufTy).Contents (Elt F) → (⟨S900000, .i32⟩ : BufTy).Contents (Elt F)),
    StableHlo.binary main_v3 main_v92 main_v93 (addi : (⟨S900000, .i32⟩ : BufTy).Contents (Elt F) → (⟨S900000, .i32⟩ : BufTy).Contents (Elt F) → (⟨S900000, .i32⟩ : BufTy).Contents (Elt F)),
    StableHlo.ternary main_v91 main_v93 main_v3 main_v94 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v94 main_v95 (broadcastInDim S900000x1 ![0] bcast_S900000_S900000x1_0 : (⟨S900000, .i32⟩ : BufTy).Contents (Elt F) → (⟨S900000x1, .i32⟩ : BufTy).Contents (Elt F)),
    StableHlo.binary main_v89 main_v95 main_v96 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    StableHlo.unary main_v31 main_v97 (broadcastInDim S900000x1 ![0] bcast_S900000_S900000x1_0 : (⟨S900000, .f32⟩ : BufTy).Contents (Elt F) → (⟨S900000x1, .f32⟩ : BufTy).Contents (Elt F)),
    StableHlo.unary main_v97 main_v98 (broadcastInDim S900000x64 ![0, 1] bcast_S900000x1_S900000x64_0_1 : (⟨S900000x1, .f32⟩ : BufTy).Contents (Elt F) → (⟨S900000x64, .f32⟩ : BufTy).Contents (Elt F)) ]

/-- The buffer each operation of window 1 writes, in order. -/
abbrev ws1 : List (Ref sig .tc) :=
  [main_v47, main_v48, main_v49, main_v50, main_v51, main_c_11, main_v52, main_v53, main_c_12, main_v54, main_v55, main_v56, main_v57, main_v58, main_v59, main_v60, main_v61, main_cst_13, main_v62, main_v63, main_v64, main_v65, main_v66, main_v67, main_call2_cst, main_call2_v0, main_v68, main_v69, main_v70, main_c_14, main_v71, main_v72, main_c_15, main_v73, main_v74, main_v75, main_v76, main_v77, main_v78, main_v79, main_v80, main_cst_16, main_v81, main_v82, main_v83, main_v84, main_v85, main_v86, main_call3_cst, main_call3_v0, main_v87, main_v88, main_v89, main_c_17, main_v90, main_v91, main_c_18, main_v92, main_v93, main_v94, main_v95, main_v96, main_v97, main_v98]

/-- The operations of window 2 of the main function (operations 148 … 175 of 175), calls inlined. -/
abbrev ops2 : List (HloOp τ sig (Elt F)) :=
  [ StableHlo.binary main_v96 main_v98 main_v99 (mulf : (⟨S900000x64, .f32⟩ : BufTy).Contents (Elt F) → (⟨S900000x64, .f32⟩ : BufTy).Contents (Elt F) → (⟨S900000x64, .f32⟩ : BufTy).Contents (Elt F)),
    StableHlo.nullary main_cst_19 (constant S_ .f32 0x00000000#32),
    StableHlo.unary main_cst_19 main_v100 (broadcastInDim S100000x64 ![] bcast_S_S100000x64 : (⟨S_, .f32⟩ : BufTy).Contents (Elt F) → (⟨S100000x64, .f32⟩ : BufTy).Contents (Elt F)),
    StableHlo.unary main_v6 main_v101 (broadcastInDim S900000x1 ![0] bcast_S900000_S900000x1_0 : (⟨S900000, .i32⟩ : BufTy).Contents (Elt F) → (⟨S900000x1, .i32⟩ : BufTy).Contents (Elt F)),
    StableHlo.ternary main_v100 main_v101 main_v99 main_v102 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    StableHlo.unary main_arg10 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S100000x64 ![0, 1] bcast_S1x64_S100000x64_0_1 : (⟨S1x64, .f32⟩ : BufTy).Contents (Elt F) → (⟨S100000x64, .f32⟩ : BufTy).Contents (Elt F)),
    StableHlo.binary main_v102 main_v104 main_v105 (addf : (⟨S100000x64, .f32⟩ : BufTy).Contents (Elt F) → (⟨S100000x64, .f32⟩ : BufTy).Contents (Elt F) → (⟨S100000x64, .f32⟩ : BufTy).Contents (Elt F)),
    StableHlo.binary main_v88 main_arg11 main_v106 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.nullary main_c_20 (constantI S_ 32 0#32),
    StableHlo.unary main_c_20 main_v107 (broadcastInDim S900000 ![] bcast_S_S900000 : (⟨S_, .i32⟩ : BufTy).Contents (Elt F) → (⟨S900000, .i32⟩ : BufTy).Contents (Elt F)),
    StableHlo.binary main_v3 main_v107 main_v108 (cmpi .slt : (⟨S900000, .i32⟩ : BufTy).Contents (Elt F) → (⟨S900000, .i32⟩ : BufTy).Contents (Elt F) → (⟨S900000, .i1⟩ : BufTy).Contents (Elt F)),
    StableHlo.nullary main_c_21 (constantI S_ 32 100000#32),
    StableHlo.unary main_c_21 main_v109 (broadcastInDim S900000 ![] bcast_S_S900000 : (⟨S_, .i32⟩ : BufTy).Contents (Elt F) → (⟨S900000, .i32⟩ : BufTy).Contents (Elt F)),
    StableHlo.binary main_v3 main_v109 main_v110 (addi : (⟨S900000, .i32⟩ : BufTy).Contents (Elt F) → (⟨S900000, .i32⟩ : BufTy).Contents (Elt F) → (⟨S900000, .i32⟩ : BufTy).Contents (Elt F)),
    StableHlo.ternary main_v108 main_v110 main_v3 main_v111 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v111 main_v112 (broadcastInDim S900000x1 ![0] bcast_S900000_S900000x1_0 : (⟨S900000, .i32⟩ : BufTy).Contents (Elt F) → (⟨S900000x1, .i32⟩ : BufTy).Contents (Elt F)),
    StableHlo.binary main_v106 main_v112 main_v113 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)),
    StableHlo.unary main_v31 main_v114 (broadcastInDim S900000x1 ![0] bcast_S900000_S900000x1_0 : (⟨S900000, .f32⟩ : BufTy).Contents (Elt F) → (⟨S900000x1, .f32⟩ : BufTy).Contents (Elt F)),
    StableHlo.unary main_v114 main_v115 (broadcastInDim S900000x64 ![0, 1] bcast_S900000x1_S900000x64_0_1 : (⟨S900000x1, .f32⟩ : BufTy).Contents (Elt F) → (⟨S900000x64, .f32⟩ : BufTy).Contents (Elt F)),
    StableHlo.binary main_v113 main_v115 main_v116 (mulf : (⟨S900000x64, .f32⟩ : BufTy).Contents (Elt F) → (⟨S900000x64, .f32⟩ : BufTy).Contents (Elt F) → (⟨S900000x64, .f32⟩ : BufTy).Contents (Elt F)),
    StableHlo.nullary main_cst_22 (constant S_ .f32 0x00000000#32),
    StableHlo.unary main_cst_22 main_v117 (broadcastInDim S100000x64 ![] bcast_S_S100000x64 : (⟨S_, .f32⟩ : BufTy).Contents (Elt F) → (⟨S100000x64, .f32⟩ : BufTy).Contents (Elt F)),
    StableHlo.unary main_v6 main_v118 (broadcastInDim S900000x1 ![0] bcast_S900000_S900000x1_0 : (⟨S900000, .i32⟩ : BufTy).Contents (Elt F) → (⟨S900000x1, .i32⟩ : BufTy).Contents (Elt F)),
    StableHlo.ternary main_v117 main_v118 main_v116 main_v119 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)),
    StableHlo.unary main_arg12 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S100000x64 ![0, 1] bcast_S1x64_S100000x64_0_1 : (⟨S1x64, .f32⟩ : BufTy).Contents (Elt F) → (⟨S100000x64, .f32⟩ : BufTy).Contents (Elt F)),
    StableHlo.binary main_v119 main_v121 main_v122 (addf : (⟨S100000x64, .f32⟩ : BufTy).Contents (Elt F) → (⟨S100000x64, .f32⟩ : BufTy).Contents (Elt F) → (⟨S100000x64, .f32⟩ : BufTy).Contents (Elt F)) ]

/-- The buffer each operation of window 2 writes, in order. -/
abbrev ws2 : List (Ref sig .tc) :=
  [main_v99, main_cst_19, main_v100, main_v101, main_v102, main_v103, main_v104, main_v105, main_v106, main_c_20, main_v107, main_v108, main_c_21, main_v109, main_v110, main_v111, main_v112, main_v113, main_v114, main_v115, main_v116, main_cst_22, main_v117, main_v118, main_v119, main_v120, main_v121, main_v122]

/-- Every operation of the main function, in order. -/
abbrev ops : List (HloOp τ sig (Elt F)) := ops0 ++ (ops1 ++ ops2)

/-- The buffer each operation writes, in order. -/
abbrev ws : List (Ref sig .tc) := ws0 ++ (ws1 ++ ws2)

/-- The contents of device `d`'s buffers after the main function, from the memory `m`. -/
def W (m : (ℓ : Loc nD τ sig) → Buf (Elt F) ℓ) (d : Dev nD) : Valuation τ sig (Elt F) :=
  StableHlo.after ops (launchContents m d)

end Cert.ReferenceIdeal.RefRun

end
-- ==== Proof.RefRun.lean ====
/-
  The reference program's run: its main function is the straight line of the listed operations, window by window,
  each outlined function unfolded at its call; so every weakly fair execution terminates with every buffer at the
  operations' fold over the launch contents.
-/
import proofs.«177732_j68255620268441_2_alg».proof.Proof.RefOps

noncomputable section

namespace Cert.ReferenceIdeal.RefRun

open Cert.ReferenceIdeal Cert.ReferenceIdeal.Gen Idealize.ShloMosaic Idealize.SL.Sem Idealize.ShloMosaic.StableHlo

variable {F : FTy → Type} [FloatOps F]

set_option maxRecDepth 16384 in
set_option maxHeartbeats 4000000 in
/-- Window 0 is its operations in order: the outlined functions unfolded at their calls, sequencing reassociated. -/
theorem main_part0_eq (c : Dev nD) : main_part0 (F := F) c = seq ops0 := by
  simp only [main_part0, fn_where.body, fn_var.body, fn_where_0.body, seq, bind_assoc, pure_bind]
  rfl

set_option maxRecDepth 16384 in
theorem ops0_sub : (ops0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩

set_option maxRecDepth 16384 in
set_option maxHeartbeats 4000000 in
/-- Window 1 is its operations in order: the outlined functions unfolded at their calls, sequencing reassociated. -/
theorem main_part1_eq (c : Dev nD) : main_part1 (F := F) c = seq ops1 := by
  simp only [main_part1, fn_relu.body, seq, bind_assoc, pure_bind]
  rfl

set_option maxRecDepth 16384 in
theorem ops1_sub : (ops1 : List (HloOp τ sig (Elt F))).Forall fun op => op.bufs ⊆ tcRefs τ sig :=
  ⟨binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub ..⟩

set_option maxRecDepth 16384 in
set_option maxHeartbeats 4000000 in
/-- Window 2 is its operations in order: the outlined functions unfolded at their calls, sequencing reassociated. -/
theorem main_part2_eq (c : Dev nD) : main_part2 (F := F) c = seq ops2 := by
  simp only [main_part2, seq, bind_assoc, pure_bind]

set_option maxRecDepth 16384 in
theorem ops2_sub : (ops2 : List (HloOp τ sig (Elt F))).Forall fun op => op.bufs ⊆ tcRefs τ sig :=
  ⟨binary_bufs_sub .., nullary_bufs_sub .., unary_bufs_sub .., unary_bufs_sub .., ternary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 16384 in
/-- The main function is the whole line. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 16384 in
set_option maxHeartbeats 4000000 in
/-- On every device, for any float values, from any memory with zero counters: every weakly fair execution of the
    main function terminates with every buffer at the operations' fold over the launch contents. -/
theorem run (m : (ℓ : Loc nD τ sig) → Buf (Elt F) ℓ) (ρ : Dev nD → PrngReg) :
    θ_run (defs (F := F)) (onTc (τ := τ) (main (F := F))) ⟨m, fun _ => 0, ρ⟩
      (fun r => ∀ (d : Dev nD) (b : Ref sig .tc),
        r.2.mem ((d.tc : Thread nD τ).loc b) = W m d (Proc.devRef .tc b)) :=
  run_seq scopedRefs_eq scopedSems_eq defs main (fun _ => ops) main_eq (fun _ => ops_sub) m ρ

end Cert.ReferenceIdeal.RefRun

end
-- ==== Proof.LibAfterAt.lean ====
/-
  A straight line of host operations in single-assignment form, read one operation at a time. When every operation
  writes one buffer, no buffer is written twice, and every operand is written before it is read, the contents after
  the WHOLE line satisfy one equation per operation: the buffer it writes holds its function of what its operand
  buffers hold. The side conditions are stated over the list of written references, place by place, so that each is a
  decidable statement about references. General in the signature, the values and the operations.
-/
import Idealize.ShloMosaic.Lib.StableHlo.Run

noncomputable section

namespace Cert.LibAfterAt

open Idealize.ShloMosaic Idealize.ShloMosaic.StableHlo

variable {τ : Topo} {sig : RefSig} {Val : EltTy → Type}

/-- Two lines one after the other: the second read from the contents the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Place by place, the operation writes at most the buffer the reference at that place names. -/
abbrev Writes (ops : List (HloOp τ sig Val)) (ws : List (Ref sig .tc)) : Prop :=
  List.Forall₂ (fun op w => op.writes ⊆ {Proc.devRef (τ := τ) .tc w}) ops ws

/-- Every operation of the line writes inside the listed references. -/
theorem Writes.forall_sub : ∀ {ops : List (HloOp τ sig Val)} {ws : List (Ref sig .tc)}, Writes ops ws →
    ∀ op ∈ ops, op.writes ⊆ (ws.map (Proc.devRef (τ := τ) .tc)).toFinset
  | _, _, .nil, _, h => nomatch h
  | _, _, .cons (b := b) hab t, op, h => by
    rcases List.mem_cons.mp h with rfl | h
    · intro x hx
      have hx' := Finset.mem_singleton.mp (hab hx)
      subst hx'
      simp only [List.map_cons, List.toFinset_cons, Finset.mem_insert, true_or]
    · intro x hx
      have := Writes.forall_sub t op h hx
      simp only [List.map_cons, List.toFinset_cons, Finset.mem_insert]
      exact Or.inr this

/-- The two lists of a line and of what it writes, joined. -/
theorem Writes.append {l₁ l₂ : List (HloOp τ sig Val)} {w₁ w₂ : List (Ref sig .tc)} (h₁ : Writes l₁ w₁)
    (h₂ : Writes l₂ w₂) : Writes (l₁ ++ l₂) (w₁ ++ w₂) := List.rel_append h₁ h₂

/-- A reference that no operation from place `k` on writes holds, after the whole line, what it held after the first
    `k` operations. -/
theorem after_eq_take {ops : List (HloOp τ sig Val)} {ws : List (Ref sig .tc)} (h : Writes ops ws) (k : Nat)
    (V : Valuation τ sig Val) {r : Ref sig .tc} (hr : r ∉ ws.drop k) :
    after ops V (Proc.devRef .tc r) = after (ops.take k) V (Proc.devRef .tc r) := by
  conv_lhs => rw [← List.take_append_drop k ops]
  rw [after_append]
  exact after_of_writes_sub _ _ (List.forall_iff_forall_mem.mpr (Writes.forall_sub (List.forall₂_drop k h))) hr

/-- A reference that no operation after place `k` writes holds, after the whole line, what the operation at place `k`
    leaves there. -/
theorem after_at {ops : List (HloOp τ sig Val)} {ws : List (Ref sig .tc)} (h : Writes ops ws) (k : Nat)
    {op : HloOp τ sig Val} (hk : ops[k]? = some op) (V : Valuation τ sig Val) {r : Ref sig .tc}
    (hr : r ∉ ws.drop (k + 1)) :
    after ops V (Proc.devRef .tc r) = op.result (after (ops.take k) V) (Proc.devRef .tc r) := by
  rw [after_eq_take h (k + 1) V hr]
  have e : ops.take (k + 1) = ops.take k ++ [op] := by rw [List.take_succ, hk]; rfl
  rw [e, after_append]; rfl

/-- A reference the line never writes keeps what it held. -/
theorem after_of_not_mem {ops : List (HloOp τ sig Val)} {ws : List (Ref sig .tc)} (h : Writes ops ws)
    (V : Valuation τ sig Val) {r : Ref sig .tc} (hr : r ∉ ws) :
    after ops V (Proc.devRef .tc r) = V (Proc.devRef .tc r) :=
  after_of_writes_sub _ _ (List.forall_iff_forall_mem.mpr (Writes.forall_sub h)) hr

section Kinds

variable {ops : List (HloOp τ sig Val)} {ws : List (Ref sig .tc)}

/-- The operation at place `k` has no operand: its buffer holds its value. -/
theorem nullary_at (h : Writes ops ws) (k : Nat) (y : Ref sig .tc) (v : y.ty.Contents Val) (hy)
    (hk : ops[k]? = some (nullary y v hy)) (V : Valuation τ sig Val) (hy' : y ∉ ws.drop (k + 1)) :
    after ops V (Proc.devRef .tc y) = v := by
  rw [after_at h k hk V hy', nullary_result]

/-- The operation at place `k` has one operand, written before place `k` or never. -/
theorem unary_at (h : Writes ops ws) (k : Nat) (x y : Ref sig .tc) (f : x.ty.Contents Val → y.ty.Contents Val) (hx hy)
    (hk : ops[k]? = some (unary x y f hx hy)) (V : Valuation τ sig Val) (hy' : y ∉ ws.drop (k + 1))
    (hx' : x ∉ ws.drop k) :
    after ops V (Proc.devRef .tc y) = f (after ops V (Proc.devRef .tc x)) := by
  rw [after_at h k hk V hy', unary_result, ← after_eq_take h k V hx']

/-- The operation at place `k` has two operands. -/
theorem binary_at (h : Writes ops ws) (k : Nat) (a b y : Ref sig .tc) (f : a.ty.Contents Val → b.ty.Contents Val → y.ty.Contents Val) (ha hb hy)
    (hk : ops[k]? = some (binary a b y f ha hb hy)) (V : Valuation τ sig Val) (hy' : y ∉ ws.drop (k + 1))
    (ha' : a ∉ ws.drop k) (hb' : b ∉ ws.drop k) :
    after ops V (Proc.devRef .tc y) = f (after ops V (Proc.devRef .tc a)) (after ops V (Proc.devRef .tc b)) := by
  rw [after_at h k hk V hy', binary_result, ← after_eq_take h k V ha', ← after_eq_take h k V hb']

/-- The operation at place `k` has three operands. -/
theorem ternary_at (h : Writes ops ws) (k : Nat) (c a b y : Ref sig .tc)
    (f : c.ty.Contents Val → a.ty.Contents Val → b.ty.Contents Val → y.ty.Contents Val) (hc ha hb hy)
    (hk : ops[k]? = some (ternary c a b y f hc ha hb hy)) (V : Valuation τ sig Val) (hy' : y ∉ ws.drop (k + 1))
    (hc' : c ∉ ws.drop k) (ha' : a ∉ ws.drop k) (hb' : b ∉ ws.drop k) :
    after ops V (Proc.devRef .tc y)
      = f (after ops V (Proc.devRef .tc c)) (after ops V (Proc.devRef .tc a)) (after ops V (Proc.devRef .tc b)) := by
  rw [after_at h k hk V hy', ternary_result, ← after_eq_take h k V hc', ← after_eq_take h k V ha',
    ← after_eq_take h k V hb']

/-- The operation at place `k` is a change of shape. -/
theorem reshape_at (h : Writes ops ws) (k : Nat) (x y : Ref sig .tc) (he hn hx hy)
    (hk : ops[k]? = some (reshape (Val := Val) x y he hn hx hy)) (V : Valuation τ sig Val)
    (hy' : y ∉ ws.drop (k + 1)) (hx' : x ∉ ws.drop k) :
    after ops V (Proc.devRef .tc y)
      = fun i => he ▸ shapeCast y.ty.shape (after ops V (Proc.devRef .tc x)) hn i := by
  rw [after_at h k hk V hy', reshape_result, ← after_eq_take h k V hx']

/-- The operation at place `k` reads a literal family of three operands. -/
theorem nary3_at (h : Writes ops ws) (k : Nat) (x a b y : Ref sig .tc)
    (f : ((j : Fin 3) → ((![x, a, b] : Fin 3 → Ref sig .tc) j).ty.Contents Val) → y.ty.Contents Val) (hxs hy)
    (hk : ops[k]? = some (nary ![x, a, b] y f hxs hy)) (V : Valuation τ sig Val) (hy' : y ∉ ws.drop (k + 1))
    (hx' : x ∉ ws.drop k) (ha' : a ∉ ws.drop k) (hb' : b ∉ ws.drop k) :
    after ops V (Proc.devRef .tc y)
      = f (Fin.cons (after ops V (Proc.devRef .tc x)) (Fin.cons (after ops V (Proc.devRef .tc a))
          (Fin.cons (after ops V (Proc.devRef .tc b)) (fun i => i.elim0)))) := by
  rw [after_at h k hk V hy', nary_result]
  congr 1; funext j; fin_cases j
  · exact (after_eq_take h k V hx').symm
  · exact (after_eq_take h k V ha').symm
  · exact (after_eq_take h k V hb').symm

end Kinds

end Cert.LibAfterAt

end
-- ==== Proof.RefWrites.lean ====
/-
  Place by place, each operation of the reference's line writes the buffer listed for it; the arguments are
  written by none.
-/
import proofs.«177732_j68255620268441_2_alg».proof.Proof.RefOps
import proofs.«177732_j68255620268441_2_alg».proof.Proof.LibAfterAt

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

set_option maxRecDepth 16384 in
theorem ops0_writes : Writes (ops0 : List (HloOp τ sig (Elt F))) ws0 :=
  .cons (Finset.subset_of_eq (nullary_writes ..)) (.cons (Finset.subset_of_eq (unary_writes ..)) (.cons (Finset.subset_of_eq (reshape_writes ..)) (.cons (Finset.subset_of_eq (binary_writes ..)) (.cons (Finset.subset_of_eq (unary_writes ..)) (.cons (Finset.subset_of_eq (reshape_writes ..)) (.cons (Finset.subset_of_eq (binary_writes ..)) (.cons (Finset.subset_of_eq (nullary_writes ..)) (.cons (Finset.subset_of_eq (unary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (unary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (binary_writes ..)) (.cons (Finset.subset_of_eq (nullary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (nullary_writes ..)) (.cons (Finset.subset_of_eq (binary_writes ..)) (.cons (Finset.subset_of_eq (unary_writes ..)) (.cons (Finset.subset_of_eq (nullary_writes ..)) (.cons (Finset.subset_of_eq (unary_writes ..)) (.cons (Finset.subset_of_eq (binary_writes ..)) (.cons (Finset.subset_of_eq (unary_writes ..)) (.cons (Finset.subset_of_eq (binary_writes ..)) (.cons (Finset.subset_of_eq (binary_writes ..)) (.cons (Finset.subset_of_eq (unary_writes ..)) (.cons (Finset.subset_of_eq (nullary_writes ..)) (.cons (Finset.subset_of_eq (binary_writes ..)) (.cons (Finset.subset_of_eq (nullary_writes ..)) (.cons (Finset.subset_of_eq (binary_writes ..)) (.cons (Finset.subset_of_eq (unary_writes ..)) (.cons (Finset.subset_of_eq (binary_writes ..)) (.cons (Finset.subset_of_eq (nullary_writes ..)) (.cons (Finset.subset_of_eq (binary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (unary_writes ..)) (.cons (Finset.subset_of_eq (unary_writes ..)) (.cons (Finset.subset_of_eq (unary_writes ..)) (.cons (Finset.subset_of_eq (binary_writes ..)) (.cons (Finset.subset_of_eq (unary_writes ..)) (.cons (Finset.subset_of_eq (unary_writes ..)) (.nil)))))))))))))))))))))))))))))))))))))))))))))))))))))))))))))))))))))))))))))))))))

set_option maxRecDepth 16384 in
theorem ops1_writes : Writes (ops1 : List (HloOp τ sig (Elt F))) ws1 :=
  .cons (Finset.subset_of_eq (binary_writes ..)) (.cons (Finset.subset_of_eq (unary_writes ..)) (.cons (Finset.subset_of_eq (unary_writes ..)) (.cons (Finset.subset_of_eq (binary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (binary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (unary_writes ..)) (.cons (Finset.subset_of_eq (unary_writes ..)) (.nil))))))))))))))))))))))))))))))))))))))))))))))))))))))))))))))))

set_option maxRecDepth 16384 in
theorem ops2_writes : Writes (ops2 : List (HloOp τ sig (Elt F))) ws2 :=
  .cons (Finset.subset_of_eq (binary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (unary_writes ..)) (.cons (Finset.subset_of_eq (unary_writes ..)) (.cons (Finset.subset_of_eq (binary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (binary_writes ..)) (.cons (Finset.subset_of_eq (ternary_writes ..)) (.cons (Finset.subset_of_eq (unary_writes ..)) (.cons (Finset.subset_of_eq (binary_writes ..)) (.cons (Finset.subset_of_eq (unary_writes ..)) (.cons (Finset.subset_of_eq (unary_writes ..)) (.cons (Finset.subset_of_eq (binary_writes ..)) (.cons (Finset.subset_of_eq (nullary_writes ..)) (.cons (Finset.subset_of_eq (unary_writes ..)) (.cons (Finset.subset_of_eq (unary_writes ..)) (.cons (Finset.subset_of_eq (ternary_writes ..)) (.cons (Finset.subset_of_eq (unary_writes ..)) (.cons (Finset.subset_of_eq (unary_writes ..)) (.cons (Finset.subset_of_eq (binary_writes ..)) (.nil))))))))))))))))))))))))))))

/-- The whole line, place by place. -/
theorem ops_writes : Writes (ops : List (HloOp τ sig (Elt F))) ws :=
  Writes.append ops0_writes (Writes.append ops1_writes ops2_writes)

end Cert.ReferenceIdeal.RefRun

end
-- ==== Proof.RefEq2.lean ====
/-
  The reference program in single-assignment form, one equation per operation (operations 148 … 175 of 175, and the arguments):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_v99 (m : (ℓ : Loc nD τ sig) → Buf (Elt F) ℓ) (d : Dev nD) :
    W m d (Proc.devRef .tc main_v99)
      = (mulf : (⟨S900000x64, .f32⟩ : BufTy).Contents (Elt F) → (⟨S900000x64, .f32⟩ : BufTy).Contents (Elt F) → (⟨S900000x64, .f32⟩ : BufTy).Contents (Elt F)) (W m d (Proc.devRef .tc main_v96)) (W m d (Proc.devRef .tc main_v98)) :=
  binary_at ops_writes 147 main_v96 main_v98 main_v99 (mulf : (⟨S900000x64, .f32⟩ : BufTy).Contents (Elt F) → (⟨S900000x64, .f32⟩ : BufTy).Contents (Elt F) → (⟨S900000x64, .f32⟩ : BufTy).Contents (Elt F)) _ _ _ rfl _ (by decide) (by decide) (by decide)

theorem W_main_cst_19 (m : (ℓ : Loc nD τ sig) → Buf (Elt F) ℓ) (d : Dev nD) :
    W m d (Proc.devRef .tc main_cst_19)
      = (constant S_ .f32 0x00000000#32) :=
  nullary_at ops_writes 148 main_cst_19 (constant S_ .f32 0x00000000#32) _ rfl _ (by decide)

theorem W_main_v100 (m : (ℓ : Loc nD τ sig) → Buf (Elt F) ℓ) (d : Dev nD) :
    W m d (Proc.devRef .tc main_v100)
      = (broadcastInDim S100000x64 ![] bcast_S_S100000x64 : (⟨S_, .f32⟩ : BufTy).Contents (Elt F) → (⟨S100000x64, .f32⟩ : BufTy).Contents (Elt F)) (W m d (Proc.devRef .tc main_cst_19)) :=
  unary_at ops_writes 149 main_cst_19 main_v100 (broadcastInDim S100000x64 ![] bcast_S_S100000x64 : (⟨S_, .f32⟩ : BufTy).Contents (Elt F) → (⟨S100000x64, .f32⟩ : BufTy).Contents (Elt F)) _ _ rfl _ (by decide) (by decide)

theorem W_main_v101 (m : (ℓ : Loc nD τ sig) → Buf (Elt F) ℓ) (d : Dev nD) :
    W m d (Proc.devRef .tc main_v101)
      = (broadcastInDim S900000x1 ![0] bcast_S900000_S900000x1_0 : (⟨S900000, .i32⟩ : BufTy).Contents (Elt F) → (⟨S900000x1, .i32⟩ : BufTy).Contents (Elt F)) (W m d (Proc.devRef .tc main_v6)) :=
  unary_at ops_writes 150 main_v6 main_v101 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v102 (m : (ℓ : Loc nD τ sig) → Buf (Elt F) ℓ) (d : Dev nD) :
    W m d (Proc.devRef .tc main_v102)
      = ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)) (W m d (Proc.devRef .tc main_v100)) (W m d (Proc.devRef .tc main_v101)) (W m d (Proc.devRef .tc main_v99)) :=
  ternary_at ops_writes 151 main_v100 main_v101 main_v99 main_v102 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)) _ _ _ _ rfl _ (by decide) (by decide) (by decide) (by decide)

theorem W_main_v103 (m : (ℓ : Loc nD τ sig) → Buf (Elt F) ℓ) (d : Dev nD) :
    W m d (Proc.devRef .tc main_v103)
      = (broadcastInDim S1x64 ![1] bcast_S64_S1x64_1 : (⟨S64, .f32⟩ : BufTy).Contents (Elt F) → (⟨S1x64, .f32⟩ : BufTy).Contents (Elt F)) (W m d (Proc.devRef .tc main_arg10)) :=
  unary_at ops_writes 152 main_arg10 main_v103 (broadcastInDim S1x64 ![1] bcast_S64_S1x64_1 : (⟨S64, .f32⟩ : BufTy).Contents (Elt F) → (⟨S1x64, .f32⟩ : BufTy).Contents (Elt F)) _ _ rfl _ (by decide) (by decide)

theorem W_main_v104 (m : (ℓ : Loc nD τ sig) → Buf (Elt F) ℓ) (d : Dev nD) :
    W m d (Proc.devRef .tc main_v104)
      = (broadcastInDim S100000x64 ![0, 1] bcast_S1x64_S100000x64_0_1 : (⟨S1x64, .f32⟩ : BufTy).Contents (Elt F) → (⟨S100000x64, .f32⟩ : BufTy).Contents (Elt F)) (W m d (Proc.devRef .tc main_v103)) :=
  unary_at ops_writes 153 main_v103 main_v104 (broadcastInDim S100000x64 ![0, 1] bcast_S1x64_S100000x64_0_1 : (⟨S1x64, .f32⟩ : BufTy).Contents (Elt F) → (⟨S100000x64, .f32⟩ : BufTy).Contents (Elt F)) _ _ rfl _ (by decide) (by decide)

theorem W_main_v105 (m : (ℓ : Loc nD τ sig) → Buf (Elt F) ℓ) (d : Dev nD) :
    W m d (Proc.devRef .tc main_v105)
      = (addf : (⟨S100000x64, .f32⟩ : BufTy).Contents (Elt F) → (⟨S100000x64, .f32⟩ : BufTy).Contents (Elt F) → (⟨S100000x64, .f32⟩ : BufTy).Contents (Elt F)) (W m d (Proc.devRef .tc main_v102)) (W m d (Proc.devRef .tc main_v104)) :=
  binary_at ops_writes 154 main_v102 main_v104 main_v105 (addf : (⟨S100000x64, .f32⟩ : BufTy).Contents (Elt F) → (⟨S100000x64, .f32⟩ : BufTy).Contents (Elt F) → (⟨S100000x64, .f32⟩ : BufTy).Contents (Elt F)) _ _ _ rfl _ (by decide) (by decide) (by decide)

theorem W_main_v106 (m : (ℓ : Loc nD τ sig) → Buf (Elt F) ℓ) (d : Dev nD) :
    W m d (Proc.devRef .tc main_v106)
      = ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) (W m d (Proc.devRef .tc main_v88)) (W m d (Proc.devRef .tc main_arg11)) :=
  binary_at ops_writes 155 main_v88 main_arg11 main_v106 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) _ _ _ rfl _ (by decide) (by decide) (by decide)

theorem W_main_c_20 (m : (ℓ : Loc nD τ sig) → Buf (Elt F) ℓ) (d : Dev nD) :
    W m d (Proc.devRef .tc main_c_20)
      = (constantI S_ 32 0#32) :=
  nullary_at ops_writes 156 main_c_20 (constantI S_ 32 0#32) _ rfl _ (by decide)

theorem W_main_v107 (m : (ℓ : Loc nD τ sig) → Buf (Elt F) ℓ) (d : Dev nD) :
    W m d (Proc.devRef .tc main_v107)
      = (broadcastInDim S900000 ![] bcast_S_S900000 : (⟨S_, .i32⟩ : BufTy).Contents (Elt F) → (⟨S900000, .i32⟩ : BufTy).Contents (Elt F)) (W m d (Proc.devRef .tc main_c_20)) :=
  unary_at ops_writes 157 main_c_20 main_v107 (broadcastInDim S900000 ![] bcast_S_S900000 : (⟨S_, .i32⟩ : BufTy).Contents (Elt F) → (⟨S900000, .i32⟩ : BufTy).Contents (Elt F)) _ _ rfl _ (by decide) (by decide)

theorem W_main_v108 (m : (ℓ : Loc nD τ sig) → Buf (Elt F) ℓ) (d : Dev nD) :
    W m d (Proc.devRef .tc main_v108)
      = (cmpi .slt : (⟨S900000, .i32⟩ : BufTy).Contents (Elt F) → (⟨S900000, .i32⟩ : BufTy).Contents (Elt F) → (⟨S900000, .i1⟩ : BufTy).Contents (Elt F)) (W m d (Proc.devRef .tc main_v3)) (W m d (Proc.devRef .tc main_v107)) :=
  binary_at ops_writes 158 main_v3 main_v107 main_v108 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

theorem W_main_c_21 (m : (ℓ : Loc nD τ sig) → Buf (Elt F) ℓ) (d : Dev nD) :
    W m d (Proc.devRef .tc main_c_21)
      = (constantI S_ 32 100000#32) :=
  nullary_at ops_writes 159 main_c_21 (constantI S_ 32 100000#32) _ rfl _ (by decide)

theorem W_main_v109 (m : (ℓ : Loc nD τ sig) → Buf (Elt F) ℓ) (d : Dev nD) :
    W m d (Proc.devRef .tc main_v109)
      = (broadcastInDim S900000 ![] bcast_S_S900000 : (⟨S_, .i32⟩ : BufTy).Contents (Elt F) → (⟨S900000, .i32⟩ : BufTy).Contents (Elt F)) (W m d (Proc.devRef .tc main_c_21)) :=
  unary_at ops_writes 160 main_c_21 main_v109 (broadcastInDim S900000 ![] bcast_S_S900000 : (⟨S_, .i32⟩ : BufTy).Contents (Elt F) → (⟨S900000, .i32⟩ : BufTy).Contents (Elt F)) _ _ rfl _ (by decide) (by decide)

theorem W_main_v110 (m : (ℓ : Loc nD τ sig) → Buf (Elt F) ℓ) (d : Dev nD) :
    W m d (Proc.devRef .tc main_v110)
      = (addi : (⟨S900000, .i32⟩ : BufTy).Contents (Elt F) → (⟨S900000, .i32⟩ : BufTy).Contents (Elt F) → (⟨S900000, .i32⟩ : BufTy).Contents (Elt F)) (W m d (Proc.devRef .tc main_v3)) (W m d (Proc.devRef .tc main_v109)) :=
  binary_at ops_writes 161 main_v3 main_v109 main_v110 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v111 (m : (ℓ : Loc nD τ sig) → Buf (Elt F) ℓ) (d : Dev nD) :
    W m d (Proc.devRef .tc main_v111)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v108)) (W m d (Proc.devRef .tc main_v110)) (W m d (Proc.devRef .tc main_v3)) :=
  ternary_at ops_writes 162 main_v108 main_v110 main_v3 main_v111 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v112 (m : (ℓ : Loc nD τ sig) → Buf (Elt F) ℓ) (d : Dev nD) :
    W m d (Proc.devRef .tc main_v112)
      = (broadcastInDim S900000x1 ![0] bcast_S900000_S900000x1_0 : (⟨S900000, .i32⟩ : BufTy).Contents (Elt F) → (⟨S900000x1, .i32⟩ : BufTy).Contents (Elt F)) (W m d (Proc.devRef .tc main_v111)) :=
  unary_at ops_writes 163 main_v111 main_v112 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v113 (m : (ℓ : Loc nD τ sig) → Buf (Elt F) ℓ) (d : Dev nD) :
    W m d (Proc.devRef .tc main_v113)
      = ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)) (W m d (Proc.devRef .tc main_v106)) (W m d (Proc.devRef .tc main_v112)) :=
  binary_at ops_writes 164 main_v106 main_v112 main_v113 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)) _ _ _ rfl _ (by decide) (by decide) (by decide)

theorem W_main_v114 (m : (ℓ : Loc nD τ sig) → Buf (Elt F) ℓ) (d : Dev nD) :
    W m d (Proc.devRef .tc main_v114)
      = (broadcastInDim S900000x1 ![0] bcast_S900000_S900000x1_0 : (⟨S900000, .f32⟩ : BufTy).Contents (Elt F) → (⟨S900000x1, .f32⟩ : BufTy).Contents (Elt F)) (W m d (Proc.devRef .tc main_v31)) :=
  unary_at ops_writes 165 main_v31 main_v114 (broadcastInDim S900000x1 ![0] bcast_S900000_S900000x1_0 : (⟨S900000, .f32⟩ : BufTy).Contents (Elt F) → (⟨S900000x1, .f32⟩ : BufTy).Contents (Elt F)) _ _ rfl _ (by decide) (by decide)

theorem W_main_v115 (m : (ℓ : Loc nD τ sig) → Buf (Elt F) ℓ) (d : Dev nD) :
    W m d (Proc.devRef .tc main_v115)
      = (broadcastInDim S900000x64 ![0, 1] bcast_S900000x1_S900000x64_0_1 : (⟨S900000x1, .f32⟩ : BufTy).Contents (Elt F) → (⟨S900000x64, .f32⟩ : BufTy).Contents (Elt F)) (W m d (Proc.devRef .tc main_v114)) :=
  unary_at ops_writes 166 main_v114 main_v115 (broadcastInDim S900000x64 ![0, 1] bcast_S900000x1_S900000x64_0_1 : (⟨S900000x1, .f32⟩ : BufTy).Contents (Elt F) → (⟨S900000x64, .f32⟩ : BufTy).Contents (Elt F)) _ _ rfl _ (by decide) (by decide)

theorem W_main_v116 (m : (ℓ : Loc nD τ sig) → Buf (Elt F) ℓ) (d : Dev nD) :
    W m d (Proc.devRef .tc main_v116)
      = (mulf : (⟨S900000x64, .f32⟩ : BufTy).Contents (Elt F) → (⟨S900000x64, .f32⟩ : BufTy).Contents (Elt F) → (⟨S900000x64, .f32⟩ : BufTy).Contents (Elt F)) (W m d (Proc.devRef .tc main_v113)) (W m d (Proc.devRef .tc main_v115)) :=
  binary_at ops_writes 167 main_v113 main_v115 main_v116 (mulf : (⟨S900000x64, .f32⟩ : BufTy).Contents (Elt F) → (⟨S900000x64, .f32⟩ : BufTy).Contents (Elt F) → (⟨S900000x64, .f32⟩ : BufTy).Contents (Elt F)) _ _ _ rfl _ (by decide) (by decide) (by decide)

theorem W_main_cst_22 (m : (ℓ : Loc nD τ sig) → Buf (Elt F) ℓ) (d : Dev nD) :
    W m d (Proc.devRef .tc main_cst_22)
      = (constant S_ .f32 0x00000000#32) :=
  nullary_at ops_writes 168 main_cst_22 (constant S_ .f32 0x00000000#32) _ rfl _ (by decide)

theorem W_main_v117 (m : (ℓ : Loc nD τ sig) → Buf (Elt F) ℓ) (d : Dev nD) :
    W m d (Proc.devRef .tc main_v117)
      = (broadcastInDim S100000x64 ![] bcast_S_S100000x64 : (⟨S_, .f32⟩ : BufTy).Contents (Elt F) → (⟨S100000x64, .f32⟩ : BufTy).Contents (Elt F)) (W m d (Proc.devRef .tc main_cst_22)) :=
  unary_at ops_writes 169 main_cst_22 main_v117 (broadcastInDim S100000x64 ![] bcast_S_S100000x64 : (⟨S_, .f32⟩ : BufTy).Contents (Elt F) → (⟨S100000x64, .f32⟩ : BufTy).Contents (Elt F)) _ _ rfl _ (by decide) (by decide)

theorem W_main_v118 (m : (ℓ : Loc nD τ sig) → Buf (Elt F) ℓ) (d : Dev nD) :
    W m d (Proc.devRef .tc main_v118)
      = (broadcastInDim S900000x1 ![0] bcast_S900000_S900000x1_0 : (⟨S900000, .i32⟩ : BufTy).Contents (Elt F) → (⟨S900000x1, .i32⟩ : BufTy).Contents (Elt F)) (W m d (Proc.devRef .tc main_v6)) :=
  unary_at ops_writes 170 main_v6 main_v118 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v119 (m : (ℓ : Loc nD τ sig) → Buf (Elt F) ℓ) (d : Dev nD) :
    W m d (Proc.devRef .tc main_v119)
      = ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)) (W m d (Proc.devRef .tc main_v117)) (W m d (Proc.devRef .tc main_v118)) (W m d (Proc.devRef .tc main_v116)) :=
  ternary_at ops_writes 171 main_v117 main_v118 main_v116 main_v119 ((fun x i u => Host.scatterAdd scatter_S100000x64_S900000x1_S900000x64_1_0_0_1 x i u) : (⟨S100000x64, .f32⟩ : BufTy).Contents (Elt F) → (⟨S900000x1, .i32⟩ : BufTy).Contents (Elt F) → (⟨S900000x64, .f32⟩ : BufTy).Contents (Elt F) → (⟨S100000x64, .f32⟩ : BufTy).Contents (Elt F)) _ _ _ _ rfl _ (by decide) (by decide) (by decide) (by decide)

theorem W_main_v120 (m : (ℓ : Loc nD τ sig) → Buf (Elt F) ℓ) (d : Dev nD) :
    W m d (Proc.devRef .tc main_v120)
      = (broadcastInDim S1x64 ![1] bcast_S64_S1x64_1 : (⟨S64, .f32⟩ : BufTy).Contents (Elt F) → (⟨S1x64, .f32⟩ : BufTy).Contents (Elt F)) (W m d (Proc.devRef .tc main_arg12)) :=
  unary_at ops_writes 172 main_arg12 main_v120 (broadcastInDim S1x64 ![1] bcast_S64_S1x64_1 : (⟨S64, .f32⟩ : BufTy).Contents (Elt F) → (⟨S1x64, .f32⟩ : BufTy).Contents (Elt F)) _ _ rfl _ (by decide) (by decide)

theorem W_main_v121 (m : (ℓ : Loc nD τ sig) → Buf (Elt F) ℓ) (d : Dev nD) :
    W m d (Proc.devRef .tc main_v121)
      = (broadcastInDim S100000x64 ![0, 1] bcast_S1x64_S100000x64_0_1 : (⟨S1x64, .f32⟩ : BufTy).Contents (Elt F) → (⟨S100000x64, .f32⟩ : BufTy).Contents (Elt F)) (W m d (Proc.devRef .tc main_v120)) :=
  unary_at ops_writes 173 main_v120 main_v121 (broadcastInDim S100000x64 ![0, 1] bcast_S1x64_S100000x64_0_1 : (⟨S1x64, .f32⟩ : BufTy).Contents (Elt F) → (⟨S100000x64, .f32⟩ : BufTy).Contents (Elt F)) _ _ rfl _ (by decide) (by decide)

theorem W_main_v122 (m : (ℓ : Loc nD τ sig) → Buf (Elt F) ℓ) (d : Dev nD) :
    W m d (Proc.devRef .tc main_v122)
      = (addf : (⟨S100000x64, .f32⟩ : BufTy).Contents (Elt F) → (⟨S100000x64, .f32⟩ : BufTy).Contents (Elt F) → (⟨S100000x64, .f32⟩ : BufTy).Contents (Elt F)) (W m d (Proc.devRef .tc main_v119)) (W m d (Proc.devRef .tc main_v121)) :=
  binary_at ops_writes 174 main_v119 main_v121 main_v122 (addf : (⟨S100000x64, .f32⟩ : BufTy).Contents (Elt F) → (⟨S100000x64, .f32⟩ : BufTy).Contents (Elt F) → (⟨S100000x64, .f32⟩ : BufTy).Contents (Elt F)) _ _ _ rfl _ (by decide) (by decide) (by decide)

/-- An argument is written by no operation. -/
theorem W_main_arg0 (m : (ℓ : Loc nD τ sig) → Buf (Elt F) ℓ) (d : Dev nD) :
    W m d (Proc.devRef .tc main_arg0) = m ((d.tc : Thread nD τ).loc main_arg0) :=
  (after_of_not_mem ops_writes _ (by decide)).trans rfl

/-- An argument is written by no operation. -/
theorem W_main_arg1 (m : (ℓ : Loc nD τ sig) → Buf (Elt F) ℓ) (d : Dev nD) :
    W m d (Proc.devRef .tc main_arg1) = m ((d.tc : Thread nD τ).loc main_arg1) :=
  (after_of_not_mem ops_writes _ (by decide)).trans rfl

/-- An argument is written by no operation. -/
theorem W_main_arg2 (m : (ℓ : Loc nD τ sig) → Buf (Elt F) ℓ) (d : Dev nD) :
    W m d (Proc.devRef .tc main_arg2) = m ((d.tc : Thread nD τ).loc main_arg2) :=
  (after_of_not_mem ops_writes _ (by decide)).trans rfl

/-- An argument is written by no operation. -/
theorem W_main_arg3 (m : (ℓ : Loc nD τ sig) → Buf (Elt F) ℓ) (d : Dev nD) :
    W m d (Proc.devRef .tc main_arg3) = m ((d.tc : Thread nD τ).loc main_arg3) :=
  (after_of_not_mem ops_writes _ (by decide)).trans rfl

/-- An argument is written by no operation. -/
theorem W_main_arg4 (m : (ℓ : Loc nD τ sig) → Buf (Elt F) ℓ) (d : Dev nD) :
    W m d (Proc.devRef .tc main_arg4) = m ((d.tc : Thread nD τ).loc main_arg4) :=
  (after_of_not_mem ops_writes _ (by decide)).trans rfl

/-- An argument is written by no operation. -/
theorem W_main_arg5 (m : (ℓ : Loc nD τ sig) → Buf (Elt F) ℓ) (d : Dev nD) :
    W m d (Proc.devRef .tc main_arg5) = m ((d.tc : Thread nD τ).loc main_arg5) :=
  (after_of_not_mem ops_writes _ (by decide)).trans rfl

/-- An argument is written by no operation. -/
theorem W_main_arg6 (m : (ℓ : Loc nD τ sig) → Buf (Elt F) ℓ) (d : Dev nD) :
    W m d (Proc.devRef .tc main_arg6) = m ((d.tc : Thread nD τ).loc main_arg6) :=
  (after_of_not_mem ops_writes _ (by decide)).trans rfl

/-- An argument is written by no operation. -/
theorem W_main_arg7 (m : (ℓ : Loc nD τ sig) → Buf (Elt F) ℓ) (d : Dev nD) :
    W m d (Proc.devRef .tc main_arg7) = m ((d.tc : Thread nD τ).loc main_arg7) :=
  (after_of_not_mem ops_writes _ (by decide)).trans rfl

/-- An argument is written by no operation. -/
theorem W_main_arg8 (m : (ℓ : Loc nD τ sig) → Buf (Elt F) ℓ) (d : Dev nD) :
    W m d (Proc.devRef .tc main_arg8) = m ((d.tc : Thread nD τ).loc main_arg8) :=
  (after_of_not_mem ops_writes _ (by decide)).trans rfl

/-- An argument is written by no operation. -/
theorem W_main_arg9 (m : (ℓ : Loc nD τ sig) → Buf (Elt F) ℓ) (d : Dev nD) :
    W m d (Proc.devRef .tc main_arg9) = m ((d.tc : Thread nD τ).loc main_arg9) :=
  (after_of_not_mem ops_writes _ (by decide)).trans rfl

/-- An argument is written by no operation. -/
theorem W_main_arg10 (m : (ℓ : Loc nD τ sig) → Buf (Elt F) ℓ) (d : Dev nD) :
    W m d (Proc.devRef .tc main_arg10) = m ((d.tc : Thread nD τ).loc main_arg10) :=
  (after_of_not_mem ops_writes _ (by decide)).trans rfl

/-- An argument is written by no operation. -/
theorem W_main_arg11 (m : (ℓ : Loc nD τ sig) → Buf (Elt F) ℓ) (d : Dev nD) :
    W m d (Proc.devRef .tc main_arg11) = m ((d.tc : Thread nD τ).loc main_arg11) :=
  (after_of_not_mem ops_writes _ (by decide)).trans rfl

/-- An argument is written by no operation. -/
theorem W_main_arg12 (m : (ℓ : Loc nD τ sig) → Buf (Elt F) ℓ) (d : Dev nD) :
    W m d (Proc.devRef .tc main_arg12) = m ((d.tc : Thread nD τ).loc main_arg12) :=
  (after_of_not_mem ops_writes _ (by decide)).trans rfl

end Cert.ReferenceIdeal.RefRun

end
-- ==== Proof.RefEq0a.lean ====
/-
  The reference program in single-assignment form, one equation per operation (operations 1 … 28 of 175):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_v0 (m : (ℓ : Loc nD τ sig) → Buf (Elt F) ℓ) (d : Dev nD) :
    W m d (Proc.devRef .tc main_v0)
      = (iotaInDim S100000 32 0) :=
  nullary_at ops_writes 0 main_v0 (iotaInDim S100000 32 0) _ rfl _ (by decide)

theorem W_main_v1 (m : (ℓ : Loc nD τ sig) → Buf (Elt F) ℓ) (d : Dev nD) :
    W m d (Proc.devRef .tc main_v1)
      = ((extractStridedSlice S1x800000 ![0, 0] · slices_S2x800000_S1x800000_0_0) : (⟨S2x800000, .i32⟩ : BufTy).Contents (Elt F) → (⟨S1x800000, .i32⟩ : BufTy).Contents (Elt F)) (W m d (Proc.devRef .tc main_arg2)) := by
  exact unary_at ops_writes 1 main_arg2 main_v1 ((extractStridedSlice S1x800000 ![0, 0] · slices_S2x800000_S1x800000_0_0) : (⟨S2x800000, .i32⟩ : BufTy).Contents (Elt F) → (⟨S1x800000, .i32⟩ : BufTy).Contents (Elt F)) _ _ rfl _ (by decide) (by decide)

theorem W_main_v2 (m : (ℓ : Loc nD τ sig) → Buf (Elt F) ℓ) (d : Dev nD) :
    W m d (Proc.devRef .tc main_v2)
      = shapeCast S800000 (W m d (Proc.devRef .tc main_v1)) shapeCasts_S1x800000_S800000 :=
  (reshape_at ops_writes 2 main_v1 main_v2 rfl shapeCasts_S1x800000_S800000 _ _ rfl _ (by decide) (by decide)).trans rfl

theorem W_main_v3 (m : (ℓ : Loc nD τ sig) → Buf (Elt F) ℓ) (d : Dev nD) :
    W m d (Proc.devRef .tc main_v3)
      = ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) (W m d (Proc.devRef .tc main_v2)) (W m d (Proc.devRef .tc main_v0)) :=
  binary_at ops_writes 3 main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) _ _ _ rfl _ (by decide) (by decide) (by decide)

theorem W_main_v4 (m : (ℓ : Loc nD τ sig) → Buf (Elt F) ℓ) (d : Dev nD) :
    W m d (Proc.devRef .tc main_v4)
      = ((extractStridedSlice S1x800000 ![1, 0] · slices_S2x800000_S1x800000_1_0) : (⟨S2x800000, .i32⟩ : BufTy).Contents (Elt F) → (⟨S1x800000, .i32⟩ : BufTy).Contents (Elt F)) (W m d (Proc.devRef .tc main_arg2)) := by
  exact unary_at ops_writes 4 main_arg2 main_v4 ((extractStridedSlice S1x800000 ![1, 0] · slices_S2x800000_S1x800000_1_0) : (⟨S2x800000, .i32⟩ : BufTy).Contents (Elt F) → (⟨S1x800000, .i32⟩ : BufTy).Contents (Elt F)) _ _ rfl _ (by decide) (by decide)

theorem W_main_v5 (m : (ℓ : Loc nD τ sig) → Buf (Elt F) ℓ) (d : Dev nD) :
    W m d (Proc.devRef .tc main_v5)
      = shapeCast S800000 (W m d (Proc.devRef .tc main_v4)) shapeCasts_S1x800000_S800000 :=
  (reshape_at ops_writes 5 main_v4 main_v5 rfl shapeCasts_S1x800000_S800000 _ _ rfl _ (by decide) (by decide)).trans rfl

theorem W_main_v6 (m : (ℓ : Loc nD τ sig) → Buf (Elt F) ℓ) (d : Dev nD) :
    W m d (Proc.devRef .tc main_v6)
      = ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) (W m d (Proc.devRef .tc main_v5)) (W m d (Proc.devRef .tc main_v0)) :=
  binary_at ops_writes 6 main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) _ _ _ rfl _ (by decide) (by decide) (by decide)

theorem W_main_cst (m : (ℓ : Loc nD τ sig) → Buf (Elt F) ℓ) (d : Dev nD) :
    W m d (Proc.devRef .tc main_cst)
      = (constant S_ .f32 0x3F800000#32) :=
  nullary_at ops_writes 7 main_cst (constant S_ .f32 0x3F800000#32) _ rfl _ (by decide)

theorem W_main_v7 (m : (ℓ : Loc nD τ sig) → Buf (Elt F) ℓ) (d : Dev nD) :
    W m d (Proc.devRef .tc main_v7)
      = (broadcastInDim S900000 ![] bcast_S_S900000 : (⟨S_, .f32⟩ : BufTy).Contents (Elt F) → (⟨S900000, .f32⟩ : BufTy).Contents (Elt F)) (W m d (Proc.devRef .tc main_cst)) :=
  unary_at ops_writes 8 main_cst main_v7 (broadcastInDim S900000 ![] bcast_S_S900000 : (⟨S_, .f32⟩ : BufTy).Contents (Elt F) → (⟨S900000, .f32⟩ : BufTy).Contents (Elt F)) _ _ rfl _ (by decide) (by decide)

theorem W_main_cst_0 (m : (ℓ : Loc nD τ sig) → Buf (Elt F) ℓ) (d : Dev nD) :
    W m d (Proc.devRef .tc main_cst_0)
      = (constant S_ .f32 0x00000000#32) :=
  nullary_at ops_writes 9 main_cst_0 (constant S_ .f32 0x00000000#32) _ rfl _ (by decide)

theorem W_main_v8 (m : (ℓ : Loc nD τ sig) → Buf (Elt F) ℓ) (d : Dev nD) :
    W m d (Proc.devRef .tc main_v8)
      = (broadcastInDim S100000 ![] bcast_S_S100000 : (⟨S_, .f32⟩ : BufTy).Contents (Elt F) → (⟨S100000, .f32⟩ : BufTy).Contents (Elt F)) (W m d (Proc.devRef .tc main_cst_0)) :=
  unary_at ops_writes 10 main_cst_0 main_v8 (broadcastInDim S100000 ![] bcast_S_S100000 : (⟨S_, .f32⟩ : BufTy).Contents (Elt F) → (⟨S100000, .f32⟩ : BufTy).Contents (Elt F)) _ _ rfl _ (by decide) (by decide)

theorem W_main_v9 (m : (ℓ : Loc nD τ sig) → Buf (Elt F) ℓ) (d : Dev nD) :
    W m d (Proc.devRef .tc main_v9)
      = (broadcastInDim S900000x1 ![0] bcast_S900000_S900000x1_0 : (⟨S900000, .i32⟩ : BufTy).Contents (Elt F) → (⟨S900000x1, .i32⟩ : BufTy).Contents (Elt F)) (W m d (Proc.devRef .tc main_v6)) :=
  unary_at ops_writes 11 main_v6 main_v9 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v10 (m : (ℓ : Loc nD τ sig) → Buf (Elt F) ℓ) (d : Dev nD) :
    W m d (Proc.devRef .tc main_v10)
      = ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)) (W m d (Proc.devRef .tc main_v8)) (W m d (Proc.devRef .tc main_v9)) (W m d (Proc.devRef .tc main_v7)) :=
  ternary_at ops_writes 12 main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)) _ _ _ _ rfl _ (by decide) (by decide) (by decide) (by decide)

theorem W_main_cst_1 (m : (ℓ : Loc nD τ sig) → Buf (Elt F) ℓ) (d : Dev nD) :
    W m d (Proc.devRef .tc main_cst_1)
      = (constant S_ .f32 0x00000000#32) :=
  nullary_at ops_writes 13 main_cst_1 (constant S_ .f32 0x00000000#32) _ rfl _ (by decide)

theorem W_main_v11 (m : (ℓ : Loc nD τ sig) → Buf (Elt F) ℓ) (d : Dev nD) :
    W m d (Proc.devRef .tc main_v11)
      = (broadcastInDim S100000 ![] bcast_S_S100000 : (⟨S_, .f32⟩ : BufTy).Contents (Elt F) → (⟨S100000, .f32⟩ : BufTy).Contents (Elt F)) (W m d (Proc.devRef .tc main_cst_1)) :=
  unary_at ops_writes 14 main_cst_1 main_v11 (broadcastInDim S100000 ![] bcast_S_S100000 : (⟨S_, .f32⟩ : BufTy).Contents (Elt F) → (⟨S100000, .f32⟩ : BufTy).Contents (Elt F)) _ _ rfl _ (by decide) (by decide)

theorem W_main_v12 (m : (ℓ : Loc nD τ sig) → Buf (Elt F) ℓ) (d : Dev nD) :
    W m d (Proc.devRef .tc main_v12)
      = (cmpf .ogt : (⟨S100000, .f32⟩ : BufTy).Contents (Elt F) → (⟨S100000, .f32⟩ : BufTy).Contents (Elt F) → (⟨S100000, .i1⟩ : BufTy).Contents (Elt F)) (W m d (Proc.devRef .tc main_v10)) (W m d (Proc.devRef .tc main_v11)) :=
  binary_at ops_writes 15 main_v10 main_v11 main_v12 (cmpf .ogt : (⟨S100000, .f32⟩ : BufTy).Contents (Elt F) → (⟨S100000, .f32⟩ : BufTy).Contents (Elt F) → (⟨S100000, .i1⟩ : BufTy).Contents (Elt F)) _ _ _ rfl _ (by decide) (by decide) (by decide)

theorem W_main_cst_2 (m : (ℓ : Loc nD τ sig) → Buf (Elt F) ℓ) (d : Dev nD) :
    W m d (Proc.devRef .tc main_cst_2)
      = (constant S_ .f32 0x2B8CBCCC#32) :=
  nullary_at ops_writes 16 main_cst_2 (constant S_ .f32 0x2B8CBCCC#32) _ rfl _ (by decide)

theorem W_main_v13 (m : (ℓ : Loc nD τ sig) → Buf (Elt F) ℓ) (d : Dev nD) :
    W m d (Proc.devRef .tc main_v13)
      = (broadcastInDim S100000 ![] bcast_S_S100000 : (⟨S_, .f32⟩ : BufTy).Contents (Elt F) → (⟨S100000, .f32⟩ : BufTy).Contents (Elt F)) (W m d (Proc.devRef .tc main_cst_2)) :=
  unary_at ops_writes 17 main_cst_2 main_v13 (broadcastInDim S100000 ![] bcast_S_S100000 : (⟨S_, .f32⟩ : BufTy).Contents (Elt F) → (⟨S100000, .f32⟩ : BufTy).Contents (Elt F)) _ _ rfl _ (by decide) (by decide)

theorem W_main_v14 (m : (ℓ : Loc nD τ sig) → Buf (Elt F) ℓ) (d : Dev nD) :
    W m d (Proc.devRef .tc main_v14)
      = (maximumf : (⟨S100000, .f32⟩ : BufTy).Contents (Elt F) → (⟨S100000, .f32⟩ : BufTy).Contents (Elt F) → (⟨S100000, .f32⟩ : BufTy).Contents (Elt F)) (W m d (Proc.devRef .tc main_v10)) (W m d (Proc.devRef .tc main_v13)) :=
  binary_at ops_writes 18 main_v10 main_v13 main_v14 (maximumf : (⟨S100000, .f32⟩ : BufTy).Contents (Elt F) → (⟨S100000, .f32⟩ : BufTy).Contents (Elt F) → (⟨S100000, .f32⟩ : BufTy).Contents (Elt F)) _ _ _ rfl _ (by decide) (by decide) (by decide)

theorem W_main_v15 (m : (ℓ : Loc nD τ sig) → Buf (Elt F) ℓ) (d : Dev nD) :
    W m d (Proc.devRef .tc main_v15)
      = (Host.rsqrt : (⟨S100000, .f32⟩ : BufTy).Contents (Elt F) → (⟨S100000, .f32⟩ : BufTy).Contents (Elt F)) (W m d (Proc.devRef .tc main_v14)) :=
  unary_at ops_writes 19 main_v14 main_v15 (Host.rsqrt : (⟨S100000, .f32⟩ : BufTy).Contents (Elt F) → (⟨S100000, .f32⟩ : BufTy).Contents (Elt F)) _ _ rfl _ (by decide) (by decide)

theorem W_main_cst_3 (m : (ℓ : Loc nD τ sig) → Buf (Elt F) ℓ) (d : Dev nD) :
    W m d (Proc.devRef .tc main_cst_3)
      = (constant S_ .f32 0x00000000#32) :=
  nullary_at ops_writes 20 main_cst_3 (constant S_ .f32 0x00000000#32) _ rfl _ (by decide)

theorem W_main_call0_v0 (m : (ℓ : Loc nD τ sig) → Buf (Elt F) ℓ) (d : Dev nD) :
    W m d (Proc.devRef .tc main_call0_v0)
      = (id : (⟨S_, .f32⟩ : BufTy).Contents (Elt F) → (⟨S_, .f32⟩ : BufTy).Contents (Elt F)) (W m d (Proc.devRef .tc main_cst_3)) :=
  unary_at ops_writes 21 main_cst_3 main_call0_v0 (id : (⟨S_, .f32⟩ : BufTy).Contents (Elt F) → (⟨S_, .f32⟩ : BufTy).Contents (Elt F)) _ _ rfl _ (by decide) (by decide)

theorem W_main_call0_v1 (m : (ℓ : Loc nD τ sig) → Buf (Elt F) ℓ) (d : Dev nD) :
    W m d (Proc.devRef .tc main_call0_v1)
      = ((broadcastInDim S100000 ![] bcast_S_S100000) : (⟨S_, .f32⟩ : BufTy).Contents (Elt F) → (⟨S100000, .f32⟩ : BufTy).Contents (Elt F)) (W m d (Proc.devRef .tc main_call0_v0)) :=
  unary_at ops_writes 22 main_call0_v0 main_call0_v1 ((broadcastInDim S100000 ![] bcast_S_S100000) : (⟨S_, .f32⟩ : BufTy).Contents (Elt F) → (⟨S100000, .f32⟩ : BufTy).Contents (Elt F)) _ _ rfl _ (by decide) (by decide)

theorem W_main_v16 (m : (ℓ : Loc nD τ sig) → Buf (Elt F) ℓ) (d : Dev nD) :
    W m d (Proc.devRef .tc main_v16)
      = (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) (W m d (Proc.devRef .tc main_v12)) (W m d (Proc.devRef .tc main_v15)) (W m d (Proc.devRef .tc main_call0_v1)) :=
  ternary_at ops_writes 23 main_v12 main_v15 main_call0_v1 main_v16 (select : (⟨S100000, .i1⟩ : BufTy).Contents (Elt F) → (⟨S100000, .f32⟩ : BufTy).Contents (Elt F) → (⟨S100000, .f32⟩ : BufTy).Contents (Elt F) → (⟨S100000, .f32⟩ : BufTy).Contents (Elt F)) _ _ _ _ rfl _ (by decide) (by decide) (by decide) (by decide)

theorem W_main_c (m : (ℓ : Loc nD τ sig) → Buf (Elt F) ℓ) (d : Dev nD) :
    W m d (Proc.devRef .tc main_c)
      = (constantI S_ 32 0#32) :=
  nullary_at ops_writes 24 main_c (constantI S_ 32 0#32) _ rfl _ (by decide)

theorem W_main_v17 (m : (ℓ : Loc nD τ sig) → Buf (Elt F) ℓ) (d : Dev nD) :
    W m d (Proc.devRef .tc main_v17)
      = (broadcastInDim S900000 ![] bcast_S_S900000 : (⟨S_, .i32⟩ : BufTy).Contents (Elt F) → (⟨S900000, .i32⟩ : BufTy).Contents (Elt F)) (W m d (Proc.devRef .tc main_c)) :=
  unary_at ops_writes 25 main_c main_v17 (broadcastInDim S900000 ![] bcast_S_S900000 : (⟨S_, .i32⟩ : BufTy).Contents (Elt F) → (⟨S900000, .i32⟩ : BufTy).Contents (Elt F)) _ _ rfl _ (by decide) (by decide)

theorem W_main_v18 (m : (ℓ : Loc nD τ sig) → Buf (Elt F) ℓ) (d : Dev nD) :
    W m d (Proc.devRef .tc main_v18)
      = (cmpi .slt : (⟨S900000, .i32⟩ : BufTy).Contents (Elt F) → (⟨S900000, .i32⟩ : BufTy).Contents (Elt F) → (⟨S900000, .i1⟩ : BufTy).Contents (Elt F)) (W m d (Proc.devRef .tc main_v3)) (W m d (Proc.devRef .tc main_v17)) :=
  binary_at ops_writes 26 main_v3 main_v17 main_v18 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

theorem W_main_c_4 (m : (ℓ : Loc nD τ sig) → Buf (Elt F) ℓ) (d : Dev nD) :
    W m d (Proc.devRef .tc main_c_4)
      = (constantI S_ 32 100000#32) :=
  nullary_at ops_writes 27 main_c_4 (constantI S_ 32 100000#32) _ rfl _ (by decide)

end Cert.ReferenceIdeal.RefRun

end
-- ==== Proof.RefEq0b.lean ====
/-
  The reference program in single-assignment form, one equation per operation (operations 29 … 56 of 175):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_v19 (m : (ℓ : Loc nD τ sig) → Buf (Elt F) ℓ) (d : Dev nD) :
    W m d (Proc.devRef .tc main_v19)
      = (broadcastInDim S900000 ![] bcast_S_S900000 : (⟨S_, .i32⟩ : BufTy).Contents (Elt F) → (⟨S900000, .i32⟩ : BufTy).Contents (Elt F)) (W m d (Proc.devRef .tc main_c_4)) :=
  unary_at ops_writes 28 main_c_4 main_v19 (broadcastInDim S900000 ![] bcast_S_S900000 : (⟨S_, .i32⟩ : BufTy).Contents (Elt F) → (⟨S900000, .i32⟩ : BufTy).Contents (Elt F)) _ _ rfl _ (by decide) (by decide)

theorem W_main_v20 (m : (ℓ : Loc nD τ sig) → Buf (Elt F) ℓ) (d : Dev nD) :
    W m d (Proc.devRef .tc main_v20)
      = (addi : (⟨S900000, .i32⟩ : BufTy).Contents (Elt F) → (⟨S900000, .i32⟩ : BufTy).Contents (Elt F) → (⟨S900000, .i32⟩ : BufTy).Contents (Elt F)) (W m d (Proc.devRef .tc main_v3)) (W m d (Proc.devRef .tc main_v19)) :=
  binary_at ops_writes 29 main_v3 main_v19 main_v20 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v21 (m : (ℓ : Loc nD τ sig) → Buf (Elt F) ℓ) (d : Dev nD) :
    W m d (Proc.devRef .tc main_v21)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v18)) (W m d (Proc.devRef .tc main_v20)) (W m d (Proc.devRef .tc main_v3)) :=
  ternary_at ops_writes 30 main_v18 main_v20 main_v3 main_v21 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v22 (m : (ℓ : Loc nD τ sig) → Buf (Elt F) ℓ) (d : Dev nD) :
    W m d (Proc.devRef .tc main_v22)
      = (broadcastInDim S900000x1 ![0] bcast_S900000_S900000x1_0 : (⟨S900000, .i32⟩ : BufTy).Contents (Elt F) → (⟨S900000x1, .i32⟩ : BufTy).Contents (Elt F)) (W m d (Proc.devRef .tc main_v21)) :=
  unary_at ops_writes 31 main_v21 main_v22 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v23 (m : (ℓ : Loc nD τ sig) → Buf (Elt F) ℓ) (d : Dev nD) :
    W m d (Proc.devRef .tc main_v23)
      = ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)) (W m d (Proc.devRef .tc main_v16)) (W m d (Proc.devRef .tc main_v22)) :=
  binary_at ops_writes 32 main_v16 main_v22 main_v23 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)) _ _ _ rfl _ (by decide) (by decide) (by decide)

theorem W_main_c_5 (m : (ℓ : Loc nD τ sig) → Buf (Elt F) ℓ) (d : Dev nD) :
    W m d (Proc.devRef .tc main_c_5)
      = (constantI S_ 32 0#32) :=
  nullary_at ops_writes 33 main_c_5 (constantI S_ 32 0#32) _ rfl _ (by decide)

theorem W_main_v24 (m : (ℓ : Loc nD τ sig) → Buf (Elt F) ℓ) (d : Dev nD) :
    W m d (Proc.devRef .tc main_v24)
      = (broadcastInDim S900000 ![] bcast_S_S900000 : (⟨S_, .i32⟩ : BufTy).Contents (Elt F) → (⟨S900000, .i32⟩ : BufTy).Contents (Elt F)) (W m d (Proc.devRef .tc main_c_5)) :=
  unary_at ops_writes 34 main_c_5 main_v24 (broadcastInDim S900000 ![] bcast_S_S900000 : (⟨S_, .i32⟩ : BufTy).Contents (Elt F) → (⟨S900000, .i32⟩ : BufTy).Contents (Elt F)) _ _ rfl _ (by decide) (by decide)

theorem W_main_v25 (m : (ℓ : Loc nD τ sig) → Buf (Elt F) ℓ) (d : Dev nD) :
    W m d (Proc.devRef .tc main_v25)
      = (cmpi .slt : (⟨S900000, .i32⟩ : BufTy).Contents (Elt F) → (⟨S900000, .i32⟩ : BufTy).Contents (Elt F) → (⟨S900000, .i1⟩ : BufTy).Contents (Elt F)) (W m d (Proc.devRef .tc main_v6)) (W m d (Proc.devRef .tc main_v24)) :=
  binary_at ops_writes 35 main_v6 main_v24 main_v25 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

theorem W_main_c_6 (m : (ℓ : Loc nD τ sig) → Buf (Elt F) ℓ) (d : Dev nD) :
    W m d (Proc.devRef .tc main_c_6)
      = (constantI S_ 32 100000#32) :=
  nullary_at ops_writes 36 main_c_6 (constantI S_ 32 100000#32) _ rfl _ (by decide)

theorem W_main_v26 (m : (ℓ : Loc nD τ sig) → Buf (Elt F) ℓ) (d : Dev nD) :
    W m d (Proc.devRef .tc main_v26)
      = (broadcastInDim S900000 ![] bcast_S_S900000 : (⟨S_, .i32⟩ : BufTy).Contents (Elt F) → (⟨S900000, .i32⟩ : BufTy).Contents (Elt F)) (W m d (Proc.devRef .tc main_c_6)) :=
  unary_at ops_writes 37 main_c_6 main_v26 (broadcastInDim S900000 ![] bcast_S_S900000 : (⟨S_, .i32⟩ : BufTy).Contents (Elt F) → (⟨S900000, .i32⟩ : BufTy).Contents (Elt F)) _ _ rfl _ (by decide) (by decide)

theorem W_main_v27 (m : (ℓ : Loc nD τ sig) → Buf (Elt F) ℓ) (d : Dev nD) :
    W m d (Proc.devRef .tc main_v27)
      = (addi : (⟨S900000, .i32⟩ : BufTy).Contents (Elt F) → (⟨S900000, .i32⟩ : BufTy).Contents (Elt F) → (⟨S900000, .i32⟩ : BufTy).Contents (Elt F)) (W m d (Proc.devRef .tc main_v6)) (W m d (Proc.devRef .tc main_v26)) :=
  binary_at ops_writes 38 main_v6 main_v26 main_v27 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v28 (m : (ℓ : Loc nD τ sig) → Buf (Elt F) ℓ) (d : Dev nD) :
    W m d (Proc.devRef .tc main_v28)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v25)) (W m d (Proc.devRef .tc main_v27)) (W m d (Proc.devRef .tc main_v6)) :=
  ternary_at ops_writes 39 main_v25 main_v27 main_v6 main_v28 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v29 (m : (ℓ : Loc nD τ sig) → Buf (Elt F) ℓ) (d : Dev nD) :
    W m d (Proc.devRef .tc main_v29)
      = (broadcastInDim S900000x1 ![0] bcast_S900000_S900000x1_0 : (⟨S900000, .i32⟩ : BufTy).Contents (Elt F) → (⟨S900000x1, .i32⟩ : BufTy).Contents (Elt F)) (W m d (Proc.devRef .tc main_v28)) :=
  unary_at ops_writes 40 main_v28 main_v29 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v30 (m : (ℓ : Loc nD τ sig) → Buf (Elt F) ℓ) (d : Dev nD) :
    W m d (Proc.devRef .tc main_v30)
      = ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)) (W m d (Proc.devRef .tc main_v16)) (W m d (Proc.devRef .tc main_v29)) :=
  binary_at ops_writes 41 main_v16 main_v29 main_v30 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)) _ _ _ rfl _ (by decide) (by decide) (by decide)

theorem W_main_v31 (m : (ℓ : Loc nD τ sig) → Buf (Elt F) ℓ) (d : Dev nD) :
    W m d (Proc.devRef .tc main_v31)
      = (mulf : (⟨S900000, .f32⟩ : BufTy).Contents (Elt F) → (⟨S900000, .f32⟩ : BufTy).Contents (Elt F) → (⟨S900000, .f32⟩ : BufTy).Contents (Elt F)) (W m d (Proc.devRef .tc main_v23)) (W m d (Proc.devRef .tc main_v30)) :=
  binary_at ops_writes 42 main_v23 main_v30 main_v31 (mulf : (⟨S900000, .f32⟩ : BufTy).Contents (Elt F) → (⟨S900000, .f32⟩ : BufTy).Contents (Elt F) → (⟨S900000, .f32⟩ : BufTy).Contents (Elt F)) _ _ _ rfl _ (by decide) (by decide) (by decide)

theorem W_main_cst_7 (m : (ℓ : Loc nD τ sig) → Buf (Elt F) ℓ) (d : Dev nD) :
    W m d (Proc.devRef .tc main_cst_7)
      = (constant S_ .f32 0x00000000#32) :=
  nullary_at ops_writes 43 main_cst_7 (constant S_ .f32 0x00000000#32) _ rfl _ (by decide)

theorem W_main_v32 (m : (ℓ : Loc nD τ sig) → Buf (Elt F) ℓ) (d : Dev nD) :
    W m d (Proc.devRef .tc main_v32)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W m d (Proc.devRef .tc main_arg0)) (W m d (Proc.devRef .tc main_cst_7)) :=
  binary_at ops_writes 44 main_arg0 main_cst_7 main_v32 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl _ (by decide) (by decide) (by decide)

theorem W_main_cst_8 (m : (ℓ : Loc nD τ sig) → Buf (Elt F) ℓ) (d : Dev nD) :
    W m d (Proc.devRef .tc main_cst_8)
      = (constant S_ .f32 0x47C35000#32) :=
  nullary_at ops_writes 45 main_cst_8 (constant S_ .f32 0x47C35000#32) _ rfl _ (by decide)

theorem W_main_v33 (m : (ℓ : Loc nD τ sig) → Buf (Elt F) ℓ) (d : Dev nD) :
    W m d (Proc.devRef .tc main_v33)
      = (broadcastInDim S128 ![] bcast_S_S128 : (⟨S_, .f32⟩ : BufTy).Contents (Elt F) → (⟨S128, .f32⟩ : BufTy).Contents (Elt F)) (W m d (Proc.devRef .tc main_cst_8)) :=
  unary_at ops_writes 46 main_cst_8 main_v33 (broadcastInDim S128 ![] bcast_S_S128 : (⟨S_, .f32⟩ : BufTy).Contents (Elt F) → (⟨S128, .f32⟩ : BufTy).Contents (Elt F)) _ _ rfl _ (by decide) (by decide)

theorem W_main_v34 (m : (ℓ : Loc nD τ sig) → Buf (Elt F) ℓ) (d : Dev nD) :
    W m d (Proc.devRef .tc main_v34)
      = (Host.divf : (⟨S128, .f32⟩ : BufTy).Contents (Elt F) → (⟨S128, .f32⟩ : BufTy).Contents (Elt F) → (⟨S128, .f32⟩ : BufTy).Contents (Elt F)) (W m d (Proc.devRef .tc main_v32)) (W m d (Proc.devRef .tc main_v33)) :=
  binary_at ops_writes 47 main_v32 main_v33 main_v34 (Host.divf : (⟨S128, .f32⟩ : BufTy).Contents (Elt F) → (⟨S128, .f32⟩ : BufTy).Contents (Elt F) → (⟨S128, .f32⟩ : BufTy).Contents (Elt F)) _ _ _ rfl _ (by decide) (by decide) (by decide)

theorem W_main_c_9 (m : (ℓ : Loc nD τ sig) → Buf (Elt F) ℓ) (d : Dev nD) :
    W m d (Proc.devRef .tc main_c_9)
      = (constantI S_ 32 0#32) :=
  nullary_at ops_writes 48 main_c_9 (constantI S_ 32 0#32) _ rfl _ (by decide)

theorem W_main_call1_cst (m : (ℓ : Loc nD τ sig) → Buf (Elt F) ℓ) (d : Dev nD) :
    W m d (Proc.devRef .tc main_call1_cst)
      = ((constant S_ .f32 0x00000000#32) : (⟨S_, .f32⟩ : BufTy).Contents (Elt F)) :=
  nullary_at ops_writes 49 main_call1_cst ((constant S_ .f32 0x00000000#32) : (⟨S_, .f32⟩ : BufTy).Contents (Elt F)) _ rfl _ (by decide)

theorem W_main_call1_v0 (m : (ℓ : Loc nD τ sig) → Buf (Elt F) ℓ) (d : Dev nD) :
    W m d (Proc.devRef .tc main_call1_v0)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W m d (Proc.devRef .tc main_arg0)) (W m d (Proc.devRef .tc main_call1_cst)) :=
  binary_at ops_writes 50 main_arg0 main_call1_cst main_call1_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl _ (by decide) (by decide) (by decide)

theorem W_main_call1_v1 (m : (ℓ : Loc nD τ sig) → Buf (Elt F) ℓ) (d : Dev nD) :
    W m d (Proc.devRef .tc main_call1_v1)
      = ((broadcastInDim S1x128 ![1] bcast_S128_S1x128_1) : (⟨S128, .f32⟩ : BufTy).Contents (Elt F) → (⟨S1x128, .f32⟩ : BufTy).Contents (Elt F)) (W m d (Proc.devRef .tc main_call1_v0)) :=
  unary_at ops_writes 51 main_call1_v0 main_call1_v1 ((broadcastInDim S1x128 ![1] bcast_S128_S1x128_1) : (⟨S128, .f32⟩ : BufTy).Contents (Elt F) → (⟨S1x128, .f32⟩ : BufTy).Contents (Elt F)) _ _ rfl _ (by decide) (by decide)

theorem W_main_call1_cst_0 (m : (ℓ : Loc nD τ sig) → Buf (Elt F) ℓ) (d : Dev nD) :
    W m d (Proc.devRef .tc main_call1_cst_0)
      = ((constant S_ .f32 0x47C35000#32) : (⟨S_, .f32⟩ : BufTy).Contents (Elt F)) :=
  nullary_at ops_writes 52 main_call1_cst_0 ((constant S_ .f32 0x47C35000#32) : (⟨S_, .f32⟩ : BufTy).Contents (Elt F)) _ rfl _ (by decide)

theorem W_main_call1_v2 (m : (ℓ : Loc nD τ sig) → Buf (Elt F) ℓ) (d : Dev nD) :
    W m d (Proc.devRef .tc main_call1_v2)
      = ((broadcastInDim S1x128 ![] bcast_S_S1x128) : (⟨S_, .f32⟩ : BufTy).Contents (Elt F) → (⟨S1x128, .f32⟩ : BufTy).Contents (Elt F)) (W m d (Proc.devRef .tc main_call1_cst_0)) :=
  unary_at ops_writes 53 main_call1_cst_0 main_call1_v2 ((broadcastInDim S1x128 ![] bcast_S_S1x128) : (⟨S_, .f32⟩ : BufTy).Contents (Elt F) → (⟨S1x128, .f32⟩ : BufTy).Contents (Elt F)) _ _ rfl _ (by decide) (by decide)

theorem W_main_call1_v3 (m : (ℓ : Loc nD τ sig) → Buf (Elt F) ℓ) (d : Dev nD) :
    W m d (Proc.devRef .tc main_call1_v3)
      = (Host.divf : (⟨S1x128, .f32⟩ : BufTy).Contents (Elt F) → (⟨S1x128, .f32⟩ : BufTy).Contents (Elt F) → (⟨S1x128, .f32⟩ : BufTy).Contents (Elt F)) (W m d (Proc.devRef .tc main_call1_v1)) (W m d (Proc.devRef .tc main_call1_v2)) :=
  binary_at ops_writes 54 main_call1_v1 main_call1_v2 main_call1_v3 (Host.divf : (⟨S1x128, .f32⟩ : BufTy).Contents (Elt F) → (⟨S1x128, .f32⟩ : BufTy).Contents (Elt F) → (⟨S1x128, .f32⟩ : BufTy).Contents (Elt F)) _ _ _ rfl _ (by decide) (by decide) (by decide)

theorem W_main_call1_v4 (m : (ℓ : Loc nD τ sig) → Buf (Elt F) ℓ) (d : Dev nD) :
    W m d (Proc.devRef .tc main_call1_v4)
      = ((broadcastInDim S100000x128 ![0, 1] bcast_S1x128_S100000x128_0_1) : (⟨S1x128, .f32⟩ : BufTy).Contents (Elt F) → (⟨S100000x128, .f32⟩ : BufTy).Contents (Elt F)) (W m d (Proc.devRef .tc main_call1_v3)) :=
  unary_at ops_writes 55 main_call1_v3 main_call1_v4 ((broadcastInDim S100000x128 ![0, 1] bcast_S1x128_S100000x128_0_1) : (⟨S1x128, .f32⟩ : BufTy).Contents (Elt F) → (⟨S100000x128, .f32⟩ : BufTy).Contents (Elt F)) _ _ rfl _ (by decide) (by decide)

end Cert.ReferenceIdeal.RefRun

end
-- ==== Proof.RefEq0c.lean ====
/-
  The reference program in single-assignment form, one equation per operation (operations 57 … 83 of 175):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_call1_v5 (m : (ℓ : Loc nD τ sig) → Buf (Elt F) ℓ) (d : Dev nD) :
    W m d (Proc.devRef .tc main_call1_v5)
      = (subf : (⟨S100000x128, .f32⟩ : BufTy).Contents (Elt F) → (⟨S100000x128, .f32⟩ : BufTy).Contents (Elt F) → (⟨S100000x128, .f32⟩ : BufTy).Contents (Elt F)) (W m d (Proc.devRef .tc main_arg0)) (W m d (Proc.devRef .tc main_call1_v4)) :=
  binary_at ops_writes 56 main_arg0 main_call1_v4 main_call1_v5 (subf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_call1_v6 (m : (ℓ : Loc nD τ sig) → Buf (Elt F) ℓ) (d : Dev nD) :
    W m d (Proc.devRef .tc main_call1_v6)
      = (mulf : (⟨S100000x128, .f32⟩ : BufTy).Contents (Elt F) → (⟨S100000x128, .f32⟩ : BufTy).Contents (Elt F) → (⟨S100000x128, .f32⟩ : BufTy).Contents (Elt F)) (W m d (Proc.devRef .tc main_call1_v5)) (W m d (Proc.devRef .tc main_call1_v5)) :=
  binary_at ops_writes 57 main_call1_v5 main_call1_v5 main_call1_v6 (mulf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_call1_v7 (m : (ℓ : Loc nD τ sig) → Buf (Elt F) ℓ) (d : Dev nD) :
    W m d (Proc.devRef .tc main_call1_v7)
      = ((sitofp .f32) : (⟨S_, .i32⟩ : BufTy).Contents (Elt F) → (⟨S_, .f32⟩ : BufTy).Contents (Elt F)) (W m d (Proc.devRef .tc main_c_9)) :=
  unary_at ops_writes 58 main_c_9 main_call1_v7 ((sitofp .f32) : (⟨S_, .i32⟩ : BufTy).Contents (Elt F) → (⟨S_, .f32⟩ : BufTy).Contents (Elt F)) _ _ rfl _ (by decide) (by decide)

theorem W_main_call1_cst_1 (m : (ℓ : Loc nD τ sig) → Buf (Elt F) ℓ) (d : Dev nD) :
    W m d (Proc.devRef .tc main_call1_cst_1)
      = ((constant S_ .f32 0x47C35000#32) : (⟨S_, .f32⟩ : BufTy).Contents (Elt F)) :=
  nullary_at ops_writes 59 main_call1_cst_1 ((constant S_ .f32 0x47C35000#32) : (⟨S_, .f32⟩ : BufTy).Contents (Elt F)) _ rfl _ (by decide)

theorem W_main_call1_v8 (m : (ℓ : Loc nD τ sig) → Buf (Elt F) ℓ) (d : Dev nD) :
    W m d (Proc.devRef .tc main_call1_v8)
      = (subf : (⟨S_, .f32⟩ : BufTy).Contents (Elt F) → (⟨S_, .f32⟩ : BufTy).Contents (Elt F) → (⟨S_, .f32⟩ : BufTy).Contents (Elt F)) (W m d (Proc.devRef .tc main_call1_cst_1)) (W m d (Proc.devRef .tc main_call1_v7)) :=
  binary_at ops_writes 60 main_call1_cst_1 main_call1_v7 main_call1_v8 (subf : (⟨S_, .f32⟩ : BufTy).Contents (Elt F) → (⟨S_, .f32⟩ : BufTy).Contents (Elt F) → (⟨S_, .f32⟩ : BufTy).Contents (Elt F)) _ _ _ rfl _ (by decide) (by decide) (by decide)

theorem W_main_call1_cst_2 (m : (ℓ : Loc nD τ sig) → Buf (Elt F) ℓ) (d : Dev nD) :
    W m d (Proc.devRef .tc main_call1_cst_2)
      = ((constant S_ .f32 0x00000000#32) : (⟨S_, .f32⟩ : BufTy).Contents (Elt F)) :=
  nullary_at ops_writes 61 main_call1_cst_2 ((constant S_ .f32 0x00000000#32) : (⟨S_, .f32⟩ : BufTy).Contents (Elt F)) _ rfl _ (by decide)

theorem W_main_call1_v9 (m : (ℓ : Loc nD τ sig) → Buf (Elt F) ℓ) (d : Dev nD) :
    W m d (Proc.devRef .tc main_call1_v9)
      = ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) (W m d (Proc.devRef .tc main_call1_v6)) (W m d (Proc.devRef .tc main_call1_cst_2)) :=
  binary_at ops_writes 62 main_call1_v6 main_call1_cst_2 main_call1_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)) _ _ _ rfl _ (by decide) (by decide) (by decide)

theorem W_main_call1_v10 (m : (ℓ : Loc nD τ sig) → Buf (Elt F) ℓ) (d : Dev nD) :
    W m d (Proc.devRef .tc main_call1_v10)
      = ((broadcastInDim S128 ![] bcast_S_S128) : (⟨S_, .f32⟩ : BufTy).Contents (Elt F) → (⟨S128, .f32⟩ : BufTy).Contents (Elt F)) (W m d (Proc.devRef .tc main_call1_v8)) :=
  unary_at ops_writes 63 main_call1_v8 main_call1_v10 ((broadcastInDim S128 ![] bcast_S_S128) : (⟨S_, .f32⟩ : BufTy).Contents (Elt F) → (⟨S128, .f32⟩ : BufTy).Contents (Elt F)) _ _ rfl _ (by decide) (by decide)

theorem W_main_call1_v11 (m : (ℓ : Loc nD τ sig) → Buf (Elt F) ℓ) (d : Dev nD) :
    W m d (Proc.devRef .tc main_call1_v11)
      = (Host.divf : (⟨S128, .f32⟩ : BufTy).Contents (Elt F) → (⟨S128, .f32⟩ : BufTy).Contents (Elt F) → (⟨S128, .f32⟩ : BufTy).Contents (Elt F)) (W m d (Proc.devRef .tc main_call1_v9)) (W m d (Proc.devRef .tc main_call1_v10)) :=
  binary_at ops_writes 64 main_call1_v9 main_call1_v10 main_call1_v11 (Host.divf : (⟨S128, .f32⟩ : BufTy).Contents (Elt F) → (⟨S128, .f32⟩ : BufTy).Contents (Elt F) → (⟨S128, .f32⟩ : BufTy).Contents (Elt F)) _ _ _ rfl _ (by decide) (by decide) (by decide)

theorem W_main_call1_cst_3 (m : (ℓ : Loc nD τ sig) → Buf (Elt F) ℓ) (d : Dev nD) :
    W m d (Proc.devRef .tc main_call1_cst_3)
      = ((constant S_ .f32 0x00000000#32) : (⟨S_, .f32⟩ : BufTy).Contents (Elt F)) :=
  nullary_at ops_writes 65 main_call1_cst_3 ((constant S_ .f32 0x00000000#32) : (⟨S_, .f32⟩ : BufTy).Contents (Elt F)) _ rfl _ (by decide)

theorem W_main_call1_v12 (m : (ℓ : Loc nD τ sig) → Buf (Elt F) ℓ) (d : Dev nD) :
    W m d (Proc.devRef .tc main_call1_v12)
      = ((cmpf .ogt) : (⟨S_, .f32⟩ : BufTy).Contents (Elt F) → (⟨S_, .f32⟩ : BufTy).Contents (Elt F) → (⟨S_, .i1⟩ : BufTy).Contents (Elt F)) (W m d (Proc.devRef .tc main_call1_v8)) (W m d (Proc.devRef .tc main_call1_cst_3)) :=
  binary_at ops_writes 66 main_call1_v8 main_call1_cst_3 main_call1_v12 ((cmpf .ogt) : (⟨S_, .f32⟩ : BufTy).Contents (Elt F) → (⟨S_, .f32⟩ : BufTy).Contents (Elt F) → (⟨S_, .i1⟩ : BufTy).Contents (Elt F)) _ _ _ rfl _ (by decide) (by decide) (by decide)

theorem W_main_call1_cst_4 (m : (ℓ : Loc nD τ sig) → Buf (Elt F) ℓ) (d : Dev nD) :
    W m d (Proc.devRef .tc main_call1_cst_4)
      = ((constant S_ .f32 0x7FC00000#32) : (⟨S_, .f32⟩ : BufTy).Contents (Elt F)) :=
  nullary_at ops_writes 67 main_call1_cst_4 ((constant S_ .f32 0x7FC00000#32) : (⟨S_, .f32⟩ : BufTy).Contents (Elt F)) _ rfl _ (by decide)

theorem W_main_call1_call0_v0 (m : (ℓ : Loc nD τ sig) → Buf (Elt F) ℓ) (d : Dev nD) :
    W m d (Proc.devRef .tc main_call1_call0_v0)
      = (id : (⟨S_, .f32⟩ : BufTy).Contents (Elt F) → (⟨S_, .f32⟩ : BufTy).Contents (Elt F)) (W m d (Proc.devRef .tc main_call1_cst_4)) :=
  unary_at ops_writes 68 main_call1_cst_4 main_call1_call0_v0 (id : (⟨S_, .f32⟩ : BufTy).Contents (Elt F) → (⟨S_, .f32⟩ : BufTy).Contents (Elt F)) _ _ rfl _ (by decide) (by decide)

theorem W_main_call1_call0_v1 (m : (ℓ : Loc nD τ sig) → Buf (Elt F) ℓ) (d : Dev nD) :
    W m d (Proc.devRef .tc main_call1_call0_v1)
      = ((broadcastInDim S128 ![] bcast_S_S128) : (⟨S_, .f32⟩ : BufTy).Contents (Elt F) → (⟨S128, .f32⟩ : BufTy).Contents (Elt F)) (W m d (Proc.devRef .tc main_call1_call0_v0)) :=
  unary_at ops_writes 69 main_call1_call0_v0 main_call1_call0_v1 ((broadcastInDim S128 ![] bcast_S_S128) : (⟨S_, .f32⟩ : BufTy).Contents (Elt F) → (⟨S128, .f32⟩ : BufTy).Contents (Elt F)) _ _ rfl _ (by decide) (by decide)

theorem W_main_v35 (m : (ℓ : Loc nD τ sig) → Buf (Elt F) ℓ) (d : Dev nD) :
    W m d (Proc.devRef .tc main_v35)
      = ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) (W m d (Proc.devRef .tc main_call1_v12)) (W m d (Proc.devRef .tc main_call1_v11)) (W m d (Proc.devRef .tc main_call1_call0_v1)) :=
  ternary_at ops_writes 70 main_call1_v12 main_call1_v11 main_call1_call0_v1 main_v35 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)) _ _ _ _ rfl _ (by decide) (by decide) (by decide) (by decide)

theorem W_main_v36 (m : (ℓ : Loc nD τ sig) → Buf (Elt F) ℓ) (d : Dev nD) :
    W m d (Proc.devRef .tc main_v36)
      = (broadcastInDim S1x128 ![1] bcast_S128_S1x128_1 : (⟨S128, .f32⟩ : BufTy).Contents (Elt F) → (⟨S1x128, .f32⟩ : BufTy).Contents (Elt F)) (W m d (Proc.devRef .tc main_v34)) :=
  unary_at ops_writes 71 main_v34 main_v36 (broadcastInDim S1x128 ![1] bcast_S128_S1x128_1 : (⟨S128, .f32⟩ : BufTy).Contents (Elt F) → (⟨S1x128, .f32⟩ : BufTy).Contents (Elt F)) _ _ rfl _ (by decide) (by decide)

theorem W_main_v37 (m : (ℓ : Loc nD τ sig) → Buf (Elt F) ℓ) (d : Dev nD) :
    W m d (Proc.devRef .tc main_v37)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v36)) :=
  unary_at ops_writes 72 main_v36 main_v37 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

theorem W_main_v38 (m : (ℓ : Loc nD τ sig) → Buf (Elt F) ℓ) (d : Dev nD) :
    W m d (Proc.devRef .tc main_v38)
      = (subf : (⟨S100000x128, .f32⟩ : BufTy).Contents (Elt F) → (⟨S100000x128, .f32⟩ : BufTy).Contents (Elt F) → (⟨S100000x128, .f32⟩ : BufTy).Contents (Elt F)) (W m d (Proc.devRef .tc main_arg0)) (W m d (Proc.devRef .tc main_v37)) :=
  binary_at ops_writes 73 main_arg0 main_v37 main_v38 (subf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_cst_10 (m : (ℓ : Loc nD τ sig) → Buf (Elt F) ℓ) (d : Dev nD) :
    W m d (Proc.devRef .tc main_cst_10)
      = (constant S_ .f32 0x3727C5AC#32) :=
  nullary_at ops_writes 74 main_cst_10 (constant S_ .f32 0x3727C5AC#32) _ rfl _ (by decide)

theorem W_main_v39 (m : (ℓ : Loc nD τ sig) → Buf (Elt F) ℓ) (d : Dev nD) :
    W m d (Proc.devRef .tc main_v39)
      = (broadcastInDim S128 ![] bcast_S_S128 : (⟨S_, .f32⟩ : BufTy).Contents (Elt F) → (⟨S128, .f32⟩ : BufTy).Contents (Elt F)) (W m d (Proc.devRef .tc main_cst_10)) :=
  unary_at ops_writes 75 main_cst_10 main_v39 (broadcastInDim S128 ![] bcast_S_S128 : (⟨S_, .f32⟩ : BufTy).Contents (Elt F) → (⟨S128, .f32⟩ : BufTy).Contents (Elt F)) _ _ rfl _ (by decide) (by decide)

theorem W_main_v40 (m : (ℓ : Loc nD τ sig) → Buf (Elt F) ℓ) (d : Dev nD) :
    W m d (Proc.devRef .tc main_v40)
      = (addf : (⟨S128, .f32⟩ : BufTy).Contents (Elt F) → (⟨S128, .f32⟩ : BufTy).Contents (Elt F) → (⟨S128, .f32⟩ : BufTy).Contents (Elt F)) (W m d (Proc.devRef .tc main_v35)) (W m d (Proc.devRef .tc main_v39)) :=
  binary_at ops_writes 76 main_v35 main_v39 main_v40 (addf : (⟨S128, .f32⟩ : BufTy).Contents (Elt F) → (⟨S128, .f32⟩ : BufTy).Contents (Elt F) → (⟨S128, .f32⟩ : BufTy).Contents (Elt F)) _ _ _ rfl _ (by decide) (by decide) (by decide)

theorem W_main_v41 (m : (ℓ : Loc nD τ sig) → Buf (Elt F) ℓ) (d : Dev nD) :
    W m d (Proc.devRef .tc main_v41)
      = (Host.rsqrt : (⟨S128, .f32⟩ : BufTy).Contents (Elt F) → (⟨S128, .f32⟩ : BufTy).Contents (Elt F)) (W m d (Proc.devRef .tc main_v40)) :=
  unary_at ops_writes 77 main_v40 main_v41 (Host.rsqrt : (⟨S128, .f32⟩ : BufTy).Contents (Elt F) → (⟨S128, .f32⟩ : BufTy).Contents (Elt F)) _ _ rfl _ (by decide) (by decide)

theorem W_main_v42 (m : (ℓ : Loc nD τ sig) → Buf (Elt F) ℓ) (d : Dev nD) :
    W m d (Proc.devRef .tc main_v42)
      = (broadcastInDim S1x128 ![1] bcast_S128_S1x128_1 : (⟨S128, .f32⟩ : BufTy).Contents (Elt F) → (⟨S1x128, .f32⟩ : BufTy).Contents (Elt F)) (W m d (Proc.devRef .tc main_v41)) :=
  unary_at ops_writes 78 main_v41 main_v42 (broadcastInDim S1x128 ![1] bcast_S128_S1x128_1 : (⟨S128, .f32⟩ : BufTy).Contents (Elt F) → (⟨S1x128, .f32⟩ : BufTy).Contents (Elt F)) _ _ rfl _ (by decide) (by decide)

theorem W_main_v43 (m : (ℓ : Loc nD τ sig) → Buf (Elt F) ℓ) (d : Dev nD) :
    W m d (Proc.devRef .tc main_v43)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v42)) :=
  unary_at ops_writes 79 main_v42 main_v43 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

theorem W_main_v44 (m : (ℓ : Loc nD τ sig) → Buf (Elt F) ℓ) (d : Dev nD) :
    W m d (Proc.devRef .tc main_v44)
      = (mulf : (⟨S100000x128, .f32⟩ : BufTy).Contents (Elt F) → (⟨S100000x128, .f32⟩ : BufTy).Contents (Elt F) → (⟨S100000x128, .f32⟩ : BufTy).Contents (Elt F)) (W m d (Proc.devRef .tc main_v38)) (W m d (Proc.devRef .tc main_v43)) :=
  binary_at ops_writes 80 main_v38 main_v43 main_v44 (mulf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_v45 (m : (ℓ : Loc nD τ sig) → Buf (Elt F) ℓ) (d : Dev nD) :
    W m d (Proc.devRef .tc main_v45)
      = (broadcastInDim S1x128 ![1] bcast_S128_S1x128_1 : (⟨S128, .f32⟩ : BufTy).Contents (Elt F) → (⟨S1x128, .f32⟩ : BufTy).Contents (Elt F)) (W m d (Proc.devRef .tc main_arg3)) :=
  unary_at ops_writes 81 main_arg3 main_v45 (broadcastInDim S1x128 ![1] bcast_S128_S1x128_1 : (⟨S128, .f32⟩ : BufTy).Contents (Elt F) → (⟨S1x128, .f32⟩ : BufTy).Contents (Elt F)) _ _ rfl _ (by decide) (by decide)

theorem W_main_v46 (m : (ℓ : Loc nD τ sig) → Buf (Elt F) ℓ) (d : Dev nD) :
    W m d (Proc.devRef .tc main_v46)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v45)) :=
  unary_at ops_writes 82 main_v45 main_v46 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

end Cert.ReferenceIdeal.RefRun

end
-- ==== Proof.RefEq1a.lean ====
/-
  The reference program in single-assignment form, one equation per operation (operations 84 … 115 of 175):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_v47 (m : (ℓ : Loc nD τ sig) → Buf (Elt F) ℓ) (d : Dev nD) :
    W m d (Proc.devRef .tc main_v47)
      = (mulf : (⟨S100000x128, .f32⟩ : BufTy).Contents (Elt F) → (⟨S100000x128, .f32⟩ : BufTy).Contents (Elt F) → (⟨S100000x128, .f32⟩ : BufTy).Contents (Elt F)) (W m d (Proc.devRef .tc main_v44)) (W m d (Proc.devRef .tc main_v46)) :=
  binary_at ops_writes 83 main_v44 main_v46 main_v47 (mulf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_v48 (m : (ℓ : Loc nD τ sig) → Buf (Elt F) ℓ) (d : Dev nD) :
    W m d (Proc.devRef .tc main_v48)
      = (broadcastInDim S1x128 ![1] bcast_S128_S1x128_1 : (⟨S128, .f32⟩ : BufTy).Contents (Elt F) → (⟨S1x128, .f32⟩ : BufTy).Contents (Elt F)) (W m d (Proc.devRef .tc main_arg4)) :=
  unary_at ops_writes 84 main_arg4 main_v48 (broadcastInDim S1x128 ![1] bcast_S128_S1x128_1 : (⟨S128, .f32⟩ : BufTy).Contents (Elt F) → (⟨S1x128, .f32⟩ : BufTy).Contents (Elt F)) _ _ rfl _ (by decide) (by decide)

theorem W_main_v49 (m : (ℓ : Loc nD τ sig) → Buf (Elt F) ℓ) (d : Dev nD) :
    W m d (Proc.devRef .tc main_v49)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v48)) :=
  unary_at ops_writes 85 main_v48 main_v49 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

theorem W_main_v50 (m : (ℓ : Loc nD τ sig) → Buf (Elt F) ℓ) (d : Dev nD) :
    W m d (Proc.devRef .tc main_v50)
      = (addf : (⟨S100000x128, .f32⟩ : BufTy).Contents (Elt F) → (⟨S100000x128, .f32⟩ : BufTy).Contents (Elt F) → (⟨S100000x128, .f32⟩ : BufTy).Contents (Elt F)) (W m d (Proc.devRef .tc main_v47)) (W m d (Proc.devRef .tc main_v49)) :=
  binary_at ops_writes 86 main_v47 main_v49 main_v50 (addf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_v51 (m : (ℓ : Loc nD τ sig) → Buf (Elt F) ℓ) (d : Dev nD) :
    W m d (Proc.devRef .tc main_v51)
      = ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) (W m d (Proc.devRef .tc main_v50)) (W m d (Proc.devRef .tc main_arg5)) :=
  binary_at ops_writes 87 main_v50 main_arg5 main_v51 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) _ _ _ rfl _ (by decide) (by decide) (by decide)

theorem W_main_c_11 (m : (ℓ : Loc nD τ sig) → Buf (Elt F) ℓ) (d : Dev nD) :
    W m d (Proc.devRef .tc main_c_11)
      = (constantI S_ 32 0#32) :=
  nullary_at ops_writes 88 main_c_11 (constantI S_ 32 0#32) _ rfl _ (by decide)

theorem W_main_v52 (m : (ℓ : Loc nD τ sig) → Buf (Elt F) ℓ) (d : Dev nD) :
    W m d (Proc.devRef .tc main_v52)
      = (broadcastInDim S900000 ![] bcast_S_S900000 : (⟨S_, .i32⟩ : BufTy).Contents (Elt F) → (⟨S900000, .i32⟩ : BufTy).Contents (Elt F)) (W m d (Proc.devRef .tc main_c_11)) :=
  unary_at ops_writes 89 main_c_11 main_v52 (broadcastInDim S900000 ![] bcast_S_S900000 : (⟨S_, .i32⟩ : BufTy).Contents (Elt F) → (⟨S900000, .i32⟩ : BufTy).Contents (Elt F)) _ _ rfl _ (by decide) (by decide)

theorem W_main_v53 (m : (ℓ : Loc nD τ sig) → Buf (Elt F) ℓ) (d : Dev nD) :
    W m d (Proc.devRef .tc main_v53)
      = (cmpi .slt : (⟨S900000, .i32⟩ : BufTy).Contents (Elt F) → (⟨S900000, .i32⟩ : BufTy).Contents (Elt F) → (⟨S900000, .i1⟩ : BufTy).Contents (Elt F)) (W m d (Proc.devRef .tc main_v3)) (W m d (Proc.devRef .tc main_v52)) :=
  binary_at ops_writes 90 main_v3 main_v52 main_v53 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

theorem W_main_c_12 (m : (ℓ : Loc nD τ sig) → Buf (Elt F) ℓ) (d : Dev nD) :
    W m d (Proc.devRef .tc main_c_12)
      = (constantI S_ 32 100000#32) :=
  nullary_at ops_writes 91 main_c_12 (constantI S_ 32 100000#32) _ rfl _ (by decide)

theorem W_main_v54 (m : (ℓ : Loc nD τ sig) → Buf (Elt F) ℓ) (d : Dev nD) :
    W m d (Proc.devRef .tc main_v54)
      = (broadcastInDim S900000 ![] bcast_S_S900000 : (⟨S_, .i32⟩ : BufTy).Contents (Elt F) → (⟨S900000, .i32⟩ : BufTy).Contents (Elt F)) (W m d (Proc.devRef .tc main_c_12)) :=
  unary_at ops_writes 92 main_c_12 main_v54 (broadcastInDim S900000 ![] bcast_S_S900000 : (⟨S_, .i32⟩ : BufTy).Contents (Elt F) → (⟨S900000, .i32⟩ : BufTy).Contents (Elt F)) _ _ rfl _ (by decide) (by decide)

theorem W_main_v55 (m : (ℓ : Loc nD τ sig) → Buf (Elt F) ℓ) (d : Dev nD) :
    W m d (Proc.devRef .tc main_v55)
      = (addi : (⟨S900000, .i32⟩ : BufTy).Contents (Elt F) → (⟨S900000, .i32⟩ : BufTy).Contents (Elt F) → (⟨S900000, .i32⟩ : BufTy).Contents (Elt F)) (W m d (Proc.devRef .tc main_v3)) (W m d (Proc.devRef .tc main_v54)) :=
  binary_at ops_writes 93 main_v3 main_v54 main_v55 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v56 (m : (ℓ : Loc nD τ sig) → Buf (Elt F) ℓ) (d : Dev nD) :
    W m d (Proc.devRef .tc main_v56)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v53)) (W m d (Proc.devRef .tc main_v55)) (W m d (Proc.devRef .tc main_v3)) :=
  ternary_at ops_writes 94 main_v53 main_v55 main_v3 main_v56 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v57 (m : (ℓ : Loc nD τ sig) → Buf (Elt F) ℓ) (d : Dev nD) :
    W m d (Proc.devRef .tc main_v57)
      = (broadcastInDim S900000x1 ![0] bcast_S900000_S900000x1_0 : (⟨S900000, .i32⟩ : BufTy).Contents (Elt F) → (⟨S900000x1, .i32⟩ : BufTy).Contents (Elt F)) (W m d (Proc.devRef .tc main_v56)) :=
  unary_at ops_writes 95 main_v56 main_v57 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v58 (m : (ℓ : Loc nD τ sig) → Buf (Elt F) ℓ) (d : Dev nD) :
    W m d (Proc.devRef .tc main_v58)
      = ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)) (W m d (Proc.devRef .tc main_v51)) (W m d (Proc.devRef .tc main_v57)) :=
  binary_at ops_writes 96 main_v51 main_v57 main_v58 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)) _ _ _ rfl _ (by decide) (by decide) (by decide)

theorem W_main_v59 (m : (ℓ : Loc nD τ sig) → Buf (Elt F) ℓ) (d : Dev nD) :
    W m d (Proc.devRef .tc main_v59)
      = (broadcastInDim S900000x1 ![0] bcast_S900000_S900000x1_0 : (⟨S900000, .f32⟩ : BufTy).Contents (Elt F) → (⟨S900000x1, .f32⟩ : BufTy).Contents (Elt F)) (W m d (Proc.devRef .tc main_v31)) :=
  unary_at ops_writes 97 main_v31 main_v59 (broadcastInDim S900000x1 ![0] bcast_S900000_S900000x1_0 : (⟨S900000, .f32⟩ : BufTy).Contents (Elt F) → (⟨S900000x1, .f32⟩ : BufTy).Contents (Elt F)) _ _ rfl _ (by decide) (by decide)

theorem W_main_v60 (m : (ℓ : Loc nD τ sig) → Buf (Elt F) ℓ) (d : Dev nD) :
    W m d (Proc.devRef .tc main_v60)
      = (broadcastInDim S900000x128 ![0, 1] bcast_S900000x1_S900000x128_0_1 : (⟨S900000x1, .f32⟩ : BufTy).Contents (Elt F) → (⟨S900000x128, .f32⟩ : BufTy).Contents (Elt F)) (W m d (Proc.devRef .tc main_v59)) :=
  unary_at ops_writes 98 main_v59 main_v60 (broadcastInDim S900000x128 ![0, 1] bcast_S900000x1_S900000x128_0_1 : (⟨S900000x1, .f32⟩ : BufTy).Contents (Elt F) → (⟨S900000x128, .f32⟩ : BufTy).Contents (Elt F)) _ _ rfl _ (by decide) (by decide)

theorem W_main_v61 (m : (ℓ : Loc nD τ sig) → Buf (Elt F) ℓ) (d : Dev nD) :
    W m d (Proc.devRef .tc main_v61)
      = (mulf : (⟨S900000x128, .f32⟩ : BufTy).Contents (Elt F) → (⟨S900000x128, .f32⟩ : BufTy).Contents (Elt F) → (⟨S900000x128, .f32⟩ : BufTy).Contents (Elt F)) (W m d (Proc.devRef .tc main_v58)) (W m d (Proc.devRef .tc main_v60)) :=
  binary_at ops_writes 99 main_v58 main_v60 main_v61 (mulf : (⟨S900000x128, .f32⟩ : BufTy).Contents (Elt F) → (⟨S900000x128, .f32⟩ : BufTy).Contents (Elt F) → (⟨S900000x128, .f32⟩ : BufTy).Contents (Elt F)) _ _ _ rfl _ (by decide) (by decide) (by decide)

theorem W_main_cst_13 (m : (ℓ : Loc nD τ sig) → Buf (Elt F) ℓ) (d : Dev nD) :
    W m d (Proc.devRef .tc main_cst_13)
      = (constant S_ .f32 0x00000000#32) :=
  nullary_at ops_writes 100 main_cst_13 (constant S_ .f32 0x00000000#32) _ rfl _ (by decide)

theorem W_main_v62 (m : (ℓ : Loc nD τ sig) → Buf (Elt F) ℓ) (d : Dev nD) :
    W m d (Proc.devRef .tc main_v62)
      = (broadcastInDim S100000x128 ![] bcast_S_S100000x128 : (⟨S_, .f32⟩ : BufTy).Contents (Elt F) → (⟨S100000x128, .f32⟩ : BufTy).Contents (Elt F)) (W m d (Proc.devRef .tc main_cst_13)) :=
  unary_at ops_writes 101 main_cst_13 main_v62 (broadcastInDim S100000x128 ![] bcast_S_S100000x128 : (⟨S_, .f32⟩ : BufTy).Contents (Elt F) → (⟨S100000x128, .f32⟩ : BufTy).Contents (Elt F)) _ _ rfl _ (by decide) (by decide)

theorem W_main_v63 (m : (ℓ : Loc nD τ sig) → Buf (Elt F) ℓ) (d : Dev nD) :
    W m d (Proc.devRef .tc main_v63)
      = (broadcastInDim S900000x1 ![0] bcast_S900000_S900000x1_0 : (⟨S900000, .i32⟩ : BufTy).Contents (Elt F) → (⟨S900000x1, .i32⟩ : BufTy).Contents (Elt F)) (W m d (Proc.devRef .tc main_v6)) :=
  unary_at ops_writes 102 main_v6 main_v63 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v64 (m : (ℓ : Loc nD τ sig) → Buf (Elt F) ℓ) (d : Dev nD) :
    W m d (Proc.devRef .tc main_v64)
      = ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) (W m d (Proc.devRef .tc main_v62)) (W m d (Proc.devRef .tc main_v63)) (W m d (Proc.devRef .tc main_v61)) :=
  ternary_at ops_writes 103 main_v62 main_v63 main_v61 main_v64 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) _ _ _ _ rfl _ (by decide) (by decide) (by decide) (by decide)

theorem W_main_v65 (m : (ℓ : Loc nD τ sig) → Buf (Elt F) ℓ) (d : Dev nD) :
    W m d (Proc.devRef .tc main_v65)
      = (broadcastInDim S1x128 ![1] bcast_S128_S1x128_1 : (⟨S128, .f32⟩ : BufTy).Contents (Elt F) → (⟨S1x128, .f32⟩ : BufTy).Contents (Elt F)) (W m d (Proc.devRef .tc main_arg6)) :=
  unary_at ops_writes 104 main_arg6 main_v65 (broadcastInDim S1x128 ![1] bcast_S128_S1x128_1 : (⟨S128, .f32⟩ : BufTy).Contents (Elt F) → (⟨S1x128, .f32⟩ : BufTy).Contents (Elt F)) _ _ rfl _ (by decide) (by decide)

theorem W_main_v66 (m : (ℓ : Loc nD τ sig) → Buf (Elt F) ℓ) (d : Dev nD) :
    W m d (Proc.devRef .tc main_v66)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v65)) :=
  unary_at ops_writes 105 main_v65 main_v66 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

theorem W_main_v67 (m : (ℓ : Loc nD τ sig) → Buf (Elt F) ℓ) (d : Dev nD) :
    W m d (Proc.devRef .tc main_v67)
      = (addf : (⟨S100000x128, .f32⟩ : BufTy).Contents (Elt F) → (⟨S100000x128, .f32⟩ : BufTy).Contents (Elt F) → (⟨S100000x128, .f32⟩ : BufTy).Contents (Elt F)) (W m d (Proc.devRef .tc main_v64)) (W m d (Proc.devRef .tc main_v66)) :=
  binary_at ops_writes 106 main_v64 main_v66 main_v67 (addf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_call2_cst (m : (ℓ : Loc nD τ sig) → Buf (Elt F) ℓ) (d : Dev nD) :
    W m d (Proc.devRef .tc main_call2_cst)
      = ((constant S_ .f32 0x00000000#32) : (⟨S_, .f32⟩ : BufTy).Contents (Elt F)) :=
  nullary_at ops_writes 107 main_call2_cst ((constant S_ .f32 0x00000000#32) : (⟨S_, .f32⟩ : BufTy).Contents (Elt F)) _ rfl _ (by decide)

theorem W_main_call2_v0 (m : (ℓ : Loc nD τ sig) → Buf (Elt F) ℓ) (d : Dev nD) :
    W m d (Proc.devRef .tc main_call2_v0)
      = ((broadcastInDim S100000x128 ![] bcast_S_S100000x128) : (⟨S_, .f32⟩ : BufTy).Contents (Elt F) → (⟨S100000x128, .f32⟩ : BufTy).Contents (Elt F)) (W m d (Proc.devRef .tc main_call2_cst)) :=
  unary_at ops_writes 108 main_call2_cst main_call2_v0 ((broadcastInDim S100000x128 ![] bcast_S_S100000x128) : (⟨S_, .f32⟩ : BufTy).Contents (Elt F) → (⟨S100000x128, .f32⟩ : BufTy).Contents (Elt F)) _ _ rfl _ (by decide) (by decide)

theorem W_main_v68 (m : (ℓ : Loc nD τ sig) → Buf (Elt F) ℓ) (d : Dev nD) :
    W m d (Proc.devRef .tc main_v68)
      = (maximumf : (⟨S100000x128, .f32⟩ : BufTy).Contents (Elt F) → (⟨S100000x128, .f32⟩ : BufTy).Contents (Elt F) → (⟨S100000x128, .f32⟩ : BufTy).Contents (Elt F)) (W m d (Proc.devRef .tc main_v67)) (W m d (Proc.devRef .tc main_call2_v0)) :=
  binary_at ops_writes 109 main_v67 main_call2_v0 main_v68 (maximumf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_v69 (m : (ℓ : Loc nD τ sig) → Buf (Elt F) ℓ) (d : Dev nD) :
    W m d (Proc.devRef .tc main_v69)
      = concatenate S100000x384 1 [⟨S100000x128, W m d (Proc.devRef .tc main_v50)⟩, ⟨S100000x128, W m d (Proc.devRef .tc main_arg1)⟩, ⟨S100000x128, W m d (Proc.devRef .tc main_v68)⟩] concatenates_S100000x128_S100000x128_S100000x128_S100000x384_d1 :=
  (nary3_at ops_writes 110 main_v50 main_arg1 main_v68 main_v69 (fun u => concatenate S100000x384 1 [⟨S100000x128, u 0⟩, ⟨S100000x128, u 1⟩, ⟨S100000x128, u 2⟩] concatenates_S100000x128_S100000x128_S100000x128_S100000x384_d1) _ _ rfl _ (by decide) (by decide) (by decide) (by decide)).trans rfl

theorem W_main_v70 (m : (ℓ : Loc nD τ sig) → Buf (Elt F) ℓ) (d : Dev nD) :
    W m d (Proc.devRef .tc main_v70)
      = ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)) (W m d (Proc.devRef .tc main_v69)) (W m d (Proc.devRef .tc main_arg7)) :=
  binary_at ops_writes 111 main_v69 main_arg7 main_v70 ((fun l r => Host.dotGeneral dot_S100000x384_S384x128_S100000x128_1_0_0_1_n_n none l r) : (⟨S100000x384, .f32⟩ : BufTy).Contents (Elt F) → (⟨S384x128, .f32⟩ : BufTy).Contents (Elt F) → (⟨S100000x128, .f32⟩ : BufTy).Contents (Elt F)) _ _ _ rfl _ (by decide) (by decide) (by decide)

theorem W_main_c_14 (m : (ℓ : Loc nD τ sig) → Buf (Elt F) ℓ) (d : Dev nD) :
    W m d (Proc.devRef .tc main_c_14)
      = (constantI S_ 32 0#32) :=
  nullary_at ops_writes 112 main_c_14 (constantI S_ 32 0#32) _ rfl _ (by decide)

theorem W_main_v71 (m : (ℓ : Loc nD τ sig) → Buf (Elt F) ℓ) (d : Dev nD) :
    W m d (Proc.devRef .tc main_v71)
      = (broadcastInDim S900000 ![] bcast_S_S900000 : (⟨S_, .i32⟩ : BufTy).Contents (Elt F) → (⟨S900000, .i32⟩ : BufTy).Contents (Elt F)) (W m d (Proc.devRef .tc main_c_14)) :=
  unary_at ops_writes 113 main_c_14 main_v71 (broadcastInDim S900000 ![] bcast_S_S900000 : (⟨S_, .i32⟩ : BufTy).Contents (Elt F) → (⟨S900000, .i32⟩ : BufTy).Contents (Elt F)) _ _ rfl _ (by decide) (by decide)

theorem W_main_v72 (m : (ℓ : Loc nD τ sig) → Buf (Elt F) ℓ) (d : Dev nD) :
    W m d (Proc.devRef .tc main_v72)
      = (cmpi .slt : (⟨S900000, .i32⟩ : BufTy).Contents (Elt F) → (⟨S900000, .i32⟩ : BufTy).Contents (Elt F) → (⟨S900000, .i1⟩ : BufTy).Contents (Elt F)) (W m d (Proc.devRef .tc main_v3)) (W m d (Proc.devRef .tc main_v71)) :=
  binary_at ops_writes 114 main_v3 main_v71 main_v72 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

end Cert.ReferenceIdeal.RefRun

end
-- ==== Proof.RefEq1b.lean ====
/-
  The reference program in single-assignment form, one equation per operation (operations 116 … 147 of 175):
  after the whole line, the buffer an operation writes holds the operation's function of what its operand buffers hold
  after the whole line. A table of cases over the operation list, each closed by the general reading of a line at one
  place.
-/
import proofs.«177732_j68255620268441_2_alg».proof.Proof.RefWrites

noncomputable section

namespace Cert.ReferenceIdeal.RefRun

open Cert.LibAfterAt Cert.ReferenceIdeal Cert.ReferenceIdeal.Gen Idealize.ShloMosaic Idealize.SL.Sem Idealize.ShloMosaic.StableHlo

variable {F : FTy → Type} [FloatOps F]

theorem W_main_c_15 (m : (ℓ : Loc nD τ sig) → Buf (Elt F) ℓ) (d : Dev nD) :
    W m d (Proc.devRef .tc main_c_15)
      = (constantI S_ 32 100000#32) :=
  nullary_at ops_writes 115 main_c_15 (constantI S_ 32 100000#32) _ rfl _ (by decide)

theorem W_main_v73 (m : (ℓ : Loc nD τ sig) → Buf (Elt F) ℓ) (d : Dev nD) :
    W m d (Proc.devRef .tc main_v73)
      = (broadcastInDim S900000 ![] bcast_S_S900000 : (⟨S_, .i32⟩ : BufTy).Contents (Elt F) → (⟨S900000, .i32⟩ : BufTy).Contents (Elt F)) (W m d (Proc.devRef .tc main_c_15)) :=
  unary_at ops_writes 116 main_c_15 main_v73 (broadcastInDim S900000 ![] bcast_S_S900000 : (⟨S_, .i32⟩ : BufTy).Contents (Elt F) → (⟨S900000, .i32⟩ : BufTy).Contents (Elt F)) _ _ rfl _ (by decide) (by decide)

theorem W_main_v74 (m : (ℓ : Loc nD τ sig) → Buf (Elt F) ℓ) (d : Dev nD) :
    W m d (Proc.devRef .tc main_v74)
      = (addi : (⟨S900000, .i32⟩ : BufTy).Contents (Elt F) → (⟨S900000, .i32⟩ : BufTy).Contents (Elt F) → (⟨S900000, .i32⟩ : BufTy).Contents (Elt F)) (W m d (Proc.devRef .tc main_v3)) (W m d (Proc.devRef .tc main_v73)) :=
  binary_at ops_writes 117 main_v3 main_v73 main_v74 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v75 (m : (ℓ : Loc nD τ sig) → Buf (Elt F) ℓ) (d : Dev nD) :
    W m d (Proc.devRef .tc main_v75)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v72)) (W m d (Proc.devRef .tc main_v74)) (W m d (Proc.devRef .tc main_v3)) :=
  ternary_at ops_writes 118 main_v72 main_v74 main_v3 main_v75 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v76 (m : (ℓ : Loc nD τ sig) → Buf (Elt F) ℓ) (d : Dev nD) :
    W m d (Proc.devRef .tc main_v76)
      = (broadcastInDim S900000x1 ![0] bcast_S900000_S900000x1_0 : (⟨S900000, .i32⟩ : BufTy).Contents (Elt F) → (⟨S900000x1, .i32⟩ : BufTy).Contents (Elt F)) (W m d (Proc.devRef .tc main_v75)) :=
  unary_at ops_writes 119 main_v75 main_v76 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v77 (m : (ℓ : Loc nD τ sig) → Buf (Elt F) ℓ) (d : Dev nD) :
    W m d (Proc.devRef .tc main_v77)
      = ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)) (W m d (Proc.devRef .tc main_v70)) (W m d (Proc.devRef .tc main_v76)) :=
  binary_at ops_writes 120 main_v70 main_v76 main_v77 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)) _ _ _ rfl _ (by decide) (by decide) (by decide)

theorem W_main_v78 (m : (ℓ : Loc nD τ sig) → Buf (Elt F) ℓ) (d : Dev nD) :
    W m d (Proc.devRef .tc main_v78)
      = (broadcastInDim S900000x1 ![0] bcast_S900000_S900000x1_0 : (⟨S900000, .f32⟩ : BufTy).Contents (Elt F) → (⟨S900000x1, .f32⟩ : BufTy).Contents (Elt F)) (W m d (Proc.devRef .tc main_v31)) :=
  unary_at ops_writes 121 main_v31 main_v78 (broadcastInDim S900000x1 ![0] bcast_S900000_S900000x1_0 : (⟨S900000, .f32⟩ : BufTy).Contents (Elt F) → (⟨S900000x1, .f32⟩ : BufTy).Contents (Elt F)) _ _ rfl _ (by decide) (by decide)

theorem W_main_v79 (m : (ℓ : Loc nD τ sig) → Buf (Elt F) ℓ) (d : Dev nD) :
    W m d (Proc.devRef .tc main_v79)
      = (broadcastInDim S900000x128 ![0, 1] bcast_S900000x1_S900000x128_0_1 : (⟨S900000x1, .f32⟩ : BufTy).Contents (Elt F) → (⟨S900000x128, .f32⟩ : BufTy).Contents (Elt F)) (W m d (Proc.devRef .tc main_v78)) :=
  unary_at ops_writes 122 main_v78 main_v79 (broadcastInDim S900000x128 ![0, 1] bcast_S900000x1_S900000x128_0_1 : (⟨S900000x1, .f32⟩ : BufTy).Contents (Elt F) → (⟨S900000x128, .f32⟩ : BufTy).Contents (Elt F)) _ _ rfl _ (by decide) (by decide)

theorem W_main_v80 (m : (ℓ : Loc nD τ sig) → Buf (Elt F) ℓ) (d : Dev nD) :
    W m d (Proc.devRef .tc main_v80)
      = (mulf : (⟨S900000x128, .f32⟩ : BufTy).Contents (Elt F) → (⟨S900000x128, .f32⟩ : BufTy).Contents (Elt F) → (⟨S900000x128, .f32⟩ : BufTy).Contents (Elt F)) (W m d (Proc.devRef .tc main_v77)) (W m d (Proc.devRef .tc main_v79)) :=
  binary_at ops_writes 123 main_v77 main_v79 main_v80 (mulf : (⟨S900000x128, .f32⟩ : BufTy).Contents (Elt F) → (⟨S900000x128, .f32⟩ : BufTy).Contents (Elt F) → (⟨S900000x128, .f32⟩ : BufTy).Contents (Elt F)) _ _ _ rfl _ (by decide) (by decide) (by decide)

theorem W_main_cst_16 (m : (ℓ : Loc nD τ sig) → Buf (Elt F) ℓ) (d : Dev nD) :
    W m d (Proc.devRef .tc main_cst_16)
      = (constant S_ .f32 0x00000000#32) :=
  nullary_at ops_writes 124 main_cst_16 (constant S_ .f32 0x00000000#32) _ rfl _ (by decide)

theorem W_main_v81 (m : (ℓ : Loc nD τ sig) → Buf (Elt F) ℓ) (d : Dev nD) :
    W m d (Proc.devRef .tc main_v81)
      = (broadcastInDim S100000x128 ![] bcast_S_S100000x128 : (⟨S_, .f32⟩ : BufTy).Contents (Elt F) → (⟨S100000x128, .f32⟩ : BufTy).Contents (Elt F)) (W m d (Proc.devRef .tc main_cst_16)) :=
  unary_at ops_writes 125 main_cst_16 main_v81 (broadcastInDim S100000x128 ![] bcast_S_S100000x128 : (⟨S_, .f32⟩ : BufTy).Contents (Elt F) → (⟨S100000x128, .f32⟩ : BufTy).Contents (Elt F)) _ _ rfl _ (by decide) (by decide)

theorem W_main_v82 (m : (ℓ : Loc nD τ sig) → Buf (Elt F) ℓ) (d : Dev nD) :
    W m d (Proc.devRef .tc main_v82)
      = (broadcastInDim S900000x1 ![0] bcast_S900000_S900000x1_0 : (⟨S900000, .i32⟩ : BufTy).Contents (Elt F) → (⟨S900000x1, .i32⟩ : BufTy).Contents (Elt F)) (W m d (Proc.devRef .tc main_v6)) :=
  unary_at ops_writes 126 main_v6 main_v82 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v83 (m : (ℓ : Loc nD τ sig) → Buf (Elt F) ℓ) (d : Dev nD) :
    W m d (Proc.devRef .tc main_v83)
      = ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) (W m d (Proc.devRef .tc main_v81)) (W m d (Proc.devRef .tc main_v82)) (W m d (Proc.devRef .tc main_v80)) :=
  ternary_at ops_writes 127 main_v81 main_v82 main_v80 main_v83 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)) _ _ _ _ rfl _ (by decide) (by decide) (by decide) (by decide)

theorem W_main_v84 (m : (ℓ : Loc nD τ sig) → Buf (Elt F) ℓ) (d : Dev nD) :
    W m d (Proc.devRef .tc main_v84)
      = (broadcastInDim S1x128 ![1] bcast_S128_S1x128_1 : (⟨S128, .f32⟩ : BufTy).Contents (Elt F) → (⟨S1x128, .f32⟩ : BufTy).Contents (Elt F)) (W m d (Proc.devRef .tc main_arg8)) :=
  unary_at ops_writes 128 main_arg8 main_v84 (broadcastInDim S1x128 ![1] bcast_S128_S1x128_1 : (⟨S128, .f32⟩ : BufTy).Contents (Elt F) → (⟨S1x128, .f32⟩ : BufTy).Contents (Elt F)) _ _ rfl _ (by decide) (by decide)

theorem W_main_v85 (m : (ℓ : Loc nD τ sig) → Buf (Elt F) ℓ) (d : Dev nD) :
    W m d (Proc.devRef .tc main_v85)
      = (broadcastInDim S100000x128 ![0, 1] bcast_S1x128_S100000x128_0_1 : (⟨S1x128, .f32⟩ : BufTy).Contents (Elt F) → (⟨S100000x128, .f32⟩ : BufTy).Contents (Elt F)) (W m d (Proc.devRef .tc main_v84)) :=
  unary_at ops_writes 129 main_v84 main_v85 (broadcastInDim S100000x128 ![0, 1] bcast_S1x128_S100000x128_0_1 : (⟨S1x128, .f32⟩ : BufTy).Contents (Elt F) → (⟨S100000x128, .f32⟩ : BufTy).Contents (Elt F)) _ _ rfl _ (by decide) (by decide)

theorem W_main_v86 (m : (ℓ : Loc nD τ sig) → Buf (Elt F) ℓ) (d : Dev nD) :
    W m d (Proc.devRef .tc main_v86)
      = (addf : (⟨S100000x128, .f32⟩ : BufTy).Contents (Elt F) → (⟨S100000x128, .f32⟩ : BufTy).Contents (Elt F) → (⟨S100000x128, .f32⟩ : BufTy).Contents (Elt F)) (W m d (Proc.devRef .tc main_v83)) (W m d (Proc.devRef .tc main_v85)) :=
  binary_at ops_writes 130 main_v83 main_v85 main_v86 (addf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_call3_cst (m : (ℓ : Loc nD τ sig) → Buf (Elt F) ℓ) (d : Dev nD) :
    W m d (Proc.devRef .tc main_call3_cst)
      = ((constant S_ .f32 0x00000000#32) : (⟨S_, .f32⟩ : BufTy).Contents (Elt F)) :=
  nullary_at ops_writes 131 main_call3_cst ((constant S_ .f32 0x00000000#32) : (⟨S_, .f32⟩ : BufTy).Contents (Elt F)) _ rfl _ (by decide)

theorem W_main_call3_v0 (m : (ℓ : Loc nD τ sig) → Buf (Elt F) ℓ) (d : Dev nD) :
    W m d (Proc.devRef .tc main_call3_v0)
      = ((broadcastInDim S100000x128 ![] bcast_S_S100000x128) : (⟨S_, .f32⟩ : BufTy).Contents (Elt F) → (⟨S100000x128, .f32⟩ : BufTy).Contents (Elt F)) (W m d (Proc.devRef .tc main_call3_cst)) :=
  unary_at ops_writes 132 main_call3_cst main_call3_v0 ((broadcastInDim S100000x128 ![] bcast_S_S100000x128) : (⟨S_, .f32⟩ : BufTy).Contents (Elt F) → (⟨S100000x128, .f32⟩ : BufTy).Contents (Elt F)) _ _ rfl _ (by decide) (by decide)

theorem W_main_v87 (m : (ℓ : Loc nD τ sig) → Buf (Elt F) ℓ) (d : Dev nD) :
    W m d (Proc.devRef .tc main_v87)
      = (maximumf : (⟨S100000x128, .f32⟩ : BufTy).Contents (Elt F) → (⟨S100000x128, .f32⟩ : BufTy).Contents (Elt F) → (⟨S100000x128, .f32⟩ : BufTy).Contents (Elt F)) (W m d (Proc.devRef .tc main_v86)) (W m d (Proc.devRef .tc main_call3_v0)) :=
  binary_at ops_writes 133 main_v86 main_call3_v0 main_v87 (maximumf : (⟨S100000x128, .f32⟩ : BufTy).Contents (Elt F) → (⟨S100000x128, .f32⟩ : BufTy).Contents (Elt F) → (⟨S100000x128, .f32⟩ : BufTy).Contents (Elt F)) _ _ _ rfl _ (by decide) (by decide) (by decide)

theorem W_main_v88 (m : (ℓ : Loc nD τ sig) → Buf (Elt F) ℓ) (d : Dev nD) :
    W m d (Proc.devRef .tc main_v88)
      = ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) (W m d (Proc.devRef .tc main_v50)) (W m d (Proc.devRef .tc main_v87)) :=
  binary_at ops_writes 134 main_v50 main_v87 main_v88 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)) _ _ _ rfl _ (by decide) (by decide) (by decide)

theorem W_main_v89 (m : (ℓ : Loc nD τ sig) → Buf (Elt F) ℓ) (d : Dev nD) :
    W m d (Proc.devRef .tc main_v89)
      = ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) (W m d (Proc.devRef .tc main_v88)) (W m d (Proc.devRef .tc main_arg9)) :=
  binary_at ops_writes 135 main_v88 main_arg9 main_v89 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)) _ _ _ rfl _ (by decide) (by decide) (by decide)

theorem W_main_c_17 (m : (ℓ : Loc nD τ sig) → Buf (Elt F) ℓ) (d : Dev nD) :
    W m d (Proc.devRef .tc main_c_17)
      = (constantI S_ 32 0#32) :=
  nullary_at ops_writes 136 main_c_17 (constantI S_ 32 0#32) _ rfl _ (by decide)

theorem W_main_v90 (m : (ℓ : Loc nD τ sig) → Buf (Elt F) ℓ) (d : Dev nD) :
    W m d (Proc.devRef .tc main_v90)
      = (broadcastInDim S900000 ![] bcast_S_S900000 : (⟨S_, .i32⟩ : BufTy).Contents (Elt F) → (⟨S900000, .i32⟩ : BufTy).Contents (Elt F)) (W m d (Proc.devRef .tc main_c_17)) :=
  unary_at ops_writes 137 main_c_17 main_v90 (broadcastInDim S900000 ![] bcast_S_S900000 : (⟨S_, .i32⟩ : BufTy).Contents (Elt F) → (⟨S900000, .i32⟩ : BufTy).Contents (Elt F)) _ _ rfl _ (by decide) (by decide)

theorem W_main_v91 (m : (ℓ : Loc nD τ sig) → Buf (Elt F) ℓ) (d : Dev nD) :
    W m d (Proc.devRef .tc main_v91)
      = (cmpi .slt : (⟨S900000, .i32⟩ : BufTy).Contents (Elt F) → (⟨S900000, .i32⟩ : BufTy).Contents (Elt F) → (⟨S900000, .i1⟩ : BufTy).Contents (Elt F)) (W m d (Proc.devRef .tc main_v3)) (W m d (Proc.devRef .tc main_v90)) :=
  binary_at ops_writes 138 main_v3 main_v90 main_v91 (cmpi .slt : (⟨S900000, .i32⟩ : BufTy).Contents (Elt F) → (⟨S900000, .i32⟩ : BufTy).Contents (Elt F) → (⟨S900000, .i1⟩ : BufTy).Contents (Elt F)) _ _ _ rfl _ (by decide) (by decide) (by decide)

theorem W_main_c_18 (m : (ℓ : Loc nD τ sig) → Buf (Elt F) ℓ) (d : Dev nD) :
    W m d (Proc.devRef .tc main_c_18)
      = (constantI S_ 32 100000#32) :=
  nullary_at ops_writes 139 main_c_18 (constantI S_ 32 100000#32) _ rfl _ (by decide)

theorem W_main_v92 (m : (ℓ : Loc nD τ sig) → Buf (Elt F) ℓ) (d : Dev nD) :
    W m d (Proc.devRef .tc main_v92)
      = (broadcastInDim S900000 ![] bcast_S_S900000 : (⟨S_, .i32⟩ : BufTy).Contents (Elt F) → (⟨S900000, .i32⟩ : BufTy).Contents (Elt F)) (W m d (Proc.devRef .tc main_c_18)) :=
  unary_at ops_writes 140 main_c_18 main_v92 (broadcastInDim S900000 ![] bcast_S_S900000 : (⟨S_, .i32⟩ : BufTy).Contents (Elt F) → (⟨S900000, .i32⟩ : BufTy).Contents (Elt F)) _ _ rfl _ (by decide) (by decide)

theorem W_main_v93 (m : (ℓ : Loc nD τ sig) → Buf (Elt F) ℓ) (d : Dev nD) :
    W m d (Proc.devRef .tc main_v93)
      = (addi : (⟨S900000, .i32⟩ : BufTy).Contents (Elt F) → (⟨S900000, .i32⟩ : BufTy).Contents (Elt F) → (⟨S900000, .i32⟩ : BufTy).Contents (Elt F)) (W m d (Proc.devRef .tc main_v3)) (W m d (Proc.devRef .tc main_v92)) :=
  binary_at ops_writes 141 main_v3 main_v92 main_v93 (addi : (⟨S900000, .i32⟩ : BufTy).Contents (Elt F) → (⟨S900000, .i32⟩ : BufTy).Contents (Elt F) → (⟨S900000, .i32⟩ : BufTy).Contents (Elt F)) _ _ _ rfl _ (by decide) (by decide) (by decide)

theorem W_main_v94 (m : (ℓ : Loc nD τ sig) → Buf (Elt F) ℓ) (d : Dev nD) :
    W m d (Proc.devRef .tc main_v94)
      = (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) (W m d (Proc.devRef .tc main_v91)) (W m d (Proc.devRef .tc main_v93)) (W m d (Proc.devRef .tc main_v3)) :=
  ternary_at ops_writes 142 main_v91 main_v93 main_v3 main_v94 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)) _ _ _ _ rfl _ (by decide) (by decide) (by decide) (by decide)

theorem W_main_v95 (m : (ℓ : Loc nD τ sig) → Buf (Elt F) ℓ) (d : Dev nD) :
    W m d (Proc.devRef .tc main_v95)
      = (broadcastInDim S900000x1 ![0] bcast_S900000_S900000x1_0 : (⟨S900000, .i32⟩ : BufTy).Contents (Elt F) → (⟨S900000x1, .i32⟩ : BufTy).Contents (Elt F)) (W m d (Proc.devRef .tc main_v94)) :=
  unary_at ops_writes 143 main_v94 main_v95 (broadcastInDim S900000x1 ![0] bcast_S900000_S900000x1_0 : (⟨S900000, .i32⟩ : BufTy).Contents (Elt F) → (⟨S900000x1, .i32⟩ : BufTy).Contents (Elt F)) _ _ rfl _ (by decide) (by decide)

theorem W_main_v96 (m : (ℓ : Loc nD τ sig) → Buf (Elt F) ℓ) (d : Dev nD) :
    W m d (Proc.devRef .tc main_v96)
      = ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)) (W m d (Proc.devRef .tc main_v89)) (W m d (Proc.devRef .tc main_v95)) :=
  binary_at ops_writes 144 main_v89 main_v95 main_v96 ((fun x i => Host.gather gather_S100000x64_S900000x1_S900000x64_1_0_n_n_0_1_164 x i) : (⟨S100000x64, .f32⟩ : BufTy).Contents (Elt F) → (⟨S900000x1, .i32⟩ : BufTy).Contents (Elt F) → (⟨S900000x64, .f32⟩ : BufTy).Contents (Elt F)) _ _ _ rfl _ (by decide) (by decide) (by decide)

theorem W_main_v97 (m : (ℓ : Loc nD τ sig) → Buf (Elt F) ℓ) (d : Dev nD) :
    W m d (Proc.devRef .tc main_v97)
      = (broadcastInDim S900000x1 ![0] bcast_S900000_S900000x1_0 : (⟨S900000, .f32⟩ : BufTy).Contents (Elt F) → (⟨S900000x1, .f32⟩ : BufTy).Contents (Elt F)) (W m d (Proc.devRef .tc main_v31)) :=
  unary_at ops_writes 145 main_v31 main_v97 (broadcastInDim S900000x1 ![0] bcast_S900000_S900000x1_0 : (⟨S900000, .f32⟩ : BufTy).Contents (Elt F) → (⟨S900000x1, .f32⟩ : BufTy).Contents (Elt F)) _ _ rfl _ (by decide) (by decide)

theorem W_main_v98 (m : (ℓ : Loc nD τ sig) → Buf (Elt F) ℓ) (d : Dev nD) :
    W m d (Proc.devRef .tc main_v98)
      = (broadcastInDim S900000x64 ![0, 1] bcast_S900000x1_S900000x64_0_1 : (⟨S900000x1, .f32⟩ : BufTy).Contents (Elt F) → (⟨S900000x64, .f32⟩ : BufTy).Contents (Elt F)) (W m d (Proc.devRef .tc main_v97)) :=
  unary_at ops_writes 146 main_v97 main_v98 (broadcastInDim S900000x64 ![0, 1] bcast_S900000x1_S900000x64_0_1 : (⟨S900000x1, .f32⟩ : BufTy).Contents (Elt F) → (⟨S900000x64, .f32⟩ : BufTy).Contents (Elt F)) _ _ rfl _ (by decide) (by decide)

end Cert.ReferenceIdeal.RefRun

end
-- ==== Proof.RefValue.lean ====
/-
  The reference's two results, entry by entry, as the specification's two heads on the graph and the arrays read off
  the reference's own buffers. The per-operation equations of the line are composed, stage by stage, into the forms the
  stage-by-stage reading of the network takes; the index columns the program builds several times over are equal, being
  the same function of the same buffer.
-/
import proofs.«177732_j68255620268441_2_alg».proof.Proof.RefEq0a
import proofs.«177732_j68255620268441_2_alg».proof.Proof.RefEq0b
import proofs.«177732_j68255620268441_2_alg».proof.Proof.RefEq0c
import proofs.«177732_j68255620268441_2_alg».proof.Proof.RefEq1a
import proofs.«177732_j68255620268441_2_alg».proof.Proof.RefEq1b
import proofs.«177732_j68255620268441_2_alg».proof.Proof.RefEq2
import proofs.«177732_j68255620268441_2_alg».proof.Proof.RefWalk
import proofs.«177732_j68255620268441_2_alg».proof.Proof.HostLayout

noncomputable section

namespace Cert.ReferenceIdeal.RefValue

open Cert.ReferenceIdeal Cert.ReferenceIdeal.Gen Cert.ReferenceIdeal.RefRun Idealize.ShloMosaic Idealize.SL.Sem
  Idealize.ShloMosaic.StableHlo Idealize.ShloMosaic.ValueIdx

variable (m : (ℓ : Loc nD τ sig) → Buf (Elt Ideal) ℓ) (d : Dev nD)

/-- The graph as the reference reads it: the normalized source column, the raw destination column, the degree factors. -/
def graph : Cert.Gcn.Graph :=
  Cert.Gcn.Stage.graphOf (W m d (Proc.devRef .tc main_v57)) (W m d (Proc.devRef .tc main_v63)) (W m d (Proc.devRef .tc main_v16))

/-- The network's arrays: the arguments, and the per-column mean and variance the reference computes. -/
def params : Cert.Gcn.Params :=
  Cert.Gcn.RefWalk.paramsOf (W m d (Proc.devRef .tc main_arg0)) (W m d (Proc.devRef .tc main_arg1)) (W m d (Proc.devRef .tc main_v34)) (W m d (Proc.devRef .tc main_v35))
    (W m d (Proc.devRef .tc main_arg3)) (W m d (Proc.devRef .tc main_arg4)) (W m d (Proc.devRef .tc main_arg5)) (W m d (Proc.devRef .tc main_arg6)) (W m d (Proc.devRef .tc main_arg7)) (W m d (Proc.devRef .tc main_arg8)) (W m d (Proc.devRef .tc main_arg9)) (W m d (Proc.devRef .tc main_arg10)) (W m d (Proc.devRef .tc main_arg11)) (W m d (Proc.devRef .tc main_arg12))

/-- A copy of the normalized source column: the same function of the same buffer. -/
theorem src_main_v22 : W m d (Proc.devRef .tc main_v22) = W m d (Proc.devRef .tc main_v57) := by
  rw [W_main_v22 m d, W_main_v21 m d, W_main_v18 m d, W_main_v20 m d, W_main_v17 m d, W_main_v19 m d, W_main_c m d, W_main_c_4 m d, W_main_v57 m d, W_main_v56 m d, W_main_v53 m d, W_main_v55 m d, W_main_v52 m d, W_main_v54 m d, W_main_c_11 m d, W_main_c_12 m d]

/-- A copy of the normalized source column: the same function of the same buffer. -/
theorem src_main_v76 : W m d (Proc.devRef .tc main_v76) = W m d (Proc.devRef .tc main_v57) := by
  rw [W_main_v76 m d, W_main_v75 m d, W_main_v72 m d, W_main_v74 m d, W_main_v71 m d, W_main_v73 m d, W_main_c_14 m d, W_main_c_15 m d, W_main_v57 m d, W_main_v56 m d, W_main_v53 m d, W_main_v55 m d, W_main_v52 m d, W_main_v54 m d, W_main_c_11 m d, W_main_c_12 m d]

/-- A copy of the normalized source column: the same function of the same buffer. -/
theorem src_main_v95 : W m d (Proc.devRef .tc main_v95) = W m d (Proc.devRef .tc main_v57) := by
  rw [W_main_v95 m d, W_main_v94 m d, W_main_v91 m d, W_main_v93 m d, W_main_v90 m d, W_main_v92 m d, W_main_c_17 m d, W_main_c_18 m d, W_main_v57 m d, W_main_v56 m d, W_main_v53 m d, W_main_v55 m d, W_main_v52 m d, W_main_v54 m d, W_main_c_11 m d, W_main_c_12 m d]

/-- A copy of the normalized source column: the same function of the same buffer. -/
theorem src_main_v112 : W m d (Proc.devRef .tc main_v112) = W m d (Proc.devRef .tc main_v57) := by
  rw [W_main_v112 m d, W_main_v111 m d, W_main_v108 m d, W_main_v110 m d, W_main_v107 m d, W_main_v109 m d, W_main_c_20 m d, W_main_c_21 m d, W_main_v57 m d, W_main_v56 m d, W_main_v53 m d, W_main_v55 m d, W_main_v52 m d, W_main_v54 m d, W_main_c_11 m d, W_main_c_12 m d]

/-- A copy of the raw destination column. -/
theorem dst_main_v82 : W m d (Proc.devRef .tc main_v82) = W m d (Proc.devRef .tc main_v63) := by
  rw [W_main_v82 m d, W_main_v63 m d]

/-- A copy of the raw destination column. -/
theorem dst_main_v101 : W m d (Proc.devRef .tc main_v101) = W m d (Proc.devRef .tc main_v63) := by
  rw [W_main_v101 m d, W_main_v63 m d]

/-- A copy of the raw destination column. -/
theorem dst_main_v118 : W m d (Proc.devRef .tc main_v118) = W m d (Proc.devRef .tc main_v63) := by
  rw [W_main_v118 m d, W_main_v63 m d]

/-- The normalized destination column at an update is the raw destination there, normalized. -/
theorem dstN_apply (e : Fin 900000) :
    W m d (Proc.devRef .tc main_v29) (ix2 e (0 : Fin 1))
      = Scalar.select (IntOp.cmpi .slt (W m d (Proc.devRef .tc main_v63) (ix2 e (0 : Fin 1))) 0#32)
          (IntOp.addi (W m d (Proc.devRef .tc main_v63) (ix2 e (0 : Fin 1))) 100000#32)
          (W m d (Proc.devRef .tc main_v63) (ix2 e (0 : Fin 1))) := by
  rw [W_main_v29 m d, Cert.Gcn.Stage.column_apply, W_main_v28 m d, W_main_v27 m d, W_main_v26 m d, W_main_c_6 m d, W_main_v25 m d, W_main_v24 m d, W_main_c_5 m d,
    Cert.Gcn.Stage.normalized_apply, W_main_v63 m d, Cert.Gcn.Stage.column_apply]

set_option maxRecDepth 16384 in
set_option maxHeartbeats 4000000 in
/-- The reference's two results at an entry are the specification's two heads. -/
theorem heads_apply (n : Fin 100000) (j : Fin 64) :
    W m d (Proc.devRef .tc main_v105) (ix2 n j) = Cert.Gcn.zmean (graph m d) (params m d) n j
    ∧ W m d (Proc.devRef .tc main_v122) (ix2 n j) = Cert.Gcn.zlogstd (graph m d) (params m d) n j := by
  refine Cert.Gcn.RefWalk.ref_heads_at
    gather_S100000x128_S900000x1_S900000x128_1_0_n_n_0_1_1128 gather_S100000x128_S900000x1_S900000x128_1_0_n_n_0_1_1128_wf rfl scatter_S100000x128_S900000x1_S900000x128_1_0_0_1 scatter_S100000x128_S900000x1_S900000x128_1_0_0_1_wf rfl bcast_S_S100000x128
    gather_S100000x64_S900000x1_S900000x64_1_0_n_n_0_1_164 gather_S100000x64_S900000x1_S900000x64_1_0_n_n_0_1_164_wf rfl scatter_S100000x64_S900000x1_S900000x64_1_0_0_1 scatter_S100000x64_S900000x1_S900000x64_1_0_0_1_wf rfl bcast_S_S100000x64
    gather_S100000_S900000x1_S900000_n_0_n_n_0_1_1 gather_S100000_S900000x1_S900000_n_0_n_n_0_1_1_wf rfl
    (W m d (Proc.devRef .tc main_v57)) (W m d (Proc.devRef .tc main_v29)) (W m d (Proc.devRef .tc main_v63)) (W m d (Proc.devRef .tc main_v16))
    bcast_S900000_S900000x1_0 bcast_S900000x1_S900000x128_0_1 bcast_S900000x1_S900000x64_0_1
    (Cert.Gcn.Stage.drow_of_lands _ _ _ _ (dstN_apply m d))
    dot_S100000x128_S128x128_S100000x128_1_0_0_1_n_n rfl dot_S100000x384_S384x128_S100000x128_1_0_0_1_n_n rfl dot_S100000x256_S256x64_S100000x64_1_0_0_1_n_n rfl
    bcast_S128_S1x128_1 bcast_S1x128_S100000x128_0_1 bcast_S_S128 bcast_S64_S1x64_1 bcast_S1x64_S100000x64_0_1
    (W m d (Proc.devRef .tc main_arg0)) (W m d (Proc.devRef .tc main_arg1)) (W m d (Proc.devRef .tc main_v34)) (W m d (Proc.devRef .tc main_v35)) (W m d (Proc.devRef .tc main_arg3)) (W m d (Proc.devRef .tc main_arg4)) (W m d (Proc.devRef .tc main_arg5)) (W m d (Proc.devRef .tc main_arg6)) (W m d (Proc.devRef .tc main_arg7)) (W m d (Proc.devRef .tc main_arg8)) (W m d (Proc.devRef .tc main_arg9)) (W m d (Proc.devRef .tc main_arg10)) (W m d (Proc.devRef .tc main_arg11)) (W m d (Proc.devRef .tc main_arg12))
    (W m d (Proc.devRef .tc main_v31)) (W m d (Proc.devRef .tc main_v50)) (W m d (Proc.devRef .tc main_v51)) (W m d (Proc.devRef .tc main_v64)) (W m d (Proc.devRef .tc main_v68)) (W m d (Proc.devRef .tc main_v70)) (W m d (Proc.devRef .tc main_v83)) (W m d (Proc.devRef .tc main_v87)) (W m d (Proc.devRef .tc main_v89)) (W m d (Proc.devRef .tc main_v102)) (W m d (Proc.devRef .tc main_v105)) (W m d (Proc.devRef .tc main_v106)) (W m d (Proc.devRef .tc main_v119)) (W m d (Proc.devRef .tc main_v122))
    concatenates_S100000x128_S100000x128_S100000x128_S100000x384_d1 concatenates_S100000x128_S100000x128_S100000x256_d1
    ?e31 ?e50 ?e51 ?e64 ?e68 ?e70 ?e83 ?e87 ?e89 ?e102 ?e105 ?e106 ?e119 ?e122 n j
  case e31 => rw [W_main_v31 m d, W_main_v30 m d, W_main_v23 m d, src_main_v22 m d] <;> try rfl
  case e50 => rw [W_main_v50 m d, W_main_v49 m d, W_main_v48 m d, W_main_v47 m d, W_main_v46 m d, W_main_v45 m d, W_main_v44 m d, W_main_v43 m d, W_main_v42 m d, W_main_v41 m d, W_main_v40 m d, W_main_v39 m d, W_main_cst_10 m d, W_main_v38 m d, W_main_v37 m d, W_main_v36 m d] <;> try rfl
  case e51 => rw [W_main_v51 m d] <;> try rfl
  case e64 => rw [W_main_v64 m d, W_main_v62 m d, W_main_cst_13 m d, W_main_v61 m d, W_main_v60 m d, W_main_v59 m d, W_main_v58 m d] <;> try rfl
  case e68 => rw [W_main_v68 m d, W_main_call2_v0 m d, W_main_call2_cst m d, W_main_v67 m d, W_main_v66 m d, W_main_v65 m d] <;> try rfl
  case e70 => rw [W_main_v70 m d, W_main_v69 m d] <;> try rfl
  case e83 => rw [W_main_v83 m d, W_main_v81 m d, W_main_cst_16 m d, W_main_v80 m d, W_main_v79 m d, W_main_v78 m d, W_main_v77 m d, src_main_v76 m d, dst_main_v82 m d] <;> try rfl
  case e87 => rw [W_main_v87 m d, W_main_call3_v0 m d, W_main_call3_cst m d, W_main_v86 m d, W_main_v85 m d, W_main_v84 m d] <;> try rfl
  case e89 => rw [W_main_v89 m d, W_main_v88 m d] <;> try rfl
  case e102 => rw [W_main_v102 m d, W_main_v100 m d, W_main_cst_19 m d, W_main_v99 m d, W_main_v98 m d, W_main_v97 m d, W_main_v96 m d, src_main_v95 m d, dst_main_v101 m d] <;> try rfl
  case e105 => rw [W_main_v105 m d, W_main_v104 m d, W_main_v103 m d] <;> try rfl
  case e106 => rw [W_main_v106 m d, W_main_v88 m d] <;> try rfl
  case e119 => rw [W_main_v119 m d, W_main_v117 m d, W_main_cst_22 m d, W_main_v116 m d, W_main_v115 m d, W_main_v114 m d, W_main_v113 m d, src_main_v112 m d, dst_main_v118 m d] <;> try rfl
  case e122 => rw [W_main_v122 m d, W_main_v121 m d, W_main_v120 m d] <;> try rfl

/-- The first result at an entry is the specification's mean head. -/
theorem out0_apply (n : Fin 100000) (j : Fin 64) :
    W m d (Proc.devRef .tc main_v105) (ix2 n j) = Cert.Gcn.zmean (graph m d) (params m d) n j :=
  (heads_apply m d n j).1

/-- The second result at an entry is the specification's log-deviation head. -/
theorem out1_apply (n : Fin 100000) (j : Fin 64) :
    W m d (Proc.devRef .tc main_v122) (ix2 n j) = Cert.Gcn.zlogstd (graph m d) (params m d) n j :=
  (heads_apply m d n j).2

end Cert.ReferenceIdeal.RefValue

end
-- ==== Proof.PrefixEqCols.lean ====
/-
  The two idealized programs compute the same two index columns from the same edge array.

  Both programs cut the [2, 800000] edge array into its two rows, view each as a vector and append the iota of the
  100000 node numbers; the source vector is then normalized (a negative index has the number of nodes added) and each
  vector is viewed as a [900000, 1] column. Buffer by buffer the two programs apply the same operation to the same
  arrays, so from equal edge arrays the columns are equal.
-/
import Idealize.ShloMosaic.PureOps.Ideal
import proofs.«177732_j68255620268441_2_alg».proof.Proof.RefEq0a
import proofs.«177732_j68255620268441_2_alg».proof.Proof.RefEq1a
import proofs.«177732_j68255620268441_2_alg».proof.Proof.RefEq2
import proofs.«177732_j68255620268441_2_alg».proof.Proof.KEq0
import proofs.«177732_j68255620268441_2_alg».proof.Proof.KEq1
import proofs.«177732_j68255620268441_2_alg».proof.Proof.KEqRegions

noncomputable section

namespace Cert.Proof.PrefixEq.Cols

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (he : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))

include he

/-- The edge array at the end of both runs is the launch contents, on which the two memories agree. -/
theorem e_arg2 :
    Cert.ReferenceIdeal.RefRun.W m' c (Proc.devRef .tc Cert.ReferenceIdeal.main_arg2)
      = Cert.KernelIdeal.Gen.W10 m ρ c (Proc.devRef .tc Cert.KernelIdeal.main_arg2) := by
  rw [Cert.ReferenceIdeal.RefRun.W_main_arg2 (F := Ideal) m' c, Cert.KernelIdeal.KEq.X_main_arg2 (F := Ideal) m ρ c]
  exact he

/-- The iota of node numbers. -/
theorem e_v0 :
    Cert.ReferenceIdeal.RefRun.W m' c (Proc.devRef .tc Cert.ReferenceIdeal.main_v0)
      = Cert.KernelIdeal.Gen.W10 m ρ c (Proc.devRef .tc Cert.KernelIdeal.main_v0) := by
  rw [Cert.ReferenceIdeal.RefRun.W_main_v0 (F := Ideal) m' c, Cert.KernelIdeal.KEq.X_main_v0 (F := Ideal) m ρ c]

/-- Row 0 of the edge array. -/
theorem e_v1 :
    Cert.ReferenceIdeal.RefRun.W m' c (Proc.devRef .tc Cert.ReferenceIdeal.main_v1)
      = Cert.KernelIdeal.Gen.W10 m ρ c (Proc.devRef .tc Cert.KernelIdeal.main_v1) := by
  rw [Cert.ReferenceIdeal.RefRun.W_main_v1 (F := Ideal) m' c, Cert.KernelIdeal.KEq.X_main_v1 (F := Ideal) m ρ c, e_arg2 m ρ m' c he]

/-- Row 0 as a vector: the edges' sources. -/
theorem e_v2 :
    Cert.ReferenceIdeal.RefRun.W m' c (Proc.devRef .tc Cert.ReferenceIdeal.main_v2)
      = Cert.KernelIdeal.Gen.W10 m ρ c (Proc.devRef .tc Cert.KernelIdeal.main_v2) := by
  rw [Cert.ReferenceIdeal.RefRun.W_main_v2 (F := Ideal) m' c, Cert.KernelIdeal.KEq.X_main_v2 (F := Ideal) m ρ c, e_v1 m ρ m' c he]

/-- The source index vector: the edges' sources, then every node once. -/
theorem e_v3 :
    Cert.ReferenceIdeal.RefRun.W m' c (Proc.devRef .tc Cert.ReferenceIdeal.main_v3)
      = Cert.KernelIdeal.Gen.W10 m ρ c (Proc.devRef .tc Cert.KernelIdeal.main_v3) := by
  rw [Cert.ReferenceIdeal.RefRun.W_main_v3 (F := Ideal) m' c, Cert.KernelIdeal.KEq.X_main_v3 (F := Ideal) m ρ c, e_v2 m ρ m' c he, e_v0 m ρ m' c he]

/-- Row 1 of the edge array. -/
theorem e_v4 :
    Cert.ReferenceIdeal.RefRun.W m' c (Proc.devRef .tc Cert.ReferenceIdeal.main_v4)
      = Cert.KernelIdeal.Gen.W10 m ρ c (Proc.devRef .tc Cert.KernelIdeal.main_v4) := by
  rw [Cert.ReferenceIdeal.RefRun.W_main_v4 (F := Ideal) m' c, Cert.KernelIdeal.KEq.X_main_v4 (F := Ideal) m ρ c, e_arg2 m ρ m' c he]

/-- Row 1 as a vector: the edges' destinations. -/
theorem e_v5 :
    Cert.ReferenceIdeal.RefRun.W m' c (Proc.devRef .tc Cert.ReferenceIdeal.main_v5)
      = Cert.KernelIdeal.Gen.W10 m ρ c (Proc.devRef .tc Cert.KernelIdeal.main_v5) := by
  rw [Cert.ReferenceIdeal.RefRun.W_main_v5 (F := Ideal) m' c, Cert.KernelIdeal.KEq.X_main_v5 (F := Ideal) m ρ c, e_v4 m ρ m' c he]

/-- The destination index vector: the edges' destinations, then every node once. -/
theorem e_v6 :
    Cert.ReferenceIdeal.RefRun.W m' c (Proc.devRef .tc Cert.ReferenceIdeal.main_v6)
      = Cert.KernelIdeal.Gen.W10 m ρ c (Proc.devRef .tc Cert.KernelIdeal.main_v6) := by
  rw [Cert.ReferenceIdeal.RefRun.W_main_v6 (F := Ideal) m' c, Cert.KernelIdeal.KEq.X_main_v6 (F := Ideal) m ρ c, e_v5 m ρ m' c he, e_v0 m ρ m' c he]

/-- The constant 0. -/
theorem e_c_11 :
    Cert.ReferenceIdeal.RefRun.W m' c (Proc.devRef .tc Cert.ReferenceIdeal.main_c_11)
      = Cert.KernelIdeal.Gen.W10 m ρ c (Proc.devRef .tc Cert.KernelIdeal.main_c_6) := by
  rw [Cert.ReferenceIdeal.RefRun.W_main_c_11 (F := Ideal) m' c, Cert.KernelIdeal.KEq.X_main_c_6 (F := Ideal) m ρ c]

/-- The constant 0 over the 900000 updates. -/
theorem e_v52 :
    Cert.ReferenceIdeal.RefRun.W m' c (Proc.devRef .tc Cert.ReferenceIdeal.main_v52)
      = Cert.KernelIdeal.Gen.W10 m ρ c (Proc.devRef .tc Cert.KernelIdeal.main_v27) := by
  rw [Cert.ReferenceIdeal.RefRun.W_main_v52 (F := Ideal) m' c, Cert.KernelIdeal.KEq.X_main_v27 (F := Ideal) m ρ c, e_c_11 m ρ m' c he]

/-- Which source indices are negative. -/
theorem e_v53 :
    Cert.ReferenceIdeal.RefRun.W m' c (Proc.devRef .tc Cert.ReferenceIdeal.main_v53)
      = Cert.KernelIdeal.Gen.W10 m ρ c (Proc.devRef .tc Cert.KernelIdeal.main_v28) := by
  rw [Cert.ReferenceIdeal.RefRun.W_main_v53 (F := Ideal) m' c, Cert.KernelIdeal.KEq.X_main_v28 (F := Ideal) m ρ c, e_v3 m ρ m' c he, e_v52 m ρ m' c he]

/-- The constant 100000. -/
theorem e_c_12 :
    Cert.ReferenceIdeal.RefRun.W m' c (Proc.devRef .tc Cert.ReferenceIdeal.main_c_12)
      = Cert.KernelIdeal.Gen.W10 m ρ c (Proc.devRef .tc Cert.KernelIdeal.main_c_7) := by
  rw [Cert.ReferenceIdeal.RefRun.W_main_c_12 (F := Ideal) m' c, Cert.KernelIdeal.KEq.X_main_c_7 (F := Ideal) m ρ c]

/-- The constant 100000 over the 900000 updates. -/
theorem e_v54 :
    Cert.ReferenceIdeal.RefRun.W m' c (Proc.devRef .tc Cert.ReferenceIdeal.main_v54)
      = Cert.KernelIdeal.Gen.W10 m ρ c (Proc.devRef .tc Cert.KernelIdeal.main_v29) := by
  rw [Cert.ReferenceIdeal.RefRun.W_main_v54 (F := Ideal) m' c, Cert.KernelIdeal.KEq.X_main_v29 (F := Ideal) m ρ c, e_c_12 m ρ m' c he]

/-- The source indices shifted by the number of nodes. -/
theorem e_v55 :
    Cert.ReferenceIdeal.RefRun.W m' c (Proc.devRef .tc Cert.ReferenceIdeal.main_v55)
      = Cert.KernelIdeal.Gen.W10 m ρ c (Proc.devRef .tc Cert.KernelIdeal.main_v30) := by
  rw [Cert.ReferenceIdeal.RefRun.W_main_v55 (F := Ideal) m' c, Cert.KernelIdeal.KEq.X_main_v30 (F := Ideal) m ρ c, e_v3 m ρ m' c he, e_v54 m ρ m' c he]

/-- The normalized source indices: a negative index counted from the end. -/
theorem e_v56 :
    Cert.ReferenceIdeal.RefRun.W m' c (Proc.devRef .tc Cert.ReferenceIdeal.main_v56)
      = Cert.KernelIdeal.Gen.W10 m ρ c (Proc.devRef .tc Cert.KernelIdeal.main_v31) := by
  rw [Cert.ReferenceIdeal.RefRun.W_main_v56 (F := Ideal) m' c, Cert.KernelIdeal.KEq.X_main_v31 (F := Ideal) m ρ c, e_v53 m ρ m' c he, e_v55 m ρ m' c he, e_v3 m ρ m' c he]

end Cert.Proof.PrefixEq.Cols

namespace Cert.Proof.PrefixEq

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (he : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))

include he

/-- The normalized source column is the same array in both programs. -/
theorem srcNcol_eq :
    Cert.ReferenceIdeal.RefRun.W m' c (Proc.devRef .tc Cert.ReferenceIdeal.main_v57)
      = Cert.KernelIdeal.Gen.W10 m ρ c (Proc.devRef .tc Cert.KernelIdeal.main_v32) := by
  rw [Cert.ReferenceIdeal.RefRun.W_main_v57 (F := Ideal) m' c, Cert.KernelIdeal.KEq.X_main_v32 (F := Ideal) m ρ c, Cols.e_v56 m ρ m' c he]

/-- The raw destination column is the same array in both programs. -/
theorem dstcol_eq :
    Cert.ReferenceIdeal.RefRun.W m' c (Proc.devRef .tc Cert.ReferenceIdeal.main_v63)
      = Cert.KernelIdeal.Gen.W10 m ρ c (Proc.devRef .tc Cert.KernelIdeal.main_v37) := by
  rw [Cert.ReferenceIdeal.RefRun.W_main_v63 (F := Ideal) m' c, Cert.KernelIdeal.KEq.X_main_v37 (F := Ideal) m ρ c, Cols.e_v6 m ρ m' c he]

end Cert.Proof.PrefixEq

end
-- ==== Proof.PrefixEqStats.lean ====
/-
  The two idealized programs compute the same batch-normalization statistics from the same input.

  The per-column mean is, in both programs, the column sums of the first argument divided by the row count; the
  per-column variance is, in both, the outlined variance function's twenty-odd operations on that argument and an
  integer zero. Read at the end of each program's run through the single-assignment equations, down to the first
  argument, the two sides are the same operations applied to the same array, spelt with each program's own names
  for the shapes and the side conditions; the launch memories agree on that argument.
-/
import Idealize.ShloMosaic.PureOps.Ideal
import proofs.«177732_j68255620268441_2_alg».proof.Proof.RefEq2
import proofs.«177732_j68255620268441_2_alg».proof.Proof.RefEq0b
import proofs.«177732_j68255620268441_2_alg».proof.Proof.RefEq0c
import proofs.«177732_j68255620268441_2_alg».proof.Proof.KEqRegions
import proofs.«177732_j68255620268441_2_alg».proof.Proof.KEq0
import proofs.«177732_j68255620268441_2_alg».proof.Proof.KEq0c

noncomputable section

namespace Cert.Proof.PrefixEq

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (hx : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))

include hx

set_option maxRecDepth 16384 in
/-- The per-column mean: the same column sums of the same array over the same count. -/
theorem mu_eq :
    Cert.ReferenceIdeal.RefRun.W m' c (Proc.devRef .tc Cert.ReferenceIdeal.main_v34)
      = Cert.KernelIdeal.Gen.W10 m ρ c (Proc.devRef .tc Cert.KernelIdeal.main_v19) := by
  rw [Cert.ReferenceIdeal.RefRun.W_main_v34 (F := Ideal) m' c,
    Cert.ReferenceIdeal.RefRun.W_main_v33 (F := Ideal) m' c,
    Cert.ReferenceIdeal.RefRun.W_main_cst_8 (F := Ideal) m' c,
    Cert.ReferenceIdeal.RefRun.W_main_v32 (F := Ideal) m' c,
    Cert.ReferenceIdeal.RefRun.W_main_cst_7 (F := Ideal) m' c,
    Cert.ReferenceIdeal.RefRun.W_main_arg0 (F := Ideal) m' c,
    Cert.KernelIdeal.KEq.X_main_v19 (F := Ideal) m ρ c,
    Cert.KernelIdeal.KEq.X_main_v18 (F := Ideal) m ρ c,
    Cert.KernelIdeal.KEq.X_main_cst_5 (F := Ideal) m ρ c,
    Cert.KernelIdeal.KEq.X_main_v17 (F := Ideal) m ρ c,
    Cert.KernelIdeal.KEq.X_main_cst_4 (F := Ideal) m ρ c,
    Cert.KernelIdeal.KEq.X_main_arg0 (F := Ideal) m ρ c, hx] <;> try rfl

set_option maxRecDepth 16384 in
/-- The per-column variance: the same outlined function's operations on the same array. -/
theorem var_eq :
    Cert.ReferenceIdeal.RefRun.W m' c (Proc.devRef .tc Cert.ReferenceIdeal.main_v35)
      = Cert.KernelIdeal.Gen.W10 m ρ c (Proc.devRef .tc Cert.KernelIdeal.main_v20) := by
  rw [Cert.ReferenceIdeal.RefRun.W_main_v35 (F := Ideal) m' c,
    Cert.ReferenceIdeal.RefRun.W_main_call1_call0_v1 (F := Ideal) m' c,
    Cert.ReferenceIdeal.RefRun.W_main_call1_call0_v0 (F := Ideal) m' c,
    Cert.ReferenceIdeal.RefRun.W_main_call1_cst_4 (F := Ideal) m' c,
    Cert.ReferenceIdeal.RefRun.W_main_call1_v12 (F := Ideal) m' c,
    Cert.ReferenceIdeal.RefRun.W_main_call1_cst_3 (F := Ideal) m' c,
    Cert.ReferenceIdeal.RefRun.W_main_call1_v11 (F := Ideal) m' c,
    Cert.ReferenceIdeal.RefRun.W_main_call1_v10 (F := Ideal) m' c,
    Cert.ReferenceIdeal.RefRun.W_main_call1_v9 (F := Ideal) m' c,
    Cert.ReferenceIdeal.RefRun.W_main_call1_cst_2 (F := Ideal) m' c,
    Cert.ReferenceIdeal.RefRun.W_main_call1_v8 (F := Ideal) m' c,
    Cert.ReferenceIdeal.RefRun.W_main_call1_cst_1 (F := Ideal) m' c,
    Cert.ReferenceIdeal.RefRun.W_main_call1_v7 (F := Ideal) m' c,
    Cert.ReferenceIdeal.RefRun.W_main_call1_v6 (F := Ideal) m' c,
    Cert.ReferenceIdeal.RefRun.W_main_call1_v5 (F := Ideal) m' c,
    Cert.ReferenceIdeal.RefRun.W_main_call1_v4 (F := Ideal) m' c,
    Cert.ReferenceIdeal.RefRun.W_main_call1_v3 (F := Ideal) m' c,
    Cert.ReferenceIdeal.RefRun.W_main_call1_v2 (F := Ideal) m' c,
    Cert.ReferenceIdeal.RefRun.W_main_call1_cst_0 (F := Ideal) m' c,
    Cert.ReferenceIdeal.RefRun.W_main_call1_v1 (F := Ideal) m' c,
    Cert.ReferenceIdeal.RefRun.W_main_call1_v0 (F := Ideal) m' c,
    Cert.ReferenceIdeal.RefRun.W_main_call1_cst (F := Ideal) m' c,
    Cert.ReferenceIdeal.RefRun.W_main_c_9 (F := Ideal) m' c,
    Cert.ReferenceIdeal.RefRun.W_main_arg0 (F := Ideal) m' c,
    Cert.KernelIdeal.KEq.X_main_v20 (F := Ideal) m ρ c,
    Cert.KernelIdeal.KEq.X_main_call1_call0_v1 (F := Ideal) m ρ c,
    Cert.KernelIdeal.KEq.X_main_call1_call0_v0 (F := Ideal) m ρ c,
    Cert.KernelIdeal.KEq.X_main_call1_cst_4 (F := Ideal) m ρ c,
    Cert.KernelIdeal.KEq.X_main_call1_v12 (F := Ideal) m ρ c,
    Cert.KernelIdeal.KEq.X_main_call1_cst_3 (F := Ideal) m ρ c,
    Cert.KernelIdeal.KEq.X_main_call1_v11 (F := Ideal) m ρ c,
    Cert.KernelIdeal.KEq.X_main_call1_v10 (F := Ideal) m ρ c,
    Cert.KernelIdeal.KEq.X_main_call1_v9 (F := Ideal) m ρ c,
    Cert.KernelIdeal.KEq.X_main_call1_cst_2 (F := Ideal) m ρ c,
    Cert.KernelIdeal.KEq.X_main_call1_v8 (F := Ideal) m ρ c,
    Cert.KernelIdeal.KEq.X_main_call1_cst_1 (F := Ideal) m ρ c,
    Cert.KernelIdeal.KEq.X_main_call1_v7 (F := Ideal) m ρ c,
    Cert.KernelIdeal.KEq.X_main_call1_v6 (F := Ideal) m ρ c,
    Cert.KernelIdeal.KEq.X_main_call1_v5 (F := Ideal) m ρ c,
    Cert.KernelIdeal.KEq.X_main_call1_v4 (F := Ideal) m ρ c,
    Cert.KernelIdeal.KEq.X_main_call1_v3 (F := Ideal) m ρ c,
    Cert.KernelIdeal.KEq.X_main_call1_v2 (F := Ideal) m ρ c,
    Cert.KernelIdeal.KEq.X_main_call1_cst_0 (F := Ideal) m ρ c,
    Cert.KernelIdeal.KEq.X_main_call1_v1 (F := Ideal) m ρ c,
    Cert.KernelIdeal.KEq.X_main_call1_v0 (F := Ideal) m ρ c,
    Cert.KernelIdeal.KEq.X_main_call1_cst (F := Ideal) m ρ c,
    Cert.KernelIdeal.KEq.X_main_c (F := Ideal) m ρ c,
    Cert.KernelIdeal.KEq.X_main_arg0 (F := Ideal) m ρ c, hx] <;> try rfl

end Cert.Proof.PrefixEq

end
-- ==== Proof.PrefixEqB.lean ====
/-
  The two idealized programs compute the same degree factor from the same edge array: ones added, by a scatter with
  an adding body, at the destination column into zeros; compared with zero; the inverse square root of the maximum
  with a small constant; and zero where the count is not positive. Buffer by buffer the two programs apply the same
  operation to the same arrays.
-/
import Idealize.ShloMosaic.PureOps.Ideal
import proofs.«177732_j68255620268441_2_alg».proof.Proof.PrefixEqCols
import proofs.«177732_j68255620268441_2_alg».proof.Proof.RefEq0a
import proofs.«177732_j68255620268441_2_alg».proof.Proof.KEq0

noncomputable section

namespace Cert.Proof.PrefixEq.Dinv

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (he : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))

include he

/-- The scalar zero. -/
theorem e_main_cst_0 :
    Cert.ReferenceIdeal.RefRun.W m' c (Proc.devRef .tc Cert.ReferenceIdeal.main_cst_0)
      = Cert.KernelIdeal.Gen.W10 m ρ c (Proc.devRef .tc Cert.KernelIdeal.main_cst_0) := by
  rw [Cert.ReferenceIdeal.RefRun.W_main_cst_0 (F := Ideal) m' c,
    Cert.KernelIdeal.KEq.X_main_cst_0 (F := Ideal) m ρ c] <;> rfl

/-- The zero vector, one entry per node. -/
theorem e_main_v8 :
    Cert.ReferenceIdeal.RefRun.W m' c (Proc.devRef .tc Cert.ReferenceIdeal.main_v8)
      = Cert.KernelIdeal.Gen.W10 m ρ c (Proc.devRef .tc Cert.KernelIdeal.main_v8) := by
  rw [Cert.ReferenceIdeal.RefRun.W_main_v8 (F := Ideal) m' c,
    Cert.KernelIdeal.KEq.X_main_v8 (F := Ideal) m ρ c,
    e_main_cst_0 m ρ m' c he] <;> rfl

/-- The destination index vector as a column. -/
theorem e_main_v9 :
    Cert.ReferenceIdeal.RefRun.W m' c (Proc.devRef .tc Cert.ReferenceIdeal.main_v9)
      = Cert.KernelIdeal.Gen.W10 m ρ c (Proc.devRef .tc Cert.KernelIdeal.main_v9) := by
  rw [Cert.ReferenceIdeal.RefRun.W_main_v9 (F := Ideal) m' c,
    Cert.KernelIdeal.KEq.X_main_v9 (F := Ideal) m ρ c,
    Cols.e_v6 m ρ m' c he] <;> rfl

/-- The scalar one. -/
theorem e_main_cst :
    Cert.ReferenceIdeal.RefRun.W m' c (Proc.devRef .tc Cert.ReferenceIdeal.main_cst)
      = Cert.KernelIdeal.Gen.W10 m ρ c (Proc.devRef .tc Cert.KernelIdeal.main_cst) := by
  rw [Cert.ReferenceIdeal.RefRun.W_main_cst (F := Ideal) m' c,
    Cert.KernelIdeal.KEq.X_main_cst (F := Ideal) m ρ c] <;> rfl

/-- The vector of ones, one entry per update. -/
theorem e_main_v7 :
    Cert.ReferenceIdeal.RefRun.W m' c (Proc.devRef .tc Cert.ReferenceIdeal.main_v7)
      = Cert.KernelIdeal.Gen.W10 m ρ c (Proc.devRef .tc Cert.KernelIdeal.main_v7) := by
  rw [Cert.ReferenceIdeal.RefRun.W_main_v7 (F := Ideal) m' c,
    Cert.KernelIdeal.KEq.X_main_v7 (F := Ideal) m ρ c,
    e_main_cst m ρ m' c he] <;> rfl

/-- The degrees: ones added at the destination column into zeros. -/
theorem e_main_v10 :
    Cert.ReferenceIdeal.RefRun.W m' c (Proc.devRef .tc Cert.ReferenceIdeal.main_v10)
      = Cert.KernelIdeal.Gen.W10 m ρ c (Proc.devRef .tc Cert.KernelIdeal.main_v10) := by
  rw [Cert.ReferenceIdeal.RefRun.W_main_v10 (F := Ideal) m' c,
    Cert.KernelIdeal.KEq.X_main_v10 (F := Ideal) m ρ c,
    e_main_v8 m ρ m' c he,
    e_main_v9 m ρ m' c he,
    e_main_v7 m ρ m' c he] <;> rfl

/-- The scalar zero. -/
theorem e_main_cst_1 :
    Cert.ReferenceIdeal.RefRun.W m' c (Proc.devRef .tc Cert.ReferenceIdeal.main_cst_1)
      = Cert.KernelIdeal.Gen.W10 m ρ c (Proc.devRef .tc Cert.KernelIdeal.main_cst_1) := by
  rw [Cert.ReferenceIdeal.RefRun.W_main_cst_1 (F := Ideal) m' c,
    Cert.KernelIdeal.KEq.X_main_cst_1 (F := Ideal) m ρ c] <;> rfl

/-- The zero vector. -/
theorem e_main_v11 :
    Cert.ReferenceIdeal.RefRun.W m' c (Proc.devRef .tc Cert.ReferenceIdeal.main_v11)
      = Cert.KernelIdeal.Gen.W10 m ρ c (Proc.devRef .tc Cert.KernelIdeal.main_v11) := by
  rw [Cert.ReferenceIdeal.RefRun.W_main_v11 (F := Ideal) m' c,
    Cert.KernelIdeal.KEq.X_main_v11 (F := Ideal) m ρ c,
    e_main_cst_1 m ρ m' c he] <;> rfl

/-- Where the degree is positive. -/
theorem e_main_v12 :
    Cert.ReferenceIdeal.RefRun.W m' c (Proc.devRef .tc Cert.ReferenceIdeal.main_v12)
      = Cert.KernelIdeal.Gen.W10 m ρ c (Proc.devRef .tc Cert.KernelIdeal.main_v12) := by
  rw [Cert.ReferenceIdeal.RefRun.W_main_v12 (F := Ideal) m' c,
    Cert.KernelIdeal.KEq.X_main_v12 (F := Ideal) m ρ c,
    e_main_v10 m ρ m' c he,
    e_main_v11 m ρ m' c he] <;> rfl

/-- The small constant under the square root. -/
theorem e_main_cst_2 :
    Cert.ReferenceIdeal.RefRun.W m' c (Proc.devRef .tc Cert.ReferenceIdeal.main_cst_2)
      = Cert.KernelIdeal.Gen.W10 m ρ c (Proc.devRef .tc Cert.KernelIdeal.main_cst_2) := by
  rw [Cert.ReferenceIdeal.RefRun.W_main_cst_2 (F := Ideal) m' c,
    Cert.KernelIdeal.KEq.X_main_cst_2 (F := Ideal) m ρ c] <;> rfl

/-- That constant, one entry per node. -/
theorem e_main_v13 :
    Cert.ReferenceIdeal.RefRun.W m' c (Proc.devRef .tc Cert.ReferenceIdeal.main_v13)
      = Cert.KernelIdeal.Gen.W10 m ρ c (Proc.devRef .tc Cert.KernelIdeal.main_v13) := by
  rw [Cert.ReferenceIdeal.RefRun.W_main_v13 (F := Ideal) m' c,
    Cert.KernelIdeal.KEq.X_main_v13 (F := Ideal) m ρ c,
    e_main_cst_2 m ρ m' c he] <;> rfl

/-- The degree, kept from below by the small constant. -/
theorem e_main_v14 :
    Cert.ReferenceIdeal.RefRun.W m' c (Proc.devRef .tc Cert.ReferenceIdeal.main_v14)
      = Cert.KernelIdeal.Gen.W10 m ρ c (Proc.devRef .tc Cert.KernelIdeal.main_v14) := by
  rw [Cert.ReferenceIdeal.RefRun.W_main_v14 (F := Ideal) m' c,
    Cert.KernelIdeal.KEq.X_main_v14 (F := Ideal) m ρ c,
    e_main_v10 m ρ m' c he,
    e_main_v13 m ρ m' c he] <;> rfl

/-- Its inverse square root. -/
theorem e_main_v15 :
    Cert.ReferenceIdeal.RefRun.W m' c (Proc.devRef .tc Cert.ReferenceIdeal.main_v15)
      = Cert.KernelIdeal.Gen.W10 m ρ c (Proc.devRef .tc Cert.KernelIdeal.main_v15) := by
  rw [Cert.ReferenceIdeal.RefRun.W_main_v15 (F := Ideal) m' c,
    Cert.KernelIdeal.KEq.X_main_v15 (F := Ideal) m ρ c,
    e_main_v14 m ρ m' c he] <;> rfl

/-- The scalar zero. -/
theorem e_main_cst_3 :
    Cert.ReferenceIdeal.RefRun.W m' c (Proc.devRef .tc Cert.ReferenceIdeal.main_cst_3)
      = Cert.KernelIdeal.Gen.W10 m ρ c (Proc.devRef .tc Cert.KernelIdeal.main_cst_3) := by
  rw [Cert.ReferenceIdeal.RefRun.W_main_cst_3 (F := Ideal) m' c,
    Cert.KernelIdeal.KEq.X_main_cst_3 (F := Ideal) m ρ c] <;> rfl

/-- The scalar zero, in the result's format. -/
theorem e_main_call0_v0 :
    Cert.ReferenceIdeal.RefRun.W m' c (Proc.devRef .tc Cert.ReferenceIdeal.main_call0_v0)
      = Cert.KernelIdeal.Gen.W10 m ρ c (Proc.devRef .tc Cert.KernelIdeal.main_call0_v0) := by
  rw [Cert.ReferenceIdeal.RefRun.W_main_call0_v0 (F := Ideal) m' c,
    Cert.KernelIdeal.KEq.X_main_call0_v0 (F := Ideal) m ρ c,
    e_main_cst_3 m ρ m' c he] <;> rfl

/-- The zero vector. -/
theorem e_main_call0_v1 :
    Cert.ReferenceIdeal.RefRun.W m' c (Proc.devRef .tc Cert.ReferenceIdeal.main_call0_v1)
      = Cert.KernelIdeal.Gen.W10 m ρ c (Proc.devRef .tc Cert.KernelIdeal.main_call0_v1) := by
  rw [Cert.ReferenceIdeal.RefRun.W_main_call0_v1 (F := Ideal) m' c,
    Cert.KernelIdeal.KEq.X_main_call0_v1 (F := Ideal) m ρ c,
    e_main_call0_v0 m ρ m' c he] <;> rfl

end Cert.Proof.PrefixEq.Dinv

namespace Cert.Proof.PrefixEq

open Idealize.ShloMosaic Idealize.SL.Sem

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (he : m' ((c.tc : Thread Cert.ReferenceIdeal.nD Cert.ReferenceIdeal.τ).loc Cert.ReferenceIdeal.main_arg2)
    = m ((c.tc : Thread Cert.KernelIdeal.nD Cert.KernelIdeal.τ).loc Cert.KernelIdeal.main_arg2))

include he

/-- The degree factor is the same array in both programs. -/
theorem dinv_eq :
    Cert.ReferenceIdeal.RefRun.W m' c (Proc.devRef .tc Cert.ReferenceIdeal.main_v16)
      = Cert.KernelIdeal.Gen.W10 m ρ c (Proc.devRef .tc Cert.KernelIdeal.main_v16) := by
  rw [Cert.ReferenceIdeal.RefRun.W_main_v16 (F := Ideal) m' c,
    Cert.KernelIdeal.KEq.X_main_v16 (F := Ideal) m ρ c,
    Dinv.e_main_v12 m ρ m' c he,
    Dinv.e_main_v15 m ρ m' c he,
    Dinv.e_main_call0_v1 m ρ m' c he] <;> rfl

end Cert.Proof.PrefixEq

end
-- ==== Proof.Claims.lean ====
/-
  The five claims.

  Both idealized programs compute, on the extended reals, a two-layer graph convolution with two output heads over the graph
  of 800000 edges and 100000 self loops: the reference aggregates each layer with edge weights (the product of the degree
  factors at an edge's two ends), the kernel program scales by the degree factor before and after an unweighted aggregation
  and runs the batch normalization and the matrix products of each layer inside three kernels over 4000-row blocks. Read
  entry by entry, each program's two results are the specification's `zmean` and `zlogstd` of the graph and the arrays it
  computes from its arguments; from agreeing arguments the two programs compute the same graph (the same index columns and
  degree factors) and the same arrays (the same column means and variances), by the same operations; hence equal results.
  No finiteness is used: the one law beyond commutativity and associativity is that a nonnegative real factor, which a
  degree factor always is, moves across a finite sum.
-/
import proofs.«177732_j68255620268441_2_alg».proof.Defs
import proofs.«177732_j68255620268441_2_alg».proof.Proof.Gen.Kernel.Frame
import proofs.«177732_j68255620268441_2_alg».proof.Proof.Gen.KernelIdeal.Frame
import proofs.«177732_j68255620268441_2_alg».proof.Proof.Gen.ReferenceIdeal
import proofs.«177732_j68255620268441_2_alg».proof.Proof.Gen.Pre_finite_inputs
import proofs.«177732_j68255620268441_2_alg».proof.Proof.KRun
import proofs.«177732_j68255620268441_2_alg».proof.Proof.KValue
import proofs.«177732_j68255620268441_2_alg».proof.Proof.RefRun
import proofs.«177732_j68255620268441_2_alg».proof.Proof.RefEq2
import proofs.«177732_j68255620268441_2_alg».proof.Proof.RefValue
import proofs.«177732_j68255620268441_2_alg».proof.Proof.KEq0
import proofs.«177732_j68255620268441_2_alg».proof.Proof.PrefixEqCols
import proofs.«177732_j68255620268441_2_alg».proof.Proof.PrefixEqStats
import proofs.«177732_j68255620268441_2_alg».proof.Proof.PrefixEqB

noncomputable section

open Idealize.ShloMosaic Idealize.ShloMosaic.TcCoe Idealize.SL.Sem Idealize.ShloMosaic.ValueIdx

namespace Cert.Proof.Claims

open Cert.ReferenceIdeal.RefRun

/-- The word-level kernel program runs and leaves its arguments as launched. -/
theorem frame_k : Cert.frame_Kernel := fun m ρ _ => Cert.Kernel.Gen.frame m ρ

/-- The idealized kernel program runs and leaves its arguments as launched. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run (Cert.ReferenceIdeal.defs (F := Ideal)) _ _).mono (fun _ h c =>
    ⟨(h c Cert.ReferenceIdeal.main_arg0).trans (W_main_arg0 m c),
     (h c Cert.ReferenceIdeal.main_arg1).trans (W_main_arg1 m c),
     (h c Cert.ReferenceIdeal.main_arg2).trans (W_main_arg2 m c),
     (h c Cert.ReferenceIdeal.main_arg3).trans (W_main_arg3 m c),
     (h c Cert.ReferenceIdeal.main_arg4).trans (W_main_arg4 m c),
     (h c Cert.ReferenceIdeal.main_arg5).trans (W_main_arg5 m c),
     (h c Cert.ReferenceIdeal.main_arg6).trans (W_main_arg6 m c),
     (h c Cert.ReferenceIdeal.main_arg7).trans (W_main_arg7 m c),
     (h c Cert.ReferenceIdeal.main_arg8).trans (W_main_arg8 m c),
     (h c Cert.ReferenceIdeal.main_arg9).trans (W_main_arg9 m c),
     (h c Cert.ReferenceIdeal.main_arg10).trans (W_main_arg10 m c),
     (h c Cert.ReferenceIdeal.main_arg11).trans (W_main_arg11 m c),
     (h c Cert.ReferenceIdeal.main_arg12).trans (W_main_arg12 m c)⟩)
    (Cert.ReferenceIdeal.RefRun.run (F := Ideal) m ρ)

/-- The ideal pass rewrote nothing. -/
theorem preserves : Cert.preserves_Kernel_KernelIdeal := trivial

/-- From agreeing arguments the two programs read one graph and one set of arrays. -/
theorem graph_params_eq
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.RefValue.graph m' c = Cert.KernelIdeal.KValue.graph m ρ c
    ∧ Cert.ReferenceIdeal.RefValue.params m' c = Cert.KernelIdeal.KValue.params m ρ c := by
  obtain ⟨h0, h1, h2, h3, h4, h5, h6, h7, h8, h9, h10, h11, h12⟩ := hagree
  have e0 := (W_main_arg0 m' c).trans (h0.trans (Cert.KernelIdeal.KEq.X_main_arg0 m ρ c).symm)
  have e1 := (W_main_arg1 m' c).trans (h1.trans (Cert.KernelIdeal.KEq.X_main_arg1 m ρ c).symm)
  have e3 := (W_main_arg3 m' c).trans (h3.trans (Cert.KernelIdeal.KEq.X_main_arg3 m ρ c).symm)
  have e4 := (W_main_arg4 m' c).trans (h4.trans (Cert.KernelIdeal.KEq.X_main_arg4 m ρ c).symm)
  have e5 := (W_main_arg5 m' c).trans (h5.trans (Cert.KernelIdeal.KEq.X_main_arg5 m ρ c).symm)
  have e6 := (W_main_arg6 m' c).trans (h6.trans (Cert.KernelIdeal.KEq.X_main_arg6 m ρ c).symm)
  have e7 := (W_main_arg7 m' c).trans (h7.trans (Cert.KernelIdeal.KEq.X_main_arg7 m ρ c).symm)
  have e8 := (W_main_arg8 m' c).trans (h8.trans (Cert.KernelIdeal.KEq.X_main_arg8 m ρ c).symm)
  have e9 := (W_main_arg9 m' c).trans (h9.trans (Cert.KernelIdeal.KEq.X_main_arg9 m ρ c).symm)
  have e10 := (W_main_arg10 m' c).trans (h10.trans (Cert.KernelIdeal.KEq.X_main_arg10 m ρ c).symm)
  have e11 := (W_main_arg11 m' c).trans (h11.trans (Cert.KernelIdeal.KEq.X_main_arg11 m ρ c).symm)
  have e12 := (W_main_arg12 m' c).trans (h12.trans (Cert.KernelIdeal.KEq.X_main_arg12 m ρ c).symm)
  have es := Cert.Proof.PrefixEq.srcNcol_eq m ρ m' c h2
  have ed := Cert.Proof.PrefixEq.dstcol_eq m ρ m' c h2
  have ev := Cert.Proof.PrefixEq.dinv_eq m ρ m' c h2
  have emu := Cert.Proof.PrefixEq.mu_eq m ρ m' c h0
  have evar := Cert.Proof.PrefixEq.var_eq m ρ m' c h0
  constructor
  · unfold Cert.ReferenceIdeal.RefValue.graph Cert.KernelIdeal.KValue.graph
    rw [es, ed, ev]
  · unfold Cert.ReferenceIdeal.RefValue.params Cert.KernelIdeal.KValue.params
    rw [e0, e1, emu, evar, e3, e4, e5, e6, e7, e8, e9, e10, e11, e12]

/-- From agreeing arguments the two programs end with equal results, entry by entry. -/
theorem algebraic : Cert.algebraic_KernelIdeal_ReferenceIdeal := by
  intro m ρ m' ρ' _ hagree
  refine ⟨fun c => Cert.KernelIdeal.Gen.W10 m ρ c (Proc.devRef .tc Cert.KernelIdeal.main_v90),
    fun c => Cert.KernelIdeal.Gen.W10 m ρ c (Proc.devRef .tc Cert.KernelIdeal.main_v94), Cert.KernelIdeal.KRun.run (F := Ideal) m ρ, ?_⟩
  refine (θ_run (Cert.ReferenceIdeal.defs (F := Ideal)) _ _).mono (fun _ h c => ?_) (Cert.ReferenceIdeal.RefRun.run (F := Ideal) m' ρ')
  obtain ⟨hg, hp⟩ := graph_params_eq m ρ m' c (hagree c)
  refine ⟨(h c Cert.ReferenceIdeal.main_v105).trans ?_, (h c Cert.ReferenceIdeal.main_v122).trans ?_,
     (h c Cert.ReferenceIdeal.main_arg0).trans (W_main_arg0 m' c),
     (h c Cert.ReferenceIdeal.main_arg1).trans (W_main_arg1 m' c),
     (h c Cert.ReferenceIdeal.main_arg2).trans (W_main_arg2 m' c),
     (h c Cert.ReferenceIdeal.main_arg3).trans (W_main_arg3 m' c),
     (h c Cert.ReferenceIdeal.main_arg4).trans (W_main_arg4 m' c),
     (h c Cert.ReferenceIdeal.main_arg5).trans (W_main_arg5 m' c),
     (h c Cert.ReferenceIdeal.main_arg6).trans (W_main_arg6 m' c),
     (h c Cert.ReferenceIdeal.main_arg7).trans (W_main_arg7 m' c),
     (h c Cert.ReferenceIdeal.main_arg8).trans (W_main_arg8 m' c),
     (h c Cert.ReferenceIdeal.main_arg9).trans (W_main_arg9 m' c),
     (h c Cert.ReferenceIdeal.main_arg10).trans (W_main_arg10 m' c),
     (h c Cert.ReferenceIdeal.main_arg11).trans (W_main_arg11 m' c),
     (h c Cert.ReferenceIdeal.main_arg12).trans (W_main_arg12 m' c)⟩
  · funext i
    obtain ⟨n, j, rfl⟩ : ∃ (n : Fin 100000) (j : Fin 64), i = ix2 n j := ⟨i 0, i 1, eq_ix2 i⟩
    refine (Cert.ReferenceIdeal.RefValue.out0_apply m' c n j).trans ?_
    rw [hg, hp]
    exact (Cert.KernelIdeal.KValue.out0_apply m ρ c n j).symm
  · funext i
    obtain ⟨n, j, rfl⟩ : ∃ (n : Fin 100000) (j : Fin 64), i = ix2 n j := ⟨i 0, i 1, eq_ix2 i⟩
    refine (Cert.ReferenceIdeal.RefValue.out1_apply m' c n j).trans ?_
    rw [hg, hp]
    exact (Cert.KernelIdeal.KValue.out1_apply m ρ c n j).symm

end Cert.Proof.Claims

end
-- ==== Proof.lean ====
/-
  The certificate's claim: the three frames, the (empty) idealization ledger, and the equality of the two idealized programs'
  results, each proved in Proof/Claims.lean, behind the witnesses of the programs' stated side conditions.
-/
import proofs.«177732_j68255620268441_2_alg».proof.Defs
import proofs.«177732_j68255620268441_2_alg».proof.Proof.Gen.Kernel
import proofs.«177732_j68255620268441_2_alg».proof.Proof.Gen.KernelIdeal
import proofs.«177732_j68255620268441_2_alg».proof.Proof.Gen.ReferenceIdeal
import proofs.«177732_j68255620268441_2_alg».proof.Proof.Gen.Pre_finite_inputs
import proofs.«177732_j68255620268441_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
